-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x768 : Shape := ⟨2, ![16384, 768]⟩
abbrev S16384x128 : Shape := ⟨2, ![16384, 128]⟩
abbrev S256x512 : Shape := ⟨2, ![256, 512]⟩
abbrev S512 : Shape := ⟨1, ![512]⟩
abbrev S768x512 : Shape := ⟨2, ![768, 512]⟩
abbrev S128x512 : Shape := ⟨2, ![128, 512]⟩
abbrev S12x512x512 : Shape := ⟨3, ![12, 512, 512]⟩
abbrev S12x512 : Shape := ⟨2, ![12, 512]⟩
abbrev S2048x512 : Shape := ⟨2, ![2048, 512]⟩
abbrev S512x4 : Shape := ⟨2, ![512, 4]⟩
abbrev S4 : Shape := ⟨1, ![4]⟩
abbrev S512x512 : Shape := ⟨2, ![512, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x128 : S_.BroadcastsInDim S16384x128 (![] : Fin 0 → Fin S16384x128.rank)
  reducesTo_S16384x128_S_d0_1 : S16384x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S768x512 : S_.BroadcastsInDim S768x512 (![] : Fin 0 → Fin S768x512.rank)
  reducesTo_S768x512_S_d0_1 : S768x512.ReducesTo [0, 1] S_
  bcast_S_S128x512 : S_.BroadcastsInDim S128x512 (![] : Fin 0 → Fin S128x512.rank)
  reducesTo_S128x512_S_d0_1 : S128x512.ReducesTo [0, 1] S_
  bcast_S_S12x512x512 : S_.BroadcastsInDim S12x512x512 (![] : Fin 0 → Fin S12x512x512.rank)
  reducesTo_S12x512x512_S_d0_1_2 : S12x512x512.ReducesTo [0, 1, 2] S_
  bcast_S_S12x512 : S_.BroadcastsInDim S12x512 (![] : Fin 0 → Fin S12x512.rank)
  reducesTo_S12x512_S_d0_1 : S12x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512x4 : S_.BroadcastsInDim S512x4 (![] : Fin 0 → Fin S512x4.rank)
  reducesTo_S512x4_S_d0_1 : S512x4.ReducesTo [0, 1] S_
  bcast_S_S4 : S_.BroadcastsInDim S4 (![] : Fin 0 → Fin S4.rank)
  reducesTo_S4_S_d0 : S4.ReducesTo [0] S_
  bcast_S_S512x512 : S_.BroadcastsInDim S512x512 (![] : Fin 0 → Fin S512x512.rank)
  reducesTo_S512x512_S_d0_1 : S512x512.ReducesTo [0, 1] S_

variable [Facts]

def fn_part10 {F : FTy → Type} [FloatOps F] (main_arg35 : FVec F S512 .f32) (main_v168 : IVec S_ 1) (main_v169 : FVec F S512 .f32) (main_v170 : FVec F S512 .f32) : IVec S_ 1 :=
  let main_v171 : IVec S512 1 := cmpf .olt main_v169 main_v170
  let main_c_67 : IVec S_ 1 := constantI S_ 1 1#1
  let main_v172 : IVec S_ 1 := (fun x v => Host.reduce IntOp.andi x v reducesTo_S512_S_d0 h_S_) main_v171 main_c_67
  let main_v173 : IVec S_ 1 := andi main_v168 main_v172
  let main_v174 : FVec F S512 .f32 := Host.absf main_arg35
  let main_cst_68 : FVec F S_ .f32 := constant S_ .f32 0x7F800000#32
  let main_v175 : FVec F S512 .f32 := broadcastInDim S512 ![] bcast_S_S512 main_cst_68
  let main_v176 : IVec S512 1 := cmpf .olt main_v174 main_v175
  let main_c_69 : IVec S_ 1 := constantI S_ 1 1#1
  let main_v177 : IVec S_ 1 := (fun x v => Host.reduce IntOp.andi x v reducesTo_S512_S_d0 h_S_) main_v176 main_c_69
  let main_v178 : IVec S_ 1 := andi main_v173 main_v177
  main_v178

def fn_part9 {F : FTy → Type} [FloatOps F] (main_arg31 : FVec F S512 .f32) (main_arg32 : FVec F S512x512 .f32) (main_arg33 : FVec F S512 .f32) (main_arg34 : FVec F S512 .f32) (main_arg35 : FVec F S512 .f32) (main_v153 : IVec S_ 1) : IVec S_ 1 :=
  let main_v154 : FVec F S512 .f32 := Host.absf main_arg31
  let main_cst_60 : FVec F S_ .f32 := constant S_ .f32 0x7F800000#32
  let main_v155 : FVec F S512 .f32 := broadcastInDim S512 ![] bcast_S_S512 main_cst_60
  let main_v156 : IVec S512 1 := cmpf .olt main_v154 main_v155
  let main_c_61 : IVec S_ 1 := constantI S_ 1 1#1
  let main_v157 : IVec S_ 1 := (fun x v => Host.reduce IntOp.andi x v reducesTo_S512_S_d0 h_S_) main_v156 main_c_61
  let main_v158 : IVec S_ 1 := andi main_v153 main_v157
  let main_v159 : FVec F S512x512 .f32 := Host.absf main_arg32
  let main_cst_62 : FVec F S_ .f32 := constant S_ .f32 0x7F800000#32
  let main_v160 : FVec F S512x512 .f32 := broadcastInDim S512x512 ![] bcast_S_S512x512 main_cst_62
  let main_v161 : IVec S512x512 1 := cmpf .olt main_v159 main_v160
  let main_c_63 : IVec S_ 1 := constantI S_ 1 1#1
  let main_v162 : IVec S_ 1 := (fun x v => Host.reduce IntOp.andi x v reducesTo_S512x512_S_d0_1 h_S_) main_v161 main_c_63
  let main_v163 : IVec S_ 1 := andi main_v158 main_v162
  let main_v164 : FVec F S512 .f32 := Host.absf main_arg33
  let main_cst_64 : FVec F S_ .f32 := constant S_ .f32 0x7F800000#32
  let main_v165 : FVec F S512 .f32 := broadcastInDim S512 ![] bcast_S_S512 main_cst_64
  let main_v166 : IVec S512 1 := cmpf .olt main_v164 main_v165
  let main_c_65 : IVec S_ 1 := constantI S_ 1 1#1
  let main_v167 : IVec S_ 1 := (fun x v => Host.reduce IntOp.andi x v reducesTo_S512_S_d0 h_S_) main_v166 main_c_65
  let main_v168 : IVec S_ 1 := andi main_v163 main_v167
  let main_v169 : FVec F S512 .f32 := Host.absf main_arg34
  let main_cst_66 : FVec F S_ .f32 := constant S_ .f32 0x7F800000#32
  let main_v170 : FVec F S512 .f32 := broadcastInDim S512 ![] bcast_S_S512 main_cst_66
  fn_part10 (F := F) main_arg35 main_v168 main_v169 main_v170

def fn_part8 {F : FTy → Type} [FloatOps F] (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v133 : IVec S_ 1) (main_v136 : IVec S4 1) : IVec S_ 1 :=
  let main_c_53 : IVec S_ 1 := constantI S_ 1 1#1
  let main_v137 : IVec S_ 1 := (fun x v => Host.reduce IntOp.andi x v reducesTo_S4_S_d0 h_S_) main_v136 main_c_53
  let main_v138 : IVec S_ 1 := andi main_v133 main_v137
  let main_v139 : FVec F S2048x512 .f32 := Host.absf main_arg28
  let main_cst_54 : FVec F S_ .f32 := constant S_ .f32 0x7F800000#32
  let main_v140 : FVec F S2048x512 .f32 := broadcastInDim S2048x512 ![] bcast_S_S2048x512 main_cst_54
  let main_v141 : IVec S2048x512 1 := cmpf .olt main_v139 main_v140
  let main_c_55 : IVec S_ 1 := constantI S_ 1 1#1
  let main_v142 : IVec S_ 1 := (fun x v => Host.reduce IntOp.andi x v reducesTo_S2048x512_S_d0_1 h_S_) main_v141 main_c_55
  let main_v143 : IVec S_ 1 := andi main_v138 main_v142
  let main_v144 : FVec F S512 .f32 := Host.absf main_arg29
  let main_cst_56 : FVec F S_ .f32 := constant S_ .f32 0x7F800000#32
  let main_v145 : FVec F S512 .f32 := broadcastInDim S512 ![] bcast_S_S512 main_cst_56
  let main_v146 : IVec S512 1 := cmpf .olt main_v144 main_v145
  let main_c_57 : IVec S_ 1 := constantI S_ 1 1#1
  let main_v147 : IVec S_ 1 := (fun x v => Host.reduce IntOp.andi x v reducesTo_S512_S_d0 h_S_) main_v146 main_c_57
  let main_v148 : IVec S_ 1 := andi main_v143 main_v147
  let main_v149 : FVec F S2048x512 .f32 := Host.absf main_arg30
  let main_cst_58 : FVec F S_ .f32 := constant S_ .f32 0x7F800000#32
  let main_v150 : FVec F S2048x512 .f32 := broadcastInDim S2048x512 ![] bcast_S_S2048x512 main_cst_58
  let main_v151 : IVec S2048x512 1 := cmpf .olt main_v149 main_v150
  let main_c_59 : IVec S_ 1 := constantI S_ 1 1#1
  let main_v152 : IVec S_ 1 := (fun x v => Host.reduce IntOp.andi x v reducesTo_S2048x512_S_d0_1 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v118 : IVec S_ 1) (main_v119 : FVec F S2048x512 .f32) : IVec S_ 1 :=
  let main_cst_46 : FVec F S_ .f32 := constant S_ .f32 0x7F800000#32
  let main_v120 : FVec F S2048x512 .f32 := broadcastInDim S2048x512 ![] bcast_S_S2048x512 main_cst_46
  let main_v121 : IVec S2048x512 1 := cmpf .olt main_v119 main_v120
  let main_c_47 : IVec S_ 1 := constantI S_ 1 1#1
  let main_v122 : IVec S_ 1 := (fun x v => Host.reduce IntOp.andi x v reducesTo_S2048x512_S_d0_1 h_S_) main_v121 main_c_47
  let main_v123 : IVec S_ 1 := andi main_v118 main_v122
  let main_v124 : FVec F S512 .f32 := Host.absf main_arg25
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_v129 : FVec F S512x4 .f32 := Host.absf main_arg26
  let main_cst_50 : FVec F S_ .f32 := constant S_ .f32 0x7F800000#32
  let main_v130 : FVec F S512x4 .f32 := broadcastInDim S512x4 ![] bcast_S_S512x4 main_cst_50
  let main_v131 : IVec S512x4 1 := cmpf .olt main_v129 main_v130
  let main_c_51 : IVec S_ 1 := constantI S_ 1 1#1
  let main_v132 : IVec S_ 1 := (fun x v => Host.reduce IntOp.andi x v reducesTo_S512x4_S_d0_1 h_S_) main_v131 main_c_51
  let main_v133 : IVec S_ 1 := andi main_v128 main_v132
  let main_v134 : FVec F S4 .f32 := Host.absf main_arg27
  let main_cst_52 : FVec F S_ .f32 := constant S_ .f32 0x7F800000#32
  let main_v135 : FVec F S4 .f32 := broadcastInDim S4 ![] bcast_S_S4 main_cst_52
  let main_v136 : IVec S4 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v98 : IVec S_ 1) (main_v101 : IVec S12x512x512 1) (main_c_39 : IVec S_ 1) : IVec S_ 1 :=
  let main_v102 : IVec S_ 1 := (fun x v => Host.reduce IntOp.andi x v reducesTo_S12x512x512_S_d0_1_2 h_S_) main_v101 main_c_39
  let main_v103 : IVec S_ 1 := andi main_v98 main_v102
  let main_v104 : FVec F S12x512 .f32 := Host.absf main_arg21
  let main_cst_40 : FVec F S_ .f32 := constant S_ .f32 0x7F800000#32
  let main_v105 : FVec F S12x512 .f32 := broadcastInDim S12x512 ![] bcast_S_S12x512 main_cst_40
  let main_v106 : IVec S12x512 1 := cmpf .olt main_v104 main_v105
  let main_c_41 : IVec S_ 1 := constantI S_ 1 1#1
  let main_v107 : IVec S_ 1 := (fun x v => Host.reduce IntOp.andi x v reducesTo_S12x512_S_d0_1 h_S_) main_v106 main_c_41
  let main_v108 : IVec S_ 1 := andi main_v103 main_v107
  let main_v109 : FVec F S12x512x512 .f32 := Host.absf main_arg22
  let main_cst_42 : FVec F S_ .f32 := constant S_ .f32 0x7F800000#32
  let main_v110 : FVec F S12x512x512 .f32 := broadcastInDim S12x512x512 ![] bcast_S_S12x512x512 main_cst_42
  let main_v111 : IVec S12x512x512 1 := cmpf .olt main_v109 main_v110
  let main_c_43 : IVec S_ 1 := constantI S_ 1 1#1
  let main_v112 : IVec S_ 1 := (fun x v => Host.reduce IntOp.andi x v reducesTo_S12x512x512_S_d0_1_2 h_S_) main_v111 main_c_43
  let main_v113 : IVec S_ 1 := andi main_v108 main_v112
  let main_v114 : FVec F S12x512 .f32 := Host.absf main_arg23
  let main_cst_44 : FVec F S_ .f32 := constant S_ .f32 0x7F800000#32
  let main_v115 : FVec F S12x512 .f32 := broadcastInDim S12x512 ![] bcast_S_S12x512 main_cst_44
  let main_v116 : IVec S12x512 1 := cmpf .olt main_v114 main_v115
  let main_c_45 : IVec S_ 1 := constantI S_ 1 1#1
  let main_v117 : IVec S_ 1 := (fun x v => Host.reduce IntOp.andi x v reducesTo_S12x512_S_d0_1 h_S_) main_v116 main_c_45
  let main_v118 : IVec S_ 1 := andi main_v113 main_v117
  let main_v119 : FVec F S2048x512 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S512 .f32) (main_arg19 : FVec F S512 .f32) (main_arg20 : FVec F S12x512x512 .f32) (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S12x512x512 .f32 := Host.absf main_arg20
  let main_cst_38 : FVec F S_ .f32 := constant S_ .f32 0x7F800000#32
  let main_v100 : FVec F S12x512x512 .f32 := broadcastInDim S12x512x512 ![] bcast_S_S12x512x512 main_cst_38
  let main_v101 : IVec S12x512x512 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S512 .f32) (main_arg15 : FVec F S512 .f32) (main_arg16 : FVec F S256x512 .f32) (main_arg17 : FVec F S512 .f32) (main_arg18 : FVec F S512 .f32) (main_arg19 : FVec F S512 .f32) (main_arg20 : FVec F S12x512x512 .f32) (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S256x512 .f32 := Host.absf main_arg16
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S512 .f32) (main_arg12 : FVec F S128x512 .f32) (main_arg13 : FVec F S512 .f32) (main_arg14 : FVec F S512 .f32) (main_arg15 : FVec F S512 .f32) (main_arg16 : FVec F S256x512 .f32) (main_arg17 : FVec F S512 .f32) (main_arg18 : FVec F S512 .f32) (main_arg19 : FVec F S512 .f32) (main_arg20 : FVec F S12x512x512 .f32) (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S128x512 .f32 := Host.absf main_arg12
  let main_cst_22 : FVec F S_ .f32 := constant S_ .f32 0x7F800000#32
  let main_v60 : FVec F S128x512 .f32 := broadcastInDim S128x512 ![] bcast_S_S128x512 main_cst_22
  let main_v61 : IVec S128x512 1 := cmpf .olt main_v59 main_v60
  let main_c_23 : IVec S_ 1 := constantI S_ 1 1#1
  let main_v62 : IVec S_ 1 := (fun x v => Host.reduce IntOp.andi x v reducesTo_S128x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S512 .f32) (main_arg8 : FVec F S768x512 .f32) (main_arg9 : FVec F S512 .f32) (main_arg10 : FVec F S512 .f32) (main_arg11 : FVec F S512 .f32) (main_arg12 : FVec F S128x512 .f32) (main_arg13 : FVec F S512 .f32) (main_arg14 : FVec F S512 .f32) (main_arg15 : FVec F S512 .f32) (main_arg16 : FVec F S256x512 .f32) (main_arg17 : FVec F S512 .f32) (main_arg18 : FVec F S512 .f32) (main_arg19 : FVec F S512 .f32) (main_arg20 : FVec F S12x512x512 .f32) (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S768x512 .f32 := Host.absf main_arg8
  let main_cst_14 : FVec F S_ .f32 := constant S_ .f32 0x7F800000#32
  let main_v40 : FVec F S768x512 .f32 := broadcastInDim S768x512 ![] bcast_S_S768x512 main_cst_14
  let main_v41 : IVec S768x512 1 := cmpf .olt main_v39 main_v40
  let main_c_15 : IVec S_ 1 := constantI S_ 1 1#1
  let main_v42 : IVec S_ 1 := (fun x v => Host.reduce IntOp.andi x v reducesTo_S768x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S256x512 .f32) (main_arg5 : FVec F S512 .f32) (main_arg6 : FVec F S512 .f32) (main_arg7 : FVec F S512 .f32) (main_arg8 : FVec F S768x512 .f32) (main_arg9 : FVec F S512 .f32) (main_arg10 : FVec F S512 .f32) (main_arg11 : FVec F S512 .f32) (main_arg12 : FVec F S128x512 .f32) (main_arg13 : FVec F S512 .f32) (main_arg14 : FVec F S512 .f32) (main_arg15 : FVec F S512 .f32) (main_arg16 : FVec F S256x512 .f32) (main_arg17 : FVec F S512 .f32) (main_arg18 : FVec F S512 .f32) (main_arg19 : FVec F S512 .f32) (main_arg20 : FVec F S12x512x512 .f32) (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S16384x256 .f32) (main_arg1 : FVec F S16384x768 .f32) (main_arg2 : FVec F S16384x128 .f32) (main_arg3 : FVec F S16384x256 .f32) (main_arg4 : FVec F S256x512 .f32) (main_arg5 : FVec F S512 .f32) (main_arg6 : FVec F S512 .f32) (main_arg7 : FVec F S512 .f32) (main_arg8 : FVec F S768x512 .f32) (main_arg9 : FVec F S512 .f32) (main_arg10 : FVec F S512 .f32) (main_arg11 : FVec F S512 .f32) (main_arg12 : FVec F S128x512 .f32) (main_arg13 : FVec F S512 .f32) (main_arg14 : FVec F S512 .f32) (main_arg15 : FVec F S512 .f32) (main_arg16 : FVec F S256x512 .f32) (main_arg17 : FVec F S512 .f32) (main_arg18 : FVec F S512 .f32) (main_arg19 : FVec F S512 .f32) (main_arg20 : FVec F S12x512x512 .f32) (main_arg21 : FVec F S12x512 .f32) (main_arg22 : FVec F S12x512x512 .f32) (main_arg23 : FVec F S12x512 .f32) (main_arg24 : FVec F S2048x512 .f32) (main_arg25 : FVec F S512 .f32) (main_arg26 : FVec F S512x4 .f32) (main_arg27 : FVec F S4 .f32) (main_arg28 : FVec F S2048x512 .f32) (main_arg29 : FVec F S512 .f32) (main_arg30 : FVec F S2048x512 .f32) (main_arg31 : FVec F S512 .f32) (main_arg32 : FVec F S512x512 .f32) (main_arg33 : FVec F S512 .f32) (main_arg34 : FVec F S512 .f32) (main_arg35 : FVec F S512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S16384x256 : Shape := ⟨2, ![16384, 256]⟩
abbrev S16384x768 : Shape := ⟨2, ![16384, 768]⟩
abbrev S16384x128 : Shape := ⟨2, ![16384, 128]⟩
abbrev S256x512 : Shape := ⟨2, ![256, 512]⟩
abbrev S512 : Shape := ⟨1, ![512]⟩
abbrev S768x512 : Shape := ⟨2, ![768, 512]⟩
abbrev S128x512 : Shape := ⟨2, ![128, 512]⟩
abbrev S12x512x512 : Shape := ⟨3, ![12, 512, 512]⟩
abbrev S12x512 : Shape := ⟨2, ![12, 512]⟩
abbrev S2048x512 : Shape := ⟨2, ![2048, 512]⟩
abbrev S512x4 : Shape := ⟨2, ![512, 4]⟩
abbrev S4 : Shape := ⟨1, ![4]⟩
abbrev S512x512 : Shape := ⟨2, ![512, 512]⟩
abbrev S16384x512 : Shape := ⟨2, ![16384, 512]⟩
abbrev S4x16384x512 : Shape := ⟨3, ![4, 16384, 512]⟩
abbrev S16384x4 : Shape := ⟨2, ![16384, 4]⟩
abbrev S256x256 : Shape := ⟨2, ![256, 256]⟩
abbrev S256x768 : Shape := ⟨2, ![256, 768]⟩
abbrev S256x128 : Shape := ⟨2, ![256, 128]⟩
abbrev S4x256x512 : Shape := ⟨3, ![4, 256, 512]⟩
abbrev S256x4 : Shape := ⟨2, ![256, 4]⟩
abbrev S1x512 : Shape := ⟨2, ![1, 512]⟩
abbrev S256 : Shape := ⟨1, ![256]⟩
abbrev S256x1 : Shape := ⟨2, ![256, 1]⟩
abbrev S1x512x512 : Shape := ⟨3, ![1, 512, 512]⟩
abbrev S1x256x512 : Shape := ⟨3, ![1, 256, 512]⟩
abbrev S1x4 : Shape := ⟨2, ![1, 4]⟩

abbrev nBuf : Space → Nat
  | .hbm => 50
  | .vmem => 46
  | .smem => 0
  | _ => 0

abbrev bufTy : (tb : Table) → Fin (tcTables nBuf tb) → BufTy
  | .hbm, ⟨0, _⟩ => ⟨S16384x256, .f32⟩
  | .hbm, ⟨1, _⟩ => ⟨S16384x768, .f32⟩
  | .hbm, ⟨2, _⟩ => ⟨S16384x128, .f32⟩
  | .hbm, ⟨3, _⟩ => ⟨S16384x256, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S768x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S128x512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S256x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S12x512x512, .f32⟩
  | .hbm, ⟨21, _⟩ => ⟨S12x512, .f32⟩
  | .hbm, ⟨22, _⟩ => ⟨S12x512x512, .f32⟩
  | .hbm, ⟨23, _⟩ => ⟨S12x512, .f32⟩
  | .hbm, ⟨24, _⟩ => ⟨S2048x512, .f32⟩
  | .hbm, ⟨25, _⟩ => ⟨S512, .f32⟩
  | .hbm, ⟨26, _⟩ => ⟨S512x4, .f32⟩
  | .hbm, ⟨27, _⟩ => ⟨S4, .f32⟩
  | .hbm, ⟨28, _⟩ => ⟨S2048x512, .f32⟩
  | .hbm, ⟨29, _⟩ => ⟨S512, .f32⟩
  | .hbm, ⟨30, _⟩ => ⟨S2048x512, .f32⟩
  | .hbm, ⟨31, _⟩ => ⟨S512, .f32⟩
  | .hbm, ⟨32, _⟩ => ⟨S512x512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S256x512, .bf16⟩
  | .hbm, ⟨37, _⟩ => ⟨S768x512, .bf16⟩
  | .hbm, ⟨38, _⟩ => ⟨S128x512, .bf16⟩
  | .hbm, ⟨39, _⟩ => ⟨S256x512, .bf16⟩
  | .hbm, ⟨40, _⟩ => ⟨S12x512x512, .bf16⟩
  | .hbm, ⟨41, _⟩ => ⟨S12x512x512, .bf16⟩
  | .hbm, ⟨42, _⟩ => ⟨S2048x512, .bf16⟩
  | .hbm, ⟨43, _⟩ => ⟨S512x4, .bf16⟩
  | .hbm, ⟨44, _⟩ => ⟨S2048x512, .bf16⟩
  | .hbm, ⟨45, _⟩ => ⟨S2048x512, .bf16⟩
  | .hbm, ⟨46, _⟩ => ⟨S512x512, .bf16⟩
  | .hbm, ⟨47, _⟩ => ⟨S16384x512, .f32⟩
  | .hbm, ⟨48, _⟩ => ⟨S4x16384x512, .f32⟩
  | .hbm, ⟨49, _⟩ => ⟨S16384x4, .f32⟩
  | .local _ .vmem, ⟨0, _⟩ => ⟨S256x256, .f32⟩
  | .local _ .vmem, ⟨1, _⟩ => ⟨S256x256, .f32⟩
  | .local _ .vmem, ⟨2, _⟩ => ⟨S256x768, .f32⟩
  | .local _ .vmem, ⟨3, _⟩ => ⟨S256x768, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S256x512, .bf16⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S768x512, .bf16⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S128x512, .bf16⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S256x512, .bf16⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S12x512x512, .bf16⟩
  | .local _ .vmem, ⟨25, _⟩ => ⟨S12x512, .f32⟩
  | .local _ .vmem, ⟨26, _⟩ => ⟨S12x512x512, .bf16⟩
  | .local _ .vmem, ⟨27, _⟩ => ⟨S12x512, .f32⟩
  | .local _ .vmem, ⟨28, _⟩ => ⟨S2048x512, .bf16⟩
  | .local _ .vmem, ⟨29, _⟩ => ⟨S512, .f32⟩
  | .local _ .vmem, ⟨30, _⟩ => ⟨S512x4, .bf16⟩
  | .local _ .vmem, ⟨31, _⟩ => ⟨S4, .f32⟩
  | .local _ .vmem, ⟨32, _⟩ => ⟨S2048x512, .bf16⟩
  | .local _ .vmem, ⟨33, _⟩ => ⟨S512, .f32⟩
  | .local _ .vmem, ⟨34, _⟩ => ⟨S2048x512, .bf16⟩
  | .local _ .vmem, ⟨35, _⟩ => ⟨S512, .f32⟩
  | .local _ .vmem, ⟨36, _⟩ => ⟨S512x512, .bf16⟩
  | .local _ .vmem, ⟨37, _⟩ => ⟨S512, .f32⟩
  | .local _ .vmem, ⟨38, _⟩ => ⟨S512, .f32⟩
  | .local _ .vmem, ⟨39, _⟩ => ⟨S512, .f32⟩
  | .local _ .vmem, ⟨40, _⟩ => ⟨S256x512, .f32⟩
  | .local _ .vmem, ⟨41, _⟩ => ⟨S256x512, .f32⟩
  | .local _ .vmem, ⟨42, _⟩ => ⟨S4x256x512, .f32⟩
  | .local _ .vmem, ⟨43, _⟩ => ⟨S4x256x512, .f32⟩
  | .local _ .vmem, ⟨44, _⟩ => ⟨S256x4, .f32⟩
  | .local _ .vmem, ⟨45, _⟩ => ⟨S256x4, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11_0 : Ref sig .tc := ⟨.hbm, 47, rfl⟩
abbrev main_v11_1 : Ref sig .tc := ⟨.hbm, 48, rfl⟩
abbrev main_v11_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg31_0 : Ref sig .tc := ⟨.vmem, 35, rfl⟩
abbrev cc0_stg32_0 : Ref sig .tc := ⟨.vmem, 36, rfl⟩
abbrev cc0_stg33_0 : Ref sig .tc := ⟨.vmem, 37, rfl⟩
abbrev cc0_stg34_0 : Ref sig .tc := ⟨.vmem, 38, rfl⟩
abbrev cc0_stg35_0 : Ref sig .tc := ⟨.vmem, 39, rfl⟩
abbrev cc0_stg36_0 : Ref sig .tc := ⟨.vmem, 40, rfl⟩
abbrev cc0_stg36_1 : Ref sig .tc := ⟨.vmem, 41, rfl⟩
abbrev cc0_stg37_0 : Ref sig .tc := ⟨.vmem, 42, rfl⟩
abbrev cc0_stg37_1 : Ref sig .tc := ⟨.vmem, 43, rfl⟩
abbrev cc0_stg38_0 : Ref sig .tc := ⟨.vmem, 44, rfl⟩
abbrev cc0_stg38_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem31_0 : DmaSem sig := 35
abbrev cc0_sem32_0 : DmaSem sig := 36
abbrev cc0_sem33_0 : DmaSem sig := 37
abbrev cc0_sem34_0 : DmaSem sig := 38
abbrev cc0_sem35_0 : DmaSem sig := 39
abbrev cc0_sem36_0 : DmaSem sig := 40
abbrev cc0_sem36_1 : DmaSem sig := 41
abbrev cc0_sem37_0 : DmaSem sig := 42
abbrev cc0_sem37_1 : DmaSem sig := 43
abbrev cc0_sem38_0 : DmaSem sig := 44
abbrev cc0_sem38_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_34 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_35 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S12x512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S12x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S12x512x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S12x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2048x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x4 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S4 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S2048x512 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S2048x512 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S512x512 .bf16 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 2 → Memref sig .tc .vmem S256x512 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S4x256x512 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S256x4 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

class Facts₀ : Prop where
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  inb_S256x768_S256x768_0_0 : ∀ a, (![0, 0] : Fin 2 → Nat) a + S256x768.size a ≤ S256x768.size a
  h_S256x768 : 0 < S256x768.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S256x128_S256x128_0_0 : ∀ a, (![0, 0] : Fin 2 → Nat) a + S256x128.size a ≤ S256x128.size a
  h_S256x128 : 0 < S256x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S12x512x512_S1x512x512_0_0_0 : ∀ a, (![0, 0, 0] : Fin 3 → Nat) a + S1x512x512.size a ≤ S12x512x512.size a
  h_S1x512x512 : 0 < S1x512x512.numel
  shapeCasts_S1x512x512_S512x512 : S1x512x512.ShapeCasts S512x512
  inb_S12x512_S1x512_0_0 : ∀ a, (![0, 0] : Fin 2 → Nat) a + S1x512.size a ≤ S12x512.size a
  h_S1x512 : 0 < S1x512.numel
  shapeCasts_S1x512_S512 : S1x512.ShapeCasts S512
  inb_S12x512x512_S1x512x512_1_0_0 : ∀ a, (![1, 0, 0] : Fin 3 → Nat) a + S1x512x512.size a ≤ S12x512x512.size a
  inb_S12x512_S1x512_1_0 : ∀ a, (![1, 0] : Fin 2 → Nat) a + S1x512.size a ≤ S12x512.size a
  inb_S12x512x512_S1x512x512_2_0_0 : ∀ a, (![2, 0, 0] : Fin 3 → Nat) a + S1x512x512.size a ≤ S12x512x512.size a
  inb_S12x512_S1x512_2_0 : ∀ a, (![2, 0] : Fin 2 → Nat) a + S1x512.size a ≤ S12x512.size a
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  shapeCasts_S256x512_S1x256x512 : S256x512.ShapeCasts S1x256x512
  inb_S12x512x512_S1x512x512_3_0_0 : ∀ a, (![3, 0, 0] : Fin 3 → Nat) a + S1x512x512.size a ≤ S12x512x512.size a
  inb_S12x512_S1x512_3_0 : ∀ a, (![3, 0] : Fin 2 → Nat) a + S1x512.size a ≤ S12x512.size a
  inb_S12x512x512_S1x512x512_4_0_0 : ∀ a, (![4, 0, 0] : Fin 3 → Nat) a + S1x512x512.size a ≤ S12x512x512.size a
  inb_S12x512_S1x512_4_0 : ∀ a, (![4, 0] : Fin 2 → Nat) a + S1x512.size a ≤ S12x512.size a
  inb_S12x512x512_S1x512x512_5_0_0 : ∀ a, (![5, 0, 0] : Fin 3 → Nat) a + S1x512x512.size a ≤ S12x512x512.size a
  inb_S12x512_S1x512_5_0 : ∀ a, (![5, 0] : Fin 2 → Nat) a + S1x512.size a ≤ S12x512.size a
  inb_S4x256x512_S1x256x512_1_0_0 : ∀ a, (![1, 0, 0] : Fin 3 → Nat) a + S1x256x512.size a ≤ S4x256x512.size a
  inb_S12x512x512_S1x512x512_6_0_0 : ∀ a, (![6, 0, 0] : Fin 3 → Nat) a + S1x512x512.size a ≤ S12x512x512.size a
  inb_S12x512_S1x512_6_0 : ∀ a, (![6, 0] : Fin 2 → Nat) a + S1x512.size a ≤ S12x512.size a
  inb_S12x512x512_S1x512x512_7_0_0 : ∀ a, (![7, 0, 0] : Fin 3 → Nat) a + S1x512x512.size a ≤ S12x512x512.size a
  inb_S12x512_S1x512_7_0 : ∀ a, (![7, 0] : Fin 2 → Nat) a + S1x512.size a ≤ S12x512.size a
  inb_S12x512x512_S1x512x512_8_0_0 : ∀ a, (![8, 0, 0] : Fin 3 → Nat) a + S1x512x512.size a ≤ S12x512x512.size a
  inb_S12x512_S1x512_8_0 : ∀ a, (![8, 0] : Fin 2 → Nat) a + S1x512.size a ≤ S12x512.size a
  inb_S4x256x512_S1x256x512_2_0_0 : ∀ a, (![2, 0, 0] : Fin 3 → Nat) a + S1x256x512.size a ≤ S4x256x512.size a
  inb_S12x512x512_S1x512x512_9_0_0 : ∀ a, (![9, 0, 0] : Fin 3 → Nat) a + S1x512x512.size a ≤ S12x512x512.size a
  inb_S12x512_S1x512_9_0 : ∀ a, (![9, 0] : Fin 2 → Nat) a + S1x512.size a ≤ S12x512.size a
  inb_S12x512x512_S1x512x512_10_0_0 : ∀ a, (![10, 0, 0] : Fin 3 → Nat) a + S1x512x512.size a ≤ S12x512x512.size a
  inb_S12x512_S1x512_10_0 : ∀ a, (![10, 0] : Fin 2 → Nat) a + S1x512.size a ≤ S12x512.size a
  inb_S12x512x512_S1x512x512_11_0_0 : ∀ a, (![11, 0, 0] : Fin 3 → Nat) a + S1x512x512.size a ≤ S12x512x512.size a
  inb_S12x512_S1x512_11_0 : ∀ a, (![11, 0] : Fin 2 → Nat) a + S1x512.size a ≤ S12x512.size a
  inb_S4x256x512_S1x256x512_3_0_0 : ∀ a, (![3, 0, 0] : Fin 3 → Nat) a + S1x256x512.size a ≤ S4x256x512.size a
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  inb_S2048x512_S512x512_512_0 : ∀ a, (![512, 0] : Fin 2 → Nat) a + S512x512.size a ≤ S2048x512.size a
  inb_S2048x512_S512x512_1024_0 : ∀ a, (![1024, 0] : Fin 2 → Nat) a + S512x512.size a ≤ S2048x512.size a
  inb_S2048x512_S512x512_1536_0 : ∀ a, (![1536, 0] : Fin 2 → Nat) a + S512x512.size a ≤ S2048x512.size a
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  reduces_S256x4_S256 : S256x4.Reduces [1] S256
  broadcasts_S256x1_S256x4 : S256x1.Broadcasts S256x4
  inb_S512x512_S512x512_0_0 : ∀ a, (![0, 0] : Fin 2 → Nat) a + S512x512.size a ≤ S512x512.size a
  inb_S256x4_S256x4_0_0 : ∀ a, (![0, 0] : Fin 2 → Nat) a + S256x4.size a ≤ S256x4.size a
  h_S256x4 : 0 < S256x4.numel
  dot_S256x256_S256x512_S256x512_1_0_0_1_n_n_wf : DotDims.WF S256x256 S256x512 S256x512 [1] [0] [0] [1] [] []
  dot_S256x768_S768x512_S256x512_1_0_0_1_n_n_wf : DotDims.WF S256x768 S768x512 S256x512 [1] [0] [0] [1] [] []
  dot_S256x128_S128x512_S256x512_1_0_0_1_n_n_wf : DotDims.WF S256x128 S128x512 S256x512 [1] [0] [0] [1] [] []
  dot_S256x512_S512x512_S256x512_1_0_0_1_n_n_wf : DotDims.WF S256x512 S512x512 S256x512 [1] [0] [0] [1] [] []
  dot_S256x512_S512x4_S256x4_1_0_0_1_n_n_wf : DotDims.WF S256x512 S512x4 S256x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S16384x768.size a
  hwx0_1 : ∀ i : grid0.Coords, EltTy.bits .f32 = 32 ∨ (Rect.block (s := S16384x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S16384x256.size a
  hwx0_3 : ∀ i : grid0.Coords, EltTy.bits .f32 = 32 ∨ (Rect.block (s := S16384x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x512.size a ≤ S768x512.size a
  hwx0_8 : ∀ i : grid0.Coords, EltTy.bits .bf16 = 32 ∨ (Rect.block (s := S768x512) S768x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S128x512.size a
  hwx0_12 : ∀ i : grid0.Coords, EltTy.bits .bf16 = 32 ∨ (Rect.block (s := S128x512) S128x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S256x512.size a
  hwx0_16 : ∀ i : grid0.Coords, EltTy.bits .bf16 = 32 ∨ (Rect.block (s := S256x512) S256x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S12x512x512.size a ≤ S12x512x512.size a
  hwx0_20 : ∀ i : grid0.Coords, EltTy.bits .bf16 = 32 ∨ (Rect.block (s := S12x512x512) S12x512x512.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S12x512.size a ≤ S12x512.size a
  hwx0_21 : ∀ i : grid0.Coords, EltTy.bits .f32 = 32 ∨ (Rect.block (s := S12x512) S12x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S12x512x512.size a ≤ S12x512x512.size a
  hwx0_22 : ∀ i : grid0.Coords, EltTy.bits .bf16 = 32 ∨ (Rect.block (s := S12x512x512) S12x512x512.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S12x512.size a ≤ S12x512.size a
  hwx0_23 : ∀ i : grid0.Coords, EltTy.bits .f32 = 32 ∨ (Rect.block (s := S12x512) S12x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S2048x512.size a ≤ S2048x512.size a
  hwx0_24 : ∀ i : grid0.Coords, EltTy.bits .bf16 = 32 ∨ (Rect.block (s := S2048x512) S2048x512.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S512.size a ≤ S512.size a
  hwx0_25 : ∀ i : grid0.Coords, EltTy.bits .f32 = 32 ∨ (Rect.block (s := S512) S512.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S512x4.size a ≤ S512x4.size a
  hwx0_26 : ∀ i : grid0.Coords, EltTy.bits .bf16 = 32 ∨ (Rect.block (s := S512x4) S512x4.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S4.size a ≤ S4.size a
  hwx0_27 : ∀ i : grid0.Coords, EltTy.bits .f32 = 32 ∨ (Rect.block (s := S4) S4.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S2048x512.size a ≤ S2048x512.size a
  hwx0_28 : ∀ i : grid0.Coords, EltTy.bits .bf16 = 32 ∨ (Rect.block (s := S2048x512) S2048x512.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S512.size a ≤ S512.size a
  hwx0_29 : ∀ i : grid0.Coords, EltTy.bits .f32 = 32 ∨ (Rect.block (s := S512) S512.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S2048x512.size a ≤ S2048x512.size a
  hwx0_30 : ∀ i : grid0.Coords, EltTy.bits .bf16 = 32 ∨ (Rect.block (s := S2048x512) S2048x512.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S512.size a ≤ S512.size a
  hwx0_31 : ∀ i : grid0.Coords, EltTy.bits .f32 = 32 ∨ (Rect.block (s := S512) S512.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S512x512.size a ≤ S512x512.size a
  hwx0_32 : ∀ i : grid0.Coords, EltTy.bits .bf16 = 32 ∨ (Rect.block (s := S512x512) S512x512.size (cc0_transform_32 i) (hinb0_32 i)).WholeWords (EltTy.packing .bf16)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S512.size a ≤ S512.size a
  hwx0_33 : ∀ i : grid0.Coords, EltTy.bits .f32 = 32 ∨ (Rect.block (s := S512) S512.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S512.size a ≤ S512.size a
  hwx0_34 : ∀ i : grid0.Coords, EltTy.bits .f32 = 32 ∨ (Rect.block (s := S512) S512.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S512.size a ≤ S512.size a
  hwx0_35 : ∀ i : grid0.Coords, EltTy.bits .f32 = 32 ∨ (Rect.block (s := S512) S512.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S256x512.size a ≤ S16384x512.size a
  hwx0_36 : ∀ i : grid0.Coords, EltTy.bits .f32 = 32 ∨ (Rect.block (s := S16384x512) S256x512.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S4x256x512.size a ≤ S4x16384x512.size a
  hwx0_37 : ∀ i : grid0.Coords, EltTy.bits .f32 = 32 ∨ (Rect.block (s := S4x16384x512) S4x256x512.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S256x4.size a ≤ S16384x4.size a
  hwx0_38 : ∀ i : grid0.Coords, EltTy.bits .f32 = 32 ∨ (Rect.block (s := S16384x4) S256x4.size (cc0_transform_38 i) (hinb0_38 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x4_S256x4_1_0_0_1_n_n : DotDims S256x512 S512x4 S256x4 where
  lhsContracting := [1]
  rhsContracting := [0]
  lhsNonContracting := [0]
  rhsNonContracting := [1]
  lhsBatch := []
  rhsBatch := []
  wf := dot_S256x512_S512x4_S256x4_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S768x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S128x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v3) S256x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v4) S12x512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S12x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v5) S12x512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S12x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v6) S2048x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v7) S512x4.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S4.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v8) S2048x512.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg29) S512.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v9) S2048x512.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg31) S512.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v10) S512x512.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg33) S512.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_arg34) S512.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg35) S512.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_v11_0) S256x512.size cc0_transform_36 reads0_36 true false 2 stage0_36 sem0_36
    hrank0 hreads0_36 hinb0_36 nbuf0_36 (Memref.isWhole_whole _) hwx0_36 hstage0_36

abbrev win0_37 : Pipeline.Window sig grid0 :=
  Pipeline.Window.ofSpec (Memref.whole main_v11_1) S4x256x512.size cc0_transform_37 reads0_37 true false 2 stage0_37 sem0_37
    hrank0 hreads0_37 hinb0_37 nbuf0_37 (Memref.isWhole_whole _) hwx0_37 hstage0_37

abbrev win0_38 : Pipeline.Window sig grid0 :=
  Pipeline.Window.ofSpec (Memref.whole main_v11_2) S256x4.size cc0_transform_38 reads0_38 true false 2 stage0_38 sem0_38
    hrank0 hreads0_38 hinb0_38 nbuf0_38 (Memref.isWhole_whole _) hwx0_38 hstage0_38

abbrev win0 : Fin 39 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | ⟨_ + 39, h⟩ => absurd h (Nat.not_lt.2 (Nat.le_add_left _ _))
abbrev spec0 : Fin 39 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x768 : Shape := ⟨2, ![16384, 768]⟩
abbrev S16384x128 : Shape := ⟨2, ![16384, 128]⟩
abbrev S256x512 : Shape := ⟨2, ![256, 512]⟩
abbrev S512 : Shape := ⟨1, ![512]⟩
abbrev S768x512 : Shape := ⟨2, ![768, 512]⟩
abbrev S128x512 : Shape := ⟨2, ![128, 512]⟩
abbrev S12x512x512 : Shape := ⟨3, ![12, 512, 512]⟩
abbrev S12x512 : Shape := ⟨2, ![12, 512]⟩
abbrev S2048x512 : Shape := ⟨2, ![2048, 512]⟩
abbrev S512x4 : Shape := ⟨2, ![512, 4]⟩
abbrev S4 : Shape := ⟨1, ![4]⟩
abbrev S512x512 : Shape := ⟨2, ![512, 512]⟩
abbrev S12 : Shape := ⟨1, ![12]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x16384x512 : Shape := ⟨3, ![1, 16384, 512]⟩
abbrev S4x16384x512 : Shape := ⟨3, ![4, 16384, 512]⟩
abbrev S12x1 : Shape := ⟨2, ![12, 1]⟩
abbrev S12x16384x512 : Shape := ⟨3, ![12, 16384, 512]⟩
abbrev S12x1x512 : Shape := ⟨3, ![12, 1, 512]⟩
abbrev S4x3x16384x512 : Shape := ⟨4, ![4, 3, 16384, 512]⟩
abbrev S16384x2048 : Shape := ⟨2, ![16384, 2048]⟩
abbrev S16384x4 : Shape := ⟨2, ![16384, 4]⟩
abbrev S1x4 : Shape := ⟨2, ![1, 4]⟩

abbrev nBuf : Space → Nat
  | .hbm => 290
  | .vmem => 0
  | .smem => 0
  | _ => 0

abbrev hbmTy0_0 (i : Nat) : BufTy := match i % 128 with
  | 0 => ⟨S16384x256, .f32⟩
  | 1 => ⟨S16384x768, .f32⟩
  | 2 => ⟨S16384x128, .f32⟩
  | 3 => ⟨S16384x256, .f32⟩
  | 4 => ⟨S256x512, .f32⟩
  | 5 => ⟨S512, .f32⟩
  | 6 => ⟨S512, .f32⟩
  | 7 => ⟨S512, .f32⟩
  | 8 => ⟨S768x512, .f32⟩
  | 9 => ⟨S512, .f32⟩
  | 10 => ⟨S512, .f32⟩
  | 11 => ⟨S512, .f32⟩
  | 12 => ⟨S128x512, .f32⟩
  | 13 => ⟨S512, .f32⟩
  | 14 => ⟨S512, .f32⟩
  | 15 => ⟨S512, .f32⟩
  | 16 => ⟨S256x512, .f32⟩
  | 17 => ⟨S512, .f32⟩
  | 18 => ⟨S512, .f32⟩
  | 19 => ⟨S512, .f32⟩
  | 20 => ⟨S12x512x512, .f32⟩
  | 21 => ⟨S12x512, .f32⟩
  | 22 => ⟨S12x512x512, .f32⟩
  | 23 => ⟨S12x512, .f32⟩
  | 24 => ⟨S2048x512, .f32⟩
  | 25 => ⟨S512, .f32⟩
  | 26 => ⟨S512x4, .f32⟩
  | 27 => ⟨S4, .f32⟩
  | 28 => ⟨S2048x512, .f32⟩
  | 29 => ⟨S512, .f32⟩
  | 30 => ⟨S2048x512, .f32⟩
  | 31 => ⟨S512, .f32⟩
  | 32 => ⟨S512x512, .f32⟩
  | 33 => ⟨S512, .f32⟩
  | 34 => ⟨S512, .f32⟩
  | 35 => ⟨S512, .f32⟩
  | 36 => ⟨S12, .i32⟩
  | 37 => ⟨S12, .i1⟩
  | 38 => ⟨S16384x512, .f32⟩
  | 39 => ⟨S1x512, .f32⟩
  | 40 => ⟨S16384x512, .f32⟩
  | 41 => ⟨S16384x512, .f32⟩
  | 42 => ⟨S_, .f32⟩
  | 43 => ⟨S16384, .f32⟩
  | 44 => ⟨S16384x1, .f32⟩
  | 45 => ⟨S_, .f32⟩
  | 46 => ⟨S16384x1, .f32⟩
  | 47 => ⟨S16384x1, .f32⟩
  | 48 => ⟨S16384x512, .f32⟩
  | 49 => ⟨S16384x512, .f32⟩
  | 50 => ⟨S16384x512, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x512, .f32⟩
  | 58 => ⟨S16384x512, .f32⟩
  | 59 => ⟨S_, .f32⟩
  | 60 => ⟨S16384x1, .f32⟩
  | 61 => ⟨S16384x1, .f32⟩
  | 62 => ⟨S16384x1, .f32⟩
  | 63 => ⟨S16384x512, .f32⟩
  | 64 => ⟨S16384x512, .f32⟩
  | 65 => ⟨S1x512, .f32⟩
  | 66 => ⟨S16384x512, .f32⟩
  | 67 => ⟨S16384x512, .f32⟩
  | 68 => ⟨S1x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S16384x512, .f32⟩
  | 75 => ⟨S1x512, .f32⟩
  | 76 => ⟨S16384x512, .f32⟩
  | 77 => ⟨S16384x512, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S16384x512, .f32⟩
  | 85 => ⟨S16384x512, .f32⟩
  | 86 => ⟨S16384x512, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S16384x512, .f32⟩
  | 94 => ⟨S16384x512, .f32⟩
  | 95 => ⟨S_, .f32⟩
  | 96 => ⟨S16384x1, .f32⟩
  | 97 => ⟨S16384x1, .f32⟩
  | 98 => ⟨S16384x1, .f32⟩
  | 99 => ⟨S16384x512, .f32⟩
  | 100 => ⟨S16384x512, .f32⟩
  | 101 => ⟨S1x512, .f32⟩
  | 102 => ⟨S16384x512, .f32⟩
  | 103 => ⟨S16384x512, .f32⟩
  | 104 => ⟨S1x512, .f32⟩
  | 105 => ⟨S16384x512, .f32⟩
  | 106 => ⟨S16384x512, .f32⟩
  | 107 => ⟨S_, .f32⟩
  | 108 => ⟨S16384x512, .f32⟩
  | 109 => ⟨S16384x512, .f32⟩
  | 110 => ⟨S16384x512, .f32⟩
  | 111 => ⟨S1x512, .f32⟩
  | 112 => ⟨S16384x512, .f32⟩
  | 113 => ⟨S16384x512, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S16384x512, .f32⟩
  | 121 => ⟨S16384x512, .f32⟩
  | 122 => ⟨S16384x512, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S16384x256, .f32⟩

abbrev hbmTy0_1 (i : Nat) : BufTy := match i % 128 with
  | 0 => ⟨S16384x1, .f32⟩
  | 1 => ⟨S16384x512, .f32⟩
  | 2 => ⟨S16384x512, .f32⟩
  | 3 => ⟨S_, .f32⟩
  | 4 => ⟨S16384x1, .f32⟩
  | 5 => ⟨S16384x1, .f32⟩
  | 6 => ⟨S16384x1, .f32⟩
  | 7 => ⟨S16384x512, .f32⟩
  | 8 => ⟨S16384x512, .f32⟩
  | 9 => ⟨S1x512, .f32⟩
  | 10 => ⟨S16384x512, .f32⟩
  | 11 => ⟨S16384x512, .f32⟩
  | 12 => ⟨S1x512, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S16384x512, .f32⟩
  | 19 => ⟨S1x512, .f32⟩
  | 20 => ⟨S16384x512, .f32⟩
  | 21 => ⟨S16384x512, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x512, .f32⟩
  | 29 => ⟨S16384x512, .f32⟩
  | 30 => ⟨S16384x512, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S16384x512, .f32⟩
  | 38 => ⟨S16384x512, .f32⟩
  | 39 => ⟨S_, .f32⟩
  | 40 => ⟨S16384x1, .f32⟩
  | 41 => ⟨S16384x1, .f32⟩
  | 42 => ⟨S16384x1, .f32⟩
  | 43 => ⟨S16384x512, .f32⟩
  | 44 => ⟨S16384x512, .f32⟩
  | 45 => ⟨S1x512, .f32⟩
  | 46 => ⟨S16384x512, .f32⟩
  | 47 => ⟨S16384x512, .f32⟩
  | 48 => ⟨S1x512, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S1x16384x512, .f32⟩
  | 55 => ⟨S1x16384x512, .f32⟩
  | 56 => ⟨S1x16384x512, .f32⟩
  | 57 => ⟨S1x16384x512, .f32⟩
  | 58 => ⟨S4x16384x512, .f32⟩
  | 59 => ⟨S_, .i32⟩
  | 60 => ⟨S12, .i32⟩
  | 61 => ⟨S12, .i32⟩
  | 62 => ⟨S12, .i32⟩
  | 63 => ⟨S12x1, .i32⟩
  | 64 => ⟨S12x16384x512, .f32⟩
  | 65 => ⟨S12x16384x512, .f32⟩
  | 66 => ⟨S12x1x512, .f32⟩
  | 67 => ⟨S12x16384x512, .f32⟩
  | 68 => ⟨S12x16384x512, .f32⟩
  | 69 => ⟨S12x16384x512, .f32⟩
  | 70 => ⟨S12x1x512, .f32⟩
  | 71 => ⟨S12x16384x512, .f32⟩
  | 72 => ⟨S12x16384x512, .f32⟩
  | 73 => ⟨S4x3x16384x512, .f32⟩
  | 74 => ⟨S_, .f32⟩
  | 75 => ⟨S4x16384x512, .f32⟩
  | 76 => ⟨S4x16384x512, .f32⟩
  | 77 => ⟨S1x16384x512, .f32⟩
  | 78 => ⟨S16384x512, .f32⟩
  | 79 => ⟨S1x16384x512, .f32⟩
  | 80 => ⟨S16384x512, .f32⟩
  | 81 => ⟨S1x16384x512, .f32⟩
  | 82 => ⟨S16384x512, .f32⟩
  | 83 => ⟨S1x16384x512, .f32⟩
  | 84 => ⟨S16384x512, .f32⟩
  | 85 => ⟨S16384x2048, .f32⟩
  | 86 => ⟨S16384x512, .f32⟩
  | 87 => ⟨S1x512, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S16384x4, .f32⟩
  | 94 => ⟨S1x4, .f32⟩
  | 95 => ⟨S16384x4, .f32⟩
  | 96 => ⟨S16384x4, .f32⟩
  | 97 => ⟨S_, .f32⟩
  | 98 => ⟨S16384, .f32⟩
  | 99 => ⟨S_, .f32⟩
  | 100 => ⟨S16384, .f32⟩
  | 101 => ⟨S16384, .f32⟩
  | 102 => ⟨S16384x1, .f32⟩
  | 103 => ⟨S16384x4, .f32⟩
  | 104 => ⟨S16384x4, .f32⟩
  | 105 => ⟨S16384x4, .f32⟩
  | 106 => ⟨S_, .f32⟩
  | 107 => ⟨S16384, .f32⟩
  | 108 => ⟨S16384x1, .f32⟩
  | 109 => ⟨S16384x4, .f32⟩
  | 110 => ⟨S16384x4, .f32⟩
  | 111 => ⟨S16384x512, .f32⟩
  | 112 => ⟨S1x512, .f32⟩
  | 113 => ⟨S16384x512, .f32⟩
  | 114 => ⟨S16384x512, .f32⟩
  | 115 => ⟨S16384x512, .f32⟩
  | 116 => ⟨S16384x512, .f32⟩
  | 117 => ⟨S_, .f32⟩
  | 118 => ⟨S16384x512, .f32⟩
  | 119 => ⟨S16384x512, .f32⟩
  | 120 => ⟨S_, .f32⟩
  | 121 => ⟨S16384x512, .f32⟩
  | 122 => ⟨S16384x512, .f32⟩
  | 123 => ⟨S16384x512, .f32⟩
  | 124 => ⟨S1x512, .f32⟩
  | 125 => ⟨S16384x512, .f32⟩
  | 126 => ⟨S16384x512, .f32⟩
  | 127 => ⟨S16384x512, .f32⟩
  | _ => ⟨S16384x256, .f32⟩

abbrev hbmTy0_2 (i : Nat) : BufTy := match i % 128 with
  | 0 => ⟨S16384x512, .f32⟩
  | 1 => ⟨S16384x512, .f32⟩
  | 2 => ⟨S1x512, .f32⟩
  | 3 => ⟨S16384x512, .f32⟩
  | 4 => ⟨S16384x512, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x512, .f32⟩
  | 12 => ⟨S16384x512, .f32⟩
  | 13 => ⟨S16384x512, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x512, .f32⟩
  | 21 => ⟨S16384x512, .f32⟩
  | 22 => ⟨S_, .f32⟩
  | 23 => ⟨S16384x1, .f32⟩
  | 24 => ⟨S16384x1, .f32⟩
  | 25 => ⟨S16384x1, .f32⟩
  | 26 => ⟨S16384x512, .f32⟩
  | 27 => ⟨S16384x512, .f32⟩
  | 28 => ⟨S1x512, .f32⟩
  | 29 => ⟨S16384x512, .f32⟩
  | 30 => ⟨S16384x512, .f32⟩
  | 31 => ⟨S1x512, .f32⟩
  | 32 => ⟨S16384x512, .f32⟩
  | 33 => ⟨S16384x512, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_c : Ref sig .tc := ⟨.hbm, 36, rfl⟩
abbrev main_c_0 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_v5 : Ref sig .tc := ⟨.hbm, 44, rfl⟩
abbrev main_cst_1 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_2 : Ref sig .tc := ⟨.hbm, 51, rfl⟩
abbrev main_v11 : Ref sig .tc := ⟨.hbm, 52, rfl⟩
abbrev main_v12 : Ref sig .tc := ⟨.hbm, 53, rfl⟩
abbrev main_cst_3 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_4 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_call0_cst : Ref sig .tc := ⟨.hbm, 71, rfl⟩
abbrev main_call0_v0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_5 : Ref sig .tc := ⟨.hbm, 78, rfl⟩
abbrev main_v33 : Ref sig .tc := ⟨.hbm, 79, rfl⟩
abbrev main_v34 : Ref sig .tc := ⟨.hbm, 80, rfl⟩
abbrev main_cst_6 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_7 : Ref sig .tc := ⟨.hbm, 87, rfl⟩
abbrev main_v40 : Ref sig .tc := ⟨.hbm, 88, rfl⟩
abbrev main_v41 : Ref sig .tc := ⟨.hbm, 89, rfl⟩
abbrev main_cst_8 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_9 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_call1_cst : Ref sig .tc := ⟨.hbm, 107, rfl⟩
abbrev main_call1_v0 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_10 : Ref sig .tc := ⟨.hbm, 114, rfl⟩
abbrev main_v62 : Ref sig .tc := ⟨.hbm, 115, rfl⟩
abbrev main_v63 : Ref sig .tc := ⟨.hbm, 116, rfl⟩
abbrev main_cst_11 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_12 : Ref sig .tc := ⟨.hbm, 123, rfl⟩
abbrev main_v69 : Ref sig .tc := ⟨.hbm, 124, rfl⟩
abbrev main_v70 : Ref sig .tc := ⟨.hbm, 125, rfl⟩
abbrev main_cst_13 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_14 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_call2_cst : Ref sig .tc := ⟨.hbm, 143, rfl⟩
abbrev main_call2_v0 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_15 : Ref sig .tc := ⟨.hbm, 150, rfl⟩
abbrev main_v91 : Ref sig .tc := ⟨.hbm, 151, rfl⟩
abbrev main_v92 : Ref sig .tc := ⟨.hbm, 152, rfl⟩
abbrev main_cst_16 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_17 : Ref sig .tc := ⟨.hbm, 159, rfl⟩
abbrev main_v98 : Ref sig .tc := ⟨.hbm, 160, rfl⟩
abbrev main_v99 : Ref sig .tc := ⟨.hbm, 161, rfl⟩
abbrev main_cst_18 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_19 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_call3_cst : Ref sig .tc := ⟨.hbm, 179, rfl⟩
abbrev main_call3_v0 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_c_20 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_cst_21 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_call4_cst : Ref sig .tc := ⟨.hbm, 218, rfl⟩
abbrev main_call4_v0 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_22 : Ref sig .tc := ⟨.hbm, 225, rfl⟩
abbrev main_v155 : Ref sig .tc := ⟨.hbm, 226, rfl⟩
abbrev main_cst_23 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_cst_24 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_cst_25 : Ref sig .tc := ⟨.hbm, 245, rfl⟩
abbrev main_v172 : Ref sig .tc := ⟨.hbm, 246, rfl⟩
abbrev main_v173 : Ref sig .tc := ⟨.hbm, 247, rfl⟩
abbrev main_cst_26 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_27 : Ref sig .tc := ⟨.hbm, 261, rfl⟩
abbrev main_v186 : Ref sig .tc := ⟨.hbm, 262, rfl⟩
abbrev main_v187 : Ref sig .tc := ⟨.hbm, 263, rfl⟩
abbrev main_cst_28 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_29 : Ref sig .tc := ⟨.hbm, 270, rfl⟩
abbrev main_v193 : Ref sig .tc := ⟨.hbm, 271, rfl⟩
abbrev main_v194 : Ref sig .tc := ⟨.hbm, 272, rfl⟩
abbrev main_cst_30 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_cst_31 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  bcast_S16384x512_S1x16384x512_1_2 : S16384x512.BroadcastsInDim S1x16384x512 (![1, 2] : Fin 2 → Fin S1x16384x512.rank)
  concatenates_S1x16384x512_S1x16384x512_S1x16384x512_S1x16384x512_S4x16384x512_d0 : Shape.Concatenates [S1x16384x512, S1x16384x512, S1x16384x512, S1x16384x512] S4x16384x512 0
  bcast_S_S12 : S_.BroadcastsInDim S12 (![] : Fin 0 → Fin S12.rank)
  bcast_S12_S12x1_0 : S12.BroadcastsInDim S12x1 (![0] : Fin 1 → Fin S12x1.rank)
  bcast_S12x512_S12x1x512_0_2 : S12x512.BroadcastsInDim S12x1x512 (![0, 2] : Fin 2 → Fin S12x1x512.rank)
  bcast_S12x1x512_S12x16384x512_0_1_2 : S12x1x512.BroadcastsInDim S12x16384x512 (![0, 1, 2] : Fin 3 → Fin S12x16384x512.rank)
  shapeCasts_S12x16384x512_S4x3x16384x512 : S12x16384x512.ShapeCasts S4x3x16384x512
  reducesTo_S4x3x16384x512_S4x16384x512_d1 : S4x3x16384x512.ReducesTo [1] S4x16384x512
  slices_S4x16384x512_S1x16384x512_2_0_0 : S4x16384x512.Slices ![2, 0, 0] S1x16384x512
  shapeCasts_S1x16384x512_S16384x512 : S1x16384x512.ShapeCasts S16384x512
  slices_S4x16384x512_S1x16384x512_3_0_0 : S4x16384x512.Slices ![3, 0, 0] S1x16384x512
  slices_S4x16384x512_S1x16384x512_1_0_0 : S4x16384x512.Slices ![1, 0, 0] S1x16384x512
  slices_S4x16384x512_S1x16384x512_0_0_0 : S4x16384x512.Slices ![0, 0, 0] S1x16384x512
  concatenates_S16384x512_S16384x512_S16384x512_S16384x512_S16384x2048_d1 : Shape.Concatenates [S16384x512, S16384x512, S16384x512, S16384x512] S16384x2048 1
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  reducesTo_S16384x4_S16384_d1 : S16384x4.ReducesTo [1] S16384
  bcast_S_S16384 : S_.BroadcastsInDim S16384 (![] : Fin 0 → Fin S16384.rank)
  bcast_S16384x1_S16384x4_0_1 : S16384x1.BroadcastsInDim S16384x4 (![0, 1] : Fin 2 → Fin S16384x4.rank)
  dot_S16384x256_S256x512_S16384x512_1_0_0_1_n_n_wf : DotDims.WF S16384x256 S256x512 S16384x512 [1] [0] [0] [1] [] []
  dot_S16384x768_S768x512_S16384x512_1_0_0_1_n_n_wf : DotDims.WF S16384x768 S768x512 S16384x512 [1] [0] [0] [1] [] []
  dot_S16384x128_S128x512_S16384x512_1_0_0_1_n_n_wf : DotDims.WF S16384x128 S128x512 S16384x512 [1] [0] [0] [1] [] []
  gather_S4x16384x512_S12x1_S12x16384x512_12_0_n_n_0_1_116384512_wf : GatherDims.WF S4x16384x512 S12x1 S12x16384x512 [1, 2] [0] [] [0] [] 1 ![1, 16384, 512]
  dot_S12x16384x512_S12x512x512_S12x16384x512_2_1_1_2_0_0_wf : DotDims.WF S12x16384x512 S12x512x512 S12x16384x512 [2] [1] [1] [2] [0] [0]
  dot_S16384x2048_S2048x512_S16384x512_1_0_0_1_n_n_wf : DotDims.WF S16384x2048 S2048x512 S16384x512 [1] [0] [0] [1] [] []
  dot_S16384x512_S512x4_S16384x4_1_0_0_1_n_n_wf : DotDims.WF S16384x512 S512x4 S16384x4 [1] [0] [0] [1] [] []
  dot_S16384x512_S512x512_S16384x512_1_0_0_1_n_n_wf : DotDims.WF S16384x512 S512x512 S16384x512 [1] [0] [0] [1] [] []

variable [Facts₀]

def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def gather_S4x16384x512_S12x1_S12x16384x512_12_0_n_n_0_1_116384512 : GatherDims S4x16384x512 S12x1 S12x16384x512 where
  offsetDims := [1, 2]
  collapsedSliceDims := [0]
  operandBatchingDims := []
  startIndicesBatchingDims := []
  startIndexMap := [0]
  indexVectorDim := 1
  sliceSizes := ![1, 16384, 512]
  wf := gather_S4x16384x512_S12x1_S12x16384x512_12_0_n_n_0_1_116384512_wf
def dot_S12x16384x512_S12x512x512_S12x16384x512_2_1_1_2_0_0 : DotDims S12x16384x512 S12x512x512 S12x16384x512 where
  lhsContracting := [2]
  rhsContracting := [1]
  lhsNonContracting := [1]
  rhsNonContracting := [2]
  lhsBatch := [0]
  rhsBatch := [0]
  wf := dot_S12x16384x512_S12x512x512_S12x16384x512_2_1_1_2_0_0_wf
def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x512_S512x4_S16384x4_1_0_0_1_n_n : DotDims S16384x512 S512x4 S16384x4 where
  lhsContracting := [1]
  rhsContracting := [0]
  lhsNonContracting := [0]
  rhsNonContracting := [1]
  lhsBatch := []
  rhsBatch := []
  wf := dot_S16384x512_S512x4_S16384x4_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.RefOps.lean ====
/-
  The reference program's @main as the list of its 254 host operations, in order, the five calls of its ReLU
  written out at their call sites, and the value each stage of it computes, named by what the stage is:
  a linear layer (product with a weight matrix plus a bias row), the mean of a row, LayerNorm followed by ReLU,
  the four projections stacked, the stack gathered by the source-modality table, the value and output projections
  of the twelve pairs, the residual sum per query modality, the four attended blocks side by side, the hidden layer,
  the logits, a row's maximum, the shifted exponentials, their normalisation, the gate, the tanh branch, their
  product, and the final LayerNorm. Every weakly fair execution of @main ends with the three results at these terms
  of the argument arrays and the arguments unchanged.
-/
import proofs.«146539_j55808805044797_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 254 operations, in order. -/
abbrev ops : List (HloOp τ sig (Elt F)) :=
  [ nullary main_c (fun i => lit0 (S12.rowMajor i)),
    nullary main_c_0 (constantI S12 1 0#1),
    binary main_arg0 main_arg4 main_v0 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg5 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v3 main_cst main_v4 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    nullary main_cst_1 (constant S_ .f32 0x44000000#32),
    unary main_cst_1 main_v6 (broadcastInDim S16384x1 ![] bcast_S_S16384x1 : (⟨S_, .f32⟩ : BufTy).Contents (Elt F) → (⟨S16384x1, .f32⟩ : BufTy).Contents (Elt F)),
    binary main_v5 main_v6 main_v7 (Host.divf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x512 ![0, 1] bcast_S16384x1_S16384x512_0_1 : (⟨S16384x1, .f32⟩ : BufTy).Contents (Elt F) → (⟨S16384x512, .f32⟩ : BufTy).Contents (Elt F)),
    binary main_v3 main_v8 main_v9 (subf : (⟨S16384x512, .f32⟩ : BufTy).Contents (Elt F) → (⟨S16384x512, .f32⟩ : BufTy).Contents (Elt F) → (⟨S16384x512, .f32⟩ : BufTy).Contents (Elt F)),
    binary main_v9 main_v9 main_v10 (mulf : (⟨S16384x512, .f32⟩ : BufTy).Contents (Elt F) → (⟨S16384x512, .f32⟩ : BufTy).Contents (Elt F) → (⟨S16384x512, .f32⟩ : BufTy).Contents (Elt F)),
    nullary main_cst_2 (constant S_ .f32 0x00000000#32),
    binary main_v10 main_cst_2 main_v11 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v11 main_v12 (broadcastInDim S16384x1 ![0] bcast_S16384_S16384x1_0 : (⟨S16384, .f32⟩ : BufTy).Contents (Elt F) → (⟨S16384x1, .f32⟩ : BufTy).Contents (Elt F)),
    nullary main_cst_3 (constant S_ .f32 0x44000000#32),
    unary main_cst_3 main_v13 (broadcastInDim S16384x1 ![] bcast_S_S16384x1 : (⟨S_, .f32⟩ : BufTy).Contents (Elt F) → (⟨S16384x1, .f32⟩ : BufTy).Contents (Elt F)),
    binary main_v12 main_v13 main_v14 (Host.divf : (⟨S16384x1, .f32⟩ : BufTy).Contents (Elt F) → (⟨S16384x1, .f32⟩ : BufTy).Contents (Elt F) → (⟨S16384x1, .f32⟩ : BufTy).Contents (Elt F)),
    unary main_v7 main_v15 (broadcastInDim S16384x512 ![0, 1] bcast_S16384x1_S16384x512_0_1 : (⟨S16384x1, .f32⟩ : BufTy).Contents (Elt F) → (⟨S16384x512, .f32⟩ : BufTy).Contents (Elt F)),
    binary main_v3 main_v15 main_v16 (subf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x3727C5AC#32),
    unary main_cst_4 main_v17 (broadcastInDim S16384x1 ![] bcast_S_S16384x1 : (⟨S_, .f32⟩ : BufTy).Contents (Elt F) → (⟨S16384x1, .f32⟩ : BufTy).Contents (Elt F)),
    binary main_v14 main_v17 main_v18 (addf : (⟨S16384x1, .f32⟩ : BufTy).Contents (Elt F) → (⟨S16384x1, .f32⟩ : BufTy).Contents (Elt F) → (⟨S16384x1, .f32⟩ : BufTy).Contents (Elt F)),
    unary main_v18 main_v19 (Host.rsqrt : (⟨S16384x1, .f32⟩ : BufTy).Contents (Elt F) → (⟨S16384x1, .f32⟩ : BufTy).Contents (Elt F)),
    unary main_v19 main_v20 (broadcastInDim S16384x512 ![0, 1] bcast_S16384x1_S16384x512_0_1 : (⟨S16384x1, .f32⟩ : BufTy).Contents (Elt F) → (⟨S16384x512, .f32⟩ : BufTy).Contents (Elt F)),
    binary main_v16 main_v20 main_v21 (mulf : (⟨S16384x512, .f32⟩ : BufTy).Contents (Elt F) → (⟨S16384x512, .f32⟩ : BufTy).Contents (Elt F) → (⟨S16384x512, .f32⟩ : BufTy).Contents (Elt F)),
    unary main_arg6 main_v22 (broadcastInDim S1x512 ![1] bcast_S512_S1x512_1 : (⟨S512, .f32⟩ : BufTy).Contents (Elt F) → (⟨S1x512, .f32⟩ : BufTy).Contents (Elt F)),
    unary main_v22 main_v23 (broadcastInDim S16384x512 ![0, 1] bcast_S1x512_S16384x512_0_1 : (⟨S1x512, .f32⟩ : BufTy).Contents (Elt F) → (⟨S16384x512, .f32⟩ : BufTy).Contents (Elt F)),
    binary main_v21 main_v23 main_v24 (mulf : (⟨S16384x512, .f32⟩ : BufTy).Contents (Elt F) → (⟨S16384x512, .f32⟩ : BufTy).Contents (Elt F) → (⟨S16384x512, .f32⟩ : BufTy).Contents (Elt F)),
    unary main_arg7 main_v25 (broadcastInDim S1x512 ![1] bcast_S512_S1x512_1 : (⟨S512, .f32⟩ : BufTy).Contents (Elt F) → (⟨S1x512, .f32⟩ : BufTy).Contents (Elt F)),
    unary main_v25 main_v26 (broadcastInDim S16384x512 ![0, 1] bcast_S1x512_S16384x512_0_1 : (⟨S1x512, .f32⟩ : BufTy).Contents (Elt F) → (⟨S16384x512, .f32⟩ : BufTy).Contents (Elt F)),
    binary main_v24 main_v26 main_v27 (addf : (⟨S16384x512, .f32⟩ : BufTy).Contents (Elt F) → (⟨S16384x512, .f32⟩ : BufTy).Contents (Elt F) → (⟨S16384x512, .f32⟩ : BufTy).Contents (Elt F)),
    TRef.nullary main_call0.cst (constant S_ .f32 0x00000000#32),
    TRef.unary main_call0.cst main_call0.v0 (broadcastInDim S16384x512 ![] bcast_S_S16384x512),
    TRef.binary (.of main_v27) main_call0.v0 main_call0.v1 maximumf,
    binary main_arg1 main_arg8 main_v29 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg9 main_v30 (broadcastInDim S1x512 ![1] bcast_S512_S1x512_1 : (⟨S512, .f32⟩ : BufTy).Contents (Elt F) → (⟨S1x512, .f32⟩ : BufTy).Contents (Elt F)),
    unary main_v30 main_v31 (broadcastInDim S16384x512 ![0, 1] bcast_S1x512_S16384x512_0_1 : (⟨S1x512, .f32⟩ : BufTy).Contents (Elt F) → (⟨S16384x512, .f32⟩ : BufTy).Contents (Elt F)),
    binary main_v29 main_v31 main_v32 (addf : (⟨S16384x512, .f32⟩ : BufTy).Contents (Elt F) → (⟨S16384x512, .f32⟩ : BufTy).Contents (Elt F) → (⟨S16384x512, .f32⟩ : BufTy).Contents (Elt F)),
    nullary main_cst_5 (constant S_ .f32 0x00000000#32),
    binary main_v32 main_cst_5 main_v33 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v33 main_v34 (broadcastInDim S16384x1 ![0] bcast_S16384_S16384x1_0 : (⟨S16384, .f32⟩ : BufTy).Contents (Elt F) → (⟨S16384x1, .f32⟩ : BufTy).Contents (Elt F)),
    nullary main_cst_6 (constant S_ .f32 0x44000000#32),
    unary main_cst_6 main_v35 (broadcastInDim S16384x1 ![] bcast_S_S16384x1 : (⟨S_, .f32⟩ : BufTy).Contents (Elt F) → (⟨S16384x1, .f32⟩ : BufTy).Contents (Elt F)),
    binary main_v34 main_v35 main_v36 (Host.divf : (⟨S16384x1, .f32⟩ : BufTy).Contents (Elt F) → (⟨S16384x1, .f32⟩ : BufTy).Contents (Elt F) → (⟨S16384x1, .f32⟩ : BufTy).Contents (Elt F)),
    unary main_v36 main_v37 (broadcastInDim S16384x512 ![0, 1] bcast_S16384x1_S16384x512_0_1 : (⟨S16384x1, .f32⟩ : BufTy).Contents (Elt F) → (⟨S16384x512, .f32⟩ : BufTy).Contents (Elt F)),
    binary main_v32 main_v37 main_v38 (subf : (⟨S16384x512, .f32⟩ : BufTy).Contents (Elt F) → (⟨S16384x512, .f32⟩ : BufTy).Contents (Elt F) → (⟨S16384x512, .f32⟩ : BufTy).Contents (Elt F)),
    binary main_v38 main_v38 main_v39 (mulf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x00000000#32),
    binary main_v39 main_cst_7 main_v40 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v40 main_v41 (broadcastInDim S16384x1 ![0] bcast_S16384_S16384x1_0 : (⟨S16384, .f32⟩ : BufTy).Contents (Elt F) → (⟨S16384x1, .f32⟩ : BufTy).Contents (Elt F)),
    nullary main_cst_8 (constant S_ .f32 0x44000000#32),
    unary main_cst_8 main_v42 (broadcastInDim S16384x1 ![] bcast_S_S16384x1 : (⟨S_, .f32⟩ : BufTy).Contents (Elt F) → (⟨S16384x1, .f32⟩ : BufTy).Contents (Elt F)),
    binary main_v41 main_v42 main_v43 (Host.divf : (⟨S16384x1, .f32⟩ : BufTy).Contents (Elt F) → (⟨S16384x1, .f32⟩ : BufTy).Contents (Elt F) → (⟨S16384x1, .f32⟩ : BufTy).Contents (Elt F)),
    unary main_v36 main_v44 (broadcastInDim S16384x512 ![0, 1] bcast_S16384x1_S16384x512_0_1 : (⟨S16384x1, .f32⟩ : BufTy).Contents (Elt F) → (⟨S16384x512, .f32⟩ : BufTy).Contents (Elt F)),
    binary main_v32 main_v44 main_v45 (subf : (⟨S16384x512, .f32⟩ : BufTy).Contents (Elt F) → (⟨S16384x512, .f32⟩ : BufTy).Contents (Elt F) → (⟨S16384x512, .f32⟩ : BufTy).Contents (Elt F)),
    nullary main_cst_9 (constant S_ .f32 0x3727C5AC#32),
    unary main_cst_9 main_v46 (broadcastInDim S16384x1 ![] bcast_S_S16384x1 : (⟨S_, .f32⟩ : BufTy).Contents (Elt F) → (⟨S16384x1, .f32⟩ : BufTy).Contents (Elt F)),
    binary main_v43 main_v46 main_v47 (addf : (⟨S16384x1, .f32⟩ : BufTy).Contents (Elt F) → (⟨S16384x1, .f32⟩ : BufTy).Contents (Elt F) → (⟨S16384x1, .f32⟩ : BufTy).Contents (Elt F)),
    unary main_v47 main_v48 (Host.rsqrt : (⟨S16384x1, .f32⟩ : BufTy).Contents (Elt F) → (⟨S16384x1, .f32⟩ : BufTy).Contents (Elt F)),
    unary main_v48 main_v49 (broadcastInDim S16384x512 ![0, 1] bcast_S16384x1_S16384x512_0_1 : (⟨S16384x1, .f32⟩ : BufTy).Contents (Elt F) → (⟨S16384x512, .f32⟩ : BufTy).Contents (Elt F)),
    binary main_v45 main_v49 main_v50 (mulf : (⟨S16384x512, .f32⟩ : BufTy).Contents (Elt F) → (⟨S16384x512, .f32⟩ : BufTy).Contents (Elt F) → (⟨S16384x512, .f32⟩ : BufTy).Contents (Elt F)),
    unary main_arg10 main_v51 (broadcastInDim S1x512 ![1] bcast_S512_S1x512_1 : (⟨S512, .f32⟩ : BufTy).Contents (Elt F) → (⟨S1x512, .f32⟩ : BufTy).Contents (Elt F)),
    unary main_v51 main_v52 (broadcastInDim S16384x512 ![0, 1] bcast_S1x512_S16384x512_0_1 : (⟨S1x512, .f32⟩ : BufTy).Contents (Elt F) → (⟨S16384x512, .f32⟩ : BufTy).Contents (Elt F)),
    binary main_v50 main_v52 main_v53 (mulf : (⟨S16384x512, .f32⟩ : BufTy).Contents (Elt F) → (⟨S16384x512, .f32⟩ : BufTy).Contents (Elt F) → (⟨S16384x512, .f32⟩ : BufTy).Contents (Elt F)),
    unary main_arg11 main_v54 (broadcastInDim S1x512 ![1] bcast_S512_S1x512_1 : (⟨S512, .f32⟩ : BufTy).Contents (Elt F) → (⟨S1x512, .f32⟩ : BufTy).Contents (Elt F)),
    unary main_v54 main_v55 (broadcastInDim S16384x512 ![0, 1] bcast_S1x512_S16384x512_0_1 : (⟨S1x512, .f32⟩ : BufTy).Contents (Elt F) → (⟨S16384x512, .f32⟩ : BufTy).Contents (Elt F)),
    binary main_v53 main_v55 main_v56 (addf : (⟨S16384x512, .f32⟩ : BufTy).Contents (Elt F) → (⟨S16384x512, .f32⟩ : BufTy).Contents (Elt F) → (⟨S16384x512, .f32⟩ : BufTy).Contents (Elt F)),
    TRef.nullary main_call1.cst (constant S_ .f32 0x00000000#32),
    TRef.unary main_call1.cst main_call1.v0 (broadcastInDim S16384x512 ![] bcast_S_S16384x512),
    TRef.binary (.of main_v56) main_call1.v0 main_call1.v1 maximumf,
    binary main_arg2 main_arg12 main_v58 ((fun l r => Host.dotGeneral dot_S16384x128_S128x512_S16384x512_1_0_0_1_n_n none l r) : (⟨S16384x128, .f32⟩ : BufTy).Contents (Elt F) → (⟨S128x512, .f32⟩ : BufTy).Contents (Elt F) → (⟨S16384x512, .f32⟩ : BufTy).Contents (Elt F)),
    unary main_arg13 main_v59 (broadcastInDim S1x512 ![1] bcast_S512_S1x512_1 : (⟨S512, .f32⟩ : BufTy).Contents (Elt F) → (⟨S1x512, .f32⟩ : BufTy).Contents (Elt F)),
    unary main_v59 main_v60 (broadcastInDim S16384x512 ![0, 1] bcast_S1x512_S16384x512_0_1 : (⟨S1x512, .f32⟩ : BufTy).Contents (Elt F) → (⟨S16384x512, .f32⟩ : BufTy).Contents (Elt F)),
    binary main_v58 main_v60 main_v61 (addf : (⟨S16384x512, .f32⟩ : BufTy).Contents (Elt F) → (⟨S16384x512, .f32⟩ : BufTy).Contents (Elt F) → (⟨S16384x512, .f32⟩ : BufTy).Contents (Elt F)),
    nullary main_cst_10 (constant S_ .f32 0x00000000#32),
    binary main_v61 main_cst_10 main_v62 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v62 main_v63 (broadcastInDim S16384x1 ![0] bcast_S16384_S16384x1_0 : (⟨S16384, .f32⟩ : BufTy).Contents (Elt F) → (⟨S16384x1, .f32⟩ : BufTy).Contents (Elt F)),
    nullary main_cst_11 (constant S_ .f32 0x44000000#32),
    unary main_cst_11 main_v64 (broadcastInDim S16384x1 ![] bcast_S_S16384x1 : (⟨S_, .f32⟩ : BufTy).Contents (Elt F) → (⟨S16384x1, .f32⟩ : BufTy).Contents (Elt F)),
    binary main_v63 main_v64 main_v65 (Host.divf : (⟨S16384x1, .f32⟩ : BufTy).Contents (Elt F) → (⟨S16384x1, .f32⟩ : BufTy).Contents (Elt F) → (⟨S16384x1, .f32⟩ : BufTy).Contents (Elt F)),
    unary main_v65 main_v66 (broadcastInDim S16384x512 ![0, 1] bcast_S16384x1_S16384x512_0_1 : (⟨S16384x1, .f32⟩ : BufTy).Contents (Elt F) → (⟨S16384x512, .f32⟩ : BufTy).Contents (Elt F)),
    binary main_v61 main_v66 main_v67 (subf : (⟨S16384x512, .f32⟩ : BufTy).Contents (Elt F) → (⟨S16384x512, .f32⟩ : BufTy).Contents (Elt F) → (⟨S16384x512, .f32⟩ : BufTy).Contents (Elt F)),
    binary main_v67 main_v67 main_v68 (mulf : (⟨S16384x512, .f32⟩ : BufTy).Contents (Elt F) → (⟨S16384x512, .f32⟩ : BufTy).Contents (Elt F) → (⟨S16384x512, .f32⟩ : BufTy).Contents (Elt F)),
    nullary main_cst_12 (constant S_ .f32 0x00000000#32),
    binary main_v68 main_cst_12 main_v69 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v69 main_v70 (broadcastInDim S16384x1 ![0] bcast_S16384_S16384x1_0 : (⟨S16384, .f32⟩ : BufTy).Contents (Elt F) → (⟨S16384x1, .f32⟩ : BufTy).Contents (Elt F)),
    nullary main_cst_13 (constant S_ .f32 0x44000000#32),
    unary main_cst_13 main_v71 (broadcastInDim S16384x1 ![] bcast_S_S16384x1 : (⟨S_, .f32⟩ : BufTy).Contents (Elt F) → (⟨S16384x1, .f32⟩ : BufTy).Contents (Elt F)),
    binary main_v70 main_v71 main_v72 (Host.divf : (⟨S16384x1, .f32⟩ : BufTy).Contents (Elt F) → (⟨S16384x1, .f32⟩ : BufTy).Contents (Elt F) → (⟨S16384x1, .f32⟩ : BufTy).Contents (Elt F)),
    unary main_v65 main_v73 (broadcastInDim S16384x512 ![0, 1] bcast_S16384x1_S16384x512_0_1 : (⟨S16384x1, .f32⟩ : BufTy).Contents (Elt F) → (⟨S16384x512, .f32⟩ : BufTy).Contents (Elt F)),
    binary main_v61 main_v73 main_v74 (subf : (⟨S16384x512, .f32⟩ : BufTy).Contents (Elt F) → (⟨S16384x512, .f32⟩ : BufTy).Contents (Elt F) → (⟨S16384x512, .f32⟩ : BufTy).Contents (Elt F)),
    nullary main_cst_14 (constant S_ .f32 0x3727C5AC#32),
    unary main_cst_14 main_v75 (broadcastInDim S16384x1 ![] bcast_S_S16384x1 : (⟨S_, .f32⟩ : BufTy).Contents (Elt F) → (⟨S16384x1, .f32⟩ : BufTy).Contents (Elt F)),
    binary main_v72 main_v75 main_v76 (addf : (⟨S16384x1, .f32⟩ : BufTy).Contents (Elt F) → (⟨S16384x1, .f32⟩ : BufTy).Contents (Elt F) → (⟨S16384x1, .f32⟩ : BufTy).Contents (Elt F)),
    unary main_v76 main_v77 (Host.rsqrt : (⟨S16384x1, .f32⟩ : BufTy).Contents (Elt F) → (⟨S16384x1, .f32⟩ : BufTy).Contents (Elt F)),
    unary main_v77 main_v78 (broadcastInDim S16384x512 ![0, 1] bcast_S16384x1_S16384x512_0_1 : (⟨S16384x1, .f32⟩ : BufTy).Contents (Elt F) → (⟨S16384x512, .f32⟩ : BufTy).Contents (Elt F)),
    binary main_v74 main_v78 main_v79 (mulf : (⟨S16384x512, .f32⟩ : BufTy).Contents (Elt F) → (⟨S16384x512, .f32⟩ : BufTy).Contents (Elt F) → (⟨S16384x512, .f32⟩ : BufTy).Contents (Elt F)),
    unary main_arg14 main_v80 (broadcastInDim S1x512 ![1] bcast_S512_S1x512_1 : (⟨S512, .f32⟩ : BufTy).Contents (Elt F) → (⟨S1x512, .f32⟩ : BufTy).Contents (Elt F)),
    unary main_v80 main_v81 (broadcastInDim S16384x512 ![0, 1] bcast_S1x512_S16384x512_0_1 : (⟨S1x512, .f32⟩ : BufTy).Contents (Elt F) → (⟨S16384x512, .f32⟩ : BufTy).Contents (Elt F)),
    binary main_v79 main_v81 main_v82 (mulf : (⟨S16384x512, .f32⟩ : BufTy).Contents (Elt F) → (⟨S16384x512, .f32⟩ : BufTy).Contents (Elt F) → (⟨S16384x512, .f32⟩ : BufTy).Contents (Elt F)),
    unary main_arg15 main_v83 (broadcastInDim S1x512 ![1] bcast_S512_S1x512_1 : (⟨S512, .f32⟩ : BufTy).Contents (Elt F) → (⟨S1x512, .f32⟩ : BufTy).Contents (Elt F)),
    unary main_v83 main_v84 (broadcastInDim S16384x512 ![0, 1] bcast_S1x512_S16384x512_0_1 : (⟨S1x512, .f32⟩ : BufTy).Contents (Elt F) → (⟨S16384x512, .f32⟩ : BufTy).Contents (Elt F)),
    binary main_v82 main_v84 main_v85 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v85) main_call2.v0 main_call2.v1 maximumf,
    binary main_arg3 main_arg16 main_v87 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg17 main_v88 (broadcastInDim S1x512 ![1] bcast_S512_S1x512_1 : (⟨S512, .f32⟩ : BufTy).Contents (Elt F) → (⟨S1x512, .f32⟩ : BufTy).Contents (Elt F)),
    unary main_v88 main_v89 (broadcastInDim S16384x512 ![0, 1] bcast_S1x512_S16384x512_0_1 : (⟨S1x512, .f32⟩ : BufTy).Contents (Elt F) → (⟨S16384x512, .f32⟩ : BufTy).Contents (Elt F)),
    binary main_v87 main_v89 main_v90 (addf : (⟨S16384x512, .f32⟩ : BufTy).Contents (Elt F) → (⟨S16384x512, .f32⟩ : BufTy).Contents (Elt F) → (⟨S16384x512, .f32⟩ : BufTy).Contents (Elt F)),
    nullary main_cst_15 (constant S_ .f32 0x00000000#32),
    binary main_v90 main_cst_15 main_v91 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v91 main_v92 (broadcastInDim S16384x1 ![0] bcast_S16384_S16384x1_0 : (⟨S16384, .f32⟩ : BufTy).Contents (Elt F) → (⟨S16384x1, .f32⟩ : BufTy).Contents (Elt F)),
    nullary main_cst_16 (constant S_ .f32 0x44000000#32),
    unary main_cst_16 main_v93 (broadcastInDim S16384x1 ![] bcast_S_S16384x1 : (⟨S_, .f32⟩ : BufTy).Contents (Elt F) → (⟨S16384x1, .f32⟩ : BufTy).Contents (Elt F)),
    binary main_v92 main_v93 main_v94 (Host.divf : (⟨S16384x1, .f32⟩ : BufTy).Contents (Elt F) → (⟨S16384x1, .f32⟩ : BufTy).Contents (Elt F) → (⟨S16384x1, .f32⟩ : BufTy).Contents (Elt F)),
    unary main_v94 main_v95 (broadcastInDim S16384x512 ![0, 1] bcast_S16384x1_S16384x512_0_1 : (⟨S16384x1, .f32⟩ : BufTy).Contents (Elt F) → (⟨S16384x512, .f32⟩ : BufTy).Contents (Elt F)),
    binary main_v90 main_v95 main_v96 (subf : (⟨S16384x512, .f32⟩ : BufTy).Contents (Elt F) → (⟨S16384x512, .f32⟩ : BufTy).Contents (Elt F) → (⟨S16384x512, .f32⟩ : BufTy).Contents (Elt F)),
    binary main_v96 main_v96 main_v97 (mulf : (⟨S16384x512, .f32⟩ : BufTy).Contents (Elt F) → (⟨S16384x512, .f32⟩ : BufTy).Contents (Elt F) → (⟨S16384x512, .f32⟩ : BufTy).Contents (Elt F)),
    nullary main_cst_17 (constant S_ .f32 0x00000000#32),
    binary main_v97 main_cst_17 main_v98 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v98 main_v99 (broadcastInDim S16384x1 ![0] bcast_S16384_S16384x1_0 : (⟨S16384, .f32⟩ : BufTy).Contents (Elt F) → (⟨S16384x1, .f32⟩ : BufTy).Contents (Elt F)),
    nullary main_cst_18 (constant S_ .f32 0x44000000#32),
    unary main_cst_18 main_v100 (broadcastInDim S16384x1 ![] bcast_S_S16384x1 : (⟨S_, .f32⟩ : BufTy).Contents (Elt F) → (⟨S16384x1, .f32⟩ : BufTy).Contents (Elt F)),
    binary main_v99 main_v100 main_v101 (Host.divf : (⟨S16384x1, .f32⟩ : BufTy).Contents (Elt F) → (⟨S16384x1, .f32⟩ : BufTy).Contents (Elt F) → (⟨S16384x1, .f32⟩ : BufTy).Contents (Elt F)),
    unary main_v94 main_v102 (broadcastInDim S16384x512 ![0, 1] bcast_S16384x1_S16384x512_0_1 : (⟨S16384x1, .f32⟩ : BufTy).Contents (Elt F) → (⟨S16384x512, .f32⟩ : BufTy).Contents (Elt F)),
    binary main_v90 main_v102 main_v103 (subf : (⟨S16384x512, .f32⟩ : BufTy).Contents (Elt F) → (⟨S16384x512, .f32⟩ : BufTy).Contents (Elt F) → (⟨S16384x512, .f32⟩ : BufTy).Contents (Elt F)),
    nullary main_cst_19 (constant S_ .f32 0x3727C5AC#32),
    unary main_cst_19 main_v104 (broadcastInDim S16384x1 ![] bcast_S_S16384x1 : (⟨S_, .f32⟩ : BufTy).Contents (Elt F) → (⟨S16384x1, .f32⟩ : BufTy).Contents (Elt F)),
    binary main_v101 main_v104 main_v105 (addf : (⟨S16384x1, .f32⟩ : BufTy).Contents (Elt F) → (⟨S16384x1, .f32⟩ : BufTy).Contents (Elt F) → (⟨S16384x1, .f32⟩ : BufTy).Contents (Elt F)),
    unary main_v105 main_v106 (Host.rsqrt : (⟨S16384x1, .f32⟩ : BufTy).Contents (Elt F) → (⟨S16384x1, .f32⟩ : BufTy).Contents (Elt F)),
    unary main_v106 main_v107 (broadcastInDim S16384x512 ![0, 1] bcast_S16384x1_S16384x512_0_1 : (⟨S16384x1, .f32⟩ : BufTy).Contents (Elt F) → (⟨S16384x512, .f32⟩ : BufTy).Contents (Elt F)),
    binary main_v103 main_v107 main_v108 (mulf : (⟨S16384x512, .f32⟩ : BufTy).Contents (Elt F) → (⟨S16384x512, .f32⟩ : BufTy).Contents (Elt F) → (⟨S16384x512, .f32⟩ : BufTy).Contents (Elt F)),
    unary main_arg18 main_v109 (broadcastInDim S1x512 ![1] bcast_S512_S1x512_1 : (⟨S512, .f32⟩ : BufTy).Contents (Elt F) → (⟨S1x512, .f32⟩ : BufTy).Contents (Elt F)),
    unary main_v109 main_v110 (broadcastInDim S16384x512 ![0, 1] bcast_S1x512_S16384x512_0_1 : (⟨S1x512, .f32⟩ : BufTy).Contents (Elt F) → (⟨S16384x512, .f32⟩ : BufTy).Contents (Elt F)),
    binary main_v108 main_v110 main_v111 (mulf : (⟨S16384x512, .f32⟩ : BufTy).Contents (Elt F) → (⟨S16384x512, .f32⟩ : BufTy).Contents (Elt F) → (⟨S16384x512, .f32⟩ : BufTy).Contents (Elt F)),
    unary main_arg19 main_v112 (broadcastInDim S1x512 ![1] bcast_S512_S1x512_1 : (⟨S512, .f32⟩ : BufTy).Contents (Elt F) → (⟨S1x512, .f32⟩ : BufTy).Contents (Elt F)),
    unary main_v112 main_v113 (broadcastInDim S16384x512 ![0, 1] bcast_S1x512_S16384x512_0_1 : (⟨S1x512, .f32⟩ : BufTy).Contents (Elt F) → (⟨S16384x512, .f32⟩ : BufTy).Contents (Elt F)),
    binary main_v111 main_v113 main_v114 (addf : (⟨S16384x512, .f32⟩ : BufTy).Contents (Elt F) → (⟨S16384x512, .f32⟩ : BufTy).Contents (Elt F) → (⟨S16384x512, .f32⟩ : BufTy).Contents (Elt F)),
    TRef.nullary main_call3.cst (constant S_ .f32 0x00000000#32),
    TRef.unary main_call3.cst main_call3.v0 (broadcastInDim S16384x512 ![] bcast_S_S16384x512),
    TRef.binary (.of main_v114) main_call3.v0 main_call3.v1 maximumf,
    unary main_v28 main_v116 (broadcastInDim S1x16384x512 ![1, 2] bcast_S16384x512_S1x16384x512_1_2 : (⟨S16384x512, .f32⟩ : BufTy).Contents (Elt F) → (⟨S1x16384x512, .f32⟩ : BufTy).Contents (Elt F)),
    unary main_v57 main_v117 (broadcastInDim S1x16384x512 ![1, 2] bcast_S16384x512_S1x16384x512_1_2 : (⟨S16384x512, .f32⟩ : BufTy).Contents (Elt F) → (⟨S1x16384x512, .f32⟩ : BufTy).Contents (Elt F)),
    unary main_v86 main_v118 (broadcastInDim S1x16384x512 ![1, 2] bcast_S16384x512_S1x16384x512_1_2 : (⟨S16384x512, .f32⟩ : BufTy).Contents (Elt F) → (⟨S1x16384x512, .f32⟩ : BufTy).Contents (Elt F)),
    unary main_v115 main_v119 (broadcastInDim S1x16384x512 ![1, 2] bcast_S16384x512_S1x16384x512_1_2 : (⟨S16384x512, .f32⟩ : BufTy).Contents (Elt F) → (⟨S1x16384x512, .f32⟩ : BufTy).Contents (Elt F)),
    nary ![main_v116, main_v117, main_v118, main_v119] main_v120 (fun u => concatenate S4x16384x512 0 [⟨S1x16384x512, u 0⟩, ⟨S1x16384x512, u 1⟩, ⟨S1x16384x512, u 2⟩, ⟨S1x16384x512, u 3⟩] concatenates_S1x16384x512_S1x16384x512_S1x16384x512_S1x16384x512_S4x16384x512_d0),
    nullary main_c_20 (constantI S_ 32 4#32),
    unary main_c_20 main_v121 (broadcastInDim S12 ![] bcast_S_S12 : (⟨S_, .i32⟩ : BufTy).Contents (Elt F) → (⟨S12, .i32⟩ : BufTy).Contents (Elt F)),
    binary main_c main_v121 main_v122 (addi : (⟨S12, .i32⟩ : BufTy).Contents (Elt F) → (⟨S12, .i32⟩ : BufTy).Contents (Elt F) → (⟨S12, .i32⟩ : BufTy).Contents (Elt F)),
    ternary main_c_0 main_v122 main_c main_v123 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    unary main_v123 main_v124 (broadcastInDim S12x1 ![0] bcast_S12_S12x1_0 : (⟨S12, .i32⟩ : BufTy).Contents (Elt F) → (⟨S12x1, .i32⟩ : BufTy).Contents (Elt F)),
    binary main_v120 main_v124 main_v125 ((fun x i => Host.gather gather_S4x16384x512_S12x1_S12x16384x512_12_0_n_n_0_1_116384512 x i) : (⟨S4x16384x512, .f32⟩ : BufTy).Contents (Elt F) → (⟨S12x1, .i32⟩ : BufTy).Contents (Elt F) → (⟨S12x16384x512, .f32⟩ : BufTy).Contents (Elt F)),
    binary main_v125 main_arg20 main_v126 ((fun l r => Host.dotGeneral dot_S12x16384x512_S12x512x512_S12x16384x512_2_1_1_2_0_0 none l r) : (⟨S12x16384x512, .f32⟩ : BufTy).Contents (Elt F) → (⟨S12x512x512, .f32⟩ : BufTy).Contents (Elt F) → (⟨S12x16384x512, .f32⟩ : BufTy).Contents (Elt F)),
    unary main_arg21 main_v127 (broadcastInDim S12x1x512 ![0, 2] bcast_S12x512_S12x1x512_0_2 : (⟨S12x512, .f32⟩ : BufTy).Contents (Elt F) → (⟨S12x1x512, .f32⟩ : BufTy).Contents (Elt F)),
    unary main_v127 main_v128 (broadcastInDim S12x16384x512 ![0, 1, 2] bcast_S12x1x512_S12x16384x512_0_1_2 : (⟨S12x1x512, .f32⟩ : BufTy).Contents (Elt F) → (⟨S12x16384x512, .f32⟩ : BufTy).Contents (Elt F)),
    binary main_v126 main_v128 main_v129 (addf : (⟨S12x16384x512, .f32⟩ : BufTy).Contents (Elt F) → (⟨S12x16384x512, .f32⟩ : BufTy).Contents (Elt F) → (⟨S12x16384x512, .f32⟩ : BufTy).Contents (Elt F)),
    binary main_v129 main_arg22 main_v130 ((fun l r => Host.dotGeneral dot_S12x16384x512_S12x512x512_S12x16384x512_2_1_1_2_0_0 none l r) : (⟨S12x16384x512, .f32⟩ : BufTy).Contents (Elt F) → (⟨S12x512x512, .f32⟩ : BufTy).Contents (Elt F) → (⟨S12x16384x512, .f32⟩ : BufTy).Contents (Elt F)),
    unary main_arg23 main_v131 (broadcastInDim S12x1x512 ![0, 2] bcast_S12x512_S12x1x512_0_2 : (⟨S12x512, .f32⟩ : BufTy).Contents (Elt F) → (⟨S12x1x512, .f32⟩ : BufTy).Contents (Elt F)),
    unary main_v131 main_v132 (broadcastInDim S12x16384x512 ![0, 1, 2] bcast_S12x1x512_S12x16384x512_0_1_2 : (⟨S12x1x512, .f32⟩ : BufTy).Contents (Elt F) → (⟨S12x16384x512, .f32⟩ : BufTy).Contents (Elt F)),
    binary main_v130 main_v132 main_v133 (addf : (⟨S12x16384x512, .f32⟩ : BufTy).Contents (Elt F) → (⟨S12x16384x512, .f32⟩ : BufTy).Contents (Elt F) → (⟨S12x16384x512, .f32⟩ : BufTy).Contents (Elt F)),
    reshape main_v133 main_v134 rfl shapeCasts_S12x16384x512_S4x3x16384x512,
    nullary main_cst_21 (constant S_ .f32 0x00000000#32),
    binary main_v134 main_cst_21 main_v135 ((fun x v => Host.reduceAdd x v reducesTo_S4x3x16384x512_S4x16384x512_d1 h_S_) : (⟨S4x3x16384x512, .f32⟩ : BufTy).Contents (Elt F) → (⟨S_, .f32⟩ : BufTy).Contents (Elt F) → (⟨S4x16384x512, .f32⟩ : BufTy).Contents (Elt F)),
    binary main_v120 main_v135 main_v136 (addf : (⟨S4x16384x512, .f32⟩ : BufTy).Contents (Elt F) → (⟨S4x16384x512, .f32⟩ : BufTy).Contents (Elt F) → (⟨S4x16384x512, .f32⟩ : BufTy).Contents (Elt F)),
    unary main_v136 main_v137 ((extractStridedSlice S1x16384x512 ![2, 0, 0] · slices_S4x16384x512_S1x16384x512_2_0_0) : (⟨S4x16384x512, .f32⟩ : BufTy).Contents (Elt F) → (⟨S1x16384x512, .f32⟩ : BufTy).Contents (Elt F)),
    reshape main_v137 main_v138 rfl shapeCasts_S1x16384x512_S16384x512,
    unary main_v136 main_v139 ((extractStridedSlice S1x16384x512 ![3, 0, 0] · slices_S4x16384x512_S1x16384x512_3_0_0) : (⟨S4x16384x512, .f32⟩ : BufTy).Contents (Elt F) → (⟨S1x16384x512, .f32⟩ : BufTy).Contents (Elt F)),
    reshape main_v139 main_v140 rfl shapeCasts_S1x16384x512_S16384x512,
    unary main_v136 main_v141 ((extractStridedSlice S1x16384x512 ![1, 0, 0] · slices_S4x16384x512_S1x16384x512_1_0_0) : (⟨S4x16384x512, .f32⟩ : BufTy).Contents (Elt F) → (⟨S1x16384x512, .f32⟩ : BufTy).Contents (Elt F)),
    reshape main_v141 main_v142 rfl shapeCasts_S1x16384x512_S16384x512,
    unary main_v136 main_v143 ((extractStridedSlice S1x16384x512 ![0, 0, 0] · slices_S4x16384x512_S1x16384x512_0_0_0) : (⟨S4x16384x512, .f32⟩ : BufTy).Contents (Elt F) → (⟨S1x16384x512, .f32⟩ : BufTy).Contents (Elt F)),
    reshape main_v143 main_v144 rfl shapeCasts_S1x16384x512_S16384x512,
    nary ![main_v138, main_v140, main_v142, main_v144] main_v145 (fun u => concatenate S16384x2048 1 [⟨S16384x512, u 0⟩, ⟨S16384x512, u 1⟩, ⟨S16384x512, u 2⟩, ⟨S16384x512, u 3⟩] concatenates_S16384x512_S16384x512_S16384x512_S16384x512_S16384x2048_d1),
    binary main_v145 main_arg24 main_v146 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    unary main_arg25 main_v147 (broadcastInDim S1x512 ![1] bcast_S512_S1x512_1 : (⟨S512, .f32⟩ : BufTy).Contents (Elt F) → (⟨S1x512, .f32⟩ : BufTy).Contents (Elt F)),
    unary main_v147 main_v148 (broadcastInDim S16384x512 ![0, 1] bcast_S1x512_S16384x512_0_1 : (⟨S1x512, .f32⟩ : BufTy).Contents (Elt F) → (⟨S16384x512, .f32⟩ : BufTy).Contents (Elt F)),
    binary main_v146 main_v148 main_v149 (addf : (⟨S16384x512, .f32⟩ : BufTy).Contents (Elt F) → (⟨S16384x512, .f32⟩ : BufTy).Contents (Elt F) → (⟨S16384x512, .f32⟩ : BufTy).Contents (Elt F)),
    TRef.nullary main_call4.cst (constant S_ .f32 0x00000000#32),
    TRef.unary main_call4.cst main_call4.v0 (broadcastInDim S16384x512 ![] bcast_S_S16384x512),
    TRef.binary (.of main_v149) main_call4.v0 main_call4.v1 maximumf,
    binary main_v150 main_arg26 main_v151 ((fun l r => Host.dotGeneral dot_S16384x512_S512x4_S16384x4_1_0_0_1_n_n none l r) : (⟨S16384x512, .f32⟩ : BufTy).Contents (Elt F) → (⟨S512x4, .f32⟩ : BufTy).Contents (Elt F) → (⟨S16384x4, .f32⟩ : BufTy).Contents (Elt F)),
    unary main_arg27 main_v152 (broadcastInDim S1x4 ![1] bcast_S4_S1x4_1 : (⟨S4, .f32⟩ : BufTy).Contents (Elt F) → (⟨S1x4, .f32⟩ : BufTy).Contents (Elt F)),
    unary main_v152 main_v153 (broadcastInDim S16384x4 ![0, 1] bcast_S1x4_S16384x4_0_1 : (⟨S1x4, .f32⟩ : BufTy).Contents (Elt F) → (⟨S16384x4, .f32⟩ : BufTy).Contents (Elt F)),
    binary main_v151 main_v153 main_v154 (addf : (⟨S16384x4, .f32⟩ : BufTy).Contents (Elt F) → (⟨S16384x4, .f32⟩ : BufTy).Contents (Elt F) → (⟨S16384x4, .f32⟩ : BufTy).Contents (Elt F)),
    nullary main_cst_22 (constant S_ .f32 0xFF800000#32),
    binary main_v154 main_cst_22 main_v155 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    nullary main_cst_23 (constant S_ .f32 0xFF800000#32),
    unary main_cst_23 main_v156 (broadcastInDim S16384 ![] bcast_S_S16384 : (⟨S_, .f32⟩ : BufTy).Contents (Elt F) → (⟨S16384, .f32⟩ : BufTy).Contents (Elt F)),
    binary main_v156 main_v155 main_v157 (maximumf : (⟨S16384, .f32⟩ : BufTy).Contents (Elt F) → (⟨S16384, .f32⟩ : BufTy).Contents (Elt F) → (⟨S16384, .f32⟩ : BufTy).Contents (Elt F)),
    unary main_v157 main_v158 (broadcastInDim S16384x1 ![0] bcast_S16384_S16384x1_0 : (⟨S16384, .f32⟩ : BufTy).Contents (Elt F) → (⟨S16384x1, .f32⟩ : BufTy).Contents (Elt F)),
    unary main_v158 main_v159 (broadcastInDim S16384x4 ![0, 1] bcast_S16384x1_S16384x4_0_1 : (⟨S16384x1, .f32⟩ : BufTy).Contents (Elt F) → (⟨S16384x4, .f32⟩ : BufTy).Contents (Elt F)),
    binary main_v154 main_v159 main_v160 (subf : (⟨S16384x4, .f32⟩ : BufTy).Contents (Elt F) → (⟨S16384x4, .f32⟩ : BufTy).Contents (Elt F) → (⟨S16384x4, .f32⟩ : BufTy).Contents (Elt F)),
    unary main_v160 main_v161 (Host.exp : (⟨S16384x4, .f32⟩ : BufTy).Contents (Elt F) → (⟨S16384x4, .f32⟩ : BufTy).Contents (Elt F)),
    nullary main_cst_24 (constant S_ .f32 0x00000000#32),
    binary main_v161 main_cst_24 main_v162 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v162 main_v163 (broadcastInDim S16384x1 ![0] bcast_S16384_S16384x1_0 : (⟨S16384, .f32⟩ : BufTy).Contents (Elt F) → (⟨S16384x1, .f32⟩ : BufTy).Contents (Elt F)),
    unary main_v163 main_v164 (broadcastInDim S16384x4 ![0, 1] bcast_S16384x1_S16384x4_0_1 : (⟨S16384x1, .f32⟩ : BufTy).Contents (Elt F) → (⟨S16384x4, .f32⟩ : BufTy).Contents (Elt F)),
    binary main_v161 main_v164 main_v165 (Host.divf : (⟨S16384x4, .f32⟩ : BufTy).Contents (Elt F) → (⟨S16384x4, .f32⟩ : BufTy).Contents (Elt F) → (⟨S16384x4, .f32⟩ : BufTy).Contents (Elt F)),
    binary main_v145 main_arg28 main_v166 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    unary main_arg29 main_v167 (broadcastInDim S1x512 ![1] bcast_S512_S1x512_1 : (⟨S512, .f32⟩ : BufTy).Contents (Elt F) → (⟨S1x512, .f32⟩ : BufTy).Contents (Elt F)),
    unary main_v167 main_v168 (broadcastInDim S16384x512 ![0, 1] bcast_S1x512_S16384x512_0_1 : (⟨S1x512, .f32⟩ : BufTy).Contents (Elt F) → (⟨S16384x512, .f32⟩ : BufTy).Contents (Elt F)),
    binary main_v166 main_v168 main_v169 (addf : (⟨S16384x512, .f32⟩ : BufTy).Contents (Elt F) → (⟨S16384x512, .f32⟩ : BufTy).Contents (Elt F) → (⟨S16384x512, .f32⟩ : BufTy).Contents (Elt F)),
    unary main_v169 main_v170 (Host.negf : (⟨S16384x512, .f32⟩ : BufTy).Contents (Elt F) → (⟨S16384x512, .f32⟩ : BufTy).Contents (Elt F)),
    unary main_v170 main_v171 (Host.exp : (⟨S16384x512, .f32⟩ : BufTy).Contents (Elt F) → (⟨S16384x512, .f32⟩ : BufTy).Contents (Elt F)),
    nullary main_cst_25 (constant S_ .f32 0x3F800000#32),
    unary main_cst_25 main_v172 (broadcastInDim S16384x512 ![] bcast_S_S16384x512 : (⟨S_, .f32⟩ : BufTy).Contents (Elt F) → (⟨S16384x512, .f32⟩ : BufTy).Contents (Elt F)),
    binary main_v172 main_v171 main_v173 (addf : (⟨S16384x512, .f32⟩ : BufTy).Contents (Elt F) → (⟨S16384x512, .f32⟩ : BufTy).Contents (Elt F) → (⟨S16384x512, .f32⟩ : BufTy).Contents (Elt F)),
    nullary main_cst_26 (constant S_ .f32 0x3F800000#32),
    unary main_cst_26 main_v174 (broadcastInDim S16384x512 ![] bcast_S_S16384x512 : (⟨S_, .f32⟩ : BufTy).Contents (Elt F) → (⟨S16384x512, .f32⟩ : BufTy).Contents (Elt F)),
    binary main_v174 main_v173 main_v175 (Host.divf : (⟨S16384x512, .f32⟩ : BufTy).Contents (Elt F) → (⟨S16384x512, .f32⟩ : BufTy).Contents (Elt F) → (⟨S16384x512, .f32⟩ : BufTy).Contents (Elt F)),
    binary main_v145 main_arg30 main_v176 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    unary main_arg31 main_v177 (broadcastInDim S1x512 ![1] bcast_S512_S1x512_1 : (⟨S512, .f32⟩ : BufTy).Contents (Elt F) → (⟨S1x512, .f32⟩ : BufTy).Contents (Elt F)),
    unary main_v177 main_v178 (broadcastInDim S16384x512 ![0, 1] bcast_S1x512_S16384x512_0_1 : (⟨S1x512, .f32⟩ : BufTy).Contents (Elt F) → (⟨S16384x512, .f32⟩ : BufTy).Contents (Elt F)),
    binary main_v176 main_v178 main_v179 (addf : (⟨S16384x512, .f32⟩ : BufTy).Contents (Elt F) → (⟨S16384x512, .f32⟩ : BufTy).Contents (Elt F) → (⟨S16384x512, .f32⟩ : BufTy).Contents (Elt F)),
    unary main_v179 main_v180 (Host.tanh : (⟨S16384x512, .f32⟩ : BufTy).Contents (Elt F) → (⟨S16384x512, .f32⟩ : BufTy).Contents (Elt F)),
    binary main_v175 main_v180 main_v181 (mulf : (⟨S16384x512, .f32⟩ : BufTy).Contents (Elt F) → (⟨S16384x512, .f32⟩ : BufTy).Contents (Elt F) → (⟨S16384x512, .f32⟩ : BufTy).Contents (Elt F)),
    binary main_v181 main_arg32 main_v182 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    unary main_arg33 main_v183 (broadcastInDim S1x512 ![1] bcast_S512_S1x512_1 : (⟨S512, .f32⟩ : BufTy).Contents (Elt F) → (⟨S1x512, .f32⟩ : BufTy).Contents (Elt F)),
    unary main_v183 main_v184 (broadcastInDim S16384x512 ![0, 1] bcast_S1x512_S16384x512_0_1 : (⟨S1x512, .f32⟩ : BufTy).Contents (Elt F) → (⟨S16384x512, .f32⟩ : BufTy).Contents (Elt F)),
    binary main_v182 main_v184 main_v185 (addf : (⟨S16384x512, .f32⟩ : BufTy).Contents (Elt F) → (⟨S16384x512, .f32⟩ : BufTy).Contents (Elt F) → (⟨S16384x512, .f32⟩ : BufTy).Contents (Elt F)),
    nullary main_cst_27 (constant S_ .f32 0x00000000#32),
    binary main_v185 main_cst_27 main_v186 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v186 main_v187 (broadcastInDim S16384x1 ![0] bcast_S16384_S16384x1_0 : (⟨S16384, .f32⟩ : BufTy).Contents (Elt F) → (⟨S16384x1, .f32⟩ : BufTy).Contents (Elt F)),
    nullary main_cst_28 (constant S_ .f32 0x44000000#32),
    unary main_cst_28 main_v188 (broadcastInDim S16384x1 ![] bcast_S_S16384x1 : (⟨S_, .f32⟩ : BufTy).Contents (Elt F) → (⟨S16384x1, .f32⟩ : BufTy).Contents (Elt F)),
    binary main_v187 main_v188 main_v189 (Host.divf : (⟨S16384x1, .f32⟩ : BufTy).Contents (Elt F) → (⟨S16384x1, .f32⟩ : BufTy).Contents (Elt F) → (⟨S16384x1, .f32⟩ : BufTy).Contents (Elt F)),
    unary main_v189 main_v190 (broadcastInDim S16384x512 ![0, 1] bcast_S16384x1_S16384x512_0_1 : (⟨S16384x1, .f32⟩ : BufTy).Contents (Elt F) → (⟨S16384x512, .f32⟩ : BufTy).Contents (Elt F)),
    binary main_v185 main_v190 main_v191 (subf : (⟨S16384x512, .f32⟩ : BufTy).Contents (Elt F) → (⟨S16384x512, .f32⟩ : BufTy).Contents (Elt F) → (⟨S16384x512, .f32⟩ : BufTy).Contents (Elt F)),
    binary main_v191 main_v191 main_v192 (mulf : (⟨S16384x512, .f32⟩ : BufTy).Contents (Elt F) → (⟨S16384x512, .f32⟩ : BufTy).Contents (Elt F) → (⟨S16384x512, .f32⟩ : BufTy).Contents (Elt F)),
    nullary main_cst_29 (constant S_ .f32 0x00000000#32),
    binary main_v192 main_cst_29 main_v193 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v193 main_v194 (broadcastInDim S16384x1 ![0] bcast_S16384_S16384x1_0 : (⟨S16384, .f32⟩ : BufTy).Contents (Elt F) → (⟨S16384x1, .f32⟩ : BufTy).Contents (Elt F)),
    nullary main_cst_30 (constant S_ .f32 0x44000000#32),
    unary main_cst_30 main_v195 (broadcastInDim S16384x1 ![] bcast_S_S16384x1 : (⟨S_, .f32⟩ : BufTy).Contents (Elt F) → (⟨S16384x1, .f32⟩ : BufTy).Contents (Elt F)),
    binary main_v194 main_v195 main_v196 (Host.divf : (⟨S16384x1, .f32⟩ : BufTy).Contents (Elt F) → (⟨S16384x1, .f32⟩ : BufTy).Contents (Elt F) → (⟨S16384x1, .f32⟩ : BufTy).Contents (Elt F)),
    unary main_v189 main_v197 (broadcastInDim S16384x512 ![0, 1] bcast_S16384x1_S16384x512_0_1 : (⟨S16384x1, .f32⟩ : BufTy).Contents (Elt F) → (⟨S16384x512, .f32⟩ : BufTy).Contents (Elt F)),
    binary main_v185 main_v197 main_v198 (subf : (⟨S16384x512, .f32⟩ : BufTy).Contents (Elt F) → (⟨S16384x512, .f32⟩ : BufTy).Contents (Elt F) → (⟨S16384x512, .f32⟩ : BufTy).Contents (Elt F)),
    nullary main_cst_31 (constant S_ .f32 0x3727C5AC#32),
    unary main_cst_31 main_v199 (broadcastInDim S16384x1 ![] bcast_S_S16384x1 : (⟨S_, .f32⟩ : BufTy).Contents (Elt F) → (⟨S16384x1, .f32⟩ : BufTy).Contents (Elt F)),
    binary main_v196 main_v199 main_v200 (addf : (⟨S16384x1, .f32⟩ : BufTy).Contents (Elt F) → (⟨S16384x1, .f32⟩ : BufTy).Contents (Elt F) → (⟨S16384x1, .f32⟩ : BufTy).Contents (Elt F)),
    unary main_v200 main_v201 (Host.rsqrt : (⟨S16384x1, .f32⟩ : BufTy).Contents (Elt F) → (⟨S16384x1, .f32⟩ : BufTy).Contents (Elt F)),
    unary main_v201 main_v202 (broadcastInDim S16384x512 ![0, 1] bcast_S16384x1_S16384x512_0_1 : (⟨S16384x1, .f32⟩ : BufTy).Contents (Elt F) → (⟨S16384x512, .f32⟩ : BufTy).Contents (Elt F)),
    binary main_v198 main_v202 main_v203 (mulf : (⟨S16384x512, .f32⟩ : BufTy).Contents (Elt F) → (⟨S16384x512, .f32⟩ : BufTy).Contents (Elt F) → (⟨S16384x512, .f32⟩ : BufTy).Contents (Elt F)),
    unary main_arg34 main_v204 (broadcastInDim S1x512 ![1] bcast_S512_S1x512_1 : (⟨S512, .f32⟩ : BufTy).Contents (Elt F) → (⟨S1x512, .f32⟩ : BufTy).Contents (Elt F)),
    unary main_v204 main_v205 (broadcastInDim S16384x512 ![0, 1] bcast_S1x512_S16384x512_0_1 : (⟨S1x512, .f32⟩ : BufTy).Contents (Elt F) → (⟨S16384x512, .f32⟩ : BufTy).Contents (Elt F)),
    binary main_v203 main_v205 main_v206 (mulf : (⟨S16384x512, .f32⟩ : BufTy).Contents (Elt F) → (⟨S16384x512, .f32⟩ : BufTy).Contents (Elt F) → (⟨S16384x512, .f32⟩ : BufTy).Contents (Elt F)),
    unary main_arg35 main_v207 (broadcastInDim S1x512 ![1] bcast_S512_S1x512_1 : (⟨S512, .f32⟩ : BufTy).Contents (Elt F) → (⟨S1x512, .f32⟩ : BufTy).Contents (Elt F)),
    unary main_v207 main_v208 (broadcastInDim S16384x512 ![0, 1] bcast_S1x512_S16384x512_0_1 : (⟨S1x512, .f32⟩ : BufTy).Contents (Elt F) → (⟨S16384x512, .f32⟩ : BufTy).Contents (Elt F)),
    binary main_v206 main_v208 main_v209 (addf : (⟨S16384x512, .f32⟩ : BufTy).Contents (Elt F) → (⟨S16384x512, .f32⟩ : BufTy).Contents (Elt F) → (⟨S16384x512, .f32⟩ : BufTy).Contents (Elt F)) ]

/-! ## The stages -/

def lin256 (p0 : (⟨S16384x256, .f32⟩ : BufTy).Contents (Elt F)) (p1 : (⟨S256x512, .f32⟩ : BufTy).Contents (Elt F)) (p2 : (⟨S512, .f32⟩ : BufTy).Contents (Elt F)) : (⟨S16384x512, .f32⟩ : BufTy).Contents (Elt F) :=
  (addf ((fun l r => Host.dotGeneral dot_S16384x256_S256x512_S16384x512_1_0_0_1_n_n none l r) p0 p1) (broadcastInDim S16384x512 ![0, 1] bcast_S1x512_S16384x512_0_1 (broadcastInDim S1x512 ![1] bcast_S512_S1x512_1 p2)))

def rowMean (p0 : (⟨S16384x512, .f32⟩ : BufTy).Contents (Elt F)) : (⟨S16384x1, .f32⟩ : BufTy).Contents (Elt F) :=
  (Host.divf (broadcastInDim S16384x1 ![0] bcast_S16384_S16384x1_0 ((fun x v => Host.reduceAdd x v reducesTo_S16384x512_S16384_d1 h_S_) p0 (constant S_ .f32 0x00000000#32))) (broadcastInDim S16384x1 ![] bcast_S_S16384x1 (constant S_ .f32 0x44000000#32)))

def normRelu (p0 : (⟨S16384x512, .f32⟩ : BufTy).Contents (Elt F)) (p1 : (⟨S16384x1, .f32⟩ : BufTy).Contents (Elt F)) (p2 : (⟨S512, .f32⟩ : BufTy).Contents (Elt F)) (p3 : (⟨S512, .f32⟩ : BufTy).Contents (Elt F)) : (⟨S16384x512, .f32⟩ : BufTy).Contents (Elt F) :=
  (maximumf (addf (mulf (mulf (subf p0 (broadcastInDim S16384x512 ![0, 1] bcast_S16384x1_S16384x512_0_1 p1)) (broadcastInDim S16384x512 ![0, 1] bcast_S16384x1_S16384x512_0_1 (Host.rsqrt (addf (Host.divf (broadcastInDim S16384x1 ![0] bcast_S16384_S16384x1_0 ((fun x v => Host.reduceAdd x v reducesTo_S16384x512_S16384_d1 h_S_) (mulf (subf p0 (broadcastInDim S16384x512 ![0, 1] bcast_S16384x1_S16384x512_0_1 p1)) (subf p0 (broadcastInDim S16384x512 ![0, 1] bcast_S16384x1_S16384x512_0_1 p1))) (constant S_ .f32 0x00000000#32))) (broadcastInDim S16384x1 ![] bcast_S_S16384x1 (constant S_ .f32 0x44000000#32))) (broadcastInDim S16384x1 ![] bcast_S_S16384x1 (constant S_ .f32 0x3727C5AC#32)))))) (broadcastInDim S16384x512 ![0, 1] bcast_S1x512_S16384x512_0_1 (broadcastInDim S1x512 ![1] bcast_S512_S1x512_1 p2))) (broadcastInDim S16384x512 ![0, 1] bcast_S1x512_S16384x512_0_1 (broadcastInDim S1x512 ![1] bcast_S512_S1x512_1 p3))) ((broadcastInDim S16384x512 ![] bcast_S_S16384x512) (constant S_ .f32 0x00000000#32)))

def lin768 (p0 : (⟨S16384x768, .f32⟩ : BufTy).Contents (Elt F)) (p1 : (⟨S768x512, .f32⟩ : BufTy).Contents (Elt F)) (p2 : (⟨S512, .f32⟩ : BufTy).Contents (Elt F)) : (⟨S16384x512, .f32⟩ : BufTy).Contents (Elt F) :=
  (addf ((fun l r => Host.dotGeneral dot_S16384x768_S768x512_S16384x512_1_0_0_1_n_n none l r) p0 p1) (broadcastInDim S16384x512 ![0, 1] bcast_S1x512_S16384x512_0_1 (broadcastInDim S1x512 ![1] bcast_S512_S1x512_1 p2)))

def lin128 (p0 : (⟨S16384x128, .f32⟩ : BufTy).Contents (Elt F)) (p1 : (⟨S128x512, .f32⟩ : BufTy).Contents (Elt F)) (p2 : (⟨S512, .f32⟩ : BufTy).Contents (Elt F)) : (⟨S16384x512, .f32⟩ : BufTy).Contents (Elt F) :=
  (addf ((fun l r => Host.dotGeneral dot_S16384x128_S128x512_S16384x512_1_0_0_1_n_n none l r) p0 p1) (broadcastInDim S16384x512 ![0, 1] bcast_S1x512_S16384x512_0_1 (broadcastInDim S1x512 ![1] bcast_S512_S1x512_1 p2)))

def stack4 (p0 : (⟨S16384x512, .f32⟩ : BufTy).Contents (Elt F)) (p1 : (⟨S16384x512, .f32⟩ : BufTy).Contents (Elt F)) (p2 : (⟨S16384x512, .f32⟩ : BufTy).Contents (Elt F)) (p3 : (⟨S16384x512, .f32⟩ : BufTy).Contents (Elt F)) : (⟨S4x16384x512, .f32⟩ : BufTy).Contents (Elt F) :=
  (concatenate S4x16384x512 0 [⟨S1x16384x512, (broadcastInDim S1x16384x512 ![1, 2] bcast_S16384x512_S1x16384x512_1_2 p0)⟩, ⟨S1x16384x512, (broadcastInDim S1x16384x512 ![1, 2] bcast_S16384x512_S1x16384x512_1_2 p1)⟩, ⟨S1x16384x512, (broadcastInDim S1x16384x512 ![1, 2] bcast_S16384x512_S1x16384x512_1_2 p2)⟩, ⟨S1x16384x512, (broadcastInDim S1x16384x512 ![1, 2] bcast_S16384x512_S1x16384x512_1_2 p3)⟩] concatenates_S1x16384x512_S1x16384x512_S1x16384x512_S1x16384x512_S4x16384x512_d0)

def gathered (p0 : (⟨S4x16384x512, .f32⟩ : BufTy).Contents (Elt F)) : (⟨S12x16384x512, .f32⟩ : BufTy).Contents (Elt F) :=
  ((fun x i => Host.gather gather_S4x16384x512_S12x1_S12x16384x512_12_0_n_n_0_1_116384512 x i) p0 (broadcastInDim S12x1 ![0] bcast_S12_S12x1_0 (select (constantI S12 1 0#1) (addi (fun i => lit0 (S12.rowMajor i)) (broadcastInDim S12 ![] bcast_S_S12 (constantI S_ 32 4#32))) (fun i => lit0 (S12.rowMajor i)))))

def valueProj (p0 : (⟨S12x16384x512, .f32⟩ : BufTy).Contents (Elt F)) (p1 : (⟨S12x512x512, .f32⟩ : BufTy).Contents (Elt F)) (p2 : (⟨S12x512, .f32⟩ : BufTy).Contents (Elt F)) : (⟨S12x16384x512, .f32⟩ : BufTy).Contents (Elt F) :=
  (addf ((fun l r => Host.dotGeneral dot_S12x16384x512_S12x512x512_S12x16384x512_2_1_1_2_0_0 none l r) p0 p1) (broadcastInDim S12x16384x512 ![0, 1, 2] bcast_S12x1x512_S12x16384x512_0_1_2 (broadcastInDim S12x1x512 ![0, 2] bcast_S12x512_S12x1x512_0_2 p2)))

def attended (p0 : (⟨S4x16384x512, .f32⟩ : BufTy).Contents (Elt F)) (p1 : (⟨S12x16384x512, .f32⟩ : BufTy).Contents (Elt F)) : (⟨S4x16384x512, .f32⟩ : BufTy).Contents (Elt F) :=
  (addf p0 ((fun x v => Host.reduceAdd x v reducesTo_S4x3x16384x512_S4x16384x512_d1 h_S_) (shapeCast _ p1 shapeCasts_S12x16384x512_S4x3x16384x512) (constant S_ .f32 0x00000000#32)))

def concat4 (p0 : (⟨S4x16384x512, .f32⟩ : BufTy).Contents (Elt F)) : (⟨S16384x2048, .f32⟩ : BufTy).Contents (Elt F) :=
  (concatenate S16384x2048 1 [⟨S16384x512, (shapeCast _ ((extractStridedSlice S1x16384x512 ![2, 0, 0] · slices_S4x16384x512_S1x16384x512_2_0_0) p0) shapeCasts_S1x16384x512_S16384x512)⟩, ⟨S16384x512, (shapeCast _ ((extractStridedSlice S1x16384x512 ![3, 0, 0] · slices_S4x16384x512_S1x16384x512_3_0_0) p0) shapeCasts_S1x16384x512_S16384x512)⟩, ⟨S16384x512, (shapeCast _ ((extractStridedSlice S1x16384x512 ![1, 0, 0] · slices_S4x16384x512_S1x16384x512_1_0_0) p0) shapeCasts_S1x16384x512_S16384x512)⟩, ⟨S16384x512, (shapeCast _ ((extractStridedSlice S1x16384x512 ![0, 0, 0] · slices_S4x16384x512_S1x16384x512_0_0_0) p0) shapeCasts_S1x16384x512_S16384x512)⟩] concatenates_S16384x512_S16384x512_S16384x512_S16384x512_S16384x2048_d1)

def mixLin (p0 : (⟨S16384x2048, .f32⟩ : BufTy).Contents (Elt F)) (p1 : (⟨S2048x512, .f32⟩ : BufTy).Contents (Elt F)) (p2 : (⟨S512, .f32⟩ : BufTy).Contents (Elt F)) : (⟨S16384x512, .f32⟩ : BufTy).Contents (Elt F) :=
  (addf ((fun l r => Host.dotGeneral dot_S16384x2048_S2048x512_S16384x512_1_0_0_1_n_n none l r) p0 p1) (broadcastInDim S16384x512 ![0, 1] bcast_S1x512_S16384x512_0_1 (broadcastInDim S1x512 ![1] bcast_S512_S1x512_1 p2)))

def relu (p0 : (⟨S16384x512, .f32⟩ : BufTy).Contents (Elt F)) : (⟨S16384x512, .f32⟩ : BufTy).Contents (Elt F) :=
  (maximumf p0 ((broadcastInDim S16384x512 ![] bcast_S_S16384x512) (constant S_ .f32 0x00000000#32)))

def logits (p0 : (⟨S16384x512, .f32⟩ : BufTy).Contents (Elt F)) (p1 : (⟨S512x4, .f32⟩ : BufTy).Contents (Elt F)) (p2 : (⟨S4, .f32⟩ : BufTy).Contents (Elt F)) : (⟨S16384x4, .f32⟩ : BufTy).Contents (Elt F) :=
  (addf ((fun l r => Host.dotGeneral dot_S16384x512_S512x4_S16384x4_1_0_0_1_n_n none l r) p0 p1) (broadcastInDim S16384x4 ![0, 1] bcast_S1x4_S16384x4_0_1 (broadcastInDim S1x4 ![1] bcast_S4_S1x4_1 p2)))

def rowMax (p0 : (⟨S16384x4, .f32⟩ : BufTy).Contents (Elt F)) : (⟨S16384, .f32⟩ : BufTy).Contents (Elt F) :=
  (maximumf (broadcastInDim S16384 ![] bcast_S_S16384 (constant S_ .f32 0xFF800000#32)) ((fun x v => Host.reduce FloatOps.maximumf x v reducesTo_S16384x4_S16384_d1 h_S_) p0 (constant S_ .f32 0xFF800000#32)))

def expShift (p0 : (⟨S16384x4, .f32⟩ : BufTy).Contents (Elt F)) (p1 : (⟨S16384, .f32⟩ : BufTy).Contents (Elt F)) : (⟨S16384x4, .f32⟩ : BufTy).Contents (Elt F) :=
  (Host.exp (subf p0 (broadcastInDim S16384x4 ![0, 1] bcast_S16384x1_S16384x4_0_1 (broadcastInDim S16384x1 ![0] bcast_S16384_S16384x1_0 p1))))

def softmaxOut (p0 : (⟨S16384x4, .f32⟩ : BufTy).Contents (Elt F)) : (⟨S16384x4, .f32⟩ : BufTy).Contents (Elt F) :=
  (Host.divf p0 (broadcastInDim S16384x4 ![0, 1] bcast_S16384x1_S16384x4_0_1 (broadcastInDim S16384x1 ![0] bcast_S16384_S16384x1_0 ((fun x v => Host.reduceAdd x v reducesTo_S16384x4_S16384_d1 h_S_) p0 (constant S_ .f32 0x00000000#32)))))

def gate (p0 : (⟨S16384x512, .f32⟩ : BufTy).Contents (Elt F)) : (⟨S16384x512, .f32⟩ : BufTy).Contents (Elt F) :=
  (Host.divf (broadcastInDim S16384x512 ![] bcast_S_S16384x512 (constant S_ .f32 0x3F800000#32)) (addf (broadcastInDim S16384x512 ![] bcast_S_S16384x512 (constant S_ .f32 0x3F800000#32)) (Host.exp (Host.negf p0))))

def tanhOf (p0 : (⟨S16384x512, .f32⟩ : BufTy).Contents (Elt F)) : (⟨S16384x512, .f32⟩ : BufTy).Contents (Elt F) :=
  (Host.tanh p0)

def gated (p0 : (⟨S16384x512, .f32⟩ : BufTy).Contents (Elt F)) (p1 : (⟨S16384x512, .f32⟩ : BufTy).Contents (Elt F)) : (⟨S16384x512, .f32⟩ : BufTy).Contents (Elt F) :=
  (mulf p0 p1)

def lin512 (p0 : (⟨S16384x512, .f32⟩ : BufTy).Contents (Elt F)) (p1 : (⟨S512x512, .f32⟩ : BufTy).Contents (Elt F)) (p2 : (⟨S512, .f32⟩ : BufTy).Contents (Elt F)) : (⟨S16384x512, .f32⟩ : BufTy).Contents (Elt F) :=
  (addf ((fun l r => Host.dotGeneral dot_S16384x512_S512x512_S16384x512_1_0_0_1_n_n none l r) p0 p1) (broadcastInDim S16384x512 ![0, 1] bcast_S1x512_S16384x512_0_1 (broadcastInDim S1x512 ![1] bcast_S512_S1x512_1 p2)))

def normOut (p0 : (⟨S16384x512, .f32⟩ : BufTy).Contents (Elt F)) (p1 : (⟨S16384x1, .f32⟩ : BufTy).Contents (Elt F)) (p2 : (⟨S512, .f32⟩ : BufTy).Contents (Elt F)) (p3 : (⟨S512, .f32⟩ : BufTy).Contents (Elt F)) : (⟨S16384x512, .f32⟩ : BufTy).Contents (Elt F) :=
  (addf (mulf (mulf (subf p0 (broadcastInDim S16384x512 ![0, 1] bcast_S16384x1_S16384x512_0_1 p1)) (broadcastInDim S16384x512 ![0, 1] bcast_S16384x1_S16384x512_0_1 (Host.rsqrt (addf (Host.divf (broadcastInDim S16384x1 ![0] bcast_S16384_S16384x1_0 ((fun x v => Host.reduceAdd x v reducesTo_S16384x512_S16384_d1 h_S_) (mulf (subf p0 (broadcastInDim S16384x512 ![0, 1] bcast_S16384x1_S16384x512_0_1 p1)) (subf p0 (broadcastInDim S16384x512 ![0, 1] bcast_S16384x1_S16384x512_0_1 p1))) (constant S_ .f32 0x00000000#32))) (broadcastInDim S16384x1 ![] bcast_S_S16384x1 (constant S_ .f32 0x44000000#32))) (broadcastInDim S16384x1 ![] bcast_S_S16384x1 (constant S_ .f32 0x3727C5AC#32)))))) (broadcastInDim S16384x512 ![0, 1] bcast_S1x512_S16384x512_0_1 (broadcastInDim S1x512 ![1] bcast_S512_S1x512_1 p2))) (broadcastInDim S16384x512 ![0, 1] bcast_S1x512_S16384x512_0_1 (broadcastInDim S1x512 ![1] bcast_S512_S1x512_1 p3)))

/-- The first result: the final LayerNorm of the gated mixture's linear layer. -/
def resOut (m : (ℓ : Loc nD τ sig) → Buf (Elt F) ℓ) (c : Dev nD) : (⟨S16384x512, .f32⟩ : BufTy).Contents (Elt F) :=
  (normOut (lin512 (gated (gate (mixLin (concat4 (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))) (m ((c.tc : Thread nD τ).loc main_arg28)) (m ((c.tc : Thread nD τ).loc main_arg29)))) (tanhOf (mixLin (concat4 (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))) (m ((c.tc : Thread nD τ).loc main_arg30)) (m ((c.tc : Thread nD τ).loc main_arg31))))) (m ((c.tc : Thread nD τ).loc main_arg32)) (m ((c.tc : Thread nD τ).loc main_arg33))) (rowMean (lin512 (gated (gate (mixLin (concat4 (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))) (m ((c.tc : Thread nD τ).loc main_arg28)) (m ((c.tc : Thread nD τ).loc main_arg29)))) (tanhOf (mixLin (concat4 (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))) (m ((c.tc : Thread nD τ).loc main_arg30)) (m ((c.tc : Thread nD τ).loc main_arg31))))) (m ((c.tc : Thread nD τ).loc main_arg32)) (m ((c.tc : Thread nD τ).loc main_arg33)))) (m ((c.tc : Thread nD τ).loc main_arg34)) (m ((c.tc : Thread nD τ).loc main_arg35)))

/-- The second result: the four attended blocks. -/
def resAtt (m : (ℓ : Loc nD τ sig) → Buf (Elt F) ℓ) (c : Dev nD) : (⟨S4x16384x512, .f32⟩ : BufTy).Contents (Elt F) :=
  (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))

/-- The third result: the softmax of the logits. -/
def resImp (m : (ℓ : Loc nD τ sig) → Buf (Elt F) ℓ) (c : Dev nD) : (⟨S16384x4, .f32⟩ : BufTy).Contents (Elt F) :=
  (softmaxOut (expShift (logits (relu (mixLin (concat4 (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))) (m ((c.tc : Thread nD τ).loc main_arg24)) (m ((c.tc : Thread nD τ).loc main_arg25)))) (m ((c.tc : Thread nD τ).loc main_arg26)) (m ((c.tc : Thread nD τ).loc main_arg27))) (rowMax (logits (relu (mixLin (concat4 (attended (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19)))) (valueProj (valueProj (gathered (stack4 (normRelu (lin256 (m ((c.tc : Thread nD τ).loc main_arg0)) (m ((c.tc : Thread nD τ).loc main_arg4)) (m ((c.tc : Thread nD τ).loc main_arg5))) (rowMean (lin256 (m ((c.tc : Thread nD τ).loc main_arg0)) (m ((c.tc : Thread nD τ).loc main_arg4)) (m ((c.tc : Thread nD τ).loc main_arg5)))) (m ((c.tc : Thread nD τ).loc main_arg6)) (m ((c.tc : Thread nD τ).loc main_arg7))) (normRelu (lin768 (m ((c.tc : Thread nD τ).loc main_arg1)) (m ((c.tc : Thread nD τ).loc main_arg8)) (m ((c.tc : Thread nD τ).loc main_arg9))) (rowMean (lin768 (m ((c.tc : Thread nD τ).loc main_arg1)) (m ((c.tc : Thread nD τ).loc main_arg8)) (m ((c.tc : Thread nD τ).loc main_arg9)))) (m ((c.tc : Thread nD τ).loc main_arg10)) (m ((c.tc : Thread nD τ).loc main_arg11))) (normRelu (lin128 (m ((c.tc : Thread nD τ).loc main_arg2)) (m ((c.tc : Thread nD τ).loc main_arg12)) (m ((c.tc : Thread nD τ).loc main_arg13))) (rowMean (lin128 (m ((c.tc : Thread nD τ).loc main_arg2)) (m ((c.tc : Thread nD τ).loc main_arg12)) (m ((c.tc : Thread nD τ).loc main_arg13)))) (m ((c.tc : Thread nD τ).loc main_arg14)) (m ((c.tc : Thread nD τ).loc main_arg15))) (normRelu (lin256 (m ((c.tc : Thread nD τ).loc main_arg3)) (m ((c.tc : Thread nD τ).loc main_arg16)) (m ((c.tc : Thread nD τ).loc main_arg17))) (rowMean (lin256 (m ((c.tc : Thread nD τ).loc main_arg3)) (m ((c.tc : Thread nD τ).loc main_arg16)) (m ((c.tc : Thread nD τ).loc main_arg17)))) (m ((c.tc : Thread nD τ).loc main_arg18)) (m ((c.tc : Thread nD τ).loc main_arg19))))) (m ((c.tc : Thread nD τ).loc main_arg20)) (m ((c.tc : Thread nD τ).loc main_arg21))) (m ((c.tc : Thread nD τ).loc main_arg22)) (m ((c.tc : Thread nD τ).loc main_arg23))))) (m ((c.tc : Thread nD τ).loc main_arg24)) (m ((c.tc : Thread nD τ).loc main_arg25)))) (m ((c.tc : Thread nD τ).loc main_arg26)) (m ((c.tc : Thread nD τ).loc main_arg27))))))

set_option maxRecDepth 16384 in
/-- Every operation names buffers of the TensorCore's table only. -/
theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., nary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., nullary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.ReferenceIdeal.RefRun

end
-- ==== Proof.RefRun.lean ====
/-
  The reference program runs as the straight line of its operations: every weakly fair execution of @main ends,
  without a fault, with each buffer holding the fold of the operations over the contents it was launched with.
  An argument array is written by no operation, so it ends as it began.
-/
import proofs.«146539_j55808805044797_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement is re-associated, and the rewrite under the chain recurses once per statement
set_option maxRecDepth 16384 in
set_option maxHeartbeats 4000000 in
/-- @main is that straight line: its five windows of statements and the ReLU's body unfolded at the five calls, both
    sides are one chain of steps once sequencing is re-associated. -/
theorem main_eq (c : Dev nD) : main (F := F) c = seq ops := by
  simp only [main, main_part0, main_part1, main_part2, main_part3, main_part4, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with every buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefArgs0.lean ====
/-
  No operation of the reference program writes an argument array: arguments 0 to 8 hold, after the fold of
  the operations over any contents, what they held before.
-/
import proofs.«146539_j55808805044797_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 64000000 in
/-- Argument 0 is written by no operation. -/
theorem arg0_eq (V : Valuation τ sig (Elt F)) :
    after ops V (main_arg0 : DevRef τ sig) = V (main_arg0 : DevRef τ sig) := by
  after_results_simp

set_option maxRecDepth 16384 in
set_option maxHeartbeats 64000000 in
/-- Argument 1 is written by no operation. -/
theorem arg1_eq (V : Valuation τ sig (Elt F)) :
    after ops V (main_arg1 : DevRef τ sig) = V (main_arg1 : DevRef τ sig) := by
  after_results_simp

set_option maxRecDepth 16384 in
set_option maxHeartbeats 64000000 in
/-- Argument 2 is written by no operation. -/
theorem arg2_eq (V : Valuation τ sig (Elt F)) :
    after ops V (main_arg2 : DevRef τ sig) = V (main_arg2 : DevRef τ sig) := by
  after_results_simp

set_option maxRecDepth 16384 in
set_option maxHeartbeats 64000000 in
/-- Argument 3 is written by no operation. -/
theorem arg3_eq (V : Valuation τ sig (Elt F)) :
    after ops V (main_arg3 : DevRef τ sig) = V (main_arg3 : DevRef τ sig) := by
  after_results_simp

set_option maxRecDepth 16384 in
set_option maxHeartbeats 64000000 in
/-- Argument 4 is written by no operation. -/
theorem arg4_eq (V : Valuation τ sig (Elt F)) :
    after ops V (main_arg4 : DevRef τ sig) = V (main_arg4 : DevRef τ sig) := by
  after_results_simp

set_option maxRecDepth 16384 in
set_option maxHeartbeats 64000000 in
/-- Argument 5 is written by no operation. -/
theorem arg5_eq (V : Valuation τ sig (Elt F)) :
    after ops V (main_arg5 : DevRef τ sig) = V (main_arg5 : DevRef τ sig) := by
  after_results_simp

set_option maxRecDepth 16384 in
set_option maxHeartbeats 64000000 in
/-- Argument 6 is written by no operation. -/
theorem arg6_eq (V : Valuation τ sig (Elt F)) :
    after ops V (main_arg6 : DevRef τ sig) = V (main_arg6 : DevRef τ sig) := by
  after_results_simp

set_option maxRecDepth 16384 in
set_option maxHeartbeats 64000000 in
/-- Argument 7 is written by no operation. -/
theorem arg7_eq (V : Valuation τ sig (Elt F)) :
    after ops V (main_arg7 : DevRef τ sig) = V (main_arg7 : DevRef τ sig) := by
  after_results_simp

set_option maxRecDepth 16384 in
set_option maxHeartbeats 64000000 in
/-- Argument 8 is written by no operation. -/
theorem arg8_eq (V : Valuation τ sig (Elt F)) :
    after ops V (main_arg8 : DevRef τ sig) = V (main_arg8 : DevRef τ sig) := by
  after_results_simp

end Cert.ReferenceIdeal.RefRun

end
-- ==== Proof.RefArgs1.lean ====
/-
  No operation of the reference program writes an argument array: arguments 9 to 17 hold, after the fold of
  the operations over any contents, what they held before.
-/
import proofs.«146539_j55808805044797_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 64000000 in
/-- Argument 9 is written by no operation. -/
theorem arg9_eq (V : Valuation τ sig (Elt F)) :
    after ops V (main_arg9 : DevRef τ sig) = V (main_arg9 : DevRef τ sig) := by
  after_results_simp

set_option maxRecDepth 16384 in
set_option maxHeartbeats 64000000 in
/-- Argument 10 is written by no operation. -/
theorem arg10_eq (V : Valuation τ sig (Elt F)) :
    after ops V (main_arg10 : DevRef τ sig) = V (main_arg10 : DevRef τ sig) := by
  after_results_simp

set_option maxRecDepth 16384 in
set_option maxHeartbeats 64000000 in
/-- Argument 11 is written by no operation. -/
theorem arg11_eq (V : Valuation τ sig (Elt F)) :
    after ops V (main_arg11 : DevRef τ sig) = V (main_arg11 : DevRef τ sig) := by
  after_results_simp

set_option maxRecDepth 16384 in
set_option maxHeartbeats 64000000 in
/-- Argument 12 is written by no operation. -/
theorem arg12_eq (V : Valuation τ sig (Elt F)) :
    after ops V (main_arg12 : DevRef τ sig) = V (main_arg12 : DevRef τ sig) := by
  after_results_simp

set_option maxRecDepth 16384 in
set_option maxHeartbeats 64000000 in
/-- Argument 13 is written by no operation. -/
theorem arg13_eq (V : Valuation τ sig (Elt F)) :
    after ops V (main_arg13 : DevRef τ sig) = V (main_arg13 : DevRef τ sig) := by
  after_results_simp

set_option maxRecDepth 16384 in
set_option maxHeartbeats 64000000 in
/-- Argument 14 is written by no operation. -/
theorem arg14_eq (V : Valuation τ sig (Elt F)) :
    after ops V (main_arg14 : DevRef τ sig) = V (main_arg14 : DevRef τ sig) := by
  after_results_simp

set_option maxRecDepth 16384 in
set_option maxHeartbeats 64000000 in
/-- Argument 15 is written by no operation. -/
theorem arg15_eq (V : Valuation τ sig (Elt F)) :
    after ops V (main_arg15 : DevRef τ sig) = V (main_arg15 : DevRef τ sig) := by
  after_results_simp

set_option maxRecDepth 16384 in
set_option maxHeartbeats 64000000 in
/-- Argument 16 is written by no operation. -/
theorem arg16_eq (V : Valuation τ sig (Elt F)) :
    after ops V (main_arg16 : DevRef τ sig) = V (main_arg16 : DevRef τ sig) := by
  after_results_simp

set_option maxRecDepth 16384 in
set_option maxHeartbeats 64000000 in
/-- Argument 17 is written by no operation. -/
theorem arg17_eq (V : Valuation τ sig (Elt F)) :
    after ops V (main_arg17 : DevRef τ sig) = V (main_arg17 : DevRef τ sig) := by
  after_results_simp

end Cert.ReferenceIdeal.RefRun

end
-- ==== Proof.RefArgs2.lean ====
/-
  No operation of the reference program writes an argument array: arguments 18 to 26 hold, after the fold of
  the operations over any contents, what they held before.
-/
import proofs.«146539_j55808805044797_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 64000000 in
/-- Argument 18 is written by no operation. -/
theorem arg18_eq (V : Valuation τ sig (Elt F)) :
    after ops V (main_arg18 : DevRef τ sig) = V (main_arg18 : DevRef τ sig) := by
  after_results_simp

set_option maxRecDepth 16384 in
set_option maxHeartbeats 64000000 in
/-- Argument 19 is written by no operation. -/
theorem arg19_eq (V : Valuation τ sig (Elt F)) :
    after ops V (main_arg19 : DevRef τ sig) = V (main_arg19 : DevRef τ sig) := by
  after_results_simp

set_option maxRecDepth 16384 in
set_option maxHeartbeats 64000000 in
/-- Argument 20 is written by no operation. -/
theorem arg20_eq (V : Valuation τ sig (Elt F)) :
    after ops V (main_arg20 : DevRef τ sig) = V (main_arg20 : DevRef τ sig) := by
  after_results_simp

set_option maxRecDepth 16384 in
set_option maxHeartbeats 64000000 in
/-- Argument 21 is written by no operation. -/
theorem arg21_eq (V : Valuation τ sig (Elt F)) :
    after ops V (main_arg21 : DevRef τ sig) = V (main_arg21 : DevRef τ sig) := by
  after_results_simp

set_option maxRecDepth 16384 in
set_option maxHeartbeats 64000000 in
/-- Argument 22 is written by no operation. -/
theorem arg22_eq (V : Valuation τ sig (Elt F)) :
    after ops V (main_arg22 : DevRef τ sig) = V (main_arg22 : DevRef τ sig) := by
  after_results_simp

set_option maxRecDepth 16384 in
set_option maxHeartbeats 64000000 in
/-- Argument 23 is written by no operation. -/
theorem arg23_eq (V : Valuation τ sig (Elt F)) :
    after ops V (main_arg23 : DevRef τ sig) = V (main_arg23 : DevRef τ sig) := by
  after_results_simp

set_option maxRecDepth 16384 in
set_option maxHeartbeats 64000000 in
/-- Argument 24 is written by no operation. -/
theorem arg24_eq (V : Valuation τ sig (Elt F)) :
    after ops V (main_arg24 : DevRef τ sig) = V (main_arg24 : DevRef τ sig) := by
  after_results_simp

set_option maxRecDepth 16384 in
set_option maxHeartbeats 64000000 in
/-- Argument 25 is written by no operation. -/
theorem arg25_eq (V : Valuation τ sig (Elt F)) :
    after ops V (main_arg25 : DevRef τ sig) = V (main_arg25 : DevRef τ sig) := by
  after_results_simp

set_option maxRecDepth 16384 in
set_option maxHeartbeats 64000000 in
/-- Argument 26 is written by no operation. -/
theorem arg26_eq (V : Valuation τ sig (Elt F)) :
    after ops V (main_arg26 : DevRef τ sig) = V (main_arg26 : DevRef τ sig) := by
  after_results_simp

end Cert.ReferenceIdeal.RefRun

end
-- ==== Proof.RefArgs3.lean ====
/-
  No operation of the reference program writes an argument array: arguments 27 to 35 hold, after the fold of
  the operations over any contents, what they held before.
-/
import proofs.«146539_j55808805044797_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 64000000 in
/-- Argument 27 is written by no operation. -/
theorem arg27_eq (V : Valuation τ sig (Elt F)) :
    after ops V (main_arg27 : DevRef τ sig) = V (main_arg27 : DevRef τ sig) := by
  after_results_simp

set_option maxRecDepth 16384 in
set_option maxHeartbeats 64000000 in
/-- Argument 28 is written by no operation. -/
theorem arg28_eq (V : Valuation τ sig (Elt F)) :
    after ops V (main_arg28 : DevRef τ sig) = V (main_arg28 : DevRef τ sig) := by
  after_results_simp

set_option maxRecDepth 16384 in
set_option maxHeartbeats 64000000 in
/-- Argument 29 is written by no operation. -/
theorem arg29_eq (V : Valuation τ sig (Elt F)) :
    after ops V (main_arg29 : DevRef τ sig) = V (main_arg29 : DevRef τ sig) := by
  after_results_simp

set_option maxRecDepth 16384 in
set_option maxHeartbeats 64000000 in
/-- Argument 30 is written by no operation. -/
theorem arg30_eq (V : Valuation τ sig (Elt F)) :
    after ops V (main_arg30 : DevRef τ sig) = V (main_arg30 : DevRef τ sig) := by
  after_results_simp

set_option maxRecDepth 16384 in
set_option maxHeartbeats 64000000 in
/-- Argument 31 is written by no operation. -/
theorem arg31_eq (V : Valuation τ sig (Elt F)) :
    after ops V (main_arg31 : DevRef τ sig) = V (main_arg31 : DevRef τ sig) := by
  after_results_simp

set_option maxRecDepth 16384 in
set_option maxHeartbeats 64000000 in
/-- Argument 32 is written by no operation. -/
theorem arg32_eq (V : Valuation τ sig (Elt F)) :
    after ops V (main_arg32 : DevRef τ sig) = V (main_arg32 : DevRef τ sig) := by
  after_results_simp

set_option maxRecDepth 16384 in
set_option maxHeartbeats 64000000 in
/-- Argument 33 is written by no operation. -/
theorem arg33_eq (V : Valuation τ sig (Elt F)) :
    after ops V (main_arg33 : DevRef τ sig) = V (main_arg33 : DevRef τ sig) := by
  after_results_simp

set_option maxRecDepth 16384 in
set_option maxHeartbeats 64000000 in
/-- Argument 34 is written by no operation. -/
theorem arg34_eq (V : Valuation τ sig (Elt F)) :
    after ops V (main_arg34 : DevRef τ sig) = V (main_arg34 : DevRef τ sig) := by
  after_results_simp

set_option maxRecDepth 16384 in
set_option maxHeartbeats 64000000 in
/-- Argument 35 is written by no operation. -/
theorem arg35_eq (V : Valuation τ sig (Elt F)) :
    after ops V (main_arg35 : DevRef τ sig) = V (main_arg35 : DevRef τ sig) := by
  after_results_simp

end Cert.ReferenceIdeal.RefRun

end
-- ==== Proof.RefOpsSplit.lean ====
/-
  The reference program's operations in two consecutive parts: up to and including the one that writes the attended
  stack, and the rest (the importance head and the fused output, which read the attended stack and later arguments only).
-/
import proofs.«146539_j55808805044797_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 169 operations: the projections and the attention stage. -/
abbrev opsA : List (HloOp τ sig (Elt F)) :=
  [ nullary main_c (fun i => lit0 (S12.rowMajor i)),
    nullary main_c_0 (constantI S12 1 0#1),
    binary main_arg0 main_arg4 main_v0 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg5 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v3 main_cst main_v4 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    nullary main_cst_1 (constant S_ .f32 0x44000000#32),
    unary main_cst_1 main_v6 (broadcastInDim S16384x1 ![] bcast_S_S16384x1 : (⟨S_, .f32⟩ : BufTy).Contents (Elt F) → (⟨S16384x1, .f32⟩ : BufTy).Contents (Elt F)),
    binary main_v5 main_v6 main_v7 (Host.divf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x512 ![0, 1] bcast_S16384x1_S16384x512_0_1 : (⟨S16384x1, .f32⟩ : BufTy).Contents (Elt F) → (⟨S16384x512, .f32⟩ : BufTy).Contents (Elt F)),
    binary main_v3 main_v8 main_v9 (subf : (⟨S16384x512, .f32⟩ : BufTy).Contents (Elt F) → (⟨S16384x512, .f32⟩ : BufTy).Contents (Elt F) → (⟨S16384x512, .f32⟩ : BufTy).Contents (Elt F)),
    binary main_v9 main_v9 main_v10 (mulf : (⟨S16384x512, .f32⟩ : BufTy).Contents (Elt F) → (⟨S16384x512, .f32⟩ : BufTy).Contents (Elt F) → (⟨S16384x512, .f32⟩ : BufTy).Contents (Elt F)),
    nullary main_cst_2 (constant S_ .f32 0x00000000#32),
    binary main_v10 main_cst_2 main_v11 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v11 main_v12 (broadcastInDim S16384x1 ![0] bcast_S16384_S16384x1_0 : (⟨S16384, .f32⟩ : BufTy).Contents (Elt F) → (⟨S16384x1, .f32⟩ : BufTy).Contents (Elt F)),
    nullary main_cst_3 (constant S_ .f32 0x44000000#32),
    unary main_cst_3 main_v13 (broadcastInDim S16384x1 ![] bcast_S_S16384x1 : (⟨S_, .f32⟩ : BufTy).Contents (Elt F) → (⟨S16384x1, .f32⟩ : BufTy).Contents (Elt F)),
    binary main_v12 main_v13 main_v14 (Host.divf : (⟨S16384x1, .f32⟩ : BufTy).Contents (Elt F) → (⟨S16384x1, .f32⟩ : BufTy).Contents (Elt F) → (⟨S16384x1, .f32⟩ : BufTy).Contents (Elt F)),
    unary main_v7 main_v15 (broadcastInDim S16384x512 ![0, 1] bcast_S16384x1_S16384x512_0_1 : (⟨S16384x1, .f32⟩ : BufTy).Contents (Elt F) → (⟨S16384x512, .f32⟩ : BufTy).Contents (Elt F)),
    binary main_v3 main_v15 main_v16 (subf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x3727C5AC#32),
    unary main_cst_4 main_v17 (broadcastInDim S16384x1 ![] bcast_S_S16384x1 : (⟨S_, .f32⟩ : BufTy).Contents (Elt F) → (⟨S16384x1, .f32⟩ : BufTy).Contents (Elt F)),
    binary main_v14 main_v17 main_v18 (addf : (⟨S16384x1, .f32⟩ : BufTy).Contents (Elt F) → (⟨S16384x1, .f32⟩ : BufTy).Contents (Elt F) → (⟨S16384x1, .f32⟩ : BufTy).Contents (Elt F)),
    unary main_v18 main_v19 (Host.rsqrt : (⟨S16384x1, .f32⟩ : BufTy).Contents (Elt F) → (⟨S16384x1, .f32⟩ : BufTy).Contents (Elt F)),
    unary main_v19 main_v20 (broadcastInDim S16384x512 ![0, 1] bcast_S16384x1_S16384x512_0_1 : (⟨S16384x1, .f32⟩ : BufTy).Contents (Elt F) → (⟨S16384x512, .f32⟩ : BufTy).Contents (Elt F)),
    binary main_v16 main_v20 main_v21 (mulf : (⟨S16384x512, .f32⟩ : BufTy).Contents (Elt F) → (⟨S16384x512, .f32⟩ : BufTy).Contents (Elt F) → (⟨S16384x512, .f32⟩ : BufTy).Contents (Elt F)),
    unary main_arg6 main_v22 (broadcastInDim S1x512 ![1] bcast_S512_S1x512_1 : (⟨S512, .f32⟩ : BufTy).Contents (Elt F) → (⟨S1x512, .f32⟩ : BufTy).Contents (Elt F)),
    unary main_v22 main_v23 (broadcastInDim S16384x512 ![0, 1] bcast_S1x512_S16384x512_0_1 : (⟨S1x512, .f32⟩ : BufTy).Contents (Elt F) → (⟨S16384x512, .f32⟩ : BufTy).Contents (Elt F)),
    binary main_v21 main_v23 main_v24 (mulf : (⟨S16384x512, .f32⟩ : BufTy).Contents (Elt F) → (⟨S16384x512, .f32⟩ : BufTy).Contents (Elt F) → (⟨S16384x512, .f32⟩ : BufTy).Contents (Elt F)),
    unary main_arg7 main_v25 (broadcastInDim S1x512 ![1] bcast_S512_S1x512_1 : (⟨S512, .f32⟩ : BufTy).Contents (Elt F) → (⟨S1x512, .f32⟩ : BufTy).Contents (Elt F)),
    unary main_v25 main_v26 (broadcastInDim S16384x512 ![0, 1] bcast_S1x512_S16384x512_0_1 : (⟨S1x512, .f32⟩ : BufTy).Contents (Elt F) → (⟨S16384x512, .f32⟩ : BufTy).Contents (Elt F)),
    binary main_v24 main_v26 main_v27 (addf : (⟨S16384x512, .f32⟩ : BufTy).Contents (Elt F) → (⟨S16384x512, .f32⟩ : BufTy).Contents (Elt F) → (⟨S16384x512, .f32⟩ : BufTy).Contents (Elt F)),
    TRef.nullary main_call0.cst (constant S_ .f32 0x00000000#32),
    TRef.unary main_call0.cst main_call0.v0 (broadcastInDim S16384x512 ![] bcast_S_S16384x512),
    TRef.binary (.of main_v27) main_call0.v0 main_call0.v1 maximumf,
    binary main_arg1 main_arg8 main_v29 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg9 main_v30 (broadcastInDim S1x512 ![1] bcast_S512_S1x512_1 : (⟨S512, .f32⟩ : BufTy).Contents (Elt F) → (⟨S1x512, .f32⟩ : BufTy).Contents (Elt F)),
    unary main_v30 main_v31 (broadcastInDim S16384x512 ![0, 1] bcast_S1x512_S16384x512_0_1 : (⟨S1x512, .f32⟩ : BufTy).Contents (Elt F) → (⟨S16384x512, .f32⟩ : BufTy).Contents (Elt F)),
    binary main_v29 main_v31 main_v32 (addf : (⟨S16384x512, .f32⟩ : BufTy).Contents (Elt F) → (⟨S16384x512, .f32⟩ : BufTy).Contents (Elt F) → (⟨S16384x512, .f32⟩ : BufTy).Contents (Elt F)),
    nullary main_cst_5 (constant S_ .f32 0x00000000#32),
    binary main_v32 main_cst_5 main_v33 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v33 main_v34 (broadcastInDim S16384x1 ![0] bcast_S16384_S16384x1_0 : (⟨S16384, .f32⟩ : BufTy).Contents (Elt F) → (⟨S16384x1, .f32⟩ : BufTy).Contents (Elt F)),
    nullary main_cst_6 (constant S_ .f32 0x44000000#32),
    unary main_cst_6 main_v35 (broadcastInDim S16384x1 ![] bcast_S_S16384x1 : (⟨S_, .f32⟩ : BufTy).Contents (Elt F) → (⟨S16384x1, .f32⟩ : BufTy).Contents (Elt F)),
    binary main_v34 main_v35 main_v36 (Host.divf : (⟨S16384x1, .f32⟩ : BufTy).Contents (Elt F) → (⟨S16384x1, .f32⟩ : BufTy).Contents (Elt F) → (⟨S16384x1, .f32⟩ : BufTy).Contents (Elt F)),
    unary main_v36 main_v37 (broadcastInDim S16384x512 ![0, 1] bcast_S16384x1_S16384x512_0_1 : (⟨S16384x1, .f32⟩ : BufTy).Contents (Elt F) → (⟨S16384x512, .f32⟩ : BufTy).Contents (Elt F)),
    binary main_v32 main_v37 main_v38 (subf : (⟨S16384x512, .f32⟩ : BufTy).Contents (Elt F) → (⟨S16384x512, .f32⟩ : BufTy).Contents (Elt F) → (⟨S16384x512, .f32⟩ : BufTy).Contents (Elt F)),
    binary main_v38 main_v38 main_v39 (mulf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x00000000#32),
    binary main_v39 main_cst_7 main_v40 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v40 main_v41 (broadcastInDim S16384x1 ![0] bcast_S16384_S16384x1_0 : (⟨S16384, .f32⟩ : BufTy).Contents (Elt F) → (⟨S16384x1, .f32⟩ : BufTy).Contents (Elt F)),
    nullary main_cst_8 (constant S_ .f32 0x44000000#32),
    unary main_cst_8 main_v42 (broadcastInDim S16384x1 ![] bcast_S_S16384x1 : (⟨S_, .f32⟩ : BufTy).Contents (Elt F) → (⟨S16384x1, .f32⟩ : BufTy).Contents (Elt F)),
    binary main_v41 main_v42 main_v43 (Host.divf : (⟨S16384x1, .f32⟩ : BufTy).Contents (Elt F) → (⟨S16384x1, .f32⟩ : BufTy).Contents (Elt F) → (⟨S16384x1, .f32⟩ : BufTy).Contents (Elt F)),
    unary main_v36 main_v44 (broadcastInDim S16384x512 ![0, 1] bcast_S16384x1_S16384x512_0_1 : (⟨S16384x1, .f32⟩ : BufTy).Contents (Elt F) → (⟨S16384x512, .f32⟩ : BufTy).Contents (Elt F)),
    binary main_v32 main_v44 main_v45 (subf : (⟨S16384x512, .f32⟩ : BufTy).Contents (Elt F) → (⟨S16384x512, .f32⟩ : BufTy).Contents (Elt F) → (⟨S16384x512, .f32⟩ : BufTy).Contents (Elt F)),
    nullary main_cst_9 (constant S_ .f32 0x3727C5AC#32),
    unary main_cst_9 main_v46 (broadcastInDim S16384x1 ![] bcast_S_S16384x1 : (⟨S_, .f32⟩ : BufTy).Contents (Elt F) → (⟨S16384x1, .f32⟩ : BufTy).Contents (Elt F)),
    binary main_v43 main_v46 main_v47 (addf : (⟨S16384x1, .f32⟩ : BufTy).Contents (Elt F) → (⟨S16384x1, .f32⟩ : BufTy).Contents (Elt F) → (⟨S16384x1, .f32⟩ : BufTy).Contents (Elt F)),
    unary main_v47 main_v48 (Host.rsqrt : (⟨S16384x1, .f32⟩ : BufTy).Contents (Elt F) → (⟨S16384x1, .f32⟩ : BufTy).Contents (Elt F)),
    unary main_v48 main_v49 (broadcastInDim S16384x512 ![0, 1] bcast_S16384x1_S16384x512_0_1 : (⟨S16384x1, .f32⟩ : BufTy).Contents (Elt F) → (⟨S16384x512, .f32⟩ : BufTy).Contents (Elt F)),
    binary main_v45 main_v49 main_v50 (mulf : (⟨S16384x512, .f32⟩ : BufTy).Contents (Elt F) → (⟨S16384x512, .f32⟩ : BufTy).Contents (Elt F) → (⟨S16384x512, .f32⟩ : BufTy).Contents (Elt F)),
    unary main_arg10 main_v51 (broadcastInDim S1x512 ![1] bcast_S512_S1x512_1 : (⟨S512, .f32⟩ : BufTy).Contents (Elt F) → (⟨S1x512, .f32⟩ : BufTy).Contents (Elt F)),
    unary main_v51 main_v52 (broadcastInDim S16384x512 ![0, 1] bcast_S1x512_S16384x512_0_1 : (⟨S1x512, .f32⟩ : BufTy).Contents (Elt F) → (⟨S16384x512, .f32⟩ : BufTy).Contents (Elt F)),
    binary main_v50 main_v52 main_v53 (mulf : (⟨S16384x512, .f32⟩ : BufTy).Contents (Elt F) → (⟨S16384x512, .f32⟩ : BufTy).Contents (Elt F) → (⟨S16384x512, .f32⟩ : BufTy).Contents (Elt F)),
    unary main_arg11 main_v54 (broadcastInDim S1x512 ![1] bcast_S512_S1x512_1 : (⟨S512, .f32⟩ : BufTy).Contents (Elt F) → (⟨S1x512, .f32⟩ : BufTy).Contents (Elt F)),
    unary main_v54 main_v55 (broadcastInDim S16384x512 ![0, 1] bcast_S1x512_S16384x512_0_1 : (⟨S1x512, .f32⟩ : BufTy).Contents (Elt F) → (⟨S16384x512, .f32⟩ : BufTy).Contents (Elt F)),
    binary main_v53 main_v55 main_v56 (addf : (⟨S16384x512, .f32⟩ : BufTy).Contents (Elt F) → (⟨S16384x512, .f32⟩ : BufTy).Contents (Elt F) → (⟨S16384x512, .f32⟩ : BufTy).Contents (Elt F)),
    TRef.nullary main_call1.cst (constant S_ .f32 0x00000000#32),
    TRef.unary main_call1.cst main_call1.v0 (broadcastInDim S16384x512 ![] bcast_S_S16384x512),
    TRef.binary (.of main_v56) main_call1.v0 main_call1.v1 maximumf,
    binary main_arg2 main_arg12 main_v58 ((fun l r => Host.dotGeneral dot_S16384x128_S128x512_S16384x512_1_0_0_1_n_n none l r) : (⟨S16384x128, .f32⟩ : BufTy).Contents (Elt F) → (⟨S128x512, .f32⟩ : BufTy).Contents (Elt F) → (⟨S16384x512, .f32⟩ : BufTy).Contents (Elt F)),
    unary main_arg13 main_v59 (broadcastInDim S1x512 ![1] bcast_S512_S1x512_1 : (⟨S512, .f32⟩ : BufTy).Contents (Elt F) → (⟨S1x512, .f32⟩ : BufTy).Contents (Elt F)),
    unary main_v59 main_v60 (broadcastInDim S16384x512 ![0, 1] bcast_S1x512_S16384x512_0_1 : (⟨S1x512, .f32⟩ : BufTy).Contents (Elt F) → (⟨S16384x512, .f32⟩ : BufTy).Contents (Elt F)),
    binary main_v58 main_v60 main_v61 (addf : (⟨S16384x512, .f32⟩ : BufTy).Contents (Elt F) → (⟨S16384x512, .f32⟩ : BufTy).Contents (Elt F) → (⟨S16384x512, .f32⟩ : BufTy).Contents (Elt F)),
    nullary main_cst_10 (constant S_ .f32 0x00000000#32),
    binary main_v61 main_cst_10 main_v62 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v62 main_v63 (broadcastInDim S16384x1 ![0] bcast_S16384_S16384x1_0 : (⟨S16384, .f32⟩ : BufTy).Contents (Elt F) → (⟨S16384x1, .f32⟩ : BufTy).Contents (Elt F)),
    nullary main_cst_11 (constant S_ .f32 0x44000000#32),
    unary main_cst_11 main_v64 (broadcastInDim S16384x1 ![] bcast_S_S16384x1 : (⟨S_, .f32⟩ : BufTy).Contents (Elt F) → (⟨S16384x1, .f32⟩ : BufTy).Contents (Elt F)),
    binary main_v63 main_v64 main_v65 (Host.divf : (⟨S16384x1, .f32⟩ : BufTy).Contents (Elt F) → (⟨S16384x1, .f32⟩ : BufTy).Contents (Elt F) → (⟨S16384x1, .f32⟩ : BufTy).Contents (Elt F)),
    unary main_v65 main_v66 (broadcastInDim S16384x512 ![0, 1] bcast_S16384x1_S16384x512_0_1 : (⟨S16384x1, .f32⟩ : BufTy).Contents (Elt F) → (⟨S16384x512, .f32⟩ : BufTy).Contents (Elt F)),
    binary main_v61 main_v66 main_v67 (subf : (⟨S16384x512, .f32⟩ : BufTy).Contents (Elt F) → (⟨S16384x512, .f32⟩ : BufTy).Contents (Elt F) → (⟨S16384x512, .f32⟩ : BufTy).Contents (Elt F)),
    binary main_v67 main_v67 main_v68 (mulf : (⟨S16384x512, .f32⟩ : BufTy).Contents (Elt F) → (⟨S16384x512, .f32⟩ : BufTy).Contents (Elt F) → (⟨S16384x512, .f32⟩ : BufTy).Contents (Elt F)),
    nullary main_cst_12 (constant S_ .f32 0x00000000#32),
    binary main_v68 main_cst_12 main_v69 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v69 main_v70 (broadcastInDim S16384x1 ![0] bcast_S16384_S16384x1_0 : (⟨S16384, .f32⟩ : BufTy).Contents (Elt F) → (⟨S16384x1, .f32⟩ : BufTy).Contents (Elt F)),
    nullary main_cst_13 (constant S_ .f32 0x44000000#32),
    unary main_cst_13 main_v71 (broadcastInDim S16384x1 ![] bcast_S_S16384x1 : (⟨S_, .f32⟩ : BufTy).Contents (Elt F) → (⟨S16384x1, .f32⟩ : BufTy).Contents (Elt F)),
    binary main_v70 main_v71 main_v72 (Host.divf : (⟨S16384x1, .f32⟩ : BufTy).Contents (Elt F) → (⟨S16384x1, .f32⟩ : BufTy).Contents (Elt F) → (⟨S16384x1, .f32⟩ : BufTy).Contents (Elt F)),
    unary main_v65 main_v73 (broadcastInDim S16384x512 ![0, 1] bcast_S16384x1_S16384x512_0_1 : (⟨S16384x1, .f32⟩ : BufTy).Contents (Elt F) → (⟨S16384x512, .f32⟩ : BufTy).Contents (Elt F)),
    binary main_v61 main_v73 main_v74 (subf : (⟨S16384x512, .f32⟩ : BufTy).Contents (Elt F) → (⟨S16384x512, .f32⟩ : BufTy).Contents (Elt F) → (⟨S16384x512, .f32⟩ : BufTy).Contents (Elt F)),
    nullary main_cst_14 (constant S_ .f32 0x3727C5AC#32),
    unary main_cst_14 main_v75 (broadcastInDim S16384x1 ![] bcast_S_S16384x1 : (⟨S_, .f32⟩ : BufTy).Contents (Elt F) → (⟨S16384x1, .f32⟩ : BufTy).Contents (Elt F)),
    binary main_v72 main_v75 main_v76 (addf : (⟨S16384x1, .f32⟩ : BufTy).Contents (Elt F) → (⟨S16384x1, .f32⟩ : BufTy).Contents (Elt F) → (⟨S16384x1, .f32⟩ : BufTy).Contents (Elt F)),
    unary main_v76 main_v77 (Host.rsqrt : (⟨S16384x1, .f32⟩ : BufTy).Contents (Elt F) → (⟨S16384x1, .f32⟩ : BufTy).Contents (Elt F)),
    unary main_v77 main_v78 (broadcastInDim S16384x512 ![0, 1] bcast_S16384x1_S16384x512_0_1 : (⟨S16384x1, .f32⟩ : BufTy).Contents (Elt F) → (⟨S16384x512, .f32⟩ : BufTy).Contents (Elt F)),
    binary main_v74 main_v78 main_v79 (mulf : (⟨S16384x512, .f32⟩ : BufTy).Contents (Elt F) → (⟨S16384x512, .f32⟩ : BufTy).Contents (Elt F) → (⟨S16384x512, .f32⟩ : BufTy).Contents (Elt F)),
    unary main_arg14 main_v80 (broadcastInDim S1x512 ![1] bcast_S512_S1x512_1 : (⟨S512, .f32⟩ : BufTy).Contents (Elt F) → (⟨S1x512, .f32⟩ : BufTy).Contents (Elt F)),
    unary main_v80 main_v81 (broadcastInDim S16384x512 ![0, 1] bcast_S1x512_S16384x512_0_1 : (⟨S1x512, .f32⟩ : BufTy).Contents (Elt F) → (⟨S16384x512, .f32⟩ : BufTy).Contents (Elt F)),
    binary main_v79 main_v81 main_v82 (mulf : (⟨S16384x512, .f32⟩ : BufTy).Contents (Elt F) → (⟨S16384x512, .f32⟩ : BufTy).Contents (Elt F) → (⟨S16384x512, .f32⟩ : BufTy).Contents (Elt F)),
    unary main_arg15 main_v83 (broadcastInDim S1x512 ![1] bcast_S512_S1x512_1 : (⟨S512, .f32⟩ : BufTy).Contents (Elt F) → (⟨S1x512, .f32⟩ : BufTy).Contents (Elt F)),
    unary main_v83 main_v84 (broadcastInDim S16384x512 ![0, 1] bcast_S1x512_S16384x512_0_1 : (⟨S1x512, .f32⟩ : BufTy).Contents (Elt F) → (⟨S16384x512, .f32⟩ : BufTy).Contents (Elt F)),
    binary main_v82 main_v84 main_v85 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v85) main_call2.v0 main_call2.v1 maximumf,
    binary main_arg3 main_arg16 main_v87 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg17 main_v88 (broadcastInDim S1x512 ![1] bcast_S512_S1x512_1 : (⟨S512, .f32⟩ : BufTy).Contents (Elt F) → (⟨S1x512, .f32⟩ : BufTy).Contents (Elt F)),
    unary main_v88 main_v89 (broadcastInDim S16384x512 ![0, 1] bcast_S1x512_S16384x512_0_1 : (⟨S1x512, .f32⟩ : BufTy).Contents (Elt F) → (⟨S16384x512, .f32⟩ : BufTy).Contents (Elt F)),
    binary main_v87 main_v89 main_v90 (addf : (⟨S16384x512, .f32⟩ : BufTy).Contents (Elt F) → (⟨S16384x512, .f32⟩ : BufTy).Contents (Elt F) → (⟨S16384x512, .f32⟩ : BufTy).Contents (Elt F)),
    nullary main_cst_15 (constant S_ .f32 0x00000000#32),
    binary main_v90 main_cst_15 main_v91 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v91 main_v92 (broadcastInDim S16384x1 ![0] bcast_S16384_S16384x1_0 : (⟨S16384, .f32⟩ : BufTy).Contents (Elt F) → (⟨S16384x1, .f32⟩ : BufTy).Contents (Elt F)),
    nullary main_cst_16 (constant S_ .f32 0x44000000#32),
    unary main_cst_16 main_v93 (broadcastInDim S16384x1 ![] bcast_S_S16384x1 : (⟨S_, .f32⟩ : BufTy).Contents (Elt F) → (⟨S16384x1, .f32⟩ : BufTy).Contents (Elt F)),
    binary main_v92 main_v93 main_v94 (Host.divf : (⟨S16384x1, .f32⟩ : BufTy).Contents (Elt F) → (⟨S16384x1, .f32⟩ : BufTy).Contents (Elt F) → (⟨S16384x1, .f32⟩ : BufTy).Contents (Elt F)),
    unary main_v94 main_v95 (broadcastInDim S16384x512 ![0, 1] bcast_S16384x1_S16384x512_0_1 : (⟨S16384x1, .f32⟩ : BufTy).Contents (Elt F) → (⟨S16384x512, .f32⟩ : BufTy).Contents (Elt F)),
    binary main_v90 main_v95 main_v96 (subf : (⟨S16384x512, .f32⟩ : BufTy).Contents (Elt F) → (⟨S16384x512, .f32⟩ : BufTy).Contents (Elt F) → (⟨S16384x512, .f32⟩ : BufTy).Contents (Elt F)),
    binary main_v96 main_v96 main_v97 (mulf : (⟨S16384x512, .f32⟩ : BufTy).Contents (Elt F) → (⟨S16384x512, .f32⟩ : BufTy).Contents (Elt F) → (⟨S16384x512, .f32⟩ : BufTy).Contents (Elt F)),
    nullary main_cst_17 (constant S_ .f32 0x00000000#32),
    binary main_v97 main_cst_17 main_v98 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v98 main_v99 (broadcastInDim S16384x1 ![0] bcast_S16384_S16384x1_0 : (⟨S16384, .f32⟩ : BufTy).Contents (Elt F) → (⟨S16384x1, .f32⟩ : BufTy).Contents (Elt F)),
    nullary main_cst_18 (constant S_ .f32 0x44000000#32),
    unary main_cst_18 main_v100 (broadcastInDim S16384x1 ![] bcast_S_S16384x1 : (⟨S_, .f32⟩ : BufTy).Contents (Elt F) → (⟨S16384x1, .f32⟩ : BufTy).Contents (Elt F)),
    binary main_v99 main_v100 main_v101 (Host.divf : (⟨S16384x1, .f32⟩ : BufTy).Contents (Elt F) → (⟨S16384x1, .f32⟩ : BufTy).Contents (Elt F) → (⟨S16384x1, .f32⟩ : BufTy).Contents (Elt F)),
    unary main_v94 main_v102 (broadcastInDim S16384x512 ![0, 1] bcast_S16384x1_S16384x512_0_1 : (⟨S16384x1, .f32⟩ : BufTy).Contents (Elt F) → (⟨S16384x512, .f32⟩ : BufTy).Contents (Elt F)),
    binary main_v90 main_v102 main_v103 (subf : (⟨S16384x512, .f32⟩ : BufTy).Contents (Elt F) → (⟨S16384x512, .f32⟩ : BufTy).Contents (Elt F) → (⟨S16384x512, .f32⟩ : BufTy).Contents (Elt F)),
    nullary main_cst_19 (constant S_ .f32 0x3727C5AC#32),
    unary main_cst_19 main_v104 (broadcastInDim S16384x1 ![] bcast_S_S16384x1 : (⟨S_, .f32⟩ : BufTy).Contents (Elt F) → (⟨S16384x1, .f32⟩ : BufTy).Contents (Elt F)),
    binary main_v101 main_v104 main_v105 (addf : (⟨S16384x1, .f32⟩ : BufTy).Contents (Elt F) → (⟨S16384x1, .f32⟩ : BufTy).Contents (Elt F) → (⟨S16384x1, .f32⟩ : BufTy).Contents (Elt F)),
    unary main_v105 main_v106 (Host.rsqrt : (⟨S16384x1, .f32⟩ : BufTy).Contents (Elt F) → (⟨S16384x1, .f32⟩ : BufTy).Contents (Elt F)),
    unary main_v106 main_v107 (broadcastInDim S16384x512 ![0, 1] bcast_S16384x1_S16384x512_0_1 : (⟨S16384x1, .f32⟩ : BufTy).Contents (Elt F) → (⟨S16384x512, .f32⟩ : BufTy).Contents (Elt F)),
    binary main_v103 main_v107 main_v108 (mulf : (⟨S16384x512, .f32⟩ : BufTy).Contents (Elt F) → (⟨S16384x512, .f32⟩ : BufTy).Contents (Elt F) → (⟨S16384x512, .f32⟩ : BufTy).Contents (Elt F)),
    unary main_arg18 main_v109 (broadcastInDim S1x512 ![1] bcast_S512_S1x512_1 : (⟨S512, .f32⟩ : BufTy).Contents (Elt F) → (⟨S1x512, .f32⟩ : BufTy).Contents (Elt F)),
    unary main_v109 main_v110 (broadcastInDim S16384x512 ![0, 1] bcast_S1x512_S16384x512_0_1 : (⟨S1x512, .f32⟩ : BufTy).Contents (Elt F) → (⟨S16384x512, .f32⟩ : BufTy).Contents (Elt F)),
    binary main_v108 main_v110 main_v111 (mulf : (⟨S16384x512, .f32⟩ : BufTy).Contents (Elt F) → (⟨S16384x512, .f32⟩ : BufTy).Contents (Elt F) → (⟨S16384x512, .f32⟩ : BufTy).Contents (Elt F)),
    unary main_arg19 main_v112 (broadcastInDim S1x512 ![1] bcast_S512_S1x512_1 : (⟨S512, .f32⟩ : BufTy).Contents (Elt F) → (⟨S1x512, .f32⟩ : BufTy).Contents (Elt F)),
    unary main_v112 main_v113 (broadcastInDim S16384x512 ![0, 1] bcast_S1x512_S16384x512_0_1 : (⟨S1x512, .f32⟩ : BufTy).Contents (Elt F) → (⟨S16384x512, .f32⟩ : BufTy).Contents (Elt F)),
    binary main_v111 main_v113 main_v114 (addf : (⟨S16384x512, .f32⟩ : BufTy).Contents (Elt F) → (⟨S16384x512, .f32⟩ : BufTy).Contents (Elt F) → (⟨S16384x512, .f32⟩ : BufTy).Contents (Elt F)),
    TRef.nullary main_call3.cst (constant S_ .f32 0x00000000#32),
    TRef.unary main_call3.cst main_call3.v0 (broadcastInDim S16384x512 ![] bcast_S_S16384x512),
    TRef.binary (.of main_v114) main_call3.v0 main_call3.v1 maximumf,
    unary main_v28 main_v116 (broadcastInDim S1x16384x512 ![1, 2] bcast_S16384x512_S1x16384x512_1_2 : (⟨S16384x512, .f32⟩ : BufTy).Contents (Elt F) → (⟨S1x16384x512, .f32⟩ : BufTy).Contents (Elt F)),
    unary main_v57 main_v117 (broadcastInDim S1x16384x512 ![1, 2] bcast_S16384x512_S1x16384x512_1_2 : (⟨S16384x512, .f32⟩ : BufTy).Contents (Elt F) → (⟨S1x16384x512, .f32⟩ : BufTy).Contents (Elt F)),
    unary main_v86 main_v118 (broadcastInDim S1x16384x512 ![1, 2] bcast_S16384x512_S1x16384x512_1_2 : (⟨S16384x512, .f32⟩ : BufTy).Contents (Elt F) → (⟨S1x16384x512, .f32⟩ : BufTy).Contents (Elt F)),
    unary main_v115 main_v119 (broadcastInDim S1x16384x512 ![1, 2] bcast_S16384x512_S1x16384x512_1_2 : (⟨S16384x512, .f32⟩ : BufTy).Contents (Elt F) → (⟨S1x16384x512, .f32⟩ : BufTy).Contents (Elt F)),
    nary ![main_v116, main_v117, main_v118, main_v119] main_v120 (fun u => concatenate S4x16384x512 0 [⟨S1x16384x512, u 0⟩, ⟨S1x16384x512, u 1⟩, ⟨S1x16384x512, u 2⟩, ⟨S1x16384x512, u 3⟩] concatenates_S1x16384x512_S1x16384x512_S1x16384x512_S1x16384x512_S4x16384x512_d0),
    nullary main_c_20 (constantI S_ 32 4#32),
    unary main_c_20 main_v121 (broadcastInDim S12 ![] bcast_S_S12 : (⟨S_, .i32⟩ : BufTy).Contents (Elt F) → (⟨S12, .i32⟩ : BufTy).Contents (Elt F)),
    binary main_c main_v121 main_v122 (addi : (⟨S12, .i32⟩ : BufTy).Contents (Elt F) → (⟨S12, .i32⟩ : BufTy).Contents (Elt F) → (⟨S12, .i32⟩ : BufTy).Contents (Elt F)),
    ternary main_c_0 main_v122 main_c main_v123 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    unary main_v123 main_v124 (broadcastInDim S12x1 ![0] bcast_S12_S12x1_0 : (⟨S12, .i32⟩ : BufTy).Contents (Elt F) → (⟨S12x1, .i32⟩ : BufTy).Contents (Elt F)),
    binary main_v120 main_v124 main_v125 ((fun x i => Host.gather gather_S4x16384x512_S12x1_S12x16384x512_12_0_n_n_0_1_116384512 x i) : (⟨S4x16384x512, .f32⟩ : BufTy).Contents (Elt F) → (⟨S12x1, .i32⟩ : BufTy).Contents (Elt F) → (⟨S12x16384x512, .f32⟩ : BufTy).Contents (Elt F)),
    binary main_v125 main_arg20 main_v126 ((fun l r => Host.dotGeneral dot_S12x16384x512_S12x512x512_S12x16384x512_2_1_1_2_0_0 none l r) : (⟨S12x16384x512, .f32⟩ : BufTy).Contents (Elt F) → (⟨S12x512x512, .f32⟩ : BufTy).Contents (Elt F) → (⟨S12x16384x512, .f32⟩ : BufTy).Contents (Elt F)),
    unary main_arg21 main_v127 (broadcastInDim S12x1x512 ![0, 2] bcast_S12x512_S12x1x512_0_2 : (⟨S12x512, .f32⟩ : BufTy).Contents (Elt F) → (⟨S12x1x512, .f32⟩ : BufTy).Contents (Elt F)),
    unary main_v127 main_v128 (broadcastInDim S12x16384x512 ![0, 1, 2] bcast_S12x1x512_S12x16384x512_0_1_2 : (⟨S12x1x512, .f32⟩ : BufTy).Contents (Elt F) → (⟨S12x16384x512, .f32⟩ : BufTy).Contents (Elt F)),
    binary main_v126 main_v128 main_v129 (addf : (⟨S12x16384x512, .f32⟩ : BufTy).Contents (Elt F) → (⟨S12x16384x512, .f32⟩ : BufTy).Contents (Elt F) → (⟨S12x16384x512, .f32⟩ : BufTy).Contents (Elt F)),
    binary main_v129 main_arg22 main_v130 ((fun l r => Host.dotGeneral dot_S12x16384x512_S12x512x512_S12x16384x512_2_1_1_2_0_0 none l r) : (⟨S12x16384x512, .f32⟩ : BufTy).Contents (Elt F) → (⟨S12x512x512, .f32⟩ : BufTy).Contents (Elt F) → (⟨S12x16384x512, .f32⟩ : BufTy).Contents (Elt F)),
    unary main_arg23 main_v131 (broadcastInDim S12x1x512 ![0, 2] bcast_S12x512_S12x1x512_0_2 : (⟨S12x512, .f32⟩ : BufTy).Contents (Elt F) → (⟨S12x1x512, .f32⟩ : BufTy).Contents (Elt F)),
    unary main_v131 main_v132 (broadcastInDim S12x16384x512 ![0, 1, 2] bcast_S12x1x512_S12x16384x512_0_1_2 : (⟨S12x1x512, .f32⟩ : BufTy).Contents (Elt F) → (⟨S12x16384x512, .f32⟩ : BufTy).Contents (Elt F)),
    binary main_v130 main_v132 main_v133 (addf : (⟨S12x16384x512, .f32⟩ : BufTy).Contents (Elt F) → (⟨S12x16384x512, .f32⟩ : BufTy).Contents (Elt F) → (⟨S12x16384x512, .f32⟩ : BufTy).Contents (Elt F)),
    reshape main_v133 main_v134 rfl shapeCasts_S12x16384x512_S4x3x16384x512,
    nullary main_cst_21 (constant S_ .f32 0x00000000#32),
    binary main_v134 main_cst_21 main_v135 ((fun x v => Host.reduceAdd x v reducesTo_S4x3x16384x512_S4x16384x512_d1 h_S_) : (⟨S4x3x16384x512, .f32⟩ : BufTy).Contents (Elt F) → (⟨S_, .f32⟩ : BufTy).Contents (Elt F) → (⟨S4x16384x512, .f32⟩ : BufTy).Contents (Elt F)),
    binary main_v120 main_v135 main_v136 (addf : (⟨S4x16384x512, .f32⟩ : BufTy).Contents (Elt F) → (⟨S4x16384x512, .f32⟩ : BufTy).Contents (Elt F) → (⟨S4x16384x512, .f32⟩ : BufTy).Contents (Elt F)) ]

/-- The remaining 85 operations: the two heads. -/
abbrev opsB : List (HloOp τ sig (Elt F)) :=
  [ unary main_v136 main_v137 ((extractStridedSlice S1x16384x512 ![2, 0, 0] · slices_S4x16384x512_S1x16384x512_2_0_0) : (⟨S4x16384x512, .f32⟩ : BufTy).Contents (Elt F) → (⟨S1x16384x512, .f32⟩ : BufTy).Contents (Elt F)),
    reshape main_v137 main_v138 rfl shapeCasts_S1x16384x512_S16384x512,
    unary main_v136 main_v139 ((extractStridedSlice S1x16384x512 ![3, 0, 0] · slices_S4x16384x512_S1x16384x512_3_0_0) : (⟨S4x16384x512, .f32⟩ : BufTy).Contents (Elt F) → (⟨S1x16384x512, .f32⟩ : BufTy).Contents (Elt F)),
    reshape main_v139 main_v140 rfl shapeCasts_S1x16384x512_S16384x512,
    unary main_v136 main_v141 ((extractStridedSlice S1x16384x512 ![1, 0, 0] · slices_S4x16384x512_S1x16384x512_1_0_0) : (⟨S4x16384x512, .f32⟩ : BufTy).Contents (Elt F) → (⟨S1x16384x512, .f32⟩ : BufTy).Contents (Elt F)),
    reshape main_v141 main_v142 rfl shapeCasts_S1x16384x512_S16384x512,
    unary main_v136 main_v143 ((extractStridedSlice S1x16384x512 ![0, 0, 0] · slices_S4x16384x512_S1x16384x512_0_0_0) : (⟨S4x16384x512, .f32⟩ : BufTy).Contents (Elt F) → (⟨S1x16384x512, .f32⟩ : BufTy).Contents (Elt F)),
    reshape main_v143 main_v144 rfl shapeCasts_S1x16384x512_S16384x512,
    nary ![main_v138, main_v140, main_v142, main_v144] main_v145 (fun u => concatenate S16384x2048 1 [⟨S16384x512, u 0⟩, ⟨S16384x512, u 1⟩, ⟨S16384x512, u 2⟩, ⟨S16384x512, u 3⟩] concatenates_S16384x512_S16384x512_S16384x512_S16384x512_S16384x2048_d1),
    binary main_v145 main_arg24 main_v146 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    unary main_arg25 main_v147 (broadcastInDim S1x512 ![1] bcast_S512_S1x512_1 : (⟨S512, .f32⟩ : BufTy).Contents (Elt F) → (⟨S1x512, .f32⟩ : BufTy).Contents (Elt F)),
    unary main_v147 main_v148 (broadcastInDim S16384x512 ![0, 1] bcast_S1x512_S16384x512_0_1 : (⟨S1x512, .f32⟩ : BufTy).Contents (Elt F) → (⟨S16384x512, .f32⟩ : BufTy).Contents (Elt F)),
    binary main_v146 main_v148 main_v149 (addf : (⟨S16384x512, .f32⟩ : BufTy).Contents (Elt F) → (⟨S16384x512, .f32⟩ : BufTy).Contents (Elt F) → (⟨S16384x512, .f32⟩ : BufTy).Contents (Elt F)),
    TRef.nullary main_call4.cst (constant S_ .f32 0x00000000#32),
    TRef.unary main_call4.cst main_call4.v0 (broadcastInDim S16384x512 ![] bcast_S_S16384x512),
    TRef.binary (.of main_v149) main_call4.v0 main_call4.v1 maximumf,
    binary main_v150 main_arg26 main_v151 ((fun l r => Host.dotGeneral dot_S16384x512_S512x4_S16384x4_1_0_0_1_n_n none l r) : (⟨S16384x512, .f32⟩ : BufTy).Contents (Elt F) → (⟨S512x4, .f32⟩ : BufTy).Contents (Elt F) → (⟨S16384x4, .f32⟩ : BufTy).Contents (Elt F)),
    unary main_arg27 main_v152 (broadcastInDim S1x4 ![1] bcast_S4_S1x4_1 : (⟨S4, .f32⟩ : BufTy).Contents (Elt F) → (⟨S1x4, .f32⟩ : BufTy).Contents (Elt F)),
    unary main_v152 main_v153 (broadcastInDim S16384x4 ![0, 1] bcast_S1x4_S16384x4_0_1 : (⟨S1x4, .f32⟩ : BufTy).Contents (Elt F) → (⟨S16384x4, .f32⟩ : BufTy).Contents (Elt F)),
    binary main_v151 main_v153 main_v154 (addf : (⟨S16384x4, .f32⟩ : BufTy).Contents (Elt F) → (⟨S16384x4, .f32⟩ : BufTy).Contents (Elt F) → (⟨S16384x4, .f32⟩ : BufTy).Contents (Elt F)),
    nullary main_cst_22 (constant S_ .f32 0xFF800000#32),
    binary main_v154 main_cst_22 main_v155 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    nullary main_cst_23 (constant S_ .f32 0xFF800000#32),
    unary main_cst_23 main_v156 (broadcastInDim S16384 ![] bcast_S_S16384 : (⟨S_, .f32⟩ : BufTy).Contents (Elt F) → (⟨S16384, .f32⟩ : BufTy).Contents (Elt F)),
    binary main_v156 main_v155 main_v157 (maximumf : (⟨S16384, .f32⟩ : BufTy).Contents (Elt F) → (⟨S16384, .f32⟩ : BufTy).Contents (Elt F) → (⟨S16384, .f32⟩ : BufTy).Contents (Elt F)),
    unary main_v157 main_v158 (broadcastInDim S16384x1 ![0] bcast_S16384_S16384x1_0 : (⟨S16384, .f32⟩ : BufTy).Contents (Elt F) → (⟨S16384x1, .f32⟩ : BufTy).Contents (Elt F)),
    unary main_v158 main_v159 (broadcastInDim S16384x4 ![0, 1] bcast_S16384x1_S16384x4_0_1 : (⟨S16384x1, .f32⟩ : BufTy).Contents (Elt F) → (⟨S16384x4, .f32⟩ : BufTy).Contents (Elt F)),
    binary main_v154 main_v159 main_v160 (subf : (⟨S16384x4, .f32⟩ : BufTy).Contents (Elt F) → (⟨S16384x4, .f32⟩ : BufTy).Contents (Elt F) → (⟨S16384x4, .f32⟩ : BufTy).Contents (Elt F)),
    unary main_v160 main_v161 (Host.exp : (⟨S16384x4, .f32⟩ : BufTy).Contents (Elt F) → (⟨S16384x4, .f32⟩ : BufTy).Contents (Elt F)),
    nullary main_cst_24 (constant S_ .f32 0x00000000#32),
    binary main_v161 main_cst_24 main_v162 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v162 main_v163 (broadcastInDim S16384x1 ![0] bcast_S16384_S16384x1_0 : (⟨S16384, .f32⟩ : BufTy).Contents (Elt F) → (⟨S16384x1, .f32⟩ : BufTy).Contents (Elt F)),
    unary main_v163 main_v164 (broadcastInDim S16384x4 ![0, 1] bcast_S16384x1_S16384x4_0_1 : (⟨S16384x1, .f32⟩ : BufTy).Contents (Elt F) → (⟨S16384x4, .f32⟩ : BufTy).Contents (Elt F)),
    binary main_v161 main_v164 main_v165 (Host.divf : (⟨S16384x4, .f32⟩ : BufTy).Contents (Elt F) → (⟨S16384x4, .f32⟩ : BufTy).Contents (Elt F) → (⟨S16384x4, .f32⟩ : BufTy).Contents (Elt F)),
    binary main_v145 main_arg28 main_v166 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    unary main_arg29 main_v167 (broadcastInDim S1x512 ![1] bcast_S512_S1x512_1 : (⟨S512, .f32⟩ : BufTy).Contents (Elt F) → (⟨S1x512, .f32⟩ : BufTy).Contents (Elt F)),
    unary main_v167 main_v168 (broadcastInDim S16384x512 ![0, 1] bcast_S1x512_S16384x512_0_1 : (⟨S1x512, .f32⟩ : BufTy).Contents (Elt F) → (⟨S16384x512, .f32⟩ : BufTy).Contents (Elt F)),
    binary main_v166 main_v168 main_v169 (addf : (⟨S16384x512, .f32⟩ : BufTy).Contents (Elt F) → (⟨S16384x512, .f32⟩ : BufTy).Contents (Elt F) → (⟨S16384x512, .f32⟩ : BufTy).Contents (Elt F)),
    unary main_v169 main_v170 (Host.negf : (⟨S16384x512, .f32⟩ : BufTy).Contents (Elt F) → (⟨S16384x512, .f32⟩ : BufTy).Contents (Elt F)),
    unary main_v170 main_v171 (Host.exp : (⟨S16384x512, .f32⟩ : BufTy).Contents (Elt F) → (⟨S16384x512, .f32⟩ : BufTy).Contents (Elt F)),
    nullary main_cst_25 (constant S_ .f32 0x3F800000#32),
    unary main_cst_25 main_v172 (broadcastInDim S16384x512 ![] bcast_S_S16384x512 : (⟨S_, .f32⟩ : BufTy).Contents (Elt F) → (⟨S16384x512, .f32⟩ : BufTy).Contents (Elt F)),
    binary main_v172 main_v171 main_v173 (addf : (⟨S16384x512, .f32⟩ : BufTy).Contents (Elt F) → (⟨S16384x512, .f32⟩ : BufTy).Contents (Elt F) → (⟨S16384x512, .f32⟩ : BufTy).Contents (Elt F)),
    nullary main_cst_26 (constant S_ .f32 0x3F800000#32),
    unary main_cst_26 main_v174 (broadcastInDim S16384x512 ![] bcast_S_S16384x512 : (⟨S_, .f32⟩ : BufTy).Contents (Elt F) → (⟨S16384x512, .f32⟩ : BufTy).Contents (Elt F)),
    binary main_v174 main_v173 main_v175 (Host.divf : (⟨S16384x512, .f32⟩ : BufTy).Contents (Elt F) → (⟨S16384x512, .f32⟩ : BufTy).Contents (Elt F) → (⟨S16384x512, .f32⟩ : BufTy).Contents (Elt F)),
    binary main_v145 main_arg30 main_v176 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    unary main_arg31 main_v177 (broadcastInDim S1x512 ![1] bcast_S512_S1x512_1 : (⟨S512, .f32⟩ : BufTy).Contents (Elt F) → (⟨S1x512, .f32⟩ : BufTy).Contents (Elt F)),
    unary main_v177 main_v178 (broadcastInDim S16384x512 ![0, 1] bcast_S1x512_S16384x512_0_1 : (⟨S1x512, .f32⟩ : BufTy).Contents (Elt F) → (⟨S16384x512, .f32⟩ : BufTy).Contents (Elt F)),
    binary main_v176 main_v178 main_v179 (addf : (⟨S16384x512, .f32⟩ : BufTy).Contents (Elt F) → (⟨S16384x512, .f32⟩ : BufTy).Contents (Elt F) → (⟨S16384x512, .f32⟩ : BufTy).Contents (Elt F)),
    unary main_v179 main_v180 (Host.tanh : (⟨S16384x512, .f32⟩ : BufTy).Contents (Elt F) → (⟨S16384x512, .f32⟩ : BufTy).Contents (Elt F)),
    binary main_v175 main_v180 main_v181 (mulf : (⟨S16384x512, .f32⟩ : BufTy).Contents (Elt F) → (⟨S16384x512, .f32⟩ : BufTy).Contents (Elt F) → (⟨S16384x512, .f32⟩ : BufTy).Contents (Elt F)),
    binary main_v181 main_arg32 main_v182 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    unary main_arg33 main_v183 (broadcastInDim S1x512 ![1] bcast_S512_S1x512_1 : (⟨S512, .f32⟩ : BufTy).Contents (Elt F) → (⟨S1x512, .f32⟩ : BufTy).Contents (Elt F)),
    unary main_v183 main_v184 (broadcastInDim S16384x512 ![0, 1] bcast_S1x512_S16384x512_0_1 : (⟨S1x512, .f32⟩ : BufTy).Contents (Elt F) → (⟨S16384x512, .f32⟩ : BufTy).Contents (Elt F)),
    binary main_v182 main_v184 main_v185 (addf : (⟨S16384x512, .f32⟩ : BufTy).Contents (Elt F) → (⟨S16384x512, .f32⟩ : BufTy).Contents (Elt F) → (⟨S16384x512, .f32⟩ : BufTy).Contents (Elt F)),
    nullary main_cst_27 (constant S_ .f32 0x00000000#32),
    binary main_v185 main_cst_27 main_v186 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v186 main_v187 (broadcastInDim S16384x1 ![0] bcast_S16384_S16384x1_0 : (⟨S16384, .f32⟩ : BufTy).Contents (Elt F) → (⟨S16384x1, .f32⟩ : BufTy).Contents (Elt F)),
    nullary main_cst_28 (constant S_ .f32 0x44000000#32),
    unary main_cst_28 main_v188 (broadcastInDim S16384x1 ![] bcast_S_S16384x1 : (⟨S_, .f32⟩ : BufTy).Contents (Elt F) → (⟨S16384x1, .f32⟩ : BufTy).Contents (Elt F)),
    binary main_v187 main_v188 main_v189 (Host.divf : (⟨S16384x1, .f32⟩ : BufTy).Contents (Elt F) → (⟨S16384x1, .f32⟩ : BufTy).Contents (Elt F) → (⟨S16384x1, .f32⟩ : BufTy).Contents (Elt F)),
    unary main_v189 main_v190 (broadcastInDim S16384x512 ![0, 1] bcast_S16384x1_S16384x512_0_1 : (⟨S16384x1, .f32⟩ : BufTy).Contents (Elt F) → (⟨S16384x512, .f32⟩ : BufTy).Contents (Elt F)),
    binary main_v185 main_v190 main_v191 (subf : (⟨S16384x512, .f32⟩ : BufTy).Contents (Elt F) → (⟨S16384x512, .f32⟩ : BufTy).Contents (Elt F) → (⟨S16384x512, .f32⟩ : BufTy).Contents (Elt F)),
    binary main_v191 main_v191 main_v192 (mulf : (⟨S16384x512, .f32⟩ : BufTy).Contents (Elt F) → (⟨S16384x512, .f32⟩ : BufTy).Contents (Elt F) → (⟨S16384x512, .f32⟩ : BufTy).Contents (Elt F)),
    nullary main_cst_29 (constant S_ .f32 0x00000000#32),
    binary main_v192 main_cst_29 main_v193 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v193 main_v194 (broadcastInDim S16384x1 ![0] bcast_S16384_S16384x1_0 : (⟨S16384, .f32⟩ : BufTy).Contents (Elt F) → (⟨S16384x1, .f32⟩ : BufTy).Contents (Elt F)),
    nullary main_cst_30 (constant S_ .f32 0x44000000#32),
    unary main_cst_30 main_v195 (broadcastInDim S16384x1 ![] bcast_S_S16384x1 : (⟨S_, .f32⟩ : BufTy).Contents (Elt F) → (⟨S16384x1, .f32⟩ : BufTy).Contents (Elt F)),
    binary main_v194 main_v195 main_v196 (Host.divf : (⟨S16384x1, .f32⟩ : BufTy).Contents (Elt F) → (⟨S16384x1, .f32⟩ : BufTy).Contents (Elt F) → (⟨S16384x1, .f32⟩ : BufTy).Contents (Elt F)),
    unary main_v189 main_v197 (broadcastInDim S16384x512 ![0, 1] bcast_S16384x1_S16384x512_0_1 : (⟨S16384x1, .f32⟩ : BufTy).Contents (Elt F) → (⟨S16384x512, .f32⟩ : BufTy).Contents (Elt F)),
    binary main_v185 main_v197 main_v198 (subf : (⟨S16384x512, .f32⟩ : BufTy).Contents (Elt F) → (⟨S16384x512, .f32⟩ : BufTy).Contents (Elt F) → (⟨S16384x512, .f32⟩ : BufTy).Contents (Elt F)),
    nullary main_cst_31 (constant S_ .f32 0x3727C5AC#32),
    unary main_cst_31 main_v199 (broadcastInDim S16384x1 ![] bcast_S_S16384x1 : (⟨S_, .f32⟩ : BufTy).Contents (Elt F) → (⟨S16384x1, .f32⟩ : BufTy).Contents (Elt F)),
    binary main_v196 main_v199 main_v200 (addf : (⟨S16384x1, .f32⟩ : BufTy).Contents (Elt F) → (⟨S16384x1, .f32⟩ : BufTy).Contents (Elt F) → (⟨S16384x1, .f32⟩ : BufTy).Contents (Elt F)),
    unary main_v200 main_v201 (Host.rsqrt : (⟨S16384x1, .f32⟩ : BufTy).Contents (Elt F) → (⟨S16384x1, .f32⟩ : BufTy).Contents (Elt F)),
    unary main_v201 main_v202 (broadcastInDim S16384x512 ![0, 1] bcast_S16384x1_S16384x512_0_1 : (⟨S16384x1, .f32⟩ : BufTy).Contents (Elt F) → (⟨S16384x512, .f32⟩ : BufTy).Contents (Elt F)),
    binary main_v198 main_v202 main_v203 (mulf : (⟨S16384x512, .f32⟩ : BufTy).Contents (Elt F) → (⟨S16384x512, .f32⟩ : BufTy).Contents (Elt F) → (⟨S16384x512, .f32⟩ : BufTy).Contents (Elt F)),
    unary main_arg34 main_v204 (broadcastInDim S1x512 ![1] bcast_S512_S1x512_1 : (⟨S512, .f32⟩ : BufTy).Contents (Elt F) → (⟨S1x512, .f32⟩ : BufTy).Contents (Elt F)),
    unary main_v204 main_v205 (broadcastInDim S16384x512 ![0, 1] bcast_S1x512_S16384x512_0_1 : (⟨S1x512, .f32⟩ : BufTy).Contents (Elt F) → (⟨S16384x512, .f32⟩ : BufTy).Contents (Elt F)),
    binary main_v203 main_v205 main_v206 (mulf : (⟨S16384x512, .f32⟩ : BufTy).Contents (Elt F) → (⟨S16384x512, .f32⟩ : BufTy).Contents (Elt F) → (⟨S16384x512, .f32⟩ : BufTy).Contents (Elt F)),
    unary main_arg35 main_v207 (broadcastInDim S1x512 ![1] bcast_S512_S1x512_1 : (⟨S512, .f32⟩ : BufTy).Contents (Elt F) → (⟨S1x512, .f32⟩ : BufTy).Contents (Elt F)),
    unary main_v207 main_v208 (broadcastInDim S16384x512 ![0, 1] bcast_S1x512_S16384x512_0_1 : (⟨S1x512, .f32⟩ : BufTy).Contents (Elt F) → (⟨S16384x512, .f32⟩ : BufTy).Contents (Elt F)),
    binary main_v206 main_v208 main_v209 (addf : (⟨S16384x512, .f32⟩ : BufTy).Contents (Elt F) → (⟨S16384x512, .f32⟩ : BufTy).Contents (Elt F) → (⟨S16384x512, .f32⟩ : BufTy).Contents (Elt F)) ]

end Cert.ReferenceIdeal.RefRun

end
-- ==== Proof.Spec.lean ====
/-
  The network as one function of its 36 argument arrays, in the reference's own operations. Four projections
  (linear layer, LayerNorm, ReLU) of the four modalities; the attended stack (each projection plus its three
  cross-modal pairs); and from the four attended blocks side by side: the importance weights (hidden layer, logits,
  softmax over four columns) and the fused output (sigmoid gate times tanh branch, a linear layer, LayerNorm).
-/
import proofs.«146539_j55808805044797_2_alg».proof.Proof.RefOps

noncomputable section

namespace Cert.Fusion.Spec

open Idealize.ShloMosaic Cert.ReferenceIdeal.RefRun

variable {F : FTy → Type} [FloatOps F]

/-- The time-series projection. -/
def proj0 (a0 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) : (⟨Cert.ReferenceIdeal.S16384x512, .f32⟩ : BufTy).Contents (Elt F) :=
  normRelu (lin256 a0 a4 a5) (rowMean (lin256 a0 a4 a5)) a6 a7
/-- The text projection. -/
def proj1 (a1 : (⟨Cert.ReferenceIdeal.S16384x768, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) : (⟨Cert.ReferenceIdeal.S16384x512, .f32⟩ : BufTy).Contents (Elt F) :=
  normRelu (lin768 a1 a8 a9) (rowMean (lin768 a1 a8 a9)) a10 a11
/-- The fundamentals projection. -/
def proj2 (a2 : (⟨Cert.ReferenceIdeal.S16384x128, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) : (⟨Cert.ReferenceIdeal.S16384x512, .f32⟩ : BufTy).Contents (Elt F) :=
  normRelu (lin128 a2 a12 a13) (rowMean (lin128 a2 a12 a13)) a14 a15
/-- The network projection. -/
def proj3 (a3 : (⟨Cert.ReferenceIdeal.S16384x256, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) : (⟨Cert.ReferenceIdeal.S16384x512, .f32⟩ : BufTy).Contents (Elt F) :=
  normRelu (lin256 a3 a16 a17) (rowMean (lin256 a3 a16 a17)) a18 a19

/-- The four projections stacked. -/
def stackRes (a0 : (⟨Cert.ReferenceIdeal.S16384x256, .f32⟩ : BufTy).Contents (Elt F)) (a1 : (⟨Cert.ReferenceIdeal.S16384x768, .f32⟩ : BufTy).Contents (Elt F)) (a2 : (⟨Cert.ReferenceIdeal.S16384x128, .f32⟩ : BufTy).Contents (Elt F)) (a3 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) : (⟨Cert.ReferenceIdeal.S4x16384x512, .f32⟩ : BufTy).Contents (Elt F) :=
  stack4 (proj0 a0 a4 a5 a6 a7) (proj1 a1 a8 a9 a10 a11) (proj2 a2 a12 a13 a14 a15) (proj3 a3 a16 a17 a18 a19)

/-- The attended stack: the second result. -/
def attRes (a0 : (⟨Cert.ReferenceIdeal.S16384x256, .f32⟩ : BufTy).Contents (Elt F)) (a1 : (⟨Cert.ReferenceIdeal.S16384x768, .f32⟩ : BufTy).Contents (Elt F)) (a2 : (⟨Cert.ReferenceIdeal.S16384x128, .f32⟩ : BufTy).Contents (Elt F)) (a3 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) (a20 : (⟨Cert.ReferenceIdeal.S12x512x512, .f32⟩ : BufTy).Contents (Elt F)) (a21 : (⟨Cert.ReferenceIdeal.S12x512, .f32⟩ : BufTy).Contents (Elt F)) (a22 : (⟨Cert.ReferenceIdeal.S12x512x512, .f32⟩ : BufTy).Contents (Elt F)) (a23 : (⟨Cert.ReferenceIdeal.S12x512, .f32⟩ : BufTy).Contents (Elt F)) : (⟨Cert.ReferenceIdeal.S4x16384x512, .f32⟩ : BufTy).Contents (Elt F) :=
  attended (stackRes a0 a1 a2 a3 a4 a5 a6 a7 a8 a9 a10 a11 a12 a13 a14 a15 a16 a17 a18 a19) (valueProj (valueProj (gathered (stackRes a0 a1 a2 a3 a4 a5 a6 a7 a8 a9 a10 a11 a12 a13 a14 a15 a16 a17 a18 a19)) a20 a21) a22 a23)

/-- The logits of the importance head. -/
def logitsRes (a0 : (⟨Cert.ReferenceIdeal.S16384x256, .f32⟩ : BufTy).Contents (Elt F)) (a1 : (⟨Cert.ReferenceIdeal.S16384x768, .f32⟩ : BufTy).Contents (Elt F)) (a2 : (⟨Cert.ReferenceIdeal.S16384x128, .f32⟩ : BufTy).Contents (Elt F)) (a3 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) (a20 : (⟨Cert.ReferenceIdeal.S12x512x512, .f32⟩ : BufTy).Contents (Elt F)) (a21 : (⟨Cert.ReferenceIdeal.S12x512, .f32⟩ : BufTy).Contents (Elt F)) (a22 : (⟨Cert.ReferenceIdeal.S12x512x512, .f32⟩ : BufTy).Contents (Elt F)) (a23 : (⟨Cert.ReferenceIdeal.S12x512, .f32⟩ : BufTy).Contents (Elt F)) (a24 : (⟨Cert.ReferenceIdeal.S2048x512, .f32⟩ : BufTy).Contents (Elt F)) (a25 : (⟨Cert.ReferenceIdeal.S512, .f32⟩ : BufTy).Contents (Elt F)) (a26 : (⟨Cert.ReferenceIdeal.S512x4, .f32⟩ : BufTy).Contents (Elt F)) (a27 : (⟨Cert.ReferenceIdeal.S4, .f32⟩ : BufTy).Contents (Elt F)) : (⟨Cert.ReferenceIdeal.S16384x4, .f32⟩ : BufTy).Contents (Elt F) :=
  logits (relu (mixLin (concat4 (attRes a0 a1 a2 a3 a4 a5 a6 a7 a8 a9 a10 a11 a12 a13 a14 a15 a16 a17 a18 a19 a20 a21 a22 a23)) a24 a25)) a26 a27

/-- The importance weights: the third result. -/
def impRes (a0 : (⟨Cert.ReferenceIdeal.S16384x256, .f32⟩ : BufTy).Contents (Elt F)) (a1 : (⟨Cert.ReferenceIdeal.S16384x768, .f32⟩ : BufTy).Contents (Elt F)) (a2 : (⟨Cert.ReferenceIdeal.S16384x128, .f32⟩ : BufTy).Contents (Elt F)) (a3 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) (a20 : (⟨Cert.ReferenceIdeal.S12x512x512, .f32⟩ : BufTy).Contents (Elt F)) (a21 : (⟨Cert.ReferenceIdeal.S12x512, .f32⟩ : BufTy).Contents (Elt F)) (a22 : (⟨Cert.ReferenceIdeal.S12x512x512, .f32⟩ : BufTy).Contents (Elt F)) (a23 : (⟨Cert.ReferenceIdeal.S12x512, .f32⟩ : BufTy).Contents (Elt F)) (a24 : (⟨Cert.ReferenceIdeal.S2048x512, .f32⟩ : BufTy).Contents (Elt F)) (a25 : (⟨Cert.ReferenceIdeal.S512, .f32⟩ : BufTy).Contents (Elt F)) (a26 : (⟨Cert.ReferenceIdeal.S512x4, .f32⟩ : BufTy).Contents (Elt F)) (a27 : (⟨Cert.ReferenceIdeal.S4, .f32⟩ : BufTy).Contents (Elt F)) : (⟨Cert.ReferenceIdeal.S16384x4, .f32⟩ : BufTy).Contents (Elt F) :=
  softmaxOut (expShift (logitsRes a0 a1 a2 a3 a4 a5 a6 a7 a8 a9 a10 a11 a12 a13 a14 a15 a16 a17 a18 a19 a20 a21 a22 a23 a24 a25 a26 a27) (rowMax (logitsRes a0 a1 a2 a3 a4 a5 a6 a7 a8 a9 a10 a11 a12 a13 a14 a15 a16 a17 a18 a19 a20 a21 a22 a23 a24 a25 a26 a27)))

/-- The fused block before its LayerNorm. -/
def fusedRes (a0 : (⟨Cert.ReferenceIdeal.S16384x256, .f32⟩ : BufTy).Contents (Elt F)) (a1 : (⟨Cert.ReferenceIdeal.S16384x768, .f32⟩ : BufTy).Contents (Elt F)) (a2 : (⟨Cert.ReferenceIdeal.S16384x128, .f32⟩ : BufTy).Contents (Elt F)) (a3 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) (a20 : (⟨Cert.ReferenceIdeal.S12x512x512, .f32⟩ : BufTy).Contents (Elt F)) (a21 : (⟨Cert.ReferenceIdeal.S12x512, .f32⟩ : BufTy).Contents (Elt F)) (a22 : (⟨Cert.ReferenceIdeal.S12x512x512, .f32⟩ : BufTy).Contents (Elt F)) (a23 : (⟨Cert.ReferenceIdeal.S12x512, .f32⟩ : BufTy).Contents (Elt F)) (a28 : (⟨Cert.ReferenceIdeal.S2048x512, .f32⟩ : BufTy).Contents (Elt F)) (a29 : (⟨Cert.ReferenceIdeal.S512, .f32⟩ : BufTy).Contents (Elt F)) (a30 : (⟨Cert.ReferenceIdeal.S2048x512, .f32⟩ : BufTy).Contents (Elt F)) (a31 : (⟨Cert.ReferenceIdeal.S512, .f32⟩ : BufTy).Contents (Elt F)) (a32 : (⟨Cert.ReferenceIdeal.S512x512, .f32⟩ : BufTy).Contents (Elt F)) (a33 : (⟨Cert.ReferenceIdeal.S512, .f32⟩ : BufTy).Contents (Elt F)) : (⟨Cert.ReferenceIdeal.S16384x512, .f32⟩ : BufTy).Contents (Elt F) :=
  lin512 (gated (gate (mixLin (concat4 (attRes a0 a1 a2 a3 a4 a5 a6 a7 a8 a9 a10 a11 a12 a13 a14 a15 a16 a17 a18 a19 a20 a21 a22 a23)) a28 a29)) (tanhOf (mixLin (concat4 (attRes a0 a1 a2 a3 a4 a5 a6 a7 a8 a9 a10 a11 a12 a13 a14 a15 a16 a17 a18 a19 a20 a21 a22 a23)) a30 a31))) a32 a33

/-- The fused output: the first result. -/
def outRes (a0 : (⟨Cert.ReferenceIdeal.S16384x256, .f32⟩ : BufTy).Contents (Elt F)) (a1 : (⟨Cert.ReferenceIdeal.S16384x768, .f32⟩ : BufTy).Contents (Elt F)) (a2 : (⟨Cert.ReferenceIdeal.S16384x128, .f32⟩ : BufTy).Contents (Elt F)) (a3 : (⟨Cert.ReferenceIdeal.S16384x256, .f32⟩ : BufTy).Contents (Elt F)) (a4 : (⟨Cert.ReferenceIdeal.S256x512, .f32⟩ : BufTy).Contents (Elt F)) (a5 : (⟨Cert.ReferenceIdeal.S512, .f32⟩ : BufTy).Contents (Elt F)) (a6 : (⟨Cert.ReferenceIdeal.S512, .f32⟩ : BufTy).Contents (Elt F)) (a7 : (⟨Cert.ReferenceIdeal.S512, .f32⟩ : BufTy).Contents (Elt F)) (a8 : (⟨Cert.ReferenceIdeal.S768x512, .f32⟩ : BufTy).Contents (Elt F)) (a9 : (⟨Cert.ReferenceIdeal.S512, .f32⟩ : BufTy).Contents (Elt F)) (a10 : (⟨Cert.ReferenceIdeal.S512, .f32⟩ : BufTy).Contents (Elt F)) (a11 : (⟨Cert.ReferenceIdeal.S512, .f32⟩ : BufTy).Contents (Elt F)) (a12 : (⟨Cert.ReferenceIdeal.S128x512, .f32⟩ : BufTy).Contents (Elt F)) (a13 : (⟨Cert.ReferenceIdeal.S512, .f32⟩ : BufTy).Contents (Elt F)) (a14 : (⟨Cert.ReferenceIdeal.S512, .f32⟩ : BufTy).Contents (Elt F)) (a15 : (⟨Cert.ReferenceIdeal.S512, .f32⟩ : BufTy).Contents (Elt F)) (a16 : (⟨Cert.ReferenceIdeal.S256x512, .f32⟩ : BufTy).Contents (Elt F)) (a17 : (⟨Cert.ReferenceIdeal.S512, .f32⟩ : BufTy).Contents (Elt F)) (a18 : (⟨Cert.ReferenceIdeal.S512, .f32⟩ : BufTy).Contents (Elt F)) (a19 : (⟨Cert.ReferenceIdeal.S512, .f32⟩ : BufTy).Contents (Elt F)) (a20 : (⟨Cert.ReferenceIdeal.S12x512x512, .f32⟩ : BufTy).Contents (Elt F)) (a21 : (⟨Cert.ReferenceIdeal.S12x512, .f32⟩ : BufTy).Contents (Elt F)) (a22 : (⟨Cert.ReferenceIdeal.S12x512x512, .f32⟩ : BufTy).Contents (Elt F)) (a23 : (⟨Cert.ReferenceIdeal.S12x512, .f32⟩ : BufTy).Contents (Elt F)) (a28 : (⟨Cert.ReferenceIdeal.S2048x512, .f32⟩ : BufTy).Contents (Elt F)) (a29 : (⟨Cert.ReferenceIdeal.S512, .f32⟩ : BufTy).Contents (Elt F)) (a30 : (⟨Cert.ReferenceIdeal.S2048x512, .f32⟩ : BufTy).Contents (Elt F)) (a31 : (⟨Cert.ReferenceIdeal.S512, .f32⟩ : BufTy).Contents (Elt F)) (a32 : (⟨Cert.ReferenceIdeal.S512x512, .f32⟩ : BufTy).Contents (Elt F)) (a33 : (⟨Cert.ReferenceIdeal.S512, .f32⟩ : BufTy).Contents (Elt F)) (a34 : (⟨Cert.ReferenceIdeal.S512, .f32⟩ : BufTy).Contents (Elt F)) (a35 : (⟨Cert.ReferenceIdeal.S512, .f32⟩ : BufTy).Contents (Elt F)) : (⟨Cert.ReferenceIdeal.S16384x512, .f32⟩ : BufTy).Contents (Elt F) :=
  normOut (fusedRes a0 a1 a2 a3 a4 a5 a6 a7 a8 a9 a10 a11 a12 a13 a14 a15 a16 a17 a18 a19 a20 a21 a22 a23 a28 a29 a30 a31 a32 a33) (rowMean (fusedRes a0 a1 a2 a3 a4 a5 a6 a7 a8 a9 a10 a11 a12 a13 a14 a15 a16 a17 a18 a19 a20 a21 a22 a23 a28 a29 a30 a31 a32 a33)) a34 a35

end Cert.Fusion.Spec

end
-- ==== Proof.RefSplit.lean ====
/-
  The reference's operations run in two parts: the fold over the whole line is the fold over the second part of the
  fold over the first. The first part ends with the attended stack and writes none of the later arguments.
-/
import proofs.«146539_j55808805044797_2_alg».proof.Proof.RefOpsSplit
import proofs.«146539_j55808805044797_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Fusion

variable {F : FTy → Type} [FloatOps F]

/-- The line is its two parts, one after the other. -/
theorem ops_split : (ops : List (HloOp τ sig (Elt F))) = opsA ++ opsB := rfl

/-- Folding over a concatenation is folding over the first list, then over the second. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over the whole line, in two steps. -/
theorem after_split (V : Valuation τ sig (Elt F)) : after ops V = after opsB (after opsA V) := by
  rw [ops_split, after_append]

set_option maxRecDepth 16384 in
set_option maxHeartbeats 64000000 in
/-- After the first part the attended stack's buffer holds the attended stack of the arguments. -/
theorem attA (V : Valuation τ sig (Elt F)) :
    after opsA V (main_v136 : DevRef τ sig) = Spec.attRes (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) := by
  after_results_simp <;> rfl

set_option maxRecDepth 16384 in
set_option maxHeartbeats 64000000 in
/-- The first part does not write argument 24. -/
theorem argA24 (V : Valuation τ sig (Elt F)) :
    after opsA V (main_arg24 : DevRef τ sig) = V (main_arg24 : DevRef τ sig) := by
  after_results_simp

set_option maxRecDepth 16384 in
set_option maxHeartbeats 64000000 in
/-- The first part does not write argument 25. -/
theorem argA25 (V : Valuation τ sig (Elt F)) :
    after opsA V (main_arg25 : DevRef τ sig) = V (main_arg25 : DevRef τ sig) := by
  after_results_simp

set_option maxRecDepth 16384 in
set_option maxHeartbeats 64000000 in
/-- The first part does not write argument 26. -/
theorem argA26 (V : Valuation τ sig (Elt F)) :
    after opsA V (main_arg26 : DevRef τ sig) = V (main_arg26 : DevRef τ sig) := by
  after_results_simp

set_option maxRecDepth 16384 in
set_option maxHeartbeats 64000000 in
/-- The first part does not write argument 27. -/
theorem argA27 (V : Valuation τ sig (Elt F)) :
    after opsA V (main_arg27 : DevRef τ sig) = V (main_arg27 : DevRef τ sig) := by
  after_results_simp

set_option maxRecDepth 16384 in
set_option maxHeartbeats 64000000 in
/-- The first part does not write argument 28. -/
theorem argA28 (V : Valuation τ sig (Elt F)) :
    after opsA V (main_arg28 : DevRef τ sig) = V (main_arg28 : DevRef τ sig) := by
  after_results_simp

set_option maxRecDepth 16384 in
set_option maxHeartbeats 64000000 in
/-- The first part does not write argument 29. -/
theorem argA29 (V : Valuation τ sig (Elt F)) :
    after opsA V (main_arg29 : DevRef τ sig) = V (main_arg29 : DevRef τ sig) := by
  after_results_simp

set_option maxRecDepth 16384 in
set_option maxHeartbeats 64000000 in
/-- The first part does not write argument 30. -/
theorem argA30 (V : Valuation τ sig (Elt F)) :
    after opsA V (main_arg30 : DevRef τ sig) = V (main_arg30 : DevRef τ sig) := by
  after_results_simp

set_option maxRecDepth 16384 in
set_option maxHeartbeats 64000000 in
/-- The first part does not write argument 31. -/
theorem argA31 (V : Valuation τ sig (Elt F)) :
    after opsA V (main_arg31 : DevRef τ sig) = V (main_arg31 : DevRef τ sig) := by
  after_results_simp

set_option maxRecDepth 16384 in
set_option maxHeartbeats 64000000 in
/-- The first part does not write argument 32. -/
theorem argA32 (V : Valuation τ sig (Elt F)) :
    after opsA V (main_arg32 : DevRef τ sig) = V (main_arg32 : DevRef τ sig) := by
  after_results_simp

set_option maxRecDepth 16384 in
set_option maxHeartbeats 64000000 in
/-- The first part does not write argument 33. -/
theorem argA33 (V : Valuation τ sig (Elt F)) :
    after opsA V (main_arg33 : DevRef τ sig) = V (main_arg33 : DevRef τ sig) := by
  after_results_simp

set_option maxRecDepth 16384 in
set_option maxHeartbeats 64000000 in
/-- The first part does not write argument 34. -/
theorem argA34 (V : Valuation τ sig (Elt F)) :
    after opsA V (main_arg34 : DevRef τ sig) = V (main_arg34 : DevRef τ sig) := by
  after_results_simp

set_option maxRecDepth 16384 in
set_option maxHeartbeats 64000000 in
/-- The first part does not write argument 35. -/
theorem argA35 (V : Valuation τ sig (Elt F)) :
    after opsA V (main_arg35 : DevRef τ sig) = V (main_arg35 : DevRef τ sig) := by
  after_results_simp

end Cert.ReferenceIdeal.RefRun

end
-- ==== Proof.RefOut.lean ====
/-
  The first result. The second part of the line computes, from the attended stack's buffer and eight later arguments,
  the gate, the tanh branch, their product, a linear layer and the final LayerNorm; with the first part's result for
  that buffer this is the fused output of the argument arrays.
-/
import proofs.«146539_j55808805044797_2_alg».proof.Proof.RefSplit

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Fusion

variable {F : FTy → Type} [FloatOps F]

set_option maxRecDepth 16384 in
set_option maxHeartbeats 64000000 in
/-- The second part alone, from any contents. -/
theorem outB (W : Valuation τ sig (Elt F)) :
    after opsB W (main_v209 : DevRef τ sig) = normOut (lin512 (gated (gate (mixLin (concat4 (W (main_v136 : DevRef τ sig))) (W (main_arg28 : DevRef τ sig)) (W (main_arg29 : DevRef τ sig)))) (tanhOf (mixLin (concat4 (W (main_v136 : DevRef τ sig))) (W (main_arg30 : DevRef τ sig)) (W (main_arg31 : DevRef τ sig))))) (W (main_arg32 : DevRef τ sig)) (W (main_arg33 : DevRef τ sig))) (rowMean (lin512 (gated (gate (mixLin (concat4 (W (main_v136 : DevRef τ sig))) (W (main_arg28 : DevRef τ sig)) (W (main_arg29 : DevRef τ sig)))) (tanhOf (mixLin (concat4 (W (main_v136 : DevRef τ sig))) (W (main_arg30 : DevRef τ sig)) (W (main_arg31 : DevRef τ sig))))) (W (main_arg32 : DevRef τ sig)) (W (main_arg33 : DevRef τ sig)))) (W (main_arg34 : DevRef τ sig)) (W (main_arg35 : DevRef τ sig)) := by
  after_results_simp <;> rfl

theorem out_eq (V : Valuation τ sig (Elt F)) :
    after ops V (main_v209 : DevRef τ sig) = Spec.outRes (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) := by
  rw [after_split, outB, attA, argA28, argA29, argA30, argA31, argA32, argA33, argA34, argA35]
  rfl

end Cert.ReferenceIdeal.RefRun

end
-- ==== Proof.RefAtt.lean ====
/-
  The second result: the fold of the operations at its buffer is the attended stack of the argument arrays.
  Each operation's result is read off once; what is left is the stage terms themselves.
-/
import proofs.«146539_j55808805044797_2_alg».proof.Proof.RefRun
import proofs.«146539_j55808805044797_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Fusion

variable {F : FTy → Type} [FloatOps F]

set_option maxRecDepth 16384 in
set_option maxHeartbeats 64000000 in
theorem att_eq (V : Valuation τ sig (Elt F)) :
    after ops V (main_v136 : DevRef τ sig) = Spec.attRes (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) := by
  after_results_simp <;> rfl

end Cert.ReferenceIdeal.RefRun

end
-- ==== Proof.RefImp.lean ====
/-
  The third result. The second part of the line computes, from the attended stack's buffer and four later arguments,
  the hidden layer, the logits and their softmax; with the first part's result for that buffer this is the importance
  weights of the argument arrays.
-/
import proofs.«146539_j55808805044797_2_alg».proof.Proof.RefSplit

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Fusion

variable {F : FTy → Type} [FloatOps F]

set_option maxRecDepth 16384 in
set_option maxHeartbeats 64000000 in
/-- The second part alone, from any contents. -/
theorem impB (W : Valuation τ sig (Elt F)) :
    after opsB W (main_v165 : DevRef τ sig) = softmaxOut (expShift (logits (relu (mixLin (concat4 (W (main_v136 : DevRef τ sig))) (W (main_arg24 : DevRef τ sig)) (W (main_arg25 : DevRef τ sig)))) (W (main_arg26 : DevRef τ sig)) (W (main_arg27 : DevRef τ sig))) (rowMax (logits (relu (mixLin (concat4 (W (main_v136 : DevRef τ sig))) (W (main_arg24 : DevRef τ sig)) (W (main_arg25 : DevRef τ sig)))) (W (main_arg26 : DevRef τ sig)) (W (main_arg27 : DevRef τ sig))))) := by
  after_results_simp <;> rfl

theorem imp_eq (V : Valuation τ sig (Elt F)) :
    after ops V (main_v165 : DevRef τ sig) = Spec.impRes (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) := by
  rw [after_split, impB, attA, argA24, argA25, argA26, argA27]
  rfl

end Cert.ReferenceIdeal.RefRun

end
-- ==== Proof.RefRead.lean ====
/-
  The reference's run, read: every weakly fair execution of @main ends with its three results at the network's
  function of the argument arrays (the fused output, the attended stack, the importance weights) and with every
  argument array as it was launched.
-/
import proofs.«146539_j55808805044797_2_alg».proof.Proof.RefArgs0
import proofs.«146539_j55808805044797_2_alg».proof.Proof.RefArgs1
import proofs.«146539_j55808805044797_2_alg».proof.Proof.RefArgs2
import proofs.«146539_j55808805044797_2_alg».proof.Proof.RefArgs3
import proofs.«146539_j55808805044797_2_alg».proof.Proof.RefOut
import proofs.«146539_j55808805044797_2_alg».proof.Proof.RefAtt
import proofs.«146539_j55808805044797_2_alg».proof.Proof.RefImp

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Fusion

variable {F : FTy → Type} [FloatOps F]

set_option maxRecDepth 16384 in
/-- The run with the results named and the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209) = Spec.outRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))
      ∧ r.2.mem ((c.tc : Thread nD τ).loc main_v136) = Spec.attRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v165) = Spec.impRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun _ h c => ⟨(h c main_v209).trans (out_eq _), (h c main_v136).trans (att_eq _), (h c main_v165).trans (imp_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _),
      (h c main_arg24).trans (arg24_eq _),
      (h c main_arg25).trans (arg25_eq _),
      (h c main_arg26).trans (arg26_eq _),
      (h c main_arg27).trans (arg27_eq _),
      (h c main_arg28).trans (arg28_eq _),
      (h c main_arg29).trans (arg29_eq _),
      (h c main_arg30).trans (arg30_eq _),
      (h c main_arg31).trans (arg31_eq _),
      (h c main_arg32).trans (arg32_eq _),
      (h c main_arg33).trans (arg33_eq _),
      (h c main_arg34).trans (arg34_eq _),
      (h c main_arg35).trans (arg35_eq _)⟩)
    (run_fold m ρ)

end Cert.ReferenceIdeal.RefRun

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.Leaves.lean ====
/-
  What a grid point's blocks are, as the body's loads see them. The body reads its 36 input windows through 89
  rectangles: the four row inputs whole (256 rows of the argument, starting at the point's row offset), every
  weight matrix and every bias or gain vector whole, slab p of the four stacked attention parameters for each of
  the twelve pairs, and the four 512-row blocks of each of the three 2048 × 512 mixing weights. `Leaves` states,
  over any blocks x0 … x35 and argument arrays a0 … a35, that each load reads the matching part of its argument.
-/
import proofs.«146539_j55808805044797_2_alg».proof.Proof.KernelIdealFrameP
import proofs.«146539_j55808805044797_2_alg».proof.Proof.LibTile
import Idealize.ShloMosaic.PureOps.Ideal
import Idealize.ShloMosaic.Lib.ValueIdx

noncomputable section

namespace Cert.Fusion

open Idealize.ShloMosaic Idealize.ShloMosaic.ValueIdx
open Cert.Tile (IsTile)

/-- Each load of the body reads the matching part of its argument array. -/
structure Leaves (r0 : Nat) (hr : r0 + 256 ≤ 16384)
    (x0 : Vec Ideal Cert.KernelIdeal.S256x256 .f32) (x1 : Vec Ideal Cert.KernelIdeal.S256x768 .f32) (x2 : Vec Ideal Cert.KernelIdeal.S256x128 .f32) (x3 : Vec Ideal Cert.KernelIdeal.S256x256 .f32) (x4 : Vec Ideal Cert.KernelIdeal.S256x512 .bf16) (x5 : Vec Ideal Cert.KernelIdeal.S512 .f32) (x6 : Vec Ideal Cert.KernelIdeal.S512 .f32) (x7 : Vec Ideal Cert.KernelIdeal.S512 .f32) (x8 : Vec Ideal Cert.KernelIdeal.S768x512 .bf16) (x9 : Vec Ideal Cert.KernelIdeal.S512 .f32) (x10 : Vec Ideal Cert.KernelIdeal.S512 .f32) (x11 : Vec Ideal Cert.KernelIdeal.S512 .f32) (x12 : Vec Ideal Cert.KernelIdeal.S128x512 .bf16) (x13 : Vec Ideal Cert.KernelIdeal.S512 .f32) (x14 : Vec Ideal Cert.KernelIdeal.S512 .f32) (x15 : Vec Ideal Cert.KernelIdeal.S512 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) (x20 : Vec Ideal Cert.KernelIdeal.S12x512x512 .bf16) (x21 : Vec Ideal Cert.KernelIdeal.S12x512 .f32) (x22 : Vec Ideal Cert.KernelIdeal.S12x512x512 .bf16) (x23 : Vec Ideal Cert.KernelIdeal.S12x512 .f32) (x24 : Vec Ideal Cert.KernelIdeal.S2048x512 .bf16) (x25 : Vec Ideal Cert.KernelIdeal.S512 .f32) (x26 : Vec Ideal Cert.KernelIdeal.S512x4 .bf16) (x27 : Vec Ideal Cert.KernelIdeal.S4 .f32) (x28 : Vec Ideal Cert.KernelIdeal.S2048x512 .bf16) (x29 : Vec Ideal Cert.KernelIdeal.S512 .f32) (x30 : Vec Ideal Cert.KernelIdeal.S2048x512 .bf16) (x31 : Vec Ideal Cert.KernelIdeal.S512 .f32) (x32 : Vec Ideal Cert.KernelIdeal.S512x512 .bf16) (x33 : Vec Ideal Cert.KernelIdeal.S512 .f32) (x34 : Vec Ideal Cert.KernelIdeal.S512 .f32) (x35 : Vec Ideal Cert.KernelIdeal.S512 .f32)
    (a0 : (⟨2, ![16384, 256]⟩ : Shape).Idx → EReal) (a1 : (⟨2, ![16384, 768]⟩ : Shape).Idx → EReal) (a2 : (⟨2, ![16384, 128]⟩ : Shape).Idx → EReal) (a3 : (⟨2, ![16384, 256]⟩ : Shape).Idx → EReal) (a4 : (⟨2, ![256, 512]⟩ : Shape).Idx → EReal) (a5 : (⟨1, ![512]⟩ : Shape).Idx → EReal) (a6 : (⟨1, ![512]⟩ : Shape).Idx → EReal) (a7 : (⟨1, ![512]⟩ : Shape).Idx → EReal) (a8 : (⟨2, ![768, 512]⟩ : Shape).Idx → EReal) (a9 : (⟨1, ![512]⟩ : Shape).Idx → EReal) (a10 : (⟨1, ![512]⟩ : Shape).Idx → EReal) (a11 : (⟨1, ![512]⟩ : Shape).Idx → EReal) (a12 : (⟨2, ![128, 512]⟩ : Shape).Idx → EReal) (a13 : (⟨1, ![512]⟩ : Shape).Idx → EReal) (a14 : (⟨1, ![512]⟩ : Shape).Idx → EReal) (a15 : (⟨1, ![512]⟩ : Shape).Idx → EReal) (a16 : (⟨2, ![256, 512]⟩ : Shape).Idx → EReal) (a17 : (⟨1, ![512]⟩ : Shape).Idx → EReal) (a18 : (⟨1, ![512]⟩ : Shape).Idx → EReal) (a19 : (⟨1, ![512]⟩ : Shape).Idx → EReal) (a20 : (⟨3, ![12, 512, 512]⟩ : Shape).Idx → EReal) (a21 : (⟨2, ![12, 512]⟩ : Shape).Idx → EReal) (a22 : (⟨3, ![12, 512, 512]⟩ : Shape).Idx → EReal) (a23 : (⟨2, ![12, 512]⟩ : Shape).Idx → EReal) (a24 : (⟨2, ![2048, 512]⟩ : Shape).Idx → EReal) (a25 : (⟨1, ![512]⟩ : Shape).Idx → EReal) (a26 : (⟨2, ![512, 4]⟩ : Shape).Idx → EReal) (a27 : (⟨1, ![4]⟩ : Shape).Idx → EReal) (a28 : (⟨2, ![2048, 512]⟩ : Shape).Idx → EReal) (a29 : (⟨1, ![512]⟩ : Shape).Idx → EReal) (a30 : (⟨2, ![2048, 512]⟩ : Shape).Idx → EReal) (a31 : (⟨1, ![512]⟩ : Shape).Idx → EReal) (a32 : (⟨2, ![512, 512]⟩ : Shape).Idx → EReal) (a33 : (⟨1, ![512]⟩ : Shape).Idx → EReal) (a34 : (⟨1, ![512]⟩ : Shape).Idx → EReal) (a35 : (⟨1, ![512]⟩ : Shape).Idx → EReal) : Prop where
  /-- rows [r0, r0 + 256) of argument 0 -/
  row0 : IsTile r0 hr (View.ld x0 Cert.KernelIdeal.GenP.r0_0 : (⟨2, ![256, 256]⟩ : Shape).Idx → EReal) a0
  /-- rows [r0, r0 + 256) of argument 1 -/
  row1 : IsTile r0 hr (View.ld x1 Cert.KernelIdeal.GenP.r0_3 : (⟨2, ![256, 768]⟩ : Shape).Idx → EReal) a1
  /-- rows [r0, r0 + 256) of argument 2 -/
  row2 : IsTile r0 hr (View.ld x2 Cert.KernelIdeal.GenP.r0_5 : (⟨2, ![256, 128]⟩ : Shape).Idx → EReal) a2
  /-- rows [r0, r0 + 256) of argument 3 -/
  row3 : IsTile r0 hr (View.ld x3 Cert.KernelIdeal.GenP.r0_0 : (⟨2, ![256, 256]⟩ : Shape).Idx → EReal) a3
  /-- the whole of argument 4 -/
  all4 : (View.ld x4 Cert.KernelIdeal.GenP.r0_1 : (⟨2, ![256, 512]⟩ : Shape).Idx → EReal) = a4
  /-- the whole of argument 5 -/
  all5 : (View.ld x5 Cert.KernelIdeal.GenP.r0_2 : (⟨1, ![512]⟩ : Shape).Idx → EReal) = a5
  /-- the whole of argument 6 -/
  all6 : (View.ld x6 Cert.KernelIdeal.GenP.r0_2 : (⟨1, ![512]⟩ : Shape).Idx → EReal) = a6
  /-- the whole of argument 7 -/
  all7 : (View.ld x7 Cert.KernelIdeal.GenP.r0_2 : (⟨1, ![512]⟩ : Shape).Idx → EReal) = a7
  /-- the whole of argument 8 -/
  all8 : (View.ld x8 Cert.KernelIdeal.GenP.r0_4 : (⟨2, ![768, 512]⟩ : Shape).Idx → EReal) = a8
  /-- the whole of argument 9 -/
  all9 : (View.ld x9 Cert.KernelIdeal.GenP.r0_2 : (⟨1, ![512]⟩ : Shape).Idx → EReal) = a9
  /-- the whole of argument 10 -/
  all10 : (View.ld x10 Cert.KernelIdeal.GenP.r0_2 : (⟨1, ![512]⟩ : Shape).Idx → EReal) = a10
  /-- the whole of argument 11 -/
  all11 : (View.ld x11 Cert.KernelIdeal.GenP.r0_2 : (⟨1, ![512]⟩ : Shape).Idx → EReal) = a11
  /-- the whole of argument 12 -/
  all12 : (View.ld x12 Cert.KernelIdeal.GenP.r0_6 : (⟨2, ![128, 512]⟩ : Shape).Idx → EReal) = a12
  /-- the whole of argument 13 -/
  all13 : (View.ld x13 Cert.KernelIdeal.GenP.r0_2 : (⟨1, ![512]⟩ : Shape).Idx → EReal) = a13
  /-- the whole of argument 14 -/
  all14 : (View.ld x14 Cert.KernelIdeal.GenP.r0_2 : (⟨1, ![512]⟩ : Shape).Idx → EReal) = a14
  /-- the whole of argument 15 -/
  all15 : (View.ld x15 Cert.KernelIdeal.GenP.r0_2 : (⟨1, ![512]⟩ : Shape).Idx → EReal) = a15
  /-- the whole of argument 16 -/
  all16 : (View.ld x16 Cert.KernelIdeal.GenP.r0_1 : (⟨2, ![256, 512]⟩ : Shape).Idx → EReal) = a16
  /-- the whole of argument 17 -/
  all17 : (View.ld x17 Cert.KernelIdeal.GenP.r0_2 : (⟨1, ![512]⟩ : Shape).Idx → EReal) = a17
  /-- the whole of argument 18 -/
  all18 : (View.ld x18 Cert.KernelIdeal.GenP.r0_2 : (⟨1, ![512]⟩ : Shape).Idx → EReal) = a18
  /-- the whole of argument 19 -/
  all19 : (View.ld x19 Cert.KernelIdeal.GenP.r0_2 : (⟨1, ![512]⟩ : Shape).Idx → EReal) = a19
  /-- slab 0 of the weight stack 20 -/
  slab20_0 : ∀ (k n : Fin 512), (View.ld x20 Cert.KernelIdeal.GenP.r0_7 : (⟨3, ![1, 512, 512]⟩ : Shape).Idx → EReal) (ix3 ⟨0, Nat.one_pos⟩ k n) = a20 (ix3 (⟨0, by omega⟩ : Fin 12) k n)
  /-- slab 1 of the weight stack 20 -/
  slab20_1 : ∀ (k n : Fin 512), (View.ld x20 Cert.KernelIdeal.GenP.r0_9 : (⟨3, ![1, 512, 512]⟩ : Shape).Idx → EReal) (ix3 ⟨0, Nat.one_pos⟩ k n) = a20 (ix3 (⟨1, by omega⟩ : Fin 12) k n)
  /-- slab 2 of the weight stack 20 -/
  slab20_2 : ∀ (k n : Fin 512), (View.ld x20 Cert.KernelIdeal.GenP.r0_11 : (⟨3, ![1, 512, 512]⟩ : Shape).Idx → EReal) (ix3 ⟨0, Nat.one_pos⟩ k n) = a20 (ix3 (⟨2, by omega⟩ : Fin 12) k n)
  /-- slab 3 of the weight stack 20 -/
  slab20_3 : ∀ (k n : Fin 512), (View.ld x20 Cert.KernelIdeal.GenP.r0_14 : (⟨3, ![1, 512, 512]⟩ : Shape).Idx → EReal) (ix3 ⟨0, Nat.one_pos⟩ k n) = a20 (ix3 (⟨3, by omega⟩ : Fin 12) k n)
  /-- slab 4 of the weight stack 20 -/
  slab20_4 : ∀ (k n : Fin 512), (View.ld x20 Cert.KernelIdeal.GenP.r0_16 : (⟨3, ![1, 512, 512]⟩ : Shape).Idx → EReal) (ix3 ⟨0, Nat.one_pos⟩ k n) = a20 (ix3 (⟨4, by omega⟩ : Fin 12) k n)
  /-- slab 5 of the weight stack 20 -/
  slab20_5 : ∀ (k n : Fin 512), (View.ld x20 Cert.KernelIdeal.GenP.r0_18 : (⟨3, ![1, 512, 512]⟩ : Shape).Idx → EReal) (ix3 ⟨0, Nat.one_pos⟩ k n) = a20 (ix3 (⟨5, by omega⟩ : Fin 12) k n)
  /-- slab 6 of the weight stack 20 -/
  slab20_6 : ∀ (k n : Fin 512), (View.ld x20 Cert.KernelIdeal.GenP.r0_21 : (⟨3, ![1, 512, 512]⟩ : Shape).Idx → EReal) (ix3 ⟨0, Nat.one_pos⟩ k n) = a20 (ix3 (⟨6, by omega⟩ : Fin 12) k n)
  /-- slab 7 of the weight stack 20 -/
  slab20_7 : ∀ (k n : Fin 512), (View.ld x20 Cert.KernelIdeal.GenP.r0_23 : (⟨3, ![1, 512, 512]⟩ : Shape).Idx → EReal) (ix3 ⟨0, Nat.one_pos⟩ k n) = a20 (ix3 (⟨7, by omega⟩ : Fin 12) k n)
  /-- slab 8 of the weight stack 20 -/
  slab20_8 : ∀ (k n : Fin 512), (View.ld x20 Cert.KernelIdeal.GenP.r0_25 : (⟨3, ![1, 512, 512]⟩ : Shape).Idx → EReal) (ix3 ⟨0, Nat.one_pos⟩ k n) = a20 (ix3 (⟨8, by omega⟩ : Fin 12) k n)
  /-- slab 9 of the weight stack 20 -/
  slab20_9 : ∀ (k n : Fin 512), (View.ld x20 Cert.KernelIdeal.GenP.r0_28 : (⟨3, ![1, 512, 512]⟩ : Shape).Idx → EReal) (ix3 ⟨0, Nat.one_pos⟩ k n) = a20 (ix3 (⟨9, by omega⟩ : Fin 12) k n)
  /-- slab 10 of the weight stack 20 -/
  slab20_10 : ∀ (k n : Fin 512), (View.ld x20 Cert.KernelIdeal.GenP.r0_30 : (⟨3, ![1, 512, 512]⟩ : Shape).Idx → EReal) (ix3 ⟨0, Nat.one_pos⟩ k n) = a20 (ix3 (⟨10, by omega⟩ : Fin 12) k n)
  /-- slab 11 of the weight stack 20 -/
  slab20_11 : ∀ (k n : Fin 512), (View.ld x20 Cert.KernelIdeal.GenP.r0_32 : (⟨3, ![1, 512, 512]⟩ : Shape).Idx → EReal) (ix3 ⟨0, Nat.one_pos⟩ k n) = a20 (ix3 (⟨11, by omega⟩ : Fin 12) k n)
  /-- slab 0 of the bias stack 21 -/
  slab21_0 : ∀ n : Fin 512, (View.ld x21 Cert.KernelIdeal.GenP.r0_8 : (⟨2, ![1, 512]⟩ : Shape).Idx → EReal) (ix2 ⟨0, Nat.one_pos⟩ n) = a21 (ix2 (⟨0, by omega⟩ : Fin 12) n)
  /-- slab 1 of the bias stack 21 -/
  slab21_1 : ∀ n : Fin 512, (View.ld x21 Cert.KernelIdeal.GenP.r0_10 : (⟨2, ![1, 512]⟩ : Shape).Idx → EReal) (ix2 ⟨0, Nat.one_pos⟩ n) = a21 (ix2 (⟨1, by omega⟩ : Fin 12) n)
  /-- slab 2 of the bias stack 21 -/
  slab21_2 : ∀ n : Fin 512, (View.ld x21 Cert.KernelIdeal.GenP.r0_12 : (⟨2, ![1, 512]⟩ : Shape).Idx → EReal) (ix2 ⟨0, Nat.one_pos⟩ n) = a21 (ix2 (⟨2, by omega⟩ : Fin 12) n)
  /-- slab 3 of the bias stack 21 -/
  slab21_3 : ∀ n : Fin 512, (View.ld x21 Cert.KernelIdeal.GenP.r0_15 : (⟨2, ![1, 512]⟩ : Shape).Idx → EReal) (ix2 ⟨0, Nat.one_pos⟩ n) = a21 (ix2 (⟨3, by omega⟩ : Fin 12) n)
  /-- slab 4 of the bias stack 21 -/
  slab21_4 : ∀ n : Fin 512, (View.ld x21 Cert.KernelIdeal.GenP.r0_17 : (⟨2, ![1, 512]⟩ : Shape).Idx → EReal) (ix2 ⟨0, Nat.one_pos⟩ n) = a21 (ix2 (⟨4, by omega⟩ : Fin 12) n)
  /-- slab 5 of the bias stack 21 -/
  slab21_5 : ∀ n : Fin 512, (View.ld x21 Cert.KernelIdeal.GenP.r0_19 : (⟨2, ![1, 512]⟩ : Shape).Idx → EReal) (ix2 ⟨0, Nat.one_pos⟩ n) = a21 (ix2 (⟨5, by omega⟩ : Fin 12) n)
  /-- slab 6 of the bias stack 21 -/
  slab21_6 : ∀ n : Fin 512, (View.ld x21 Cert.KernelIdeal.GenP.r0_22 : (⟨2, ![1, 512]⟩ : Shape).Idx → EReal) (ix2 ⟨0, Nat.one_pos⟩ n) = a21 (ix2 (⟨6, by omega⟩ : Fin 12) n)
  /-- slab 7 of the bias stack 21 -/
  slab21_7 : ∀ n : Fin 512, (View.ld x21 Cert.KernelIdeal.GenP.r0_24 : (⟨2, ![1, 512]⟩ : Shape).Idx → EReal) (ix2 ⟨0, Nat.one_pos⟩ n) = a21 (ix2 (⟨7, by omega⟩ : Fin 12) n)
  /-- slab 8 of the bias stack 21 -/
  slab21_8 : ∀ n : Fin 512, (View.ld x21 Cert.KernelIdeal.GenP.r0_26 : (⟨2, ![1, 512]⟩ : Shape).Idx → EReal) (ix2 ⟨0, Nat.one_pos⟩ n) = a21 (ix2 (⟨8, by omega⟩ : Fin 12) n)
  /-- slab 9 of the bias stack 21 -/
  slab21_9 : ∀ n : Fin 512, (View.ld x21 Cert.KernelIdeal.GenP.r0_29 : (⟨2, ![1, 512]⟩ : Shape).Idx → EReal) (ix2 ⟨0, Nat.one_pos⟩ n) = a21 (ix2 (⟨9, by omega⟩ : Fin 12) n)
  /-- slab 10 of the bias stack 21 -/
  slab21_10 : ∀ n : Fin 512, (View.ld x21 Cert.KernelIdeal.GenP.r0_31 : (⟨2, ![1, 512]⟩ : Shape).Idx → EReal) (ix2 ⟨0, Nat.one_pos⟩ n) = a21 (ix2 (⟨10, by omega⟩ : Fin 12) n)
  /-- slab 11 of the bias stack 21 -/
  slab21_11 : ∀ n : Fin 512, (View.ld x21 Cert.KernelIdeal.GenP.r0_33 : (⟨2, ![1, 512]⟩ : Shape).Idx → EReal) (ix2 ⟨0, Nat.one_pos⟩ n) = a21 (ix2 (⟨11, by omega⟩ : Fin 12) n)
  /-- slab 0 of the weight stack 22 -/
  slab22_0 : ∀ (k n : Fin 512), (View.ld x22 Cert.KernelIdeal.GenP.r0_7 : (⟨3, ![1, 512, 512]⟩ : Shape).Idx → EReal) (ix3 ⟨0, Nat.one_pos⟩ k n) = a22 (ix3 (⟨0, by omega⟩ : Fin 12) k n)
  /-- slab 1 of the weight stack 22 -/
  slab22_1 : ∀ (k n : Fin 512), (View.ld x22 Cert.KernelIdeal.GenP.r0_9 : (⟨3, ![1, 512, 512]⟩ : Shape).Idx → EReal) (ix3 ⟨0, Nat.one_pos⟩ k n) = a22 (ix3 (⟨1, by omega⟩ : Fin 12) k n)
  /-- slab 2 of the weight stack 22 -/
  slab22_2 : ∀ (k n : Fin 512), (View.ld x22 Cert.KernelIdeal.GenP.r0_11 : (⟨3, ![1, 512, 512]⟩ : Shape).Idx → EReal) (ix3 ⟨0, Nat.one_pos⟩ k n) = a22 (ix3 (⟨2, by omega⟩ : Fin 12) k n)
  /-- slab 3 of the weight stack 22 -/
  slab22_3 : ∀ (k n : Fin 512), (View.ld x22 Cert.KernelIdeal.GenP.r0_14 : (⟨3, ![1, 512, 512]⟩ : Shape).Idx → EReal) (ix3 ⟨0, Nat.one_pos⟩ k n) = a22 (ix3 (⟨3, by omega⟩ : Fin 12) k n)
  /-- slab 4 of the weight stack 22 -/
  slab22_4 : ∀ (k n : Fin 512), (View.ld x22 Cert.KernelIdeal.GenP.r0_16 : (⟨3, ![1, 512, 512]⟩ : Shape).Idx → EReal) (ix3 ⟨0, Nat.one_pos⟩ k n) = a22 (ix3 (⟨4, by omega⟩ : Fin 12) k n)
  /-- slab 5 of the weight stack 22 -/
  slab22_5 : ∀ (k n : Fin 512), (View.ld x22 Cert.KernelIdeal.GenP.r0_18 : (⟨3, ![1, 512, 512]⟩ : Shape).Idx → EReal) (ix3 ⟨0, Nat.one_pos⟩ k n) = a22 (ix3 (⟨5, by omega⟩ : Fin 12) k n)
  /-- slab 6 of the weight stack 22 -/
  slab22_6 : ∀ (k n : Fin 512), (View.ld x22 Cert.KernelIdeal.GenP.r0_21 : (⟨3, ![1, 512, 512]⟩ : Shape).Idx → EReal) (ix3 ⟨0, Nat.one_pos⟩ k n) = a22 (ix3 (⟨6, by omega⟩ : Fin 12) k n)
  /-- slab 7 of the weight stack 22 -/
  slab22_7 : ∀ (k n : Fin 512), (View.ld x22 Cert.KernelIdeal.GenP.r0_23 : (⟨3, ![1, 512, 512]⟩ : Shape).Idx → EReal) (ix3 ⟨0, Nat.one_pos⟩ k n) = a22 (ix3 (⟨7, by omega⟩ : Fin 12) k n)
  /-- slab 8 of the weight stack 22 -/
  slab22_8 : ∀ (k n : Fin 512), (View.ld x22 Cert.KernelIdeal.GenP.r0_25 : (⟨3, ![1, 512, 512]⟩ : Shape).Idx → EReal) (ix3 ⟨0, Nat.one_pos⟩ k n) = a22 (ix3 (⟨8, by omega⟩ : Fin 12) k n)
  /-- slab 9 of the weight stack 22 -/
  slab22_9 : ∀ (k n : Fin 512), (View.ld x22 Cert.KernelIdeal.GenP.r0_28 : (⟨3, ![1, 512, 512]⟩ : Shape).Idx → EReal) (ix3 ⟨0, Nat.one_pos⟩ k n) = a22 (ix3 (⟨9, by omega⟩ : Fin 12) k n)
  /-- slab 10 of the weight stack 22 -/
  slab22_10 : ∀ (k n : Fin 512), (View.ld x22 Cert.KernelIdeal.GenP.r0_30 : (⟨3, ![1, 512, 512]⟩ : Shape).Idx → EReal) (ix3 ⟨0, Nat.one_pos⟩ k n) = a22 (ix3 (⟨10, by omega⟩ : Fin 12) k n)
  /-- slab 11 of the weight stack 22 -/
  slab22_11 : ∀ (k n : Fin 512), (View.ld x22 Cert.KernelIdeal.GenP.r0_32 : (⟨3, ![1, 512, 512]⟩ : Shape).Idx → EReal) (ix3 ⟨0, Nat.one_pos⟩ k n) = a22 (ix3 (⟨11, by omega⟩ : Fin 12) k n)
  /-- slab 0 of the bias stack 23 -/
  slab23_0 : ∀ n : Fin 512, (View.ld x23 Cert.KernelIdeal.GenP.r0_8 : (⟨2, ![1, 512]⟩ : Shape).Idx → EReal) (ix2 ⟨0, Nat.one_pos⟩ n) = a23 (ix2 (⟨0, by omega⟩ : Fin 12) n)
  /-- slab 1 of the bias stack 23 -/
  slab23_1 : ∀ n : Fin 512, (View.ld x23 Cert.KernelIdeal.GenP.r0_10 : (⟨2, ![1, 512]⟩ : Shape).Idx → EReal) (ix2 ⟨0, Nat.one_pos⟩ n) = a23 (ix2 (⟨1, by omega⟩ : Fin 12) n)
  /-- slab 2 of the bias stack 23 -/
  slab23_2 : ∀ n : Fin 512, (View.ld x23 Cert.KernelIdeal.GenP.r0_12 : (⟨2, ![1, 512]⟩ : Shape).Idx → EReal) (ix2 ⟨0, Nat.one_pos⟩ n) = a23 (ix2 (⟨2, by omega⟩ : Fin 12) n)
  /-- slab 3 of the bias stack 23 -/
  slab23_3 : ∀ n : Fin 512, (View.ld x23 Cert.KernelIdeal.GenP.r0_15 : (⟨2, ![1, 512]⟩ : Shape).Idx → EReal) (ix2 ⟨0, Nat.one_pos⟩ n) = a23 (ix2 (⟨3, by omega⟩ : Fin 12) n)
  /-- slab 4 of the bias stack 23 -/
  slab23_4 : ∀ n : Fin 512, (View.ld x23 Cert.KernelIdeal.GenP.r0_17 : (⟨2, ![1, 512]⟩ : Shape).Idx → EReal) (ix2 ⟨0, Nat.one_pos⟩ n) = a23 (ix2 (⟨4, by omega⟩ : Fin 12) n)
  /-- slab 5 of the bias stack 23 -/
  slab23_5 : ∀ n : Fin 512, (View.ld x23 Cert.KernelIdeal.GenP.r0_19 : (⟨2, ![1, 512]⟩ : Shape).Idx → EReal) (ix2 ⟨0, Nat.one_pos⟩ n) = a23 (ix2 (⟨5, by omega⟩ : Fin 12) n)
  /-- slab 6 of the bias stack 23 -/
  slab23_6 : ∀ n : Fin 512, (View.ld x23 Cert.KernelIdeal.GenP.r0_22 : (⟨2, ![1, 512]⟩ : Shape).Idx → EReal) (ix2 ⟨0, Nat.one_pos⟩ n) = a23 (ix2 (⟨6, by omega⟩ : Fin 12) n)
  /-- slab 7 of the bias stack 23 -/
  slab23_7 : ∀ n : Fin 512, (View.ld x23 Cert.KernelIdeal.GenP.r0_24 : (⟨2, ![1, 512]⟩ : Shape).Idx → EReal) (ix2 ⟨0, Nat.one_pos⟩ n) = a23 (ix2 (⟨7, by omega⟩ : Fin 12) n)
  /-- slab 8 of the bias stack 23 -/
  slab23_8 : ∀ n : Fin 512, (View.ld x23 Cert.KernelIdeal.GenP.r0_26 : (⟨2, ![1, 512]⟩ : Shape).Idx → EReal) (ix2 ⟨0, Nat.one_pos⟩ n) = a23 (ix2 (⟨8, by omega⟩ : Fin 12) n)
  /-- slab 9 of the bias stack 23 -/
  slab23_9 : ∀ n : Fin 512, (View.ld x23 Cert.KernelIdeal.GenP.r0_29 : (⟨2, ![1, 512]⟩ : Shape).Idx → EReal) (ix2 ⟨0, Nat.one_pos⟩ n) = a23 (ix2 (⟨9, by omega⟩ : Fin 12) n)
  /-- slab 10 of the bias stack 23 -/
  slab23_10 : ∀ n : Fin 512, (View.ld x23 Cert.KernelIdeal.GenP.r0_31 : (⟨2, ![1, 512]⟩ : Shape).Idx → EReal) (ix2 ⟨0, Nat.one_pos⟩ n) = a23 (ix2 (⟨10, by omega⟩ : Fin 12) n)
  /-- slab 11 of the bias stack 23 -/
  slab23_11 : ∀ n : Fin 512, (View.ld x23 Cert.KernelIdeal.GenP.r0_33 : (⟨2, ![1, 512]⟩ : Shape).Idx → EReal) (ix2 ⟨0, Nat.one_pos⟩ n) = a23 (ix2 (⟨11, by omega⟩ : Fin 12) n)
  /-- rows [0, 512) of the mixing weight 24 -/
  blk24_0 : ∀ (k n : Fin 512), (View.ld x24 Cert.KernelIdeal.GenP.r0_35 : (⟨2, ![512, 512]⟩ : Shape).Idx → EReal) (ix2 k n) = a24 (ix2 ⟨k.val, by omega⟩ n)
  /-- rows [512, 1024) of the mixing weight 24 -/
  blk24_1 : ∀ (k n : Fin 512), (View.ld x24 Cert.KernelIdeal.GenP.r0_36 : (⟨2, ![512, 512]⟩ : Shape).Idx → EReal) (ix2 k n) = a24 (ix2 ⟨512 + k.val, by omega⟩ n)
  /-- rows [1024, 1536) of the mixing weight 24 -/
  blk24_2 : ∀ (k n : Fin 512), (View.ld x24 Cert.KernelIdeal.GenP.r0_37 : (⟨2, ![512, 512]⟩ : Shape).Idx → EReal) (ix2 k n) = a24 (ix2 ⟨1024 + k.val, by omega⟩ n)
  /-- rows [1536, 2048) of the mixing weight 24 -/
  blk24_3 : ∀ (k n : Fin 512), (View.ld x24 Cert.KernelIdeal.GenP.r0_38 : (⟨2, ![512, 512]⟩ : Shape).Idx → EReal) (ix2 k n) = a24 (ix2 ⟨1536 + k.val, by omega⟩ n)
  /-- the whole of argument 25 -/
  all25 : (View.ld x25 Cert.KernelIdeal.GenP.r0_2 : (⟨1, ![512]⟩ : Shape).Idx → EReal) = a25
  /-- the whole of argument 26 -/
  all26 : (View.ld x26 Cert.KernelIdeal.GenP.r0_39 : (⟨2, ![512, 4]⟩ : Shape).Idx → EReal) = a26
  /-- the whole of argument 27 -/
  all27 : (View.ld x27 Cert.KernelIdeal.GenP.r0_40 : (⟨1, ![4]⟩ : Shape).Idx → EReal) = a27
  /-- rows [0, 512) of the mixing weight 28 -/
  blk28_0 : ∀ (k n : Fin 512), (View.ld x28 Cert.KernelIdeal.GenP.r0_35 : (⟨2, ![512, 512]⟩ : Shape).Idx → EReal) (ix2 k n) = a28 (ix2 ⟨k.val, by omega⟩ n)
  /-- rows [512, 1024) of the mixing weight 28 -/
  blk28_1 : ∀ (k n : Fin 512), (View.ld x28 Cert.KernelIdeal.GenP.r0_36 : (⟨2, ![512, 512]⟩ : Shape).Idx → EReal) (ix2 k n) = a28 (ix2 ⟨512 + k.val, by omega⟩ n)
  /-- rows [1024, 1536) of the mixing weight 28 -/
  blk28_2 : ∀ (k n : Fin 512), (View.ld x28 Cert.KernelIdeal.GenP.r0_37 : (⟨2, ![512, 512]⟩ : Shape).Idx → EReal) (ix2 k n) = a28 (ix2 ⟨1024 + k.val, by omega⟩ n)
  /-- rows [1536, 2048) of the mixing weight 28 -/
  blk28_3 : ∀ (k n : Fin 512), (View.ld x28 Cert.KernelIdeal.GenP.r0_38 : (⟨2, ![512, 512]⟩ : Shape).Idx → EReal) (ix2 k n) = a28 (ix2 ⟨1536 + k.val, by omega⟩ n)
  /-- the whole of argument 29 -/
  all29 : (View.ld x29 Cert.KernelIdeal.GenP.r0_2 : (⟨1, ![512]⟩ : Shape).Idx → EReal) = a29
  /-- rows [0, 512) of the mixing weight 30 -/
  blk30_0 : ∀ (k n : Fin 512), (View.ld x30 Cert.KernelIdeal.GenP.r0_35 : (⟨2, ![512, 512]⟩ : Shape).Idx → EReal) (ix2 k n) = a30 (ix2 ⟨k.val, by omega⟩ n)
  /-- rows [512, 1024) of the mixing weight 30 -/
  blk30_1 : ∀ (k n : Fin 512), (View.ld x30 Cert.KernelIdeal.GenP.r0_36 : (⟨2, ![512, 512]⟩ : Shape).Idx → EReal) (ix2 k n) = a30 (ix2 ⟨512 + k.val, by omega⟩ n)
  /-- rows [1024, 1536) of the mixing weight 30 -/
  blk30_2 : ∀ (k n : Fin 512), (View.ld x30 Cert.KernelIdeal.GenP.r0_37 : (⟨2, ![512, 512]⟩ : Shape).Idx → EReal) (ix2 k n) = a30 (ix2 ⟨1024 + k.val, by omega⟩ n)
  /-- rows [1536, 2048) of the mixing weight 30 -/
  blk30_3 : ∀ (k n : Fin 512), (View.ld x30 Cert.KernelIdeal.GenP.r0_38 : (⟨2, ![512, 512]⟩ : Shape).Idx → EReal) (ix2 k n) = a30 (ix2 ⟨1536 + k.val, by omega⟩ n)
  /-- the whole of argument 31 -/
  all31 : (View.ld x31 Cert.KernelIdeal.GenP.r0_2 : (⟨1, ![512]⟩ : Shape).Idx → EReal) = a31
  /-- the whole of argument 32 -/
  all32 : (View.ld x32 Cert.KernelIdeal.GenP.r0_41 : (⟨2, ![512, 512]⟩ : Shape).Idx → EReal) = a32
  /-- the whole of argument 33 -/
  all33 : (View.ld x33 Cert.KernelIdeal.GenP.r0_2 : (⟨1, ![512]⟩ : Shape).Idx → EReal) = a33
  /-- the whole of argument 34 -/
  all34 : (View.ld x34 Cert.KernelIdeal.GenP.r0_2 : (⟨1, ![512]⟩ : Shape).Idx → EReal) = a34
  /-- the whole of argument 35 -/
  all35 : (View.ld x35 Cert.KernelIdeal.GenP.r0_2 : (⟨1, ![512]⟩ : Shape).Idx → EReal) = a35

end Cert.Fusion

end
-- ==== Proof.LeavesAt.lean ====
/-
  What the body's loads read at a grid point, argument by argument. Window w's block at point t is the part of its
  array that the window's index map names: entry j of the block is the array's entry at block index × block size + j
  on each axis. The four row inputs' index is (t, 0), so their blocks are rows [256 t, 256 t + 256) of the argument;
  every other input's index is 0 on every axis and its block is the whole array. Eleven of those arrays are a weight
  argument narrowed to bf16 by the host just before the region, which on the extended reals is the argument itself.
  A load through a rectangle then reads offset plus coordinate: the whole block, slab p of a stacked parameter, or
  the 512 rows from row 512 j of a mixing weight.
-/
import proofs.«146539_j55808805044797_2_alg».proof.Proof.Leaves
import Idealize.ShloMosaic.PureOps.Ideal
import Idealize.ShloMosaic.Lib.Pipeline.Value
import Idealize.ShloMosaic.Lib.StableHlo.Run

noncomputable section

namespace Cert.Fusion

open Cert.KernelIdeal Cert.KernelIdeal.Gen Cert.KernelIdeal.GenP Idealize.ShloMosaic Idealize.ShloMosaic.TcCoe Idealize.SL.Sem
open Idealize.ShloMosaic.ValueIdx
open Cert.Tile (IsTile)

variable (m : (ℓ : Loc nD τ sig) → Buf (Elt Ideal) ℓ)

/-- The 64 grid points' row offsets stay inside the 16384 rows. -/
theorem row_bound (t : Fin cfg0.N) : 256 * t.val + 256 ≤ 16384 := by
  have h : t.val < 64 := lt_of_lt_of_eq t.isLt N_0
  omega

/-- The offsets of a load of a whole buffer, however many axes, are all zero. -/
theorem hz1 : (![0] : Fin 1 → Nat) = fun _ => 0 := funext fun a => by fin_cases a <;> rfl
theorem hz2 : (![0, 0] : Fin 2 → Nat) = fun _ => 0 := funext fun a => by fin_cases a <;> rfl

/-! ### The windows' index maps, decided once over the 64 grid points

Windows 0 to 3 move down the rows with the point; every other input window stays at block 0 on every axis. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 1) = 0 :=
  (by decide +kernel : ∀ t : Fin grid0.N, _)
theorem idx14 : ∀ t : Fin cfg0.N, win0_14.index t (0 : Fin 1) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 1) = 0 :=
  (by decide +kernel : ∀ t : Fin grid0.N, _)
theorem idx18 : ∀ t : Fin cfg0.N, win0_18.index t (0 : Fin 1) = 0 :=
  (by decide +kernel : ∀ t : Fin grid0.N, _)
theorem idx19 : ∀ t : Fin cfg0.N, win0_19.index t (0 : Fin 1) = 0 :=
  (by decide +kernel : ∀ t : Fin grid0.N, _)
theorem idx20 : ∀ t : Fin cfg0.N, win0_20.index t (0 : Fin 3) = 0 ∧ win0_20.index t (1 : Fin 3) = 0 ∧ win0_20.index t (2 : Fin 3) = 0 :=
  (by decide +kernel : ∀ t : Fin grid0.N, _)
theorem idx21 : ∀ t : Fin cfg0.N, win0_21.index t (0 : Fin 2) = 0 ∧ win0_21.index t (1 : Fin 2) = 0 :=
  (by decide +kernel : ∀ t : Fin grid0.N, _)
theorem idx22 : ∀ t : Fin cfg0.N, win0_22.index t (0 : Fin 3) = 0 ∧ win0_22.index t (1 : Fin 3) = 0 ∧ win0_22.index t (2 : Fin 3) = 0 :=
  (by decide +kernel : ∀ t : Fin grid0.N, _)
theorem idx23 : ∀ t : Fin cfg0.N, win0_23.index t (0 : Fin 2) = 0 ∧ win0_23.index t (1 : Fin 2) = 0 :=
  (by decide +kernel : ∀ t : Fin grid0.N, _)
theorem idx24 : ∀ t : Fin cfg0.N, win0_24.index t (0 : Fin 2) = 0 ∧ win0_24.index t (1 : Fin 2) = 0 :=
  (by decide +kernel : ∀ t : Fin grid0.N, _)
theorem idx25 : ∀ t : Fin cfg0.N, win0_25.index t (0 : Fin 1) = 0 :=
  (by decide +kernel : ∀ t : Fin grid0.N, _)
theorem idx26 : ∀ t : Fin cfg0.N, win0_26.index t (0 : Fin 2) = 0 ∧ win0_26.index t (1 : Fin 2) = 0 :=
  (by decide +kernel : ∀ t : Fin grid0.N, _)
theorem idx27 : ∀ t : Fin cfg0.N, win0_27.index t (0 : Fin 1) = 0 :=
  (by decide +kernel : ∀ t : Fin grid0.N, _)
theorem idx28 : ∀ t : Fin cfg0.N, win0_28.index t (0 : Fin 2) = 0 ∧ win0_28.index t (1 : Fin 2) = 0 :=
  (by decide +kernel : ∀ t : Fin grid0.N, _)
theorem idx29 : ∀ t : Fin cfg0.N, win0_29.index t (0 : Fin 1) = 0 :=
  (by decide +kernel : ∀ t : Fin grid0.N, _)
theorem idx30 : ∀ t : Fin cfg0.N, win0_30.index t (0 : Fin 2) = 0 ∧ win0_30.index t (1 : Fin 2) = 0 :=
  (by decide +kernel : ∀ t : Fin grid0.N, _)
theorem idx31 : ∀ t : Fin cfg0.N, win0_31.index t (0 : Fin 1) = 0 :=
  (by decide +kernel : ∀ t : Fin grid0.N, _)
theorem idx32 : ∀ t : Fin cfg0.N, win0_32.index t (0 : Fin 2) = 0 ∧ win0_32.index t (1 : Fin 2) = 0 :=
  (by decide +kernel : ∀ t : Fin grid0.N, _)
theorem idx33 : ∀ t : Fin cfg0.N, win0_33.index t (0 : Fin 1) = 0 :=
  (by decide +kernel : ∀ t : Fin grid0.N, _)
theorem idx34 : ∀ t : Fin cfg0.N, win0_34.index t (0 : Fin 1) = 0 :=
  (by decide +kernel : ∀ t : Fin grid0.N, _)
theorem idx35 : ∀ t : Fin cfg0.N, win0_35.index t (0 : Fin 1) = 0 :=
  (by decide +kernel : ∀ t : Fin grid0.N, _)

/-! ### The weight arrays the host narrows before the region

Eleven windows read an array that the host wrote just before the region: the narrowing to bf16 of a weight argument.
On the extended reals a change of float format is the identity, so the array is the argument itself. -/
theorem V_main_v0 (c : Dev nD) : (V m c main_v0 : S256x512.Idx → EReal) = m ((c : Thread nD τ).loc main_arg4) := by
  have e : (V m c main_v0 : S256x512.Idx → EReal) = truncf (F := Ideal) .bf16 (V m c main_arg4) bitsLt_bf16_f32 := by
    dsimp only [V, hostOps0]; after_results
  rw [e, V_main_arg4]; rfl
theorem V_main_v1 (c : Dev nD) : (V m c main_v1 : S768x512.Idx → EReal) = m ((c : Thread nD τ).loc main_arg8) := by
  have e : (V m c main_v1 : S768x512.Idx → EReal) = truncf (F := Ideal) .bf16 (V m c main_arg8) bitsLt_bf16_f32 := by
    dsimp only [V, hostOps0]; after_results
  rw [e, V_main_arg8]; rfl
theorem V_main_v2 (c : Dev nD) : (V m c main_v2 : S128x512.Idx → EReal) = m ((c : Thread nD τ).loc main_arg12) := by
  have e : (V m c main_v2 : S128x512.Idx → EReal) = truncf (F := Ideal) .bf16 (V m c main_arg12) bitsLt_bf16_f32 := by
    dsimp only [V, hostOps0]; after_results
  rw [e, V_main_arg12]; rfl
theorem V_main_v3 (c : Dev nD) : (V m c main_v3 : S256x512.Idx → EReal) = m ((c : Thread nD τ).loc main_arg16) := by
  have e : (V m c main_v3 : S256x512.Idx → EReal) = truncf (F := Ideal) .bf16 (V m c main_arg16) bitsLt_bf16_f32 := by
    dsimp only [V, hostOps0]; after_results
  rw [e, V_main_arg16]; rfl
theorem V_main_v4 (c : Dev nD) : (V m c main_v4 : S12x512x512.Idx → EReal) = m ((c : Thread nD τ).loc main_arg20) := by
  have e : (V m c main_v4 : S12x512x512.Idx → EReal) = truncf (F := Ideal) .bf16 (V m c main_arg20) bitsLt_bf16_f32 := by
    dsimp only [V, hostOps0]; after_results
  rw [e, V_main_arg20]; rfl
theorem V_main_v5 (c : Dev nD) : (V m c main_v5 : S12x512x512.Idx → EReal) = m ((c : Thread nD τ).loc main_arg22) := by
  have e : (V m c main_v5 : S12x512x512.Idx → EReal) = truncf (F := Ideal) .bf16 (V m c main_arg22) bitsLt_bf16_f32 := by
    dsimp only [V, hostOps0]; after_results
  rw [e, V_main_arg22]; rfl
theorem V_main_v6 (c : Dev nD) : (V m c main_v6 : S2048x512.Idx → EReal) = m ((c : Thread nD τ).loc main_arg24) := by
  have e : (V m c main_v6 : S2048x512.Idx → EReal) = truncf (F := Ideal) .bf16 (V m c main_arg24) bitsLt_bf16_f32 := by
    dsimp only [V, hostOps0]; after_results
  rw [e, V_main_arg24]; rfl
theorem V_main_v7 (c : Dev nD) : (V m c main_v7 : S512x4.Idx → EReal) = m ((c : Thread nD τ).loc main_arg26) := by
  have e : (V m c main_v7 : S512x4.Idx → EReal) = truncf (F := Ideal) .bf16 (V m c main_arg26) bitsLt_bf16_f32 := by
    dsimp only [V, hostOps0]; after_results
  rw [e, V_main_arg26]; rfl
theorem V_main_v8 (c : Dev nD) : (V m c main_v8 : S2048x512.Idx → EReal) = m ((c : Thread nD τ).loc main_arg28) := by
  have e : (V m c main_v8 : S2048x512.Idx → EReal) = truncf (F := Ideal) .bf16 (V m c main_arg28) bitsLt_bf16_f32 := by
    dsimp only [V, hostOps0]; after_results
  rw [e, V_main_arg28]; rfl
theorem V_main_v9 (c : Dev nD) : (V m c main_v9 : S2048x512.Idx → EReal) = m ((c : Thread nD τ).loc main_arg30) := by
  have e : (V m c main_v9 : S2048x512.Idx → EReal) = truncf (F := Ideal) .bf16 (V m c main_arg30) bitsLt_bf16_f32 := by
    dsimp only [V, hostOps0]; after_results
  rw [e, V_main_arg30]; rfl
theorem V_main_v10 (c : Dev nD) : (V m c main_v10 : S512x512.Idx → EReal) = m ((c : Thread nD τ).loc main_arg32) := by
  have e : (V m c main_v10 : S512x512.Idx → EReal) = truncf (F := Ideal) .bf16 (V m c main_arg32) bitsLt_bf16_f32 := by
    dsimp only [V, hostOps0]; after_results
  rw [e, V_main_arg32]; rfl

/-! ### Each window's block at a point, read off the argument

A block's entry at coordinate j is the array's at (block index × block size + j) on each axis. -/
theorem iblk0_apply (c : Dev nD) (t : Fin cfg0.N) (p : Fin 256) (l : Fin 256) (h : 256 * t.val + p.val < 16384) :
    (iblk m c 0 t : S256x256.Idx → EReal) (ix2 p l) = m ((c : Thread nD τ).loc main_arg0) (ix2 ⟨256 * t.val + p.val, h⟩ l) := by
  obtain ⟨e0, e1⟩ := idx0 t
  show V m c main_arg0 (((cfg0.win 0).blk t).view.emb (ix2 p l)) = _
  rw [V_main_arg0]
  refine congrArg (m ((c : Thread nD τ).loc main_arg0)) (funext fun a => Fin.ext ?_)
  match a with
  | ⟨0, _⟩ => show win0_0.index t (0 : Fin 2) * 256 + 1 * p.val = 256 * t.val + p.val; omega
  | ⟨1, _⟩ => show win0_0.index t (1 : Fin 2) * 256 + 1 * l.val = l.val; omega
theorem iblk1_apply (c : Dev nD) (t : Fin cfg0.N) (p : Fin 256) (l : Fin 768) (h : 256 * t.val + p.val < 16384) :
    (iblk m c 1 t : S256x768.Idx → EReal) (ix2 p l) = m ((c : Thread nD τ).loc main_arg1) (ix2 ⟨256 * t.val + p.val, h⟩ l) := by
  obtain ⟨e0, e1⟩ := idx1 t
  show V m c main_arg1 (((cfg0.win 1).blk t).view.emb (ix2 p l)) = _
  rw [V_main_arg1]
  refine congrArg (m ((c : Thread nD τ).loc main_arg1)) (funext fun a => Fin.ext ?_)
  match a with
  | ⟨0, _⟩ => show win0_1.index t (0 : Fin 2) * 256 + 1 * p.val = 256 * t.val + p.val; omega
  | ⟨1, _⟩ => show win0_1.index t (1 : Fin 2) * 768 + 1 * l.val = l.val; omega
theorem iblk2_apply (c : Dev nD) (t : Fin cfg0.N) (p : Fin 256) (l : Fin 128) (h : 256 * t.val + p.val < 16384) :
    (iblk m c 2 t : S256x128.Idx → EReal) (ix2 p l) = m ((c : Thread nD τ).loc main_arg2) (ix2 ⟨256 * t.val + p.val, h⟩ l) := by
  obtain ⟨e0, e1⟩ := idx2 t
  show V m c main_arg2 (((cfg0.win 2).blk t).view.emb (ix2 p l)) = _
  rw [V_main_arg2]
  refine congrArg (m ((c : Thread nD τ).loc main_arg2)) (funext fun a => Fin.ext ?_)
  match a with
  | ⟨0, _⟩ => show win0_2.index t (0 : Fin 2) * 256 + 1 * p.val = 256 * t.val + p.val; omega
  | ⟨1, _⟩ => show win0_2.index t (1 : Fin 2) * 128 + 1 * l.val = l.val; omega
theorem iblk3_apply (c : Dev nD) (t : Fin cfg0.N) (p : Fin 256) (l : Fin 256) (h : 256 * t.val + p.val < 16384) :
    (iblk m c 3 t : S256x256.Idx → EReal) (ix2 p l) = m ((c : Thread nD τ).loc main_arg3) (ix2 ⟨256 * t.val + p.val, h⟩ l) := by
  obtain ⟨e0, e1⟩ := idx3 t
  show V m c main_arg3 (((cfg0.win 3).blk t).view.emb (ix2 p l)) = _
  rw [V_main_arg3]
  refine congrArg (m ((c : Thread nD τ).loc main_arg3)) (funext fun a => Fin.ext ?_)
  match a with
  | ⟨0, _⟩ => show win0_3.index t (0 : Fin 2) * 256 + 1 * p.val = 256 * t.val + p.val; omega
  | ⟨1, _⟩ => show win0_3.index t (1 : Fin 2) * 256 + 1 * l.val = l.val; omega
theorem iblk4_eq (c : Dev nD) (t : Fin cfg0.N) :
    (iblk m c 4 t : S256x512.Idx → EReal) = m ((c : Thread nD τ).loc main_arg4) := by
  obtain ⟨e0, e1⟩ := idx4 t
  funext j
  show (V m c main_v0 : S256x512.Idx → EReal) (((cfg0.win 4).blk t).view.emb j) = _
  rw [V_main_v0]
  refine congrArg (m ((c : Thread nD τ).loc main_arg4)) (funext fun a => Fin.ext ?_)
  match a with
  | ⟨0, _⟩ => show win0_4.index t (0 : Fin 2) * 256 + 1 * (j 0).val = (j 0).val; omega
  | ⟨1, _⟩ => show win0_4.index t (1 : Fin 2) * 512 + 1 * (j 1).val = (j 1).val; omega
theorem iblk5_eq (c : Dev nD) (t : Fin cfg0.N) :
    (iblk m c 5 t : S512.Idx → EReal) = m ((c : Thread nD τ).loc main_arg5) := by
  have e0 := idx5 t
  funext j
  show (V m c main_arg5 : S512.Idx → EReal) (((cfg0.win 5).blk t).view.emb j) = _
  rw [V_main_arg5]
  refine congrArg (m ((c : Thread nD τ).loc main_arg5)) (funext fun a => Fin.ext ?_)
  match a with
  | ⟨0, _⟩ => show win0_5.index t (0 : Fin 1) * 512 + 1 * (j 0).val = (j 0).val; omega
theorem iblk6_eq (c : Dev nD) (t : Fin cfg0.N) :
    (iblk m c 6 t : S512.Idx → EReal) = m ((c : Thread nD τ).loc main_arg6) := by
  have e0 := idx6 t
  funext j
  show (V m c main_arg6 : S512.Idx → EReal) (((cfg0.win 6).blk t).view.emb j) = _
  rw [V_main_arg6]
  refine congrArg (m ((c : Thread nD τ).loc main_arg6)) (funext fun a => Fin.ext ?_)
  match a with
  | ⟨0, _⟩ => show win0_6.index t (0 : Fin 1) * 512 + 1 * (j 0).val = (j 0).val; omega
theorem iblk7_eq (c : Dev nD) (t : Fin cfg0.N) :
    (iblk m c 7 t : S512.Idx → EReal) = m ((c : Thread nD τ).loc main_arg7) := by
  have e0 := idx7 t
  funext j
  show (V m c main_arg7 : S512.Idx → EReal) (((cfg0.win 7).blk t).view.emb j) = _
  rw [V_main_arg7]
  refine congrArg (m ((c : Thread nD τ).loc main_arg7)) (funext fun a => Fin.ext ?_)
  match a with
  | ⟨0, _⟩ => show win0_7.index t (0 : Fin 1) * 512 + 1 * (j 0).val = (j 0).val; omega
theorem iblk8_eq (c : Dev nD) (t : Fin cfg0.N) :
    (iblk m c 8 t : S768x512.Idx → EReal) = m ((c : Thread nD τ).loc main_arg8) := by
  obtain ⟨e0, e1⟩ := idx8 t
  funext j
  show (V m c main_v1 : S768x512.Idx → EReal) (((cfg0.win 8).blk t).view.emb j) = _
  rw [V_main_v1]
  refine congrArg (m ((c : Thread nD τ).loc main_arg8)) (funext fun a => Fin.ext ?_)
  match a with
  | ⟨0, _⟩ => show win0_8.index t (0 : Fin 2) * 768 + 1 * (j 0).val = (j 0).val; omega
  | ⟨1, _⟩ => show win0_8.index t (1 : Fin 2) * 512 + 1 * (j 1).val = (j 1).val; omega
theorem iblk9_eq (c : Dev nD) (t : Fin cfg0.N) :
    (iblk m c 9 t : S512.Idx → EReal) = m ((c : Thread nD τ).loc main_arg9) := by
  have e0 := idx9 t
  funext j
  show (V m c main_arg9 : S512.Idx → EReal) (((cfg0.win 9).blk t).view.emb j) = _
  rw [V_main_arg9]
  refine congrArg (m ((c : Thread nD τ).loc main_arg9)) (funext fun a => Fin.ext ?_)
  match a with
  | ⟨0, _⟩ => show win0_9.index t (0 : Fin 1) * 512 + 1 * (j 0).val = (j 0).val; omega
theorem iblk10_eq (c : Dev nD) (t : Fin cfg0.N) :
    (iblk m c 10 t : S512.Idx → EReal) = m ((c : Thread nD τ).loc main_arg10) := by
  have e0 := idx10 t
  funext j
  show (V m c main_arg10 : S512.Idx → EReal) (((cfg0.win 10).blk t).view.emb j) = _
  rw [V_main_arg10]
  refine congrArg (m ((c : Thread nD τ).loc main_arg10)) (funext fun a => Fin.ext ?_)
  match a with
  | ⟨0, _⟩ => show win0_10.index t (0 : Fin 1) * 512 + 1 * (j 0).val = (j 0).val; omega
theorem iblk11_eq (c : Dev nD) (t : Fin cfg0.N) :
    (iblk m c 11 t : S512.Idx → EReal) = m ((c : Thread nD τ).loc main_arg11) := by
  have e0 := idx11 t
  funext j
  show (V m c main_arg11 : S512.Idx → EReal) (((cfg0.win 11).blk t).view.emb j) = _
  rw [V_main_arg11]
  refine congrArg (m ((c : Thread nD τ).loc main_arg11)) (funext fun a => Fin.ext ?_)
  match a with
  | ⟨0, _⟩ => show win0_11.index t (0 : Fin 1) * 512 + 1 * (j 0).val = (j 0).val; omega
theorem iblk12_eq (c : Dev nD) (t : Fin cfg0.N) :
    (iblk m c 12 t : S128x512.Idx → EReal) = m ((c : Thread nD τ).loc main_arg12) := by
  obtain ⟨e0, e1⟩ := idx12 t
  funext j
  show (V m c main_v2 : S128x512.Idx → EReal) (((cfg0.win 12).blk t).view.emb j) = _
  rw [V_main_v2]
  refine congrArg (m ((c : Thread nD τ).loc main_arg12)) (funext fun a => Fin.ext ?_)
  match a with
  | ⟨0, _⟩ => show win0_12.index t (0 : Fin 2) * 128 + 1 * (j 0).val = (j 0).val; omega
  | ⟨1, _⟩ => show win0_12.index t (1 : Fin 2) * 512 + 1 * (j 1).val = (j 1).val; omega
theorem iblk13_eq (c : Dev nD) (t : Fin cfg0.N) :
    (iblk m c 13 t : S512.Idx → EReal) = m ((c : Thread nD τ).loc main_arg13) := by
  have e0 := idx13 t
  funext j
  show (V m c main_arg13 : S512.Idx → EReal) (((cfg0.win 13).blk t).view.emb j) = _
  rw [V_main_arg13]
  refine congrArg (m ((c : Thread nD τ).loc main_arg13)) (funext fun a => Fin.ext ?_)
  match a with
  | ⟨0, _⟩ => show win0_13.index t (0 : Fin 1) * 512 + 1 * (j 0).val = (j 0).val; omega
theorem iblk14_eq (c : Dev nD) (t : Fin cfg0.N) :
    (iblk m c 14 t : S512.Idx → EReal) = m ((c : Thread nD τ).loc main_arg14) := by
  have e0 := idx14 t
  funext j
  show (V m c main_arg14 : S512.Idx → EReal) (((cfg0.win 14).blk t).view.emb j) = _
  rw [V_main_arg14]
  refine congrArg (m ((c : Thread nD τ).loc main_arg14)) (funext fun a => Fin.ext ?_)
  match a with
  | ⟨0, _⟩ => show win0_14.index t (0 : Fin 1) * 512 + 1 * (j 0).val = (j 0).val; omega
theorem iblk15_eq (c : Dev nD) (t : Fin cfg0.N) :
    (iblk m c 15 t : S512.Idx → EReal) = m ((c : Thread nD τ).loc main_arg15) := by
  have e0 := idx15 t
  funext j
  show (V m c main_arg15 : S512.Idx → EReal) (((cfg0.win 15).blk t).view.emb j) = _
  rw [V_main_arg15]
  refine congrArg (m ((c : Thread nD τ).loc main_arg15)) (funext fun a => Fin.ext ?_)
  match a with
  | ⟨0, _⟩ => show win0_15.index t (0 : Fin 1) * 512 + 1 * (j 0).val = (j 0).val; omega
theorem iblk16_eq (c : Dev nD) (t : Fin cfg0.N) :
    (iblk m c 16 t : S256x512.Idx → EReal) = m ((c : Thread nD τ).loc main_arg16) := by
  obtain ⟨e0, e1⟩ := idx16 t
  funext j
  show (V m c main_v3 : S256x512.Idx → EReal) (((cfg0.win 16).blk t).view.emb j) = _
  rw [V_main_v3]
  refine congrArg (m ((c : Thread nD τ).loc main_arg16)) (funext fun a => Fin.ext ?_)
  match a with
  | ⟨0, _⟩ => show win0_16.index t (0 : Fin 2) * 256 + 1 * (j 0).val = (j 0).val; omega
  | ⟨1, _⟩ => show win0_16.index t (1 : Fin 2) * 512 + 1 * (j 1).val = (j 1).val; omega
theorem iblk17_eq (c : Dev nD) (t : Fin cfg0.N) :
    (iblk m c 17 t : S512.Idx → EReal) = m ((c : Thread nD τ).loc main_arg17) := by
  have e0 := idx17 t
  funext j
  show (V m c main_arg17 : S512.Idx → EReal) (((cfg0.win 17).blk t).view.emb j) = _
  rw [V_main_arg17]
  refine congrArg (m ((c : Thread nD τ).loc main_arg17)) (funext fun a => Fin.ext ?_)
  match a with
  | ⟨0, _⟩ => show win0_17.index t (0 : Fin 1) * 512 + 1 * (j 0).val = (j 0).val; omega
theorem iblk18_eq (c : Dev nD) (t : Fin cfg0.N) :
    (iblk m c 18 t : S512.Idx → EReal) = m ((c : Thread nD τ).loc main_arg18) := by
  have e0 := idx18 t
  funext j
  show (V m c main_arg18 : S512.Idx → EReal) (((cfg0.win 18).blk t).view.emb j) = _
  rw [V_main_arg18]
  refine congrArg (m ((c : Thread nD τ).loc main_arg18)) (funext fun a => Fin.ext ?_)
  match a with
  | ⟨0, _⟩ => show win0_18.index t (0 : Fin 1) * 512 + 1 * (j 0).val = (j 0).val; omega
theorem iblk19_eq (c : Dev nD) (t : Fin cfg0.N) :
    (iblk m c 19 t : S512.Idx → EReal) = m ((c : Thread nD τ).loc main_arg19) := by
  have e0 := idx19 t
  funext j
  show (V m c main_arg19 : S512.Idx → EReal) (((cfg0.win 19).blk t).view.emb j) = _
  rw [V_main_arg19]
  refine congrArg (m ((c : Thread nD τ).loc main_arg19)) (funext fun a => Fin.ext ?_)
  match a with
  | ⟨0, _⟩ => show win0_19.index t (0 : Fin 1) * 512 + 1 * (j 0).val = (j 0).val; omega
theorem iblk20_eq (c : Dev nD) (t : Fin cfg0.N) :
    (iblk m c 20 t : S12x512x512.Idx → EReal) = m ((c : Thread nD τ).loc main_arg20) := by
  obtain ⟨e0, e1, e2⟩ := idx20 t
  funext j
  show (V m c main_v4 : S12x512x512.Idx → EReal) (((cfg0.win 20).blk t).view.emb j) = _
  rw [V_main_v4]
  refine congrArg (m ((c : Thread nD τ).loc main_arg20)) (funext fun a => Fin.ext ?_)
  match a with
  | ⟨0, _⟩ => show win0_20.index t (0 : Fin 3) * 12 + 1 * (j 0).val = (j 0).val; omega
  | ⟨1, _⟩ => show win0_20.index t (1 : Fin 3) * 512 + 1 * (j 1).val = (j 1).val; omega
  | ⟨2, _⟩ => show win0_20.index t (2 : Fin 3) * 512 + 1 * (j 2).val = (j 2).val; omega
theorem iblk21_eq (c : Dev nD) (t : Fin cfg0.N) :
    (iblk m c 21 t : S12x512.Idx → EReal) = m ((c : Thread nD τ).loc main_arg21) := by
  obtain ⟨e0, e1⟩ := idx21 t
  funext j
  show (V m c main_arg21 : S12x512.Idx → EReal) (((cfg0.win 21).blk t).view.emb j) = _
  rw [V_main_arg21]
  refine congrArg (m ((c : Thread nD τ).loc main_arg21)) (funext fun a => Fin.ext ?_)
  match a with
  | ⟨0, _⟩ => show win0_21.index t (0 : Fin 2) * 12 + 1 * (j 0).val = (j 0).val; omega
  | ⟨1, _⟩ => show win0_21.index t (1 : Fin 2) * 512 + 1 * (j 1).val = (j 1).val; omega
theorem iblk22_eq (c : Dev nD) (t : Fin cfg0.N) :
    (iblk m c 22 t : S12x512x512.Idx → EReal) = m ((c : Thread nD τ).loc main_arg22) := by
  obtain ⟨e0, e1, e2⟩ := idx22 t
  funext j
  show (V m c main_v5 : S12x512x512.Idx → EReal) (((cfg0.win 22).blk t).view.emb j) = _
  rw [V_main_v5]
  refine congrArg (m ((c : Thread nD τ).loc main_arg22)) (funext fun a => Fin.ext ?_)
  match a with
  | ⟨0, _⟩ => show win0_22.index t (0 : Fin 3) * 12 + 1 * (j 0).val = (j 0).val; omega
  | ⟨1, _⟩ => show win0_22.index t (1 : Fin 3) * 512 + 1 * (j 1).val = (j 1).val; omega
  | ⟨2, _⟩ => show win0_22.index t (2 : Fin 3) * 512 + 1 * (j 2).val = (j 2).val; omega
theorem iblk23_eq (c : Dev nD) (t : Fin cfg0.N) :
    (iblk m c 23 t : S12x512.Idx → EReal) = m ((c : Thread nD τ).loc main_arg23) := by
  obtain ⟨e0, e1⟩ := idx23 t
  funext j
  show (V m c main_arg23 : S12x512.Idx → EReal) (((cfg0.win 23).blk t).view.emb j) = _
  rw [V_main_arg23]
  refine congrArg (m ((c : Thread nD τ).loc main_arg23)) (funext fun a => Fin.ext ?_)
  match a with
  | ⟨0, _⟩ => show win0_23.index t (0 : Fin 2) * 12 + 1 * (j 0).val = (j 0).val; omega
  | ⟨1, _⟩ => show win0_23.index t (1 : Fin 2) * 512 + 1 * (j 1).val = (j 1).val; omega
theorem iblk24_eq (c : Dev nD) (t : Fin cfg0.N) :
    (iblk m c 24 t : S2048x512.Idx → EReal) = m ((c : Thread nD τ).loc main_arg24) := by
  obtain ⟨e0, e1⟩ := idx24 t
  funext j
  show (V m c main_v6 : S2048x512.Idx → EReal) (((cfg0.win 24).blk t).view.emb j) = _
  rw [V_main_v6]
  refine congrArg (m ((c : Thread nD τ).loc main_arg24)) (funext fun a => Fin.ext ?_)
  match a with
  | ⟨0, _⟩ => show win0_24.index t (0 : Fin 2) * 2048 + 1 * (j 0).val = (j 0).val; omega
  | ⟨1, _⟩ => show win0_24.index t (1 : Fin 2) * 512 + 1 * (j 1).val = (j 1).val; omega
theorem iblk25_eq (c : Dev nD) (t : Fin cfg0.N) :
    (iblk m c 25 t : S512.Idx → EReal) = m ((c : Thread nD τ).loc main_arg25) := by
  have e0 := idx25 t
  funext j
  show (V m c main_arg25 : S512.Idx → EReal) (((cfg0.win 25).blk t).view.emb j) = _
  rw [V_main_arg25]
  refine congrArg (m ((c : Thread nD τ).loc main_arg25)) (funext fun a => Fin.ext ?_)
  match a with
  | ⟨0, _⟩ => show win0_25.index t (0 : Fin 1) * 512 + 1 * (j 0).val = (j 0).val; omega
theorem iblk26_eq (c : Dev nD) (t : Fin cfg0.N) :
    (iblk m c 26 t : S512x4.Idx → EReal) = m ((c : Thread nD τ).loc main_arg26) := by
  obtain ⟨e0, e1⟩ := idx26 t
  funext j
  show (V m c main_v7 : S512x4.Idx → EReal) (((cfg0.win 26).blk t).view.emb j) = _
  rw [V_main_v7]
  refine congrArg (m ((c : Thread nD τ).loc main_arg26)) (funext fun a => Fin.ext ?_)
  match a with
  | ⟨0, _⟩ => show win0_26.index t (0 : Fin 2) * 512 + 1 * (j 0).val = (j 0).val; omega
  | ⟨1, _⟩ => show win0_26.index t (1 : Fin 2) * 4 + 1 * (j 1).val = (j 1).val; omega
theorem iblk27_eq (c : Dev nD) (t : Fin cfg0.N) :
    (iblk m c 27 t : S4.Idx → EReal) = m ((c : Thread nD τ).loc main_arg27) := by
  have e0 := idx27 t
  funext j
  show (V m c main_arg27 : S4.Idx → EReal) (((cfg0.win 27).blk t).view.emb j) = _
  rw [V_main_arg27]
  refine congrArg (m ((c : Thread nD τ).loc main_arg27)) (funext fun a => Fin.ext ?_)
  match a with
  | ⟨0, _⟩ => show win0_27.index t (0 : Fin 1) * 4 + 1 * (j 0).val = (j 0).val; omega
theorem iblk28_eq (c : Dev nD) (t : Fin cfg0.N) :
    (iblk m c 28 t : S2048x512.Idx → EReal) = m ((c : Thread nD τ).loc main_arg28) := by
  obtain ⟨e0, e1⟩ := idx28 t
  funext j
  show (V m c main_v8 : S2048x512.Idx → EReal) (((cfg0.win 28).blk t).view.emb j) = _
  rw [V_main_v8]
  refine congrArg (m ((c : Thread nD τ).loc main_arg28)) (funext fun a => Fin.ext ?_)
  match a with
  | ⟨0, _⟩ => show win0_28.index t (0 : Fin 2) * 2048 + 1 * (j 0).val = (j 0).val; omega
  | ⟨1, _⟩ => show win0_28.index t (1 : Fin 2) * 512 + 1 * (j 1).val = (j 1).val; omega
theorem iblk29_eq (c : Dev nD) (t : Fin cfg0.N) :
    (iblk m c 29 t : S512.Idx → EReal) = m ((c : Thread nD τ).loc main_arg29) := by
  have e0 := idx29 t
  funext j
  show (V m c main_arg29 : S512.Idx → EReal) (((cfg0.win 29).blk t).view.emb j) = _
  rw [V_main_arg29]
  refine congrArg (m ((c : Thread nD τ).loc main_arg29)) (funext fun a => Fin.ext ?_)
  match a with
  | ⟨0, _⟩ => show win0_29.index t (0 : Fin 1) * 512 + 1 * (j 0).val = (j 0).val; omega
theorem iblk30_eq (c : Dev nD) (t : Fin cfg0.N) :
    (iblk m c 30 t : S2048x512.Idx → EReal) = m ((c : Thread nD τ).loc main_arg30) := by
  obtain ⟨e0, e1⟩ := idx30 t
  funext j
  show (V m c main_v9 : S2048x512.Idx → EReal) (((cfg0.win 30).blk t).view.emb j) = _
  rw [V_main_v9]
  refine congrArg (m ((c : Thread nD τ).loc main_arg30)) (funext fun a => Fin.ext ?_)
  match a with
  | ⟨0, _⟩ => show win0_30.index t (0 : Fin 2) * 2048 + 1 * (j 0).val = (j 0).val; omega
  | ⟨1, _⟩ => show win0_30.index t (1 : Fin 2) * 512 + 1 * (j 1).val = (j 1).val; omega
theorem iblk31_eq (c : Dev nD) (t : Fin cfg0.N) :
    (iblk m c 31 t : S512.Idx → EReal) = m ((c : Thread nD τ).loc main_arg31) := by
  have e0 := idx31 t
  funext j
  show (V m c main_arg31 : S512.Idx → EReal) (((cfg0.win 31).blk t).view.emb j) = _
  rw [V_main_arg31]
  refine congrArg (m ((c : Thread nD τ).loc main_arg31)) (funext fun a => Fin.ext ?_)
  match a with
  | ⟨0, _⟩ => show win0_31.index t (0 : Fin 1) * 512 + 1 * (j 0).val = (j 0).val; omega
theorem iblk32_eq (c : Dev nD) (t : Fin cfg0.N) :
    (iblk m c 32 t : S512x512.Idx → EReal) = m ((c : Thread nD τ).loc main_arg32) := by
  obtain ⟨e0, e1⟩ := idx32 t
  funext j
  show (V m c main_v10 : S512x512.Idx → EReal) (((cfg0.win 32).blk t).view.emb j) = _
  rw [V_main_v10]
  refine congrArg (m ((c : Thread nD τ).loc main_arg32)) (funext fun a => Fin.ext ?_)
  match a with
  | ⟨0, _⟩ => show win0_32.index t (0 : Fin 2) * 512 + 1 * (j 0).val = (j 0).val; omega
  | ⟨1, _⟩ => show win0_32.index t (1 : Fin 2) * 512 + 1 * (j 1).val = (j 1).val; omega
theorem iblk33_eq (c : Dev nD) (t : Fin cfg0.N) :
    (iblk m c 33 t : S512.Idx → EReal) = m ((c : Thread nD τ).loc main_arg33) := by
  have e0 := idx33 t
  funext j
  show (V m c main_arg33 : S512.Idx → EReal) (((cfg0.win 33).blk t).view.emb j) = _
  rw [V_main_arg33]
  refine congrArg (m ((c : Thread nD τ).loc main_arg33)) (funext fun a => Fin.ext ?_)
  match a with
  | ⟨0, _⟩ => show win0_33.index t (0 : Fin 1) * 512 + 1 * (j 0).val = (j 0).val; omega
theorem iblk34_eq (c : Dev nD) (t : Fin cfg0.N) :
    (iblk m c 34 t : S512.Idx → EReal) = m ((c : Thread nD τ).loc main_arg34) := by
  have e0 := idx34 t
  funext j
  show (V m c main_arg34 : S512.Idx → EReal) (((cfg0.win 34).blk t).view.emb j) = _
  rw [V_main_arg34]
  refine congrArg (m ((c : Thread nD τ).loc main_arg34)) (funext fun a => Fin.ext ?_)
  match a with
  | ⟨0, _⟩ => show win0_34.index t (0 : Fin 1) * 512 + 1 * (j 0).val = (j 0).val; omega
theorem iblk35_eq (c : Dev nD) (t : Fin cfg0.N) :
    (iblk m c 35 t : S512.Idx → EReal) = m ((c : Thread nD τ).loc main_arg35) := by
  have e0 := idx35 t
  funext j
  show (V m c main_arg35 : S512.Idx → EReal) (((cfg0.win 35).blk t).view.emb j) = _
  rw [V_main_arg35]
  refine congrArg (m ((c : Thread nD τ).loc main_arg35)) (funext fun a => Fin.ext ?_)
  match a with
  | ⟨0, _⟩ => show win0_35.index t (0 : Fin 1) * 512 + 1 * (j 0).val = (j 0).val; omega

/-! ### A load through a rectangle of a whole array: offset plus coordinate -/

/-- Slab p of a 12 × 512 × 512 array, loaded as 1 × 512 × 512. -/
theorem ld_slab3 (A : S12x512x512.Idx → EReal) (p : Fin 12)
    (inb : ∀ a, (![p.val, 0, 0] : Fin 3 → Nat) a + S1x512x512.size a ≤ S12x512x512.size a) (k n : Fin 512) :
    View.ld (Val := fun _ => EReal) (e' := .f32) A (Rect.unit (s := S12x512x512) ![p.val, 0, 0] S1x512x512.size inb) (ix3 ⟨0, Nat.one_pos⟩ k n) = A (ix3 p k n) := by
  refine congrArg A (funext fun a => Fin.ext ?_)
  match a with
  | ⟨0, _⟩ => show p.val + 1 * 0 = p.val; omega
  | ⟨1, _⟩ => show 0 + 1 * k.val = k.val; omega
  | ⟨2, _⟩ => show 0 + 1 * n.val = n.val; omega

/-- Row p of a 12 × 512 array, loaded as 1 × 512. -/
theorem ld_slab2 (A : S12x512.Idx → EReal) (p : Fin 12)
    (inb : ∀ a, (![p.val, 0] : Fin 2 → Nat) a + S1x512.size a ≤ S12x512.size a) (n : Fin 512) :
    View.ld (Val := fun _ => EReal) (e' := .f32) A (Rect.unit (s := S12x512) ![p.val, 0] S1x512.size inb) (ix2 ⟨0, Nat.one_pos⟩ n) = A (ix2 p n) := by
  refine congrArg A (funext fun a => Fin.ext ?_)
  match a with
  | ⟨0, _⟩ => show p.val + 1 * 0 = p.val; omega
  | ⟨1, _⟩ => show 0 + 1 * n.val = n.val; omega

/-- The 512 rows from row o of a 2048 × 512 array. -/
theorem ld_blk2 (A : S2048x512.Idx → EReal) (o : Nat)
    (inb : ∀ a, (![o, 0] : Fin 2 → Nat) a + S512x512.size a ≤ S2048x512.size a) (k n : Fin 512) (r : Fin 2048) (hr : r.val = o + k.val) :
    View.ld (Val := fun _ => EReal) (e' := .f32) A (Rect.unit (s := S2048x512) ![o, 0] S512x512.size inb) (ix2 k n) = A (ix2 r n) := by
  refine congrArg A (funext fun a => Fin.ext ?_)
  match a with
  | ⟨0, _⟩ => show o + 1 * k.val = r.val; omega
  | ⟨1, _⟩ => show 0 + 1 * n.val = n.val; omega

/-! ### The body's loads at a grid point -/

/-- At grid point t every load of the body reads the matching part of its argument: the row inputs rows
    [256 t, 256 t + 256), every other input the whole argument, slab by slab and block by block where the body
    loads it so. -/
theorem leaves_iblk (c : Dev nD) (t : Fin cfg0.N) (hr : 256 * t.val + 256 ≤ 16384) :
    Leaves (256 * t.val) hr (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) where
  row0 := fun p l => (congrFun (View.ld_unit_zero (S := S256x256) hz2 _ (iblk m c 0 t)) (ix2 p l)).trans (iblk0_apply m c t p l _)
  row1 := fun p l => (congrFun (View.ld_unit_zero (S := S256x768) hz2 _ (iblk m c 1 t)) (ix2 p l)).trans (iblk1_apply m c t p l _)
  row2 := fun p l => (congrFun (View.ld_unit_zero (S := S256x128) hz2 _ (iblk m c 2 t)) (ix2 p l)).trans (iblk2_apply m c t p l _)
  row3 := fun p l => (congrFun (View.ld_unit_zero (S := S256x256) hz2 _ (iblk m c 3 t)) (ix2 p l)).trans (iblk3_apply m c t p l _)
  all4 := (View.ld_unit_zero (S := S256x512) hz2 _ (iblk m c 4 t)).trans (iblk4_eq m c t)
  all5 := (View.ld_unit_zero (S := S512) hz1 _ (iblk m c 5 t)).trans (iblk5_eq m c t)
  all6 := (View.ld_unit_zero (S := S512) hz1 _ (iblk m c 6 t)).trans (iblk6_eq m c t)
  all7 := (View.ld_unit_zero (S := S512) hz1 _ (iblk m c 7 t)).trans (iblk7_eq m c t)
  all8 := (View.ld_unit_zero (S := S768x512) hz2 _ (iblk m c 8 t)).trans (iblk8_eq m c t)
  all9 := (View.ld_unit_zero (S := S512) hz1 _ (iblk m c 9 t)).trans (iblk9_eq m c t)
  all10 := (View.ld_unit_zero (S := S512) hz1 _ (iblk m c 10 t)).trans (iblk10_eq m c t)
  all11 := (View.ld_unit_zero (S := S512) hz1 _ (iblk m c 11 t)).trans (iblk11_eq m c t)
  all12 := (View.ld_unit_zero (S := S128x512) hz2 _ (iblk m c 12 t)).trans (iblk12_eq m c t)
  all13 := (View.ld_unit_zero (S := S512) hz1 _ (iblk m c 13 t)).trans (iblk13_eq m c t)
  all14 := (View.ld_unit_zero (S := S512) hz1 _ (iblk m c 14 t)).trans (iblk14_eq m c t)
  all15 := (View.ld_unit_zero (S := S512) hz1 _ (iblk m c 15 t)).trans (iblk15_eq m c t)
  all16 := (View.ld_unit_zero (S := S256x512) hz2 _ (iblk m c 16 t)).trans (iblk16_eq m c t)
  all17 := (View.ld_unit_zero (S := S512) hz1 _ (iblk m c 17 t)).trans (iblk17_eq m c t)
  all18 := (View.ld_unit_zero (S := S512) hz1 _ (iblk m c 18 t)).trans (iblk18_eq m c t)
  all19 := (View.ld_unit_zero (S := S512) hz1 _ (iblk m c 19 t)).trans (iblk19_eq m c t)
  slab20_0 := fun k n => (congrFun (iblk20_eq m c t) _).trans (ld_slab3 (m ((c : Thread nD τ).loc main_arg20)) ⟨0, by omega⟩ _ k n)
  slab20_1 := fun k n => (congrFun (iblk20_eq m c t) _).trans (ld_slab3 (m ((c : Thread nD τ).loc main_arg20)) ⟨1, by omega⟩ _ k n)
  slab20_2 := fun k n => (congrFun (iblk20_eq m c t) _).trans (ld_slab3 (m ((c : Thread nD τ).loc main_arg20)) ⟨2, by omega⟩ _ k n)
  slab20_3 := fun k n => (congrFun (iblk20_eq m c t) _).trans (ld_slab3 (m ((c : Thread nD τ).loc main_arg20)) ⟨3, by omega⟩ _ k n)
  slab20_4 := fun k n => (congrFun (iblk20_eq m c t) _).trans (ld_slab3 (m ((c : Thread nD τ).loc main_arg20)) ⟨4, by omega⟩ _ k n)
  slab20_5 := fun k n => (congrFun (iblk20_eq m c t) _).trans (ld_slab3 (m ((c : Thread nD τ).loc main_arg20)) ⟨5, by omega⟩ _ k n)
  slab20_6 := fun k n => (congrFun (iblk20_eq m c t) _).trans (ld_slab3 (m ((c : Thread nD τ).loc main_arg20)) ⟨6, by omega⟩ _ k n)
  slab20_7 := fun k n => (congrFun (iblk20_eq m c t) _).trans (ld_slab3 (m ((c : Thread nD τ).loc main_arg20)) ⟨7, by omega⟩ _ k n)
  slab20_8 := fun k n => (congrFun (iblk20_eq m c t) _).trans (ld_slab3 (m ((c : Thread nD τ).loc main_arg20)) ⟨8, by omega⟩ _ k n)
  slab20_9 := fun k n => (congrFun (iblk20_eq m c t) _).trans (ld_slab3 (m ((c : Thread nD τ).loc main_arg20)) ⟨9, by omega⟩ _ k n)
  slab20_10 := fun k n => (congrFun (iblk20_eq m c t) _).trans (ld_slab3 (m ((c : Thread nD τ).loc main_arg20)) ⟨10, by omega⟩ _ k n)
  slab20_11 := fun k n => (congrFun (iblk20_eq m c t) _).trans (ld_slab3 (m ((c : Thread nD τ).loc main_arg20)) ⟨11, by omega⟩ _ k n)
  slab21_0 := fun n => (congrFun (iblk21_eq m c t) _).trans (ld_slab2 (m ((c : Thread nD τ).loc main_arg21)) ⟨0, by omega⟩ _ n)
  slab21_1 := fun n => (congrFun (iblk21_eq m c t) _).trans (ld_slab2 (m ((c : Thread nD τ).loc main_arg21)) ⟨1, by omega⟩ _ n)
  slab21_2 := fun n => (congrFun (iblk21_eq m c t) _).trans (ld_slab2 (m ((c : Thread nD τ).loc main_arg21)) ⟨2, by omega⟩ _ n)
  slab21_3 := fun n => (congrFun (iblk21_eq m c t) _).trans (ld_slab2 (m ((c : Thread nD τ).loc main_arg21)) ⟨3, by omega⟩ _ n)
  slab21_4 := fun n => (congrFun (iblk21_eq m c t) _).trans (ld_slab2 (m ((c : Thread nD τ).loc main_arg21)) ⟨4, by omega⟩ _ n)
  slab21_5 := fun n => (congrFun (iblk21_eq m c t) _).trans (ld_slab2 (m ((c : Thread nD τ).loc main_arg21)) ⟨5, by omega⟩ _ n)
  slab21_6 := fun n => (congrFun (iblk21_eq m c t) _).trans (ld_slab2 (m ((c : Thread nD τ).loc main_arg21)) ⟨6, by omega⟩ _ n)
  slab21_7 := fun n => (congrFun (iblk21_eq m c t) _).trans (ld_slab2 (m ((c : Thread nD τ).loc main_arg21)) ⟨7, by omega⟩ _ n)
  slab21_8 := fun n => (congrFun (iblk21_eq m c t) _).trans (ld_slab2 (m ((c : Thread nD τ).loc main_arg21)) ⟨8, by omega⟩ _ n)
  slab21_9 := fun n => (congrFun (iblk21_eq m c t) _).trans (ld_slab2 (m ((c : Thread nD τ).loc main_arg21)) ⟨9, by omega⟩ _ n)
  slab21_10 := fun n => (congrFun (iblk21_eq m c t) _).trans (ld_slab2 (m ((c : Thread nD τ).loc main_arg21)) ⟨10, by omega⟩ _ n)
  slab21_11 := fun n => (congrFun (iblk21_eq m c t) _).trans (ld_slab2 (m ((c : Thread nD τ).loc main_arg21)) ⟨11, by omega⟩ _ n)
  slab22_0 := fun k n => (congrFun (iblk22_eq m c t) _).trans (ld_slab3 (m ((c : Thread nD τ).loc main_arg22)) ⟨0, by omega⟩ _ k n)
  slab22_1 := fun k n => (congrFun (iblk22_eq m c t) _).trans (ld_slab3 (m ((c : Thread nD τ).loc main_arg22)) ⟨1, by omega⟩ _ k n)
  slab22_2 := fun k n => (congrFun (iblk22_eq m c t) _).trans (ld_slab3 (m ((c : Thread nD τ).loc main_arg22)) ⟨2, by omega⟩ _ k n)
  slab22_3 := fun k n => (congrFun (iblk22_eq m c t) _).trans (ld_slab3 (m ((c : Thread nD τ).loc main_arg22)) ⟨3, by omega⟩ _ k n)
  slab22_4 := fun k n => (congrFun (iblk22_eq m c t) _).trans (ld_slab3 (m ((c : Thread nD τ).loc main_arg22)) ⟨4, by omega⟩ _ k n)
  slab22_5 := fun k n => (congrFun (iblk22_eq m c t) _).trans (ld_slab3 (m ((c : Thread nD τ).loc main_arg22)) ⟨5, by omega⟩ _ k n)
  slab22_6 := fun k n => (congrFun (iblk22_eq m c t) _).trans (ld_slab3 (m ((c : Thread nD τ).loc main_arg22)) ⟨6, by omega⟩ _ k n)
  slab22_7 := fun k n => (congrFun (iblk22_eq m c t) _).trans (ld_slab3 (m ((c : Thread nD τ).loc main_arg22)) ⟨7, by omega⟩ _ k n)
  slab22_8 := fun k n => (congrFun (iblk22_eq m c t) _).trans (ld_slab3 (m ((c : Thread nD τ).loc main_arg22)) ⟨8, by omega⟩ _ k n)
  slab22_9 := fun k n => (congrFun (iblk22_eq m c t) _).trans (ld_slab3 (m ((c : Thread nD τ).loc main_arg22)) ⟨9, by omega⟩ _ k n)
  slab22_10 := fun k n => (congrFun (iblk22_eq m c t) _).trans (ld_slab3 (m ((c : Thread nD τ).loc main_arg22)) ⟨10, by omega⟩ _ k n)
  slab22_11 := fun k n => (congrFun (iblk22_eq m c t) _).trans (ld_slab3 (m ((c : Thread nD τ).loc main_arg22)) ⟨11, by omega⟩ _ k n)
  slab23_0 := fun n => (congrFun (iblk23_eq m c t) _).trans (ld_slab2 (m ((c : Thread nD τ).loc main_arg23)) ⟨0, by omega⟩ _ n)
  slab23_1 := fun n => (congrFun (iblk23_eq m c t) _).trans (ld_slab2 (m ((c : Thread nD τ).loc main_arg23)) ⟨1, by omega⟩ _ n)
  slab23_2 := fun n => (congrFun (iblk23_eq m c t) _).trans (ld_slab2 (m ((c : Thread nD τ).loc main_arg23)) ⟨2, by omega⟩ _ n)
  slab23_3 := fun n => (congrFun (iblk23_eq m c t) _).trans (ld_slab2 (m ((c : Thread nD τ).loc main_arg23)) ⟨3, by omega⟩ _ n)
  slab23_4 := fun n => (congrFun (iblk23_eq m c t) _).trans (ld_slab2 (m ((c : Thread nD τ).loc main_arg23)) ⟨4, by omega⟩ _ n)
  slab23_5 := fun n => (congrFun (iblk23_eq m c t) _).trans (ld_slab2 (m ((c : Thread nD τ).loc main_arg23)) ⟨5, by omega⟩ _ n)
  slab23_6 := fun n => (congrFun (iblk23_eq m c t) _).trans (ld_slab2 (m ((c : Thread nD τ).loc main_arg23)) ⟨6, by omega⟩ _ n)
  slab23_7 := fun n => (congrFun (iblk23_eq m c t) _).trans (ld_slab2 (m ((c : Thread nD τ).loc main_arg23)) ⟨7, by omega⟩ _ n)
  slab23_8 := fun n => (congrFun (iblk23_eq m c t) _).trans (ld_slab2 (m ((c : Thread nD τ).loc main_arg23)) ⟨8, by omega⟩ _ n)
  slab23_9 := fun n => (congrFun (iblk23_eq m c t) _).trans (ld_slab2 (m ((c : Thread nD τ).loc main_arg23)) ⟨9, by omega⟩ _ n)
  slab23_10 := fun n => (congrFun (iblk23_eq m c t) _).trans (ld_slab2 (m ((c : Thread nD τ).loc main_arg23)) ⟨10, by omega⟩ _ n)
  slab23_11 := fun n => (congrFun (iblk23_eq m c t) _).trans (ld_slab2 (m ((c : Thread nD τ).loc main_arg23)) ⟨11, by omega⟩ _ n)
  blk24_0 := fun k n => (congrFun (iblk24_eq m c t) _).trans (ld_blk2 (m ((c : Thread nD τ).loc main_arg24)) 0 _ k n _ (Nat.zero_add _).symm)
  blk24_1 := fun k n => (congrFun (iblk24_eq m c t) _).trans (ld_blk2 (m ((c : Thread nD τ).loc main_arg24)) 512 _ k n _ rfl)
  blk24_2 := fun k n => (congrFun (iblk24_eq m c t) _).trans (ld_blk2 (m ((c : Thread nD τ).loc main_arg24)) 1024 _ k n _ rfl)
  blk24_3 := fun k n => (congrFun (iblk24_eq m c t) _).trans (ld_blk2 (m ((c : Thread nD τ).loc main_arg24)) 1536 _ k n _ rfl)
  all25 := (View.ld_unit_zero (S := S512) hz1 _ (iblk m c 25 t)).trans (iblk25_eq m c t)
  all26 := (View.ld_unit_zero (S := S512x4) hz2 _ (iblk m c 26 t)).trans (iblk26_eq m c t)
  all27 := (View.ld_unit_zero (S := S4) hz1 _ (iblk m c 27 t)).trans (iblk27_eq m c t)
  blk28_0 := fun k n => (congrFun (iblk28_eq m c t) _).trans (ld_blk2 (m ((c : Thread nD τ).loc main_arg28)) 0 _ k n _ (Nat.zero_add _).symm)
  blk28_1 := fun k n => (congrFun (iblk28_eq m c t) _).trans (ld_blk2 (m ((c : Thread nD τ).loc main_arg28)) 512 _ k n _ rfl)
  blk28_2 := fun k n => (congrFun (iblk28_eq m c t) _).trans (ld_blk2 (m ((c : Thread nD τ).loc main_arg28)) 1024 _ k n _ rfl)
  blk28_3 := fun k n => (congrFun (iblk28_eq m c t) _).trans (ld_blk2 (m ((c : Thread nD τ).loc main_arg28)) 1536 _ k n _ rfl)
  all29 := (View.ld_unit_zero (S := S512) hz1 _ (iblk m c 29 t)).trans (iblk29_eq m c t)
  blk30_0 := fun k n => (congrFun (iblk30_eq m c t) _).trans (ld_blk2 (m ((c : Thread nD τ).loc main_arg30)) 0 _ k n _ (Nat.zero_add _).symm)
  blk30_1 := fun k n => (congrFun (iblk30_eq m c t) _).trans (ld_blk2 (m ((c : Thread nD τ).loc main_arg30)) 512 _ k n _ rfl)
  blk30_2 := fun k n => (congrFun (iblk30_eq m c t) _).trans (ld_blk2 (m ((c : Thread nD τ).loc main_arg30)) 1024 _ k n _ rfl)
  blk30_3 := fun k n => (congrFun (iblk30_eq m c t) _).trans (ld_blk2 (m ((c : Thread nD τ).loc main_arg30)) 1536 _ k n _ rfl)
  all31 := (View.ld_unit_zero (S := S512) hz1 _ (iblk m c 31 t)).trans (iblk31_eq m c t)
  all32 := (View.ld_unit_zero (S := S512x512) hz2 _ (iblk m c 32 t)).trans (iblk32_eq m c t)
  all33 := (View.ld_unit_zero (S := S512) hz1 _ (iblk m c 33 t)).trans (iblk33_eq m c t)
  all34 := (View.ld_unit_zero (S := S512) hz1 _ (iblk m c 34 t)).trans (iblk34_eq m c t)
  all35 := (View.ld_unit_zero (S := S512) hz1 _ (iblk m c 35 t)).trans (iblk35_eq m c t)

end Cert.Fusion

end
-- ==== Proof.TileBase.lean ====
/-
  Tiles of one slab. A B × M × C array is B slabs of M × C; a T × C array `x` is the tile of slab `b` of `X` at row
  offset r0 when x (p, l) = X (b, r0 + p, l). The four attended blocks are the four slabs of one 4 × M × C array, and
  a kernel that works on T rows at a time holds one such tile per slab.
-/
import proofs.«146539_j55808805044797_2_alg».proof.Proof.LibTile

noncomputable section

namespace Cert.Tile

open Idealize.ShloMosaic Idealize.ShloMosaic.ValueIdx

/-- `x` is rows [r0, r0 + T) of slab `b` of `X`. -/
def IsSlabTile {T M C B : Nat} (b : Fin B) (r0 : Nat) (hr : r0 + T ≤ M) (x : (⟨2, ![T, C]⟩ : Shape).Idx → EReal)
    (X : (⟨3, ![B, M, C]⟩ : Shape).Idx → EReal) : Prop :=
  ∀ (p : Fin T) (l : Fin C), x (ix2 p l) = X (ix3 b ⟨r0 + p.val, by omega⟩ l)

/-- The slab `b` of a 3-D array, as an M × C array. -/
def slab {M C B : Nat} (b : Fin B) (X : (⟨3, ![B, M, C]⟩ : Shape).Idx → EReal) : (⟨2, ![M, C]⟩ : Shape).Idx → EReal :=
  fun j => X (ix3 b (j 0) (j 1))

/-- A tile of slab `b` of `X` is a tile of the M × C array `slab b X`, and conversely. -/
theorem isSlabTile_iff {T M C B : Nat} (b : Fin B) (r0 : Nat) (hr : r0 + T ≤ M) (x : (⟨2, ![T, C]⟩ : Shape).Idx → EReal)
    (X : (⟨3, ![B, M, C]⟩ : Shape).Idx → EReal) : IsSlabTile b r0 hr x X ↔ IsTile r0 hr x (slab b X) :=
  Iff.rfl

end Cert.Tile

end
-- ==== Proof.Attn.lean ====
/-
  One attention pair, slab by slab. The twelve value projections (and the twelve output projections) are stacked:
  weights 12 × 512 × 512, biases 12 × 512. For pair p, row r of the result is row r of the operand times slab p of
  the weights plus slab p of the biases. The kernel computes it on 256 rows at a time with slab p loaded as a
  1 × 512 × 512 block (viewed 512 × 512) and the bias as a 1 × 512 block repeated down the rows; the reference computes
  all twelve at once as a batched product and a bias broadcast along the rows. Member p of the reference's stack is that
  same function of member p of its operand.
-/
import Idealize.ShloMosaic.Lib.StackMember
import Idealize.ShloMosaic.Lib.IdealHost
import proofs.«146539_j55808805044797_2_alg».proof.Proof.RefOps
import proofs.«146539_j55808805044797_2_alg».proof.Proof.TileBase
import proofs.«146539_j55808805044797_2_alg».proof.Proof.Gen.KernelIdeal.Skeleton

noncomputable section

namespace Cert.Fusion.Attn

open Idealize.ShloMosaic Idealize.ShloMosaic.ValueIdx Idealize.ShloMosaic.StackMember
open Cert.Tile (IsTile IsSlabTile)

/-- Row r of X times slab p of the weight stack: entry (r, n) is Σₖ X (r, k) · W (p, k, n). -/
def mmSlab {M : Nat} (X : (⟨2, ![M, 512]⟩ : Shape).Idx → EReal) (W : (⟨3, ![12, 512, 512]⟩ : Shape).Idx → EReal)
    (p : Fin 12) : (⟨2, ![M, 512]⟩ : Shape).Idx → EReal :=
  fun j => ∑ k : Fin 512, X (ix2 (j 0) k) * W (ix3 p k (j 1))

/-- … plus slab p of the bias stack: entry (r, n) is Σₖ X (r, k) · W (p, k, n) + b (p, n). -/
def linSlab {M : Nat} (X : (⟨2, ![M, 512]⟩ : Shape).Idx → EReal) (W : (⟨3, ![12, 512, 512]⟩ : Shape).Idx → EReal)
    (b : (⟨2, ![12, 512]⟩ : Shape).Idx → EReal) (p : Fin 12) : (⟨2, ![M, 512]⟩ : Shape).Idx → EReal :=
  fun j => mmSlab X W p j + b (ix2 p (j 1))

variable {T M : Nat} {r0 : Nat} {hr : r0 + T ≤ M}

/-- The kernel's product of a tile with slab p, the slab loaded as a 1 × 512 × 512 block and viewed 512 × 512, into a
    zero accumulator, is the tile of the per-slab product: the contraction over k reads the same products. -/
theorem mm_tile {x : (⟨2, ![T, 512]⟩ : Shape).Idx → EReal} {X : (⟨2, ![M, 512]⟩ : Shape).Idx → EReal}
    (hx : IsTile r0 hr x X) (w : (⟨3, ![1, 512, 512]⟩ : Shape).Idx → EReal) (W : (⟨3, ![12, 512, 512]⟩ : Shape).Idx → EReal)
    (p : Fin 12) (hw : ∀ (k n : Fin 512), w (ix3 ⟨0, Nat.one_pos⟩ k n) = W (ix3 p k n))
    (hc : (⟨3, ![1, 512, 512]⟩ : Shape).ShapeCasts ⟨2, ![512, 512]⟩) :
    IsTile r0 hr (matmul (F := Ideal) (φ₁ := .bf16) (φ₂ := .bf16) (DotDims.plain T 512 512) none x (shapeCast ⟨2, ![512, 512]⟩ w hc)
      (constant ⟨2, ![T, 512]⟩ .f32 0x00000000#32)) (mmSlab X W p) := by
  intro q l
  have e1 : (∑ k : (DotDims.plain T 512 512).contr.Idx, x ((DotDims.plain T 512 512).lhsIdx (ix2 q l) k)
        * shapeCast ⟨2, ![512, 512]⟩ w hc ((DotDims.plain T 512 512).rhsIdx (ix2 q l) k))
      = ∑ c : Fin 512, x (ix2 q c) * shapeCast ⟨2, ![512, 512]⟩ w hc (ix2 c l) := by
    rw [← dotGeneral_plain_apply (φ₁ := .bf16) (φ₂ := .bf16) none x (shapeCast ⟨2, ![512, 512]⟩ w hc) q l]
    exact (Ideal.dotGeneral_apply (φ₁ := .bf16) (φ₂ := .bf16) _ none _ x (shapeCast ⟨2, ![512, 512]⟩ w hc) (ix2 q l)).symm
  refine (Ideal.matmul_constant_zero_apply (φ₁ := .bf16) (φ₂ := .bf16) (DotDims.plain T 512 512) none x
    (shapeCast ⟨2, ![512, 512]⟩ w hc) (ix2 q l)).trans (e1.trans ?_)
  show _ = ∑ k : Fin 512, X (ix2 ⟨r0 + q.val, _⟩ k) * W (ix3 p k l)
  refine Finset.sum_congr rfl fun k _ => ?_
  have e2 : shapeCast ⟨2, ![512, 512]⟩ w hc (ix2 k l) = w (ix3 ⟨0, Nat.one_pos⟩ k l) := by
    refine shapeCast_apply w hc (ix2 k l) (ix3 ⟨0, Nat.one_pos⟩ k l) ?_
    rw [Shape.rowMajor_val_three, Shape.rowMajor_val_two]
    show (0 * 512 + k.val) * 512 + l.val = k.val * 512 + l.val
    omega
  rw [e2, hw k l, hx q k]

/-- The kernel's bias row for pair p — slab p of the bias stack loaded as a 1 × 512 block, flattened, viewed 1 × 512 again
    and repeated down the rows — holds b (p, n) in column n of every row. -/
theorem biasSlab_apply (bs : (⟨2, ![1, 512]⟩ : Shape).Idx → EReal) (b : (⟨2, ![12, 512]⟩ : Shape).Idx → EReal) (p : Fin 12)
    (hb : ∀ n : Fin 512, bs (ix2 ⟨0, Nat.one_pos⟩ n) = b (ix2 p n))
    (h1 : (⟨2, ![1, 512]⟩ : Shape).ShapeCasts ⟨1, ![512]⟩) (h2 : (⟨1, ![512]⟩ : Shape).ShapeCasts ⟨2, ![1, 512]⟩)
    (h3 : (⟨2, ![1, 512]⟩ : Shape).Broadcasts ⟨2, ![T, 512]⟩) (q : Fin T) (l : Fin 512) :
    broadcastTo ⟨2, ![T, 512]⟩ (shapeCast ⟨2, ![1, 512]⟩ (shapeCast ⟨1, ![512]⟩ bs h1) h2) h3 (ix2 q l) = b (ix2 p l) := by
  have hl := l.isLt
  refine (broadcastTo_apply _ h3 (ix2 q l) (ix2 ⟨0, Nat.one_pos⟩ l) fun a => ?_).trans ?_
  · match a with
    | ⟨0, _⟩ => rfl
    | ⟨1, _⟩ =>
      show l.val = if (512 : Nat) = 1 then 0 else l.val
      split <;> omega
  · refine (shapeCast_apply _ h2 (ix2 ⟨0, Nat.one_pos⟩ l) (ix1 l) ?_).trans
      ((shapeCast_apply bs h1 (ix1 l) (ix2 ⟨0, Nat.one_pos⟩ l) ?_).trans (hb l))
    · rw [Shape.rowMajor_val_one, Shape.rowMajor_val_two]
      show l.val = 0 * 512 + l.val
      omega
    · rw [Shape.rowMajor_val_two, Shape.rowMajor_val_one]
      show 0 * 512 + l.val = l.val
      omega

/-- The kernel's product with slab p plus its bias row is the tile of the per-slab linear layer. -/
theorem lin_tile {x : (⟨2, ![T, 512]⟩ : Shape).Idx → EReal} {X : (⟨2, ![M, 512]⟩ : Shape).Idx → EReal}
    (hx : IsTile r0 hr x X) (w : (⟨3, ![1, 512, 512]⟩ : Shape).Idx → EReal) (W : (⟨3, ![12, 512, 512]⟩ : Shape).Idx → EReal)
    (p : Fin 12) (hw : ∀ (k n : Fin 512), w (ix3 ⟨0, Nat.one_pos⟩ k n) = W (ix3 p k n))
    (hc : (⟨3, ![1, 512, 512]⟩ : Shape).ShapeCasts ⟨2, ![512, 512]⟩)
    (bs : (⟨2, ![1, 512]⟩ : Shape).Idx → EReal) (b : (⟨2, ![12, 512]⟩ : Shape).Idx → EReal)
    (hb : ∀ n : Fin 512, bs (ix2 ⟨0, Nat.one_pos⟩ n) = b (ix2 p n))
    (h1 : (⟨2, ![1, 512]⟩ : Shape).ShapeCasts ⟨1, ![512]⟩) (h2 : (⟨1, ![512]⟩ : Shape).ShapeCasts ⟨2, ![1, 512]⟩)
    (h3 : (⟨2, ![1, 512]⟩ : Shape).Broadcasts ⟨2, ![T, 512]⟩) :
    IsTile r0 hr (addf (F := Ideal) (φ := .f32)
      (matmul (F := Ideal) (φ₁ := .bf16) (φ₂ := .bf16) (DotDims.plain T 512 512) none x (shapeCast ⟨2, ![512, 512]⟩ w hc)
        (constant ⟨2, ![T, 512]⟩ .f32 0x00000000#32))
      (broadcastTo ⟨2, ![T, 512]⟩ (shapeCast ⟨2, ![1, 512]⟩ (shapeCast ⟨1, ![512]⟩ bs h1) h2) h3)) (linSlab X W b p) := by
  intro q l
  exact congrArg₂ (· + ·) (mm_tile hx w W p hw hc q l) (biasSlab_apply bs b p hb h1 h2 h3 q l)

/-- Member p of the reference's stacked linear layer is the per-slab linear layer of member p of its operand: the batched
    product contracts row (p, r) with slab p, and the bias stack is broadcast along the rows. -/
theorem memberAt_valueProj (G : FVec Ideal Cert.ReferenceIdeal.S12x16384x512 .f32) (W : FVec Ideal Cert.ReferenceIdeal.S12x512x512 .f32)
    (b : FVec Ideal Cert.ReferenceIdeal.S12x512 .f32) (p : Fin 12) :
    memberAt (d := ![16384, 512]) (Cert.ReferenceIdeal.RefRun.valueProj (F := Ideal) G W b) p
      = linSlab (memberAt (d := ![16384, 512]) G p) W b p := by
  funext j
  obtain ⟨a, l, rfl⟩ : ∃ (a : Fin 16384) (l : Fin 512), j = ix2 a l := ⟨j 0, j 1, eq_ix2 j⟩
  have hl := l.isLt
  have hp := p.isLt
  rw [memberAt_apply, cons_ix2]
  have hd : Host.dotGeneral (F := Ideal) Cert.ReferenceIdeal.dot_S12x16384x512_S12x512x512_S12x16384x512_2_1_1_2_0_0 none G W (ix3 p a l)
      = ∑ c : Fin 512, G (ix3 p a c) * W (ix3 p c l) :=
    dotGeneral_stack_apply (φ₁ := .f32) (φ₂ := .f32) Cert.ReferenceIdeal.Facts₀.dot_S12x16384x512_S12x512x512_S12x16384x512_2_1_1_2_0_0_wf none G W p a l
  have hbias : broadcastInDim Cert.ReferenceIdeal.S12x16384x512 ![0, 1, 2] Cert.ReferenceIdeal.Facts₀.bcast_S12x1x512_S12x16384x512_0_1_2
      (broadcastInDim Cert.ReferenceIdeal.S12x1x512 ![0, 2] Cert.ReferenceIdeal.Facts₀.bcast_S12x512_S12x1x512_0_2 b) (ix3 p a l) = b (ix2 p l) := by
    refine (broadcastInDim_apply _ Cert.ReferenceIdeal.Facts₀.bcast_S12x1x512_S12x16384x512_0_1_2 _ (ix3 p a l) (ix3 p ⟨0, Nat.one_pos⟩ l) fun ax => ?_).trans
      (broadcastInDim_apply _ Cert.ReferenceIdeal.Facts₀.bcast_S12x512_S12x1x512_0_2 b (ix3 p ⟨0, Nat.one_pos⟩ l) (ix2 p l) fun ax => ?_)
    · match ax with
      | ⟨0, _⟩ => show p.val = if (12 : Nat) = 1 then 0 else p.val; split <;> omega
      | ⟨1, _⟩ => rfl
      | ⟨2, _⟩ => show l.val = if (512 : Nat) = 1 then 0 else l.val; split <;> omega
    · match ax with
      | ⟨0, _⟩ => show p.val = if (12 : Nat) = 1 then 0 else p.val; split <;> omega
      | ⟨1, _⟩ => show l.val = if (512 : Nat) = 1 then 0 else l.val; split <;> omega
  show Host.dotGeneral (F := Ideal) Cert.ReferenceIdeal.dot_S12x16384x512_S12x512x512_S12x16384x512_2_1_1_2_0_0 none G W (ix3 p a l) + _ = _
  rw [hd, hbias]
  show _ = (∑ k : Fin 512, G (Fin.cons p (ix2 a k)) * W (ix3 p k l)) + b (ix2 p l)
  refine congrArg (· + b (ix2 p l)) (Finset.sum_congr rfl fun k _ => ?_)
  rw [cons_ix2]

/-- A change of float format is the identity on the extended reals, so it keeps tiles. -/
theorem trunc_tile {C : Nat} {x : FVec Ideal ⟨2, ![T, C]⟩ .f32} {X : (⟨2, ![M, C]⟩ : Shape).Idx → EReal}
    (h : FTy.bf16.bits < FTy.f32.bits) (hx : IsTile r0 hr x X) : IsTile r0 hr (truncf (F := Ideal) .bf16 x h) X :=
  fun q l => hx q l

/-- One attention pair: the value projection of the source modality by slab p, then the output projection by slab p. -/
def pairOut {M : Nat} (S : (⟨2, ![M, 512]⟩ : Shape).Idx → EReal) (Wv : (⟨3, ![12, 512, 512]⟩ : Shape).Idx → EReal)
    (Bv : (⟨2, ![12, 512]⟩ : Shape).Idx → EReal) (Wo : (⟨3, ![12, 512, 512]⟩ : Shape).Idx → EReal)
    (Bo : (⟨2, ![12, 512]⟩ : Shape).Idx → EReal) (p : Fin 12) : (⟨2, ![M, 512]⟩ : Shape).Idx → EReal :=
  linSlab (linSlab S Wv Bv p) Wo Bo p

/-- A query modality's attended block: its own projection plus its three pairs, added in the kernel's order. -/
def attRow {M : Nat} (P Q0 Q1 Q2 : (⟨2, ![M, 512]⟩ : Shape).Idx → EReal) (Wv : (⟨3, ![12, 512, 512]⟩ : Shape).Idx → EReal)
    (Bv : (⟨2, ![12, 512]⟩ : Shape).Idx → EReal) (Wo : (⟨3, ![12, 512, 512]⟩ : Shape).Idx → EReal)
    (Bo : (⟨2, ![12, 512]⟩ : Shape).Idx → EReal) (p0 p1 p2 : Fin 12) : (⟨2, ![M, 512]⟩ : Shape).Idx → EReal :=
  fun j => ((P j + pairOut Q0 Wv Bv Wo Bo p0 j) + pairOut Q1 Wv Bv Wo Bo p1 j) + pairOut Q2 Wv Bv Wo Bo p2 j

/-- The slab hypotheses of one pair: the four loaded blocks are slab p of the two weight stacks and of the two bias stacks. -/
structure Slabs (wv : (⟨3, ![1, 512, 512]⟩ : Shape).Idx → EReal) (bv : (⟨2, ![1, 512]⟩ : Shape).Idx → EReal)
    (wo : (⟨3, ![1, 512, 512]⟩ : Shape).Idx → EReal) (bo : (⟨2, ![1, 512]⟩ : Shape).Idx → EReal)
    (Wv : (⟨3, ![12, 512, 512]⟩ : Shape).Idx → EReal) (Bv : (⟨2, ![12, 512]⟩ : Shape).Idx → EReal)
    (Wo : (⟨3, ![12, 512, 512]⟩ : Shape).Idx → EReal) (Bo : (⟨2, ![12, 512]⟩ : Shape).Idx → EReal) (p : Fin 12) : Prop where
  wv : ∀ (k n : Fin 512), wv (ix3 ⟨0, Nat.one_pos⟩ k n) = Wv (ix3 p k n)
  bv : ∀ n : Fin 512, bv (ix2 ⟨0, Nat.one_pos⟩ n) = Bv (ix2 p n)
  wo : ∀ (k n : Fin 512), wo (ix3 ⟨0, Nat.one_pos⟩ k n) = Wo (ix3 p k n)
  bo : ∀ n : Fin 512, bo (ix2 ⟨0, Nat.one_pos⟩ n) = Bo (ix2 p n)

/-- The kernel's pair — product with the value slab, its bias, the format change, product with the output slab, its
    bias — is the tile of the pair of the whole source array. -/
theorem pair_tile {s : (⟨2, ![T, 512]⟩ : Shape).Idx → EReal} {S : (⟨2, ![M, 512]⟩ : Shape).Idx → EReal} (hs : IsTile r0 hr s S)
    {wv bv wo bo Wv Bv Wo Bo} {p : Fin 12} (H : Slabs wv bv wo bo Wv Bv Wo Bo p)
    (hc hc' : (⟨3, ![1, 512, 512]⟩ : Shape).ShapeCasts ⟨2, ![512, 512]⟩)
    (h1 h1' : (⟨2, ![1, 512]⟩ : Shape).ShapeCasts ⟨1, ![512]⟩) (h2 h2' : (⟨1, ![512]⟩ : Shape).ShapeCasts ⟨2, ![1, 512]⟩)
    (h3 h3' : (⟨2, ![1, 512]⟩ : Shape).Broadcasts ⟨2, ![T, 512]⟩) (hlt : FTy.bf16.bits < FTy.f32.bits) :
    IsTile r0 hr (addf (F := Ideal) (φ := .f32)
      (matmul (F := Ideal) (φ₁ := .bf16) (φ₂ := .bf16) (DotDims.plain T 512 512) none
        (truncf (F := Ideal) .bf16 (addf (F := Ideal) (φ := .f32)
          (matmul (F := Ideal) (φ₁ := .bf16) (φ₂ := .bf16) (DotDims.plain T 512 512) none s (shapeCast ⟨2, ![512, 512]⟩ wv hc)
            (constant ⟨2, ![T, 512]⟩ .f32 0x00000000#32))
          (broadcastTo ⟨2, ![T, 512]⟩ (shapeCast ⟨2, ![1, 512]⟩ (shapeCast ⟨1, ![512]⟩ bv h1) h2) h3)) hlt)
        (shapeCast ⟨2, ![512, 512]⟩ wo hc') (constant ⟨2, ![T, 512]⟩ .f32 0x00000000#32))
      (broadcastTo ⟨2, ![T, 512]⟩ (shapeCast ⟨2, ![1, 512]⟩ (shapeCast ⟨1, ![512]⟩ bo h1') h2') h3')) (pairOut S Wv Bv Wo Bo p) :=
  lin_tile (trunc_tile hlt (lin_tile hs wv Wv p H.wv hc bv Bv H.bv h1 h2 h3)) wo Wo p H.wo hc' bo Bo H.bo h1' h2' h3'

section Payloads
variable {r0 : Nat} {hr : r0 + 256 ≤ 16384}
variable {Wv Wo : (⟨3, ![12, 512, 512]⟩ : Shape).Idx → EReal} {Bv Bo : (⟨2, ![12, 512]⟩ : Shape).Idx → EReal}

/-- The first pair of the first query modality, added to its projection. -/
theorem pay15_tile {P0 P1 : (⟨2, ![16384, 512]⟩ : Shape).Idx → EReal}
    (v36 v73 : FVec Ideal Cert.KernelIdeal.S256x512 .f32) (h0 : IsTile r0 hr v36 P0) (h1 : IsTile r0 hr v73 P1)
    (wv : Vec Ideal Cert.KernelIdeal.S1x512x512 .bf16) (bv : Vec Ideal Cert.KernelIdeal.S1x512 .f32)
    (wo : Vec Ideal Cert.KernelIdeal.S1x512x512 .bf16) (bo : Vec Ideal Cert.KernelIdeal.S1x512 .f32)
    {p : Fin 12} (H : Slabs wv bv wo bo Wv Bv Wo Bo p) :
    IsTile r0 hr (Cert.KernelIdeal.Gen.k0_pay15 (F := Ideal) v36 v73 wv bv wo bo)
      (fun j => P0 j + pairOut P1 Wv Bv Wo Bo p j) := by
  intro q l
  exact congrArg₂ (· + ·) (h0 q l) (pair_tile (trunc_tile _ h1) H _ _ _ _ _ _ _ _ _ q l)

/-- Two further pairs added to a running block. -/
theorem pay16_tile {A P2 P3 : (⟨2, ![16384, 512]⟩ : Shape).Idx → EReal}
    (v150 v151 : FVec Ideal Cert.KernelIdeal.S256x512 .bf16) (v169 : FVec Ideal Cert.KernelIdeal.S256x512 .f32)
    (h2 : IsTile r0 hr v150 P2) (h3 : IsTile r0 hr v151 P3) (hA : IsTile r0 hr v169 A)
    (wv1 : Vec Ideal Cert.KernelIdeal.S1x512x512 .bf16) (bv1 : Vec Ideal Cert.KernelIdeal.S1x512 .f32) (wo1 : Vec Ideal Cert.KernelIdeal.S1x512x512 .bf16) (bo1 : Vec Ideal Cert.KernelIdeal.S1x512 .f32) (wv2 : Vec Ideal Cert.KernelIdeal.S1x512x512 .bf16) (bv2 : Vec Ideal Cert.KernelIdeal.S1x512 .f32) (wo2 : Vec Ideal Cert.KernelIdeal.S1x512x512 .bf16) (bo2 : Vec Ideal Cert.KernelIdeal.S1x512 .f32)
    {p1 p2 : Fin 12} (H1 : Slabs wv1 bv1 wo1 bo1 Wv Bv Wo Bo p1) (H2 : Slabs wv2 bv2 wo2 bo2 Wv Bv Wo Bo p2) :
    IsTile r0 hr (Cert.KernelIdeal.Gen.k0_pay16 (F := Ideal) v150 v151 v169 wv1 bv1 wo1 bo1 wv2 bv2 wo2 bo2)
      (fun j => (A j + pairOut P2 Wv Bv Wo Bo p1 j) + pairOut P3 Wv Bv Wo Bo p2 j) := by
  intro q l
  exact congrArg₂ (· + ·) (congrArg₂ (· + ·) (hA q l) (pair_tile h2 H1 _ _ _ _ _ _ _ _ _ q l)) (pair_tile h3 H2 _ _ _ _ _ _ _ _ _ q l)

/-- A projection plus its first pair (the second query modality). -/
theorem pay18_tile {P1 P0 : (⟨2, ![16384, 512]⟩ : Shape).Idx → EReal}
    (v73 : FVec Ideal Cert.KernelIdeal.S256x512 .f32) (v148 : FVec Ideal Cert.KernelIdeal.S256x512 .bf16)
    (h1 : IsTile r0 hr v73 P1) (h0 : IsTile r0 hr v148 P0) (wv : Vec Ideal Cert.KernelIdeal.S1x512x512 .bf16) (bv : Vec Ideal Cert.KernelIdeal.S1x512 .f32) (wo : Vec Ideal Cert.KernelIdeal.S1x512x512 .bf16) (bo : Vec Ideal Cert.KernelIdeal.S1x512 .f32)
    {p : Fin 12} (H : Slabs wv bv wo bo Wv Bv Wo Bo p) :
    IsTile r0 hr (Cert.KernelIdeal.Gen.k0_pay18 (F := Ideal) v73 v148 wv bv wo bo) (fun j => P1 j + pairOut P0 Wv Bv Wo Bo p j) := by
  intro q l
  exact congrArg₂ (· + ·) (h1 q l) (pair_tile h0 H _ _ _ _ _ _ _ _ _ q l)

/-- A pair up to its last bias: the product with the output slab. -/
theorem pay19_tile {P2 : (⟨2, ![16384, 512]⟩ : Shape).Idx → EReal} (v150 : FVec Ideal Cert.KernelIdeal.S256x512 .bf16) (h2 : IsTile r0 hr v150 P2)
    (wv : Vec Ideal Cert.KernelIdeal.S1x512x512 .bf16) (bv : Vec Ideal Cert.KernelIdeal.S1x512 .f32) (wo : Vec Ideal Cert.KernelIdeal.S1x512x512 .bf16) {p : Fin 12}
    (hwv : ∀ (k n : Fin 512), wv (ix3 ⟨0, Nat.one_pos⟩ k n) = Wv (ix3 p k n)) (hbv : ∀ n : Fin 512, bv (ix2 ⟨0, Nat.one_pos⟩ n) = Bv (ix2 p n))
    (hwo : ∀ (k n : Fin 512), wo (ix3 ⟨0, Nat.one_pos⟩ k n) = Wo (ix3 p k n)) :
    IsTile r0 hr (Cert.KernelIdeal.Gen.k0_pay19 (F := Ideal) v150 wv bv wo) (mmSlab (linSlab P2 Wv Bv p) Wo p) :=
  mm_tile (trunc_tile _ (lin_tile h2 wv Wv p hwv _ bv Bv hbv _ _ _)) wo Wo p hwo _

/-- That product's bias, the running block, and one more pair. -/
theorem pay20_tile {A P2 P3 : (⟨2, ![16384, 512]⟩ : Shape).Idx → EReal}
    (v151 : FVec Ideal Cert.KernelIdeal.S256x512 .bf16) (v226 v238 : FVec Ideal Cert.KernelIdeal.S256x512 .f32) (v239 : Vec Ideal Cert.KernelIdeal.S1x512 .f32)
    (h3 : IsTile r0 hr v151 P3) (hA : IsTile r0 hr v226 A) {p : Fin 12}
    (h238 : IsTile r0 hr v238 (mmSlab (linSlab P2 Wv Bv p) Wo p)) (hbo : ∀ n : Fin 512, v239 (ix2 ⟨0, Nat.one_pos⟩ n) = Bo (ix2 p n))
    (wv2 : Vec Ideal Cert.KernelIdeal.S1x512x512 .bf16) (bv2 : Vec Ideal Cert.KernelIdeal.S1x512 .f32) (wo2 : Vec Ideal Cert.KernelIdeal.S1x512x512 .bf16) (bo2 : Vec Ideal Cert.KernelIdeal.S1x512 .f32) {p2 : Fin 12} (H2 : Slabs wv2 bv2 wo2 bo2 Wv Bv Wo Bo p2) :
    IsTile r0 hr (Cert.KernelIdeal.Gen.k0_pay20 (F := Ideal) v151 v226 v238 v239 wv2 bv2 wo2 bo2)
      (fun j => (A j + pairOut P2 Wv Bv Wo Bo p j) + pairOut P3 Wv Bv Wo Bo p2 j) := by
  intro q l
  exact congrArg₂ (· + ·) (congrArg₂ (· + ·) (hA q l) (congrArg₂ (· + ·) (h238 q l) (biasSlab_apply v239 Bo p hbo _ _ _ q l)))
    (pair_tile h3 H2 _ _ _ _ _ _ _ _ _ q l)

/-- A value projection alone, in the narrow format. -/
theorem pay22_tile {P0 : (⟨2, ![16384, 512]⟩ : Shape).Idx → EReal} (v148 : FVec Ideal Cert.KernelIdeal.S256x512 .bf16) (h0 : IsTile r0 hr v148 P0)
    (wv : Vec Ideal Cert.KernelIdeal.S1x512x512 .bf16) (bv : Vec Ideal Cert.KernelIdeal.S1x512 .f32) {p : Fin 12}
    (hwv : ∀ (k n : Fin 512), wv (ix3 ⟨0, Nat.one_pos⟩ k n) = Wv (ix3 p k n)) (hbv : ∀ n : Fin 512, bv (ix2 ⟨0, Nat.one_pos⟩ n) = Bv (ix2 p n)) :
    IsTile r0 hr (Cert.KernelIdeal.Gen.k0_pay22 (F := Ideal) v148 wv bv) (linSlab P0 Wv Bv p) :=
  trunc_tile _ (lin_tile h0 wv Wv p hwv _ bv Bv hbv _ _ _)

/-- The same cut of another pair. -/
theorem pay24_tile {P3 : (⟨2, ![16384, 512]⟩ : Shape).Idx → EReal} (v151 : FVec Ideal Cert.KernelIdeal.S256x512 .bf16) (h3 : IsTile r0 hr v151 P3)
    (wv : Vec Ideal Cert.KernelIdeal.S1x512x512 .bf16) (bv : Vec Ideal Cert.KernelIdeal.S1x512 .f32) {p : Fin 12}
    (hwv : ∀ (k n : Fin 512), wv (ix3 ⟨0, Nat.one_pos⟩ k n) = Wv (ix3 p k n)) (hbv : ∀ n : Fin 512, bv (ix2 ⟨0, Nat.one_pos⟩ n) = Bv (ix2 p n)) :
    IsTile r0 hr (Cert.KernelIdeal.Gen.k0_pay24 (F := Ideal) v151 wv bv) (linSlab P3 Wv Bv p) :=
  trunc_tile _ (lin_tile h3 wv Wv p hwv _ bv Bv hbv _ _ _)

/-- A projection, the output half of a pair whose value half is given, and one whole pair. -/
theorem pay23_tile {P2 P1 P0 : (⟨2, ![16384, 512]⟩ : Shape).Idx → EReal}
    (v110 : FVec Ideal Cert.KernelIdeal.S256x512 .f32) (v149 v274 : FVec Ideal Cert.KernelIdeal.S256x512 .bf16)
    (h2 : IsTile r0 hr v110 P2) (h1 : IsTile r0 hr v149 P1) {p : Fin 12} (h274 : IsTile r0 hr v274 (linSlab P0 Wv Bv p))
    (wo : Vec Ideal Cert.KernelIdeal.S1x512x512 .bf16) (bo : Vec Ideal Cert.KernelIdeal.S1x512 .f32)
    (hwo : ∀ (k n : Fin 512), wo (ix3 ⟨0, Nat.one_pos⟩ k n) = Wo (ix3 p k n)) (hbo : ∀ n : Fin 512, bo (ix2 ⟨0, Nat.one_pos⟩ n) = Bo (ix2 p n))
    (wv2 : Vec Ideal Cert.KernelIdeal.S1x512x512 .bf16) (bv2 : Vec Ideal Cert.KernelIdeal.S1x512 .f32) (wo2 : Vec Ideal Cert.KernelIdeal.S1x512x512 .bf16) (bo2 : Vec Ideal Cert.KernelIdeal.S1x512 .f32) {p2 : Fin 12} (H2 : Slabs wv2 bv2 wo2 bo2 Wv Bv Wo Bo p2) :
    IsTile r0 hr (Cert.KernelIdeal.Gen.k0_pay23 (F := Ideal) v110 v149 v274 wo bo wv2 bv2 wo2 bo2)
      (fun j => (P2 j + pairOut P0 Wv Bv Wo Bo p j) + pairOut P1 Wv Bv Wo Bo p2 j) := by
  intro q l
  exact congrArg₂ (· + ·) (congrArg₂ (· + ·) (h2 q l) (lin_tile h274 wo Wo p hwo _ bo Bo hbo _ _ _ q l)) (pair_tile h1 H2 _ _ _ _ _ _ _ _ _ q l)

/-- The output half of a pair added to a running block. -/
theorem pay25_tile {A P3 : (⟨2, ![16384, 512]⟩ : Shape).Idx → EReal}
    (v301 : FVec Ideal Cert.KernelIdeal.S256x512 .f32) (v310 : FVec Ideal Cert.KernelIdeal.S256x512 .bf16)
    (hA : IsTile r0 hr v301 A) {p : Fin 12} (h310 : IsTile r0 hr v310 (linSlab P3 Wv Bv p))
    (wo : Vec Ideal Cert.KernelIdeal.S1x512x512 .bf16) (bo : Vec Ideal Cert.KernelIdeal.S1x512 .f32)
    (hwo : ∀ (k n : Fin 512), wo (ix3 ⟨0, Nat.one_pos⟩ k n) = Wo (ix3 p k n)) (hbo : ∀ n : Fin 512, bo (ix2 ⟨0, Nat.one_pos⟩ n) = Bo (ix2 p n)) :
    IsTile r0 hr (Cert.KernelIdeal.Gen.k0_pay25 (F := Ideal) v301 v310 wo bo) (fun j => A j + pairOut P3 Wv Bv Wo Bo p j) := by
  intro q l
  exact congrArg₂ (· + ·) (hA q l) (lin_tile h310 wo Wo p hwo _ bo Bo hbo _ _ _ q l)

/-- A projection plus its first pair (the fourth query modality). -/
theorem pay27_tile {P3 P0 : (⟨2, ![16384, 512]⟩ : Shape).Idx → EReal}
    (v147 : FVec Ideal Cert.KernelIdeal.S256x512 .f32) (v148 : FVec Ideal Cert.KernelIdeal.S256x512 .bf16)
    (h3 : IsTile r0 hr v147 P3) (h0 : IsTile r0 hr v148 P0) (wv : Vec Ideal Cert.KernelIdeal.S1x512x512 .bf16) (bv : Vec Ideal Cert.KernelIdeal.S1x512 .f32) (wo : Vec Ideal Cert.KernelIdeal.S1x512x512 .bf16) (bo : Vec Ideal Cert.KernelIdeal.S1x512 .f32)
    {p : Fin 12} (H : Slabs wv bv wo bo Wv Bv Wo Bo p) :
    IsTile r0 hr (Cert.KernelIdeal.Gen.k0_pay27 (F := Ideal) v147 v148 wv bv wo bo) (fun j => P3 j + pairOut P0 Wv Bv Wo Bo p j) := by
  intro q l
  exact congrArg₂ (· + ·) (h3 q l) (pair_tile h0 H _ _ _ _ _ _ _ _ _ q l)

/-- The product with a value slab alone. -/
theorem pay28_tile {P1 : (⟨2, ![16384, 512]⟩ : Shape).Idx → EReal} (v149 : FVec Ideal Cert.KernelIdeal.S256x512 .bf16) (h1 : IsTile r0 hr v149 P1)
    (wv : Vec Ideal Cert.KernelIdeal.S1x512x512 .bf16) {p : Fin 12} (hwv : ∀ (k n : Fin 512), wv (ix3 ⟨0, Nat.one_pos⟩ k n) = Wv (ix3 p k n)) :
    IsTile r0 hr (Cert.KernelIdeal.Gen.k0_pay28 (F := Ideal) v149 wv) (mmSlab P1 Wv p) :=
  mm_tile h1 wv Wv p hwv _

/-- That product's bias and output half, the running block, and one more pair. -/
theorem pay29_tile {A P1 P2 : (⟨2, ![16384, 512]⟩ : Shape).Idx → EReal}
    (v150 : FVec Ideal Cert.KernelIdeal.S256x512 .bf16) (v340 v343 : FVec Ideal Cert.KernelIdeal.S256x512 .f32)
    (h2 : IsTile r0 hr v150 P2) (hA : IsTile r0 hr v340 A) {p : Fin 12} (h343 : IsTile r0 hr v343 (mmSlab P1 Wv p))
    (bv : Vec Ideal Cert.KernelIdeal.S1x512 .f32) (wo : Vec Ideal Cert.KernelIdeal.S1x512x512 .bf16) (bo : Vec Ideal Cert.KernelIdeal.S1x512 .f32)
    (hbv : ∀ n : Fin 512, bv (ix2 ⟨0, Nat.one_pos⟩ n) = Bv (ix2 p n))
    (hwo : ∀ (k n : Fin 512), wo (ix3 ⟨0, Nat.one_pos⟩ k n) = Wo (ix3 p k n)) (hbo : ∀ n : Fin 512, bo (ix2 ⟨0, Nat.one_pos⟩ n) = Bo (ix2 p n))
    (wv2 : Vec Ideal Cert.KernelIdeal.S1x512x512 .bf16) (bv2 : Vec Ideal Cert.KernelIdeal.S1x512 .f32) (wo2 : Vec Ideal Cert.KernelIdeal.S1x512x512 .bf16) (bo2 : Vec Ideal Cert.KernelIdeal.S1x512 .f32) {p2 : Fin 12} (H2 : Slabs wv2 bv2 wo2 bo2 Wv Bv Wo Bo p2) :
    IsTile r0 hr (Cert.KernelIdeal.Gen.k0_pay29 (F := Ideal) v150 v340 v343 bv wo bo wv2 bv2 wo2 bo2)
      (fun j => (A j + pairOut P1 Wv Bv Wo Bo p j) + pairOut P2 Wv Bv Wo Bo p2 j) := by
  intro q l
  exact congrArg₂ (· + ·) (congrArg₂ (· + ·) (hA q l)
    (lin_tile (hr := hr) (trunc_tile (hr := hr) _ (fun q' l' => congrArg₂ (· + ·) (h343 q' l') (biasSlab_apply bv Bv p hbv _ _ _ q' l')))
      wo Wo p hwo _ bo Bo hbo _ _ _ q l)) (pair_tile h2 H2 _ _ _ _ _ _ _ _ _ q l)

end Payloads

end Cert.Fusion.Attn

end
-- ==== Proof.AttnRef.lean ====
/-
  The reference's attention stage, read member by member. The four projections, each 16384 × 512, are stacked into
  a 4 × 16384 × 512 array; the stack is gathered by the source table (1, 2, 3, 0, 2, 3, 0, 1, 3, 0, 1, 2) into twelve
  members, member p of the gathered array being member src p of the stack; and the twelve results of the value and
  output layers, grouped three by three, are summed within each group and added to the stack, so that member i of
  the attended array is member i of the stack plus the sum of members 3i, 3i + 1, 3i + 2 of the twelve.
-/
import proofs.«146539_j55808805044797_2_alg».proof.Proof.RefOps
import Idealize.ShloMosaic.Lib.StackMember
import Idealize.ShloMosaic.Lib.IdealHost

noncomputable section

namespace Cert.Fusion.AttnRef

open Idealize.ShloMosaic Idealize.ShloMosaic.ValueIdx Idealize.ShloMosaic.StackMember

/-! ### The stack's members are the four projections -/

/-- Member 0 of the stack is the first projection. -/
theorem memberAt_stack4_0 (P0 P1 P2 P3 : FVec Ideal Cert.ReferenceIdeal.S16384x512 .f32) :
    memberAt (d := ![16384, 512]) (Cert.ReferenceIdeal.RefRun.stack4 (F := Ideal) P0 P1 P2 P3) (0 : Fin 4) = P0 := by
  funext j
  obtain ⟨a, b, rfl⟩ : ∃ (a : Fin 16384) (b : Fin 512), j = ix2 a b := ⟨j 0, j 1, eq_ix2 j⟩
  rw [memberAt_apply, cons_ix2]
  unfold Cert.ReferenceIdeal.RefRun.stack4
  refine (concatenate_apply_piece _ _ _ (ix3 (0 : Fin 4) a b) 0 (by show (_ : Nat) < 4; omega) Cert.ReferenceIdeal.S1x16384x512 _ rfl rfl 0 rfl
    (ix3 (0 : Fin 1) a b) (fun c hc => ?_) rfl).trans ?_
  · match c with
    | ⟨0, _⟩ => exact absurd rfl hc
    | ⟨1, _⟩ => rfl
    | ⟨2, _⟩ => rfl
  · refine broadcastInDim_apply _ _ _ (ix3 (0 : Fin 1) a b) (ix2 a b) fun c => ?_
    match c with
    | ⟨0, _⟩ => rfl
    | ⟨1, _⟩ => rfl

/-- Member 1 of the stack is the second projection. -/
theorem memberAt_stack4_1 (P0 P1 P2 P3 : FVec Ideal Cert.ReferenceIdeal.S16384x512 .f32) :
    memberAt (d := ![16384, 512]) (Cert.ReferenceIdeal.RefRun.stack4 (F := Ideal) P0 P1 P2 P3) (1 : Fin 4) = P1 := by
  funext j
  obtain ⟨a, b, rfl⟩ : ∃ (a : Fin 16384) (b : Fin 512), j = ix2 a b := ⟨j 0, j 1, eq_ix2 j⟩
  rw [memberAt_apply, cons_ix2]
  unfold Cert.ReferenceIdeal.RefRun.stack4
  refine (concatenate_apply_piece _ _ _ (ix3 (1 : Fin 4) a b) 1 (by show (_ : Nat) < 4; omega) Cert.ReferenceIdeal.S1x16384x512 _ rfl rfl 1 rfl
    (ix3 (0 : Fin 1) a b) (fun c hc => ?_) rfl).trans ?_
  · match c with
    | ⟨0, _⟩ => exact absurd rfl hc
    | ⟨1, _⟩ => rfl
    | ⟨2, _⟩ => rfl
  · refine broadcastInDim_apply _ _ _ (ix3 (0 : Fin 1) a b) (ix2 a b) fun c => ?_
    match c with
    | ⟨0, _⟩ => rfl
    | ⟨1, _⟩ => rfl

/-- Member 2 of the stack is the third projection. -/
theorem memberAt_stack4_2 (P0 P1 P2 P3 : FVec Ideal Cert.ReferenceIdeal.S16384x512 .f32) :
    memberAt (d := ![16384, 512]) (Cert.ReferenceIdeal.RefRun.stack4 (F := Ideal) P0 P1 P2 P3) (2 : Fin 4) = P2 := by
  funext j
  obtain ⟨a, b, rfl⟩ : ∃ (a : Fin 16384) (b : Fin 512), j = ix2 a b := ⟨j 0, j 1, eq_ix2 j⟩
  rw [memberAt_apply, cons_ix2]
  unfold Cert.ReferenceIdeal.RefRun.stack4
  refine (concatenate_apply_piece _ _ _ (ix3 (2 : Fin 4) a b) 2 (by show (_ : Nat) < 4; omega) Cert.ReferenceIdeal.S1x16384x512 _ rfl rfl 2 rfl
    (ix3 (0 : Fin 1) a b) (fun c hc => ?_) rfl).trans ?_
  · match c with
    | ⟨0, _⟩ => exact absurd rfl hc
    | ⟨1, _⟩ => rfl
    | ⟨2, _⟩ => rfl
  · refine broadcastInDim_apply _ _ _ (ix3 (0 : Fin 1) a b) (ix2 a b) fun c => ?_
    match c with
    | ⟨0, _⟩ => rfl
    | ⟨1, _⟩ => rfl

/-- Member 3 of the stack is the fourth projection. -/
theorem memberAt_stack4_3 (P0 P1 P2 P3 : FVec Ideal Cert.ReferenceIdeal.S16384x512 .f32) :
    memberAt (d := ![16384, 512]) (Cert.ReferenceIdeal.RefRun.stack4 (F := Ideal) P0 P1 P2 P3) (3 : Fin 4) = P3 := by
  funext j
  obtain ⟨a, b, rfl⟩ : ∃ (a : Fin 16384) (b : Fin 512), j = ix2 a b := ⟨j 0, j 1, eq_ix2 j⟩
  rw [memberAt_apply, cons_ix2]
  unfold Cert.ReferenceIdeal.RefRun.stack4
  refine (concatenate_apply_piece _ _ _ (ix3 (3 : Fin 4) a b) 3 (by show (_ : Nat) < 4; omega) Cert.ReferenceIdeal.S1x16384x512 _ rfl rfl 3 rfl
    (ix3 (0 : Fin 1) a b) (fun c hc => ?_) rfl).trans ?_
  · match c with
    | ⟨0, _⟩ => exact absurd rfl hc
    | ⟨1, _⟩ => rfl
    | ⟨2, _⟩ => rfl
  · refine broadcastInDim_apply _ _ _ (ix3 (0 : Fin 1) a b) (ix2 a b) fun c => ?_
    match c with
    | ⟨0, _⟩ => rfl
    | ⟨1, _⟩ => rfl

/-- The four members of the stack together. -/
theorem memberAt_stack4 (P0 P1 P2 P3 : FVec Ideal Cert.ReferenceIdeal.S16384x512 .f32) :
    memberAt (d := ![16384, 512]) (Cert.ReferenceIdeal.RefRun.stack4 (F := Ideal) P0 P1 P2 P3) (0 : Fin 4) = P0
    ∧ memberAt (d := ![16384, 512]) (Cert.ReferenceIdeal.RefRun.stack4 (F := Ideal) P0 P1 P2 P3) (1 : Fin 4) = P1
    ∧ memberAt (d := ![16384, 512]) (Cert.ReferenceIdeal.RefRun.stack4 (F := Ideal) P0 P1 P2 P3) (2 : Fin 4) = P2
    ∧ memberAt (d := ![16384, 512]) (Cert.ReferenceIdeal.RefRun.stack4 (F := Ideal) P0 P1 P2 P3) (3 : Fin 4) = P3 :=
  ⟨memberAt_stack4_0 P0 P1 P2 P3, memberAt_stack4_1 P0 P1 P2 P3, memberAt_stack4_2 P0 P1 P2 P3, memberAt_stack4_3 P0 P1 P2 P3⟩

/-! ### The gathered array's members -/

/-- The source table: gathered member p is the stack's member src p. -/
def src : Fin 12 → Fin 4 := ![1, 2, 3, 0, 2, 3, 0, 1, 3, 0, 1, 2]

/-- The gathered array at (p, a, b) is the stack at (src p, a, b): the start index of member p is the table's entry
    p (the all-false mask selects the table itself), which is already in range, and the other two axes are kept
    whole. -/
theorem gathered_apply (S : FVec Ideal Cert.ReferenceIdeal.S4x16384x512 .f32) (p : Fin 12) (a : Fin 16384) (b : Fin 512) :
    Cert.ReferenceIdeal.RefRun.gathered (F := Ideal) S (ix3 p a b) = S (ix3 (src p) a b) := by
  unfold Cert.ReferenceIdeal.RefRun.gathered
  show S (Cert.ReferenceIdeal.gather_S4x16384x512_S12x1_S12x16384x512_12_0_n_n_0_1_116384512.operandIdx (ix3 p a b) _) = _
  refine congrArg S (funext fun c => Fin.ext ?_)
  match c with
  | ⟨0, _⟩ => fin_cases p <;> rfl
  | ⟨1, _⟩ =>
    show 0 + 0 + a.val = a.val
    omega
  | ⟨2, _⟩ =>
    show 0 + 0 + b.val = b.val
    omega

/-- Member p of the gathered array is member src p of the stack. -/
theorem memberAt_gathered (S : FVec Ideal Cert.ReferenceIdeal.S4x16384x512 .f32) (p : Fin 12) :
    memberAt (d := ![16384, 512]) (Cert.ReferenceIdeal.RefRun.gathered (F := Ideal) S) p = memberAt (d := ![16384, 512]) S (src p) := by
  funext j
  obtain ⟨a, b, rfl⟩ : ∃ (a : Fin 16384) (b : Fin 512), j = ix2 a b := ⟨j 0, j 1, eq_ix2 j⟩
  rw [memberAt_apply, memberAt_apply, cons_ix2, cons_ix2]
  exact gathered_apply S p a b

/-! ### The attended array's members -/

/-- Member i of the attended array is member i of the stack plus the sum, from zero, of members 3i, 3i + 1 and
    3i + 2 of the twelve: the twelve are regrouped 4 × 3 and summed over the axis of extent 3. -/
theorem memberAt_attended (S : FVec Ideal Cert.ReferenceIdeal.S4x16384x512 .f32) (A : FVec Ideal Cert.ReferenceIdeal.S12x16384x512 .f32) (i : Fin 4) :
    memberAt (d := ![16384, 512]) (Cert.ReferenceIdeal.RefRun.attended (F := Ideal) S A) i
      = fun j => memberAt (d := ![16384, 512]) S i j
          + (0 + (memberAt (d := ![16384, 512]) A ⟨3 * i.val, by omega⟩ j
                + memberAt (d := ![16384, 512]) A ⟨3 * i.val + 1, by omega⟩ j
                + memberAt (d := ![16384, 512]) A ⟨3 * i.val + 2, by omega⟩ j)) := by
  funext j
  obtain ⟨a, b, rfl⟩ : ∃ (a : Fin 16384) (b : Fin 512), j = ix2 a b := ⟨j 0, j 1, eq_ix2 j⟩
  simp only [memberAt_apply, cons_ix2]
  have hR : Cert.ReferenceIdeal.S4x3x16384x512.Reduces [1] Cert.ReferenceIdeal.S4x16384x512 := by decide
  have hi := i.isLt
  -- the regrouped twelve at (i, k, a, b) are the twelve at (3i + k, a, b)
  have hcast : ∀ (k : Fin 3) (hk : 3 * i.val + k.val < 12),
      shapeCast Cert.ReferenceIdeal.S4x3x16384x512 A Cert.ReferenceIdeal.Facts₀.shapeCasts_S12x16384x512_S4x3x16384x512
          (hR.lift (ix3 i a b) k)
        = A (ix3 ⟨3 * i.val + k.val, hk⟩ a b) := by
    intro k hk
    have hl : hR.lift (ix3 i a b) k = ix4 i k a b := by
      funext c
      match c with
      | ⟨0, _⟩ => rfl
      | ⟨1, _⟩ => rfl
      | ⟨2, _⟩ => rfl
      | ⟨3, _⟩ => rfl
    rw [hl]
    refine shapeCast_apply A _ (ix4 i k a b) (ix3 ⟨3 * i.val + k.val, hk⟩ a b) ?_
    rw [Shape.rowMajor_val_three, Shape.rowMajor_val_four]
    show ((3 * i.val + k.val) * 16384 + a.val) * 512 + b.val = ((i.val * 3 + k.val) * 16384 + a.val) * 512 + b.val
    omega
  unfold Cert.ReferenceIdeal.RefRun.attended
  show S (ix3 i a b) + Host.reduceAdd _ _ Cert.ReferenceIdeal.Facts₀.reducesTo_S4x3x16384x512_S4x16384x512_d1 Cert.ReferenceIdeal.Facts₀.h_S_ (ix3 i a b) = _
  rw [hostReduceAdd_apply, Ideal.hostReduceAdd_single _ hR]
  refine congrArg (S (ix3 i a b) + ·) ?_
  refine congrArg₂ (· + ·) Ideal.ofBits_zero_f32 ?_
  refine (Fin.sum_univ_three _).trans ?_
  rw [hcast 0 (by omega), hcast 1 (by omega), hcast 2 (by omega)]
  rfl

end Cert.Fusion.AttnRef

end
-- ==== Proof.TileProj.lean ====
/-
  The four projections. Each modality's rows go through a linear layer (a product with a weight matrix plus a bias
  row), a LayerNorm over the 512 columns, LN(h) = (h − mean h) · rsqrt(mean((h − mean h)²) + ε) · g + β with the mean
  of a row its sum divided by 512, and a maximum with 0. Every one of these operations reads, for row r0 + p of the
  result, only row r0 + p of its operands, so a tile of rows of the input goes to the same tile of rows of the output.
  The first section adds to the row-tile lemmas the operations a LayerNorm needs: the entrywise operations by name,
  the sum of a row kept as a one-column array, a one-column array repeated across the columns, and a splat into a
  column. The second section composes them.
-/
import proofs.«146539_j55808805044797_2_alg».proof.Proof.Gen.KernelIdeal.Skeleton
import proofs.«146539_j55808805044797_2_alg».proof.Proof.RefOps
import proofs.«146539_j55808805044797_2_alg».proof.Proof.LibTile
import Idealize.ShloMosaic.Lib.IdealHost
import Idealize.ShloMosaic.Lib.KernelVsHost

noncomputable section

namespace Cert.Tile

open Idealize.ShloMosaic Idealize.ShloMosaic.ValueIdx

section Entrywise
variable {T M : Nat} {r0 : Nat} {hr : r0 + T ≤ M} {C : Nat} {φ : FTy}
variable {x y : FVec Ideal ⟨2, ![T, C]⟩ φ} {X Y : FVec Ideal ⟨2, ![M, C]⟩ φ}

/-- The sum of two tiles, entry by entry, is the tile of the sum. -/
theorem addf_tile (hx : IsTile r0 hr x X) (hy : IsTile r0 hr y Y) : IsTile r0 hr (addf x y) (addf X Y) :=
  map₂ (fun a b => a + b) hx hy

/-- The difference of two tiles is the tile of the difference. -/
theorem subf_tile (hx : IsTile r0 hr x X) (hy : IsTile r0 hr y Y) : IsTile r0 hr (subf x y) (subf X Y) :=
  map₂ (fun a b => a - b) hx hy

/-- The product of two tiles, entry by entry, is the tile of the product. -/
theorem mulf_tile (hx : IsTile r0 hr x X) (hy : IsTile r0 hr y Y) : IsTile r0 hr (mulf x y) (mulf X Y) :=
  map₂ (fun a b => a * b) hx hy

/-- The larger of two tiles, entry by entry, is the tile of the larger. -/
theorem maximumf_tile (hx : IsTile r0 hr x X) (hy : IsTile r0 hr y Y) : IsTile r0 hr (maximumf x y) (maximumf X Y) :=
  map₂ (fun a b => max a b) hx hy

/-- The quotient of two tiles, entry by entry, is the tile of the whole arrays' quotient: on the extended reals the
    two programs' divisions are one function. -/
theorem divf_tile (hx : IsTile r0 hr x X) (hy : IsTile r0 hr y Y) : IsTile r0 hr (divf x y) (Host.divf X Y) :=
  map₂ Ideal.div hx hy

/-- The reciprocal square root of a tile, entry by entry, is the tile of the whole array's. -/
theorem rsqrt_tile (hx : IsTile r0 hr x X) : IsTile r0 hr (rsqrt x) (Host.rsqrt X) :=
  map Ideal.rsqrt hx

/-- A change to a narrower float format is the identity on the extended reals: the narrowed tile is still the tile
    of the same whole array. -/
theorem truncf_tile {ψ : FTy} (h : ψ.bits < φ.bits) {X' : (⟨2, ![M, C]⟩ : Shape).Idx → EReal} (hx : IsTile r0 hr x X') :
    IsTile r0 hr (truncf ψ x h) X' :=
  hx

end Entrywise

end Cert.Tile

namespace Cert.Tile

open Idealize.ShloMosaic Idealize.ShloMosaic.ValueIdx

section Columns
variable {T M : Nat} {r0 : Nat} {hr : r0 + T ≤ M}

/-- The sum of each row of a tile, kept as a T × 1 array, is the tile of the whole array's row sums kept as an
    M × 1 array: row r0 + p of the whole array is row p of the tile, so both are 0 + ∑ over the C columns of that row,
    read at (p, 0). The tile's side is a reduction along the columns with the neutral accumulator, recast to a column;
    the whole array's side is the host's reduction from a zero initial value, broadcast to a column. -/
theorem rowSum_tile {C : Nat} {φ : FTy} {v : FVec Ideal ⟨2, ![T, C]⟩ φ} {V : FVec Ideal ⟨2, ![M, C]⟩ φ}
    (acc : BitVec φ.bits) (h : (⟨2, ![T, C]⟩ : Shape).Reduces [1] ⟨1, ![T]⟩) (hφ : FKind.Formats φ)
    (hacc : acc = FKind.add.neutral φ hφ) (hsc : (⟨1, ![T]⟩ : Shape).ShapeCasts ⟨2, ![T, 1]⟩)
    {u : Shape} (init : u.Idx → Ideal φ) (hu : 0 < u.numel) (h0 : init (Shape.Idx.first hu) = 0)
    (h' : (⟨2, ![M, C]⟩ : Shape).ReducesTo [1] ⟨1, ![M]⟩)
    (g : (⟨1, ![M]⟩ : Shape).BroadcastsInDim ⟨2, ![M, 1]⟩ ![0])
    (hv : IsTile r0 hr v V) :
    IsTile r0 hr (shapeCast ⟨2, ![T, 1]⟩ (multiReduction .add [1] ⟨1, ![T]⟩ v acc h hφ hacc) hsc)
      (broadcastInDim ⟨2, ![M, 1]⟩ ![0] g (Host.reduceAdd V init h' hu)) := by
  intro p l
  have hl : l = ⟨0, Nat.one_pos⟩ := Fin.ext (by have := l.isLt; omega)
  subst hl
  have hM : r0 + p.val < M := by have := p.isLt; omega
  have hR : (⟨2, ![M, C]⟩ : Shape).Reduces [1] ⟨1, ![M]⟩ := match h' with | ⟨e, hb⟩ => ⟨e, Nat.one_pos, hb⟩
  have eL : shapeCast ⟨2, ![T, 1]⟩ (multiReduction .add [1] ⟨1, ![T]⟩ v acc h hφ hacc) hsc (ix2 p ⟨0, Nat.one_pos⟩)
      = ∑ k : Fin C, v (ix2 p k) := by
    refine (shapeCast_apply _ hsc (ix2 p ⟨0, Nat.one_pos⟩) (ix1 p) ?_).trans ?_
    · rw [Shape.rowMajor_val_one, Shape.rowMajor_val_two]
      show p.val = p.val * 1 + 0
      omega
    · refine (Ideal.multiReduction_add_single v acc h hφ hacc (ix1 p)).trans ?_
      refine Finset.sum_congr rfl fun k _ => congrArg v (funext fun a => ?_)
      match a with
      | ⟨0, _⟩ => rfl
      | ⟨1, _⟩ => rfl
  have eR : broadcastInDim ⟨2, ![M, 1]⟩ ![0] g (Host.reduceAdd V init h' hu) (ix2 ⟨r0 + p.val, hM⟩ ⟨0, Nat.one_pos⟩)
      = ∑ k : Fin C, V (ix2 ⟨r0 + p.val, hM⟩ k) := by
    refine (broadcastInDim_apply _ g _ (ix2 ⟨r0 + p.val, hM⟩ ⟨0, Nat.one_pos⟩) (ix1 ⟨r0 + p.val, hM⟩) fun a => ?_).trans ?_
    · match a with
      | ⟨0, _⟩ =>
        show r0 + p.val = if M = 1 then 0 else r0 + p.val
        split <;> omega
    · rw [hostReduceAdd_apply, Ideal.hostReduceAdd_single h' hR, h0, zero_add]
      refine Finset.sum_congr rfl fun k _ => congrArg V (funext fun a => ?_)
      match a with
      | ⟨0, _⟩ => rfl
      | ⟨1, _⟩ => rfl
  rw [eL, eR]
  exact Finset.sum_congr rfl fun k _ => hv p k

/-- A T × 1 column repeated across C columns, against the whole M × 1 column repeated across C columns: both read
    the column's entry of the row. -/
theorem colRep_tile {C : Nat} {c : (⟨2, ![T, 1]⟩ : Shape).Idx → EReal} {Cc : (⟨2, ![M, 1]⟩ : Shape).Idx → EReal}
    (hb : (⟨2, ![T, 1]⟩ : Shape).Broadcasts ⟨2, ![T, C]⟩)
    (g : (⟨2, ![M, 1]⟩ : Shape).BroadcastsInDim ⟨2, ![M, C]⟩ ![0, 1])
    (hc : IsTile r0 hr c Cc) :
    IsTile r0 hr (broadcastTo ⟨2, ![T, C]⟩ c hb) (broadcastInDim ⟨2, ![M, C]⟩ ![0, 1] g Cc) := by
  intro p l
  have hM : r0 + p.val < M := by have := p.isLt; omega
  have hp := p.isLt
  have eL : broadcastTo ⟨2, ![T, C]⟩ c hb (ix2 p l) = c (ix2 p ⟨0, Nat.one_pos⟩) := by
    refine broadcastTo_apply _ hb (ix2 p l) (ix2 p ⟨0, Nat.one_pos⟩) fun a => ?_
    match a with
    | ⟨0, _⟩ =>
      show p.val = if T = 1 then 0 else p.val
      split <;> omega
    | ⟨1, _⟩ => rfl
  have eR : broadcastInDim ⟨2, ![M, C]⟩ ![0, 1] g Cc (ix2 ⟨r0 + p.val, hM⟩ l) = Cc (ix2 ⟨r0 + p.val, hM⟩ ⟨0, Nat.one_pos⟩) := by
    refine broadcastInDim_apply _ g _ (ix2 ⟨r0 + p.val, hM⟩ l) (ix2 ⟨r0 + p.val, hM⟩ ⟨0, Nat.one_pos⟩) fun a => ?_
    match a with
    | ⟨0, _⟩ =>
      show r0 + p.val = if M = 1 then 0 else r0 + p.val
      split <;> omega
    | ⟨1, _⟩ => rfl
  exact eL.trans ((hc p ⟨0, Nat.one_pos⟩).trans eR.symm)

/-- A splat of the value with the bits `w` over a tile of any width (a T × 1 column included), against the host's
    constant with the same bits broadcast over the whole array. -/
theorem splatBits_tile {C : Nat} {φ : FTy} (w : BitVec φ.bits)
    (g : (⟨0, ![]⟩ : Shape).BroadcastsInDim ⟨2, ![M, C]⟩ ![]) :
    IsTile r0 hr (broadcast ⟨2, ![T, C]⟩ (Scalar.ofBits (F := Ideal) φ w))
      (broadcastInDim ⟨2, ![M, C]⟩ ![] g (constant (F := Ideal) ⟨0, ![]⟩ φ w)) :=
  splat (T := T) (r0 := r0) (hr := hr) (Scalar.ofBits (F := Ideal) φ w) (constant (F := Ideal) ⟨0, ![]⟩ φ w) rfl g

end Columns

end Cert.Tile

namespace Cert.Tile

open Idealize.ShloMosaic Idealize.ShloMosaic.ValueIdx

/-- The product of a tile with a weight matrix that the kernel holds whole (recast to its own shape) and whose
    entries are the reference's weight matrix: row r0 + p of X · W is row p of (tile of X) · W. -/
theorem matmulW_tile {T M : Nat} {r0 : Nat} {hr : r0 + T ≤ M} {K N : Nat}
    {x : (⟨2, ![T, K]⟩ : Shape).Idx → EReal} {X : (⟨2, ![M, K]⟩ : Shape).Idx → EReal}
    (w W : (⟨2, ![K, N]⟩ : Shape).Idx → EReal) (hw : ∀ i, w i = W i)
    (hsc : (⟨2, ![K, N]⟩ : Shape).ShapeCasts ⟨2, ![K, N]⟩) (hx : IsTile r0 hr x X) :
    IsTile r0 hr (Ideal.matmul (DotDims.plain T K N) x (shapeCast ⟨2, ![K, N]⟩ w hsc) (fun _ => Ideal.ofBits .f32 0x00000000#32))
      (Ideal.matmul (DotDims.plain M K N) X W (fun _ => 0)) := by
  have e : shapeCast ⟨2, ![K, N]⟩ w hsc = W := (shapeCast_self w hsc).trans (funext hw)
  rw [e]
  exact matmul W hx

end Cert.Tile

namespace Cert.Tile.Proj

open Idealize.ShloMosaic Idealize.ShloMosaic.ValueIdx

variable {r0 : Nat} {hr : r0 + 256 ≤ 16384}

/-- The mean of each row of a 256 × 512 tile, as a column: the tile of the whole array's row means. -/
theorem mean_tile (h : FVec Ideal Cert.KernelIdeal.S256x512 .f32) (H : FVec Ideal Cert.ReferenceIdeal.S16384x512 .f32)
    (hh : IsTile r0 hr h H) :
    IsTile r0 hr
      (divf (shapeCast Cert.KernelIdeal.S256x1
          (multiReduction .add [1] Cert.KernelIdeal.S256 h 0x00000000#32 Cert.KernelIdeal.Gen.reduces_S256x512_S256 (.inl rfl) rfl)
          Cert.KernelIdeal.Gen.shapeCasts_S256_S256x1)
        (broadcast Cert.KernelIdeal.S256x1 (Scalar.ofBits (F := Ideal) .f32 0x44000000#32)))
      (Cert.ReferenceIdeal.RefRun.rowMean (F := Ideal) H) :=
  divf_tile (rowSum_tile _ _ _ _ _ _ _ Ideal.ofBits_zero_f32 _ _ hh) (splatBits_tile _ _)

/-- LayerNorm over the 512 columns, scaled by g, shifted by β, then the maximum with 0, of a tile h whose row means
    are given as a column m and again repeated across the columns as mb: the tile of the same chain on the whole
    array H with its row means Mn. The variance is the mean of the squares of h − mb, the normalised value is
    (h − m) · rsqrt(variance + ε). -/
theorem ln_tile (h : FVec Ideal Cert.KernelIdeal.S256x512 .f32) (H : FVec Ideal Cert.ReferenceIdeal.S16384x512 .f32)
    (hh : IsTile r0 hr h H) (g β : Vec Ideal Cert.KernelIdeal.S512 .f32)
    (m : FVec Ideal Cert.KernelIdeal.S256x1 .f32) (Mn : FVec Ideal Cert.ReferenceIdeal.S16384x1 .f32) (hm : IsTile r0 hr m Mn)
    (mb : FVec Ideal Cert.KernelIdeal.S256x512 .f32)
    (hmb : IsTile r0 hr mb
      (broadcastInDim Cert.ReferenceIdeal.S16384x512 ![0, 1] Cert.ReferenceIdeal.Gen.bcast_S16384x1_S16384x512_0_1 Mn)) :
    IsTile r0 hr (Cert.KernelIdeal.Gen.k0_pay10 (F := Ideal) h g β m mb)
      (Cert.ReferenceIdeal.RefRun.normRelu (F := Ideal) H Mn g β) :=
  maximumf_tile
    (addf_tile
      (mulf_tile
        (mulf_tile (subf_tile hh (colRep_tile _ _ hm))
          (colRep_tile _ _ (rsqrt_tile (addf_tile
            (divf_tile
              (rowSum_tile _ _ _ _ _ _ _ Ideal.ofBits_zero_f32 _ _ (mulf_tile (subf_tile hh hmb) (subf_tile hh hmb)))
              (splatBits_tile _ _))
            (splatBits_tile _ _)))))
        (bias g _ _ _ _))
      (bias β _ _ _ _))
    (splatBits_tile _ _)

/-- The time-series linear layer: a 256-row tile of X through the weight and the bias row is the tile of the
    whole layer. -/
theorem lin_ts (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b : Vec Ideal Cert.KernelIdeal.S512 .f32) :
    IsTile r0 hr (Cert.KernelIdeal.Gen.k0_pay7 (F := Ideal) x w b) (Cert.ReferenceIdeal.RefRun.lin256 (F := Ideal) X W b) :=
  addf_tile (matmulW_tile w W hw _ (truncf_tile _ hx)) (bias b _ _ _ _)

end Cert.Tile.Proj

namespace Cert.Tile.Proj

open Idealize.ShloMosaic Idealize.ShloMosaic.ValueIdx

variable {r0 : Nat} {hr : r0 + 256 ≤ 16384}

/-- The fundamentals linear layer (128 input columns). -/
theorem lin_fund (x : Vec Ideal Cert.KernelIdeal.S256x128 .f32) (X : FVec Ideal Cert.ReferenceIdeal.S16384x128 .f32)
    (hx : IsTile r0 hr x X) (w : Vec Ideal Cert.KernelIdeal.S128x512 .bf16) (W : FVec Ideal Cert.ReferenceIdeal.S128x512 .f32)
    (hw : ∀ i, w i = W i) (b : Vec Ideal Cert.KernelIdeal.S512 .f32) :
    IsTile r0 hr (Cert.KernelIdeal.Gen.k0_pay5 (F := Ideal) x w b) (Cert.ReferenceIdeal.RefRun.lin128 (F := Ideal) X W b) :=
  addf_tile (matmulW_tile w W hw _ (truncf_tile _ hx)) (bias b _ _ _ _)

/-- LayerNorm with the row means taken from the tile itself, then the maximum with 0: for any tile h of H, the
    chain on h is the tile of the chain on H with H's row means. -/
theorem lnRelu_tile (h : FVec Ideal Cert.KernelIdeal.S256x512 .f32) (H : FVec Ideal Cert.ReferenceIdeal.S16384x512 .f32)
    (hh : IsTile r0 hr h H) (g β : Vec Ideal Cert.KernelIdeal.S512 .f32) :
    IsTile r0 hr (Cert.KernelIdeal.Gen.k0_pay6 (F := Ideal) h g β)
      (Cert.ReferenceIdeal.RefRun.normRelu (F := Ideal) H (Cert.ReferenceIdeal.RefRun.rowMean H) g β) :=
  ln_tile h H hh g β _ _ (mean_tile h H hh) _ (colRep_tile _ _ (mean_tile h H hh))

/-! ### The four projections -/

/-- Time series, the f32 projection. -/
theorem proj_ts_f32 (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b g β : Vec Ideal Cert.KernelIdeal.S512 .f32) :
    IsTile r0 hr (Cert.KernelIdeal.Gen.k0_pay1 (F := Ideal) x w b g β)
      (Cert.ReferenceIdeal.RefRun.normRelu (F := Ideal) (Cert.ReferenceIdeal.RefRun.lin256 X W b)
        (Cert.ReferenceIdeal.RefRun.rowMean (Cert.ReferenceIdeal.RefRun.lin256 X W b)) g β) :=
  lnRelu_tile _ _ (lin_ts x X hx w W hw b) g β

/-- Time series, the bf16 copy: the same tile of the same whole array. -/
theorem proj_ts_bf16 (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b g β : Vec Ideal Cert.KernelIdeal.S512 .f32) :
    IsTile r0 hr (Cert.KernelIdeal.Gen.k0_pay11 (F := Ideal) (Cert.KernelIdeal.Gen.k0_pay1 (F := Ideal) x w b g β))
      (Cert.ReferenceIdeal.RefRun.normRelu (F := Ideal) (Cert.ReferenceIdeal.RefRun.lin256 X W b)
        (Cert.ReferenceIdeal.RefRun.rowMean (Cert.ReferenceIdeal.RefRun.lin256 X W b)) g β) :=
  truncf_tile _ (proj_ts_f32 x X hx w W hw b g β)

/-- Text, the f32 projection (768 input columns). -/
theorem proj_text_f32 (x : Vec Ideal Cert.KernelIdeal.S256x768 .f32) (X : FVec Ideal Cert.ReferenceIdeal.S16384x768 .f32)
    (hx : IsTile r0 hr x X) (w : Vec Ideal Cert.KernelIdeal.S768x512 .bf16) (W : FVec Ideal Cert.ReferenceIdeal.S768x512 .f32)
    (hw : ∀ i, w i = W i) (b g β : Vec Ideal Cert.KernelIdeal.S512 .f32) :
    IsTile r0 hr
      (Cert.KernelIdeal.Gen.k0_pay4 (F := Ideal) (Cert.KernelIdeal.Gen.k0_pay2 (F := Ideal) x)
        (Cert.KernelIdeal.Gen.k0_pay3 (F := Ideal) w) b g β)
      (Cert.ReferenceIdeal.RefRun.normRelu (F := Ideal) (Cert.ReferenceIdeal.RefRun.lin768 X W b)
        (Cert.ReferenceIdeal.RefRun.rowMean (Cert.ReferenceIdeal.RefRun.lin768 X W b)) g β) :=
  lnRelu_tile _ _ (addf_tile (matmulW_tile w W hw _ (truncf_tile (ψ := .bf16) Cert.KernelIdeal.Gen.bitsLt_bf16_f32 hx)) (bias b _ _ _ _)) g β

/-- Text, the bf16 copy. -/
theorem proj_text_bf16 (x : Vec Ideal Cert.KernelIdeal.S256x768 .f32) (X : FVec Ideal Cert.ReferenceIdeal.S16384x768 .f32)
    (hx : IsTile r0 hr x X) (w : Vec Ideal Cert.KernelIdeal.S768x512 .bf16) (W : FVec Ideal Cert.ReferenceIdeal.S768x512 .f32)
    (hw : ∀ i, w i = W i) (b g β : Vec Ideal Cert.KernelIdeal.S512 .f32) :
    IsTile r0 hr
      (Cert.KernelIdeal.Gen.k0_pay12 (F := Ideal) (Cert.KernelIdeal.Gen.k0_pay4 (F := Ideal) (Cert.KernelIdeal.Gen.k0_pay2 (F := Ideal) x)
        (Cert.KernelIdeal.Gen.k0_pay3 (F := Ideal) w) b g β))
      (Cert.ReferenceIdeal.RefRun.normRelu (F := Ideal) (Cert.ReferenceIdeal.RefRun.lin768 X W b)
        (Cert.ReferenceIdeal.RefRun.rowMean (Cert.ReferenceIdeal.RefRun.lin768 X W b)) g β) :=
  truncf_tile _ (proj_text_f32 x X hx w W hw b g β)

/-- Fundamentals, the f32 projection. -/
theorem proj_fund_f32 (x : Vec Ideal Cert.KernelIdeal.S256x128 .f32) (X : FVec Ideal Cert.ReferenceIdeal.S16384x128 .f32)
    (hx : IsTile r0 hr x X) (w : Vec Ideal Cert.KernelIdeal.S128x512 .bf16) (W : FVec Ideal Cert.ReferenceIdeal.S128x512 .f32)
    (hw : ∀ i, w i = W i) (b g β : Vec Ideal Cert.KernelIdeal.S512 .f32) :
    IsTile r0 hr (Cert.KernelIdeal.Gen.k0_pay6 (F := Ideal) (Cert.KernelIdeal.Gen.k0_pay5 (F := Ideal) x w b) g β)
      (Cert.ReferenceIdeal.RefRun.normRelu (F := Ideal) (Cert.ReferenceIdeal.RefRun.lin128 X W b)
        (Cert.ReferenceIdeal.RefRun.rowMean (Cert.ReferenceIdeal.RefRun.lin128 X W b)) g β) :=
  lnRelu_tile _ _ (lin_fund x X hx w W hw b) g β

/-- Fundamentals, the bf16 copy. -/
theorem proj_fund_bf16 (x : Vec Ideal Cert.KernelIdeal.S256x128 .f32) (X : FVec Ideal Cert.ReferenceIdeal.S16384x128 .f32)
    (hx : IsTile r0 hr x X) (w : Vec Ideal Cert.KernelIdeal.S128x512 .bf16) (W : FVec Ideal Cert.ReferenceIdeal.S128x512 .f32)
    (hw : ∀ i, w i = W i) (b g β : Vec Ideal Cert.KernelIdeal.S512 .f32) :
    IsTile r0 hr
      (Cert.KernelIdeal.Gen.k0_pay13 (F := Ideal) (Cert.KernelIdeal.Gen.k0_pay6 (F := Ideal) (Cert.KernelIdeal.Gen.k0_pay5 (F := Ideal) x w b) g β))
      (Cert.ReferenceIdeal.RefRun.normRelu (F := Ideal) (Cert.ReferenceIdeal.RefRun.lin128 X W b)
        (Cert.ReferenceIdeal.RefRun.rowMean (Cert.ReferenceIdeal.RefRun.lin128 X W b)) g β) :=
  truncf_tile _ (proj_fund_f32 x X hx w W hw b g β)

/-- Network, the f32 projection: the linear layer, its row means as a column, and the means repeated across the
    columns are three separate values here; together they are the same chain. -/
theorem proj_net_f32 (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b g β : Vec Ideal Cert.KernelIdeal.S512 .f32) :
    IsTile r0 hr
      (Cert.KernelIdeal.Gen.k0_pay10 (F := Ideal) (Cert.KernelIdeal.Gen.k0_pay7 (F := Ideal) x w b) g β
        (Cert.KernelIdeal.Gen.k0_pay8 (F := Ideal) x w b) (Cert.KernelIdeal.Gen.k0_pay9 (F := Ideal) x w b))
      (Cert.ReferenceIdeal.RefRun.normRelu (F := Ideal) (Cert.ReferenceIdeal.RefRun.lin256 X W b)
        (Cert.ReferenceIdeal.RefRun.rowMean (Cert.ReferenceIdeal.RefRun.lin256 X W b)) g β) :=
  lnRelu_tile _ _ (lin_ts x X hx w W hw b) g β

/-- Network, the bf16 copy. -/
theorem proj_net_bf16 (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b g β : Vec Ideal Cert.KernelIdeal.S512 .f32) :
    IsTile r0 hr
      (Cert.KernelIdeal.Gen.k0_pay14 (F := Ideal) (Cert.KernelIdeal.Gen.k0_pay7 (F := Ideal) x w b) g β
        (Cert.KernelIdeal.Gen.k0_pay8 (F := Ideal) x w b) (Cert.KernelIdeal.Gen.k0_pay9 (F := Ideal) x w b))
      (Cert.ReferenceIdeal.RefRun.normRelu (F := Ideal) (Cert.ReferenceIdeal.RefRun.lin256 X W b)
        (Cert.ReferenceIdeal.RefRun.rowMean (Cert.ReferenceIdeal.RefRun.lin256 X W b)) g β) :=
  truncf_tile _ (proj_net_f32 x X hx w W hw b g β)

end Cert.Tile.Proj

namespace Cert.Tile.Proj

open Idealize.ShloMosaic Idealize.ShloMosaic.ValueIdx

variable {r0 : Nat} {hr : r0 + 256 ≤ 16384}

/-- Time series: the f32 projection and its bf16 copy are both the tile of the reference's projection. -/
theorem proj_ts (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b g β : Vec Ideal Cert.KernelIdeal.S512 .f32) :
    IsTile r0 hr (Cert.KernelIdeal.Gen.k0_pay1 (F := Ideal) x w b g β)
      (Cert.ReferenceIdeal.RefRun.normRelu (F := Ideal) (Cert.ReferenceIdeal.RefRun.lin256 X W b)
        (Cert.ReferenceIdeal.RefRun.rowMean (Cert.ReferenceIdeal.RefRun.lin256 X W b)) g β)
    ∧ IsTile r0 hr (Cert.KernelIdeal.Gen.k0_pay11 (F := Ideal) (Cert.KernelIdeal.Gen.k0_pay1 (F := Ideal) x w b g β))
      (Cert.ReferenceIdeal.RefRun.normRelu (F := Ideal) (Cert.ReferenceIdeal.RefRun.lin256 X W b)
        (Cert.ReferenceIdeal.RefRun.rowMean (Cert.ReferenceIdeal.RefRun.lin256 X W b)) g β) :=
  ⟨proj_ts_f32 x X hx w W hw b g β, proj_ts_bf16 x X hx w W hw b g β⟩

/-- Text: the f32 projection and its bf16 copy. -/
theorem proj_text (x : Vec Ideal Cert.KernelIdeal.S256x768 .f32) (X : FVec Ideal Cert.ReferenceIdeal.S16384x768 .f32)
    (hx : IsTile r0 hr x X) (w : Vec Ideal Cert.KernelIdeal.S768x512 .bf16) (W : FVec Ideal Cert.ReferenceIdeal.S768x512 .f32)
    (hw : ∀ i, w i = W i) (b g β : Vec Ideal Cert.KernelIdeal.S512 .f32) :
    IsTile r0 hr (Cert.KernelIdeal.Gen.k0_pay4 (F := Ideal) (Cert.KernelIdeal.Gen.k0_pay2 (F := Ideal) x) (Cert.KernelIdeal.Gen.k0_pay3 (F := Ideal) w) b g β)
      (Cert.ReferenceIdeal.RefRun.normRelu (F := Ideal) (Cert.ReferenceIdeal.RefRun.lin768 X W b)
        (Cert.ReferenceIdeal.RefRun.rowMean (Cert.ReferenceIdeal.RefRun.lin768 X W b)) g β)
    ∧ IsTile r0 hr (Cert.KernelIdeal.Gen.k0_pay12 (F := Ideal) (Cert.KernelIdeal.Gen.k0_pay4 (F := Ideal) (Cert.KernelIdeal.Gen.k0_pay2 (F := Ideal) x) (Cert.KernelIdeal.Gen.k0_pay3 (F := Ideal) w) b g β))
      (Cert.ReferenceIdeal.RefRun.normRelu (F := Ideal) (Cert.ReferenceIdeal.RefRun.lin768 X W b)
        (Cert.ReferenceIdeal.RefRun.rowMean (Cert.ReferenceIdeal.RefRun.lin768 X W b)) g β) :=
  ⟨proj_text_f32 x X hx w W hw b g β, proj_text_bf16 x X hx w W hw b g β⟩

/-- Fundamentals: the f32 projection and its bf16 copy. -/
theorem proj_fund (x : Vec Ideal Cert.KernelIdeal.S256x128 .f32) (X : FVec Ideal Cert.ReferenceIdeal.S16384x128 .f32)
    (hx : IsTile r0 hr x X) (w : Vec Ideal Cert.KernelIdeal.S128x512 .bf16) (W : FVec Ideal Cert.ReferenceIdeal.S128x512 .f32)
    (hw : ∀ i, w i = W i) (b g β : Vec Ideal Cert.KernelIdeal.S512 .f32) :
    IsTile r0 hr (Cert.KernelIdeal.Gen.k0_pay6 (F := Ideal) (Cert.KernelIdeal.Gen.k0_pay5 (F := Ideal) x w b) g β)
      (Cert.ReferenceIdeal.RefRun.normRelu (F := Ideal) (Cert.ReferenceIdeal.RefRun.lin128 X W b)
        (Cert.ReferenceIdeal.RefRun.rowMean (Cert.ReferenceIdeal.RefRun.lin128 X W b)) g β)
    ∧ IsTile r0 hr (Cert.KernelIdeal.Gen.k0_pay13 (F := Ideal) (Cert.KernelIdeal.Gen.k0_pay6 (F := Ideal) (Cert.KernelIdeal.Gen.k0_pay5 (F := Ideal) x w b) g β))
      (Cert.ReferenceIdeal.RefRun.normRelu (F := Ideal) (Cert.ReferenceIdeal.RefRun.lin128 X W b)
        (Cert.ReferenceIdeal.RefRun.rowMean (Cert.ReferenceIdeal.RefRun.lin128 X W b)) g β) :=
  ⟨proj_fund_f32 x X hx w W hw b g β, proj_fund_bf16 x X hx w W hw b g β⟩

/-- Network: the f32 projection and its bf16 copy. -/
theorem proj_net (x : Vec Ideal Cert.KernelIdeal.S256x256 .f32) (X : FVec Ideal Cert.ReferenceIdeal.S16384x256 .f32)
    (hx : IsTile r0 hr x X) (w : Vec Ideal Cert.KernelIdeal.S256x512 .bf16) (W : FVec Ideal Cert.ReferenceIdeal.S256x512 .f32)
    (hw : ∀ i, w i = W i) (b g β : Vec Ideal Cert.KernelIdeal.S512 .f32) :
    IsTile r0 hr (Cert.KernelIdeal.Gen.k0_pay10 (F := Ideal) (Cert.KernelIdeal.Gen.k0_pay7 (F := Ideal) x w b) g β (Cert.KernelIdeal.Gen.k0_pay8 (F := Ideal) x w b) (Cert.KernelIdeal.Gen.k0_pay9 (F := Ideal) x w b))
      (Cert.ReferenceIdeal.RefRun.normRelu (F := Ideal) (Cert.ReferenceIdeal.RefRun.lin256 X W b)
        (Cert.ReferenceIdeal.RefRun.rowMean (Cert.ReferenceIdeal.RefRun.lin256 X W b)) g β)
    ∧ IsTile r0 hr (Cert.KernelIdeal.Gen.k0_pay14 (F := Ideal) (Cert.KernelIdeal.Gen.k0_pay7 (F := Ideal) x w b) g β (Cert.KernelIdeal.Gen.k0_pay8 (F := Ideal) x w b) (Cert.KernelIdeal.Gen.k0_pay9 (F := Ideal) x w b))
      (Cert.ReferenceIdeal.RefRun.normRelu (F := Ideal) (Cert.ReferenceIdeal.RefRun.lin256 X W b)
        (Cert.ReferenceIdeal.RefRun.rowMean (Cert.ReferenceIdeal.RefRun.lin256 X W b)) g β) :=
  ⟨proj_net_f32 x X hx w W hw b g β, proj_net_bf16 x X hx w W hw b g β⟩

end Cert.Tile.Proj

end
-- ==== Proof.TileTail.lean ====
/-
  The tail of the network, tile by tile. After the attention stage a kernel instance holds rows [r0, r0 + T) of the four
  attended blocks; the whole network holds the four blocks as the slabs of one 4 × M × C array. This file shows that
  what the kernel computes from its tiles is the tile of what the reference computes from the whole array, for the three
  mixing layers (a product of the four blocks laid side by side with a weight matrix of four row blocks, computed by
  the kernel as four products added), the importance head (ReLU, a small linear layer, a softmax over four columns)
  and the gated output (a logistic gate times a tanh branch, a linear layer, LayerNorm). Only commutativity and
  associativity of addition on the extended reals are used: a sum over 4·C columns is four sums over C columns.
-/
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import proofs.«146539_j55808805044797_2_alg».proof.Proof.Gen.KernelIdeal.Skeleton
import proofs.«146539_j55808805044797_2_alg».proof.Proof.RefOps
import proofs.«146539_j55808805044797_2_alg».proof.Proof.LibTile
import proofs.«146539_j55808805044797_2_alg».proof.Proof.TileBase

noncomputable section

namespace Cert.Fusion.Tail

open Idealize.ShloMosaic Idealize.ShloMosaic.ValueIdx
open Cert.Tile (IsTile IsSlabTile)

/-! ## A plain product at an index, and a contraction over four column blocks -/

/-- A plain m×k by k×n product into an accumulator, read at (a, b): the accumulator there plus the sum over the
    contracted coordinate of the products of the entries. -/
theorem matmul_plain_apply {m k n : Nat} (A : (⟨2, ![m, k]⟩ : Shape).Idx → EReal) (B : (⟨2, ![k, n]⟩ : Shape).Idx → EReal)
    (acc : (⟨2, ![m, n]⟩ : Shape).Idx → EReal) (a : Fin m) (b : Fin n) :
    Ideal.matmul (DotDims.plain m k n) A B acc (ix2 a b) = acc (ix2 a b) + ∑ c : Fin k, A (ix2 a c) * B (ix2 c b) := by
  unfold Ideal.matmul
  refine congrArg (acc (ix2 a b) + ·) ?_
  rw [← Equiv.sum_comp (contrEquiv1 (DotDims.plain m k n) k rfl rfl).symm]
  refine Finset.sum_congr rfl fun c _ => ?_
  have c2 := contrEquiv1_symm_val (DotDims.plain m k n) k rfl rfl c
  have e : ((contrEquiv1 (DotDims.plain m k n) k rfl rfl).symm c) ⟨0, Nat.one_pos⟩ = c := Fin.ext c2
  rw [Tile.plain_lhs, Tile.plain_rhs, e]
  rfl

/-- A sum over 4·C coordinates is the sum of the four sums over its blocks of C. -/
theorem sum_four {C : Nat} (f : Fin (C + C + C + C) → EReal) :
    ∑ J, f J = (∑ c : Fin C, f ⟨c.val, by omega⟩) + (∑ c : Fin C, f ⟨C + c.val, by omega⟩)
      + (∑ c : Fin C, f ⟨C + C + c.val, by omega⟩) + (∑ c : Fin C, f ⟨C + C + C + c.val, by omega⟩) := by
  rw [Fin.sum_univ_add, Fin.sum_univ_add, Fin.sum_univ_add]
  rfl

/-- Four tiles laid side by side against a weight matrix of four row blocks: the sum of the four products of a tile
    with its block is the tile of the product of the whole M × 4C array with the whole matrix. Row r0 + p of the
    product is a sum over 4C columns, which splits into the four sums over C columns; each reads one tile and one
    block. -/
theorem matmul4 {T M C K N : Nat} {r0 : Nat} {hr : r0 + T ≤ M} (hK : K = C + C + C + C)
    (x0 x1 x2 x3 : (⟨2, ![T, C]⟩ : Shape).Idx → EReal) (w0 w1 w2 w3 : (⟨2, ![C, N]⟩ : Shape).Idx → EReal)
    (X : (⟨2, ![M, K]⟩ : Shape).Idx → EReal) (W : (⟨2, ![K, N]⟩ : Shape).Idx → EReal)
    (hx0 : ∀ (p : Fin T) (c : Fin C), x0 (ix2 p c) = X (ix2 ⟨r0 + p.val, by omega⟩ ⟨c.val, by omega⟩))
    (hx1 : ∀ (p : Fin T) (c : Fin C), x1 (ix2 p c) = X (ix2 ⟨r0 + p.val, by omega⟩ ⟨C + c.val, by omega⟩))
    (hx2 : ∀ (p : Fin T) (c : Fin C), x2 (ix2 p c) = X (ix2 ⟨r0 + p.val, by omega⟩ ⟨C + C + c.val, by omega⟩))
    (hx3 : ∀ (p : Fin T) (c : Fin C), x3 (ix2 p c) = X (ix2 ⟨r0 + p.val, by omega⟩ ⟨C + C + C + c.val, by omega⟩))
    (hw0 : ∀ (c : Fin C) (n : Fin N), w0 (ix2 c n) = W (ix2 ⟨c.val, by omega⟩ n))
    (hw1 : ∀ (c : Fin C) (n : Fin N), w1 (ix2 c n) = W (ix2 ⟨C + c.val, by omega⟩ n))
    (hw2 : ∀ (c : Fin C) (n : Fin N), w2 (ix2 c n) = W (ix2 ⟨C + C + c.val, by omega⟩ n))
    (hw3 : ∀ (c : Fin C) (n : Fin N), w3 (ix2 c n) = W (ix2 ⟨C + C + C + c.val, by omega⟩ n)) :
    IsTile r0 hr
      (fun i => Ideal.matmul (DotDims.plain T C N) x0 w0 (fun _ => Ideal.ofBits .f32 0x00000000#32) i
        + Ideal.matmul (DotDims.plain T C N) x1 w1 (fun _ => Ideal.ofBits .f32 0x00000000#32) i
        + Ideal.matmul (DotDims.plain T C N) x2 w2 (fun _ => Ideal.ofBits .f32 0x00000000#32) i
        + Ideal.matmul (DotDims.plain T C N) x3 w3 (fun _ => Ideal.ofBits .f32 0x00000000#32) i)
      (Host.dotGeneral (F := Ideal) (φ₁ := .f32) (φ₂ := .f32) (DotDims.plain M K N) none X W) := by
  subst hK
  intro p n
  have hR := StackMember.dotGeneral_plain_apply (φ₁ := .f32) (φ₂ := .f32) none X W ⟨r0 + p.val, by omega⟩ n
  refine Eq.trans ?_ (hR.trans (sum_four _)).symm
  show Ideal.matmul (DotDims.plain T C N) x0 w0 _ (ix2 p n) + Ideal.matmul (DotDims.plain T C N) x1 w1 _ (ix2 p n)
    + Ideal.matmul (DotDims.plain T C N) x2 w2 _ (ix2 p n) + Ideal.matmul (DotDims.plain T C N) x3 w3 _ (ix2 p n) = _
  rw [matmul_plain_apply, matmul_plain_apply, matmul_plain_apply, matmul_plain_apply, Ideal.ofBits_zero_f32]
  simp only [zero_add]
  refine congrArg₂ (· + ·) (congrArg₂ (· + ·) (congrArg₂ (· + ·) ?_ ?_) ?_) ?_
  · exact Finset.sum_congr rfl fun c _ => by rw [hx0 p c, hw0 c n]
  · exact Finset.sum_congr rfl fun c _ => by rw [hx1 p c, hw1 c n]
  · exact Finset.sum_congr rfl fun c _ => by rw [hx2 p c, hw2 c n]
  · exact Finset.sum_congr rfl fun c _ => by rw [hx3 p c, hw3 c n]

/-- A product whose weight the tile's side and the whole array's side write differently but which is the same
    matrix. -/
theorem matmul_tile {T M K N : Nat} {r0 : Nat} {hr : r0 + T ≤ M} {x : (⟨2, ![T, K]⟩ : Shape).Idx → EReal}
    {X : (⟨2, ![M, K]⟩ : Shape).Idx → EReal} (w W : (⟨2, ![K, N]⟩ : Shape).Idx → EReal) (hw : w = W) (hx : IsTile r0 hr x X) :
    IsTile r0 hr (Ideal.matmul (DotDims.plain T K N) x w (fun _ => Ideal.ofBits .f32 0x00000000#32))
      (Ideal.matmul (DotDims.plain M K N) X W (fun _ => 0)) := by
  subst hw
  exact Tile.matmul w hx

/-! ## Entrywise operations by name -/

section Entrywise
variable {T M C : Nat} {r0 : Nat} {hr : r0 + T ≤ M}
variable {x y : (⟨2, ![T, C]⟩ : Shape).Idx → EReal} {X Y : (⟨2, ![M, C]⟩ : Shape).Idx → EReal}

/-- A sum of tiles is the tile of the sum. -/
theorem addf_tile (hx : IsTile r0 hr x X) (hy : IsTile r0 hr y Y) :
    IsTile r0 hr (addf (F := Ideal) (φ := .f32) x y) (addf (F := Ideal) (φ := .f32) X Y) := Tile.map₂ (· + ·) hx hy
/-- A difference of tiles is the tile of the difference. -/
theorem subf_tile (hx : IsTile r0 hr x X) (hy : IsTile r0 hr y Y) :
    IsTile r0 hr (subf (F := Ideal) (φ := .f32) x y) (subf (F := Ideal) (φ := .f32) X Y) := Tile.map₂ (· - ·) hx hy
/-- A product of tiles, entry by entry, is the tile of the product. -/
theorem mulf_tile (hx : IsTile r0 hr x X) (hy : IsTile r0 hr y Y) :
    IsTile r0 hr (mulf (F := Ideal) (φ := .f32) x y) (mulf (F := Ideal) (φ := .f32) X Y) := Tile.map₂ (· * ·) hx hy
/-- A maximum of tiles, entry by entry, is the tile of the maximum. -/
theorem maximumf_tile (hx : IsTile r0 hr x X) (hy : IsTile r0 hr y Y) :
    IsTile r0 hr (maximumf (F := Ideal) (φ := .f32) x y) (maximumf (F := Ideal) (φ := .f32) X Y) := Tile.map₂ max hx hy
/-- A quotient of tiles: the vector unit's and the host's quotient are one function of the extended reals. -/
theorem divf_tile (hx : IsTile r0 hr x X) (hy : IsTile r0 hr y Y) :
    IsTile r0 hr (divf (F := Ideal) (φ := .f32) x y) (Host.divf (F := Ideal) (φ := .f32) X Y) := Tile.map₂ Ideal.div hx hy
/-- The exponential of a tile; the host's exponential is the same function. -/
theorem exp_tile (hx : IsTile r0 hr x X) :
    IsTile r0 hr (exp (F := Ideal) (φ := .f32) x) (Host.exp (F := Ideal) (φ := .f32) X) := Tile.map Ideal.exp hx
/-- The hyperbolic tangent of a tile; the host's is the same function. -/
theorem tanh_tile (hx : IsTile r0 hr x X) :
    IsTile r0 hr (tanh (F := Ideal) (φ := .f32) x) (Host.tanh (F := Ideal) (φ := .f32) X) := Tile.map Ideal.tanh hx
/-- The reciprocal square root of a tile; the host's is the same function. -/
theorem rsqrt_tile (hx : IsTile r0 hr x X) :
    IsTile r0 hr (rsqrt (F := Ideal) (φ := .f32) x) (Host.rsqrt (F := Ideal) (φ := .f32) X) := Tile.map Ideal.rsqrt hx
/-- A narrowing of the float format is the identity on the extended reals: the narrowed tile is still the tile. -/
theorem truncf_tile (hx : IsTile r0 hr x X) (h : FTy.bits .bf16 < FTy.bits .f32) :
    IsTile r0 hr (truncf (F := Ideal) (φ := .f32) .bf16 x h) X := fun p l => hx p l
/-- The logistic function of a tile against the host's 1 / (1 + exp (−·)), the two ones being the constant 1.0
    broadcast: the logistic function is by definition that quotient. -/
theorem logistic_tile (hx : IsTile r0 hr x X) (s : (⟨0, ![]⟩ : Shape).Idx → EReal) (hs : s ix0 = 1)
    (g : (⟨0, ![]⟩ : Shape).BroadcastsInDim ⟨2, ![M, C]⟩ ![]) :
    IsTile r0 hr (logistic (F := Ideal) (φ := .f32) x)
      (Host.divf (F := Ideal) (φ := .f32) (broadcastInDim ⟨2, ![M, C]⟩ ![] g s)
        (addf (F := Ideal) (φ := .f32) (broadcastInDim ⟨2, ![M, C]⟩ ![] g s) (Host.exp (F := Ideal) (φ := .f32) (Host.negf (F := Ideal) (φ := .f32) X)))) := by
  intro p l
  show Ideal.div 1 (1 + Ideal.exp (-(x (ix2 p l)))) = Ideal.div (broadcastInDim ⟨2, ![M, C]⟩ ![] g s _)
    (broadcastInDim ⟨2, ![M, C]⟩ ![] g s _ + Ideal.exp (-(X _)))
  rw [broadcastInDim_scalar_apply, hs, hx p l]

end Entrywise

/-! ## Rows reduced to a column -/

/-- The 1-D relation: `x` is entries [r0, r0 + T) of `X`. -/
def IsSeg {T M : Nat} (r0 : Nat) (hr : r0 + T ≤ M) (x : (⟨1, ![T]⟩ : Shape).Idx → EReal) (X : (⟨1, ![M]⟩ : Shape).Idx → EReal) : Prop :=
  ∀ p : Fin T, x (ix1 p) = X (ix1 ⟨r0 + p.val, by omega⟩)

section Rows
variable {T M : Nat} {r0 : Nat} {hr : r0 + T ≤ M}

/-- In an array reduced along its columns, the index over row p with column l inserted is (p, l). -/
theorem lift_row {R C : Nat} (h : (⟨2, ![R, C]⟩ : Shape).Reduces [1] ⟨1, ![R]⟩) (p : Fin R) (l : Fin C) :
    h.lift (ix1 p) l = ix2 p l := by
  funext a
  apply Fin.ext
  match a with
  | ⟨0, _⟩ => rfl
  | ⟨1, _⟩ => rfl

/-- The sums of a tile's rows are the segment of the sums of the whole array's rows: row r0 + p of the array is row p
    of the tile, and the host's sum starts from 0. -/
theorem rowSum_seg {C : Nat} {v : (⟨2, ![T, C]⟩ : Shape).Idx → EReal} {V : (⟨2, ![M, C]⟩ : Shape).Idx → EReal}
    (hv : IsTile r0 hr v V) (h : (⟨2, ![T, C]⟩ : Shape).Reduces [1] ⟨1, ![T]⟩) (hφ : FKind.Formats .f32)
    (hacc : (0x00000000#32 : BitVec 32) = FKind.add.neutral .f32 hφ)
    (h' : (⟨2, ![M, C]⟩ : Shape).ReducesTo [1] ⟨1, ![M]⟩) (hR : (⟨2, ![M, C]⟩ : Shape).Reduces [1] ⟨1, ![M]⟩)
    (init : (⟨0, ![]⟩ : Shape).Idx → EReal) (hinit : ∀ i, init i = 0) (hu : 0 < (⟨0, ![]⟩ : Shape).numel) :
    IsSeg r0 hr (multiReduction (F := Ideal) (φ := .f32) .add [1] ⟨1, ![T]⟩ v 0x00000000#32 h hφ hacc)
      (Host.reduceAdd (F := Ideal) (φ := .f32) V init h' hu) := by
  intro p
  rw [Ideal.multiReduction_add_single, hostReduceAdd_apply, Ideal.hostReduceAdd_single h' hR, hinit, zero_add]
  refine Finset.sum_congr rfl fun l _ => ?_
  exact (congrArg v (lift_row h p l)).trans ((hv p l).trans (congrArg V (lift_row hR ⟨r0 + p.val, by omega⟩ l)).symm)

/-- The maxima of a tile's rows, from the accumulator's value, are the segment of the maxima of the whole array's
    rows from the same value. -/
theorem rowMax_seg {C : Nat} {v : (⟨2, ![T, C]⟩ : Shape).Idx → EReal} {V : (⟨2, ![M, C]⟩ : Shape).Idx → EReal}
    (hv : IsTile r0 hr v V) (h : (⟨2, ![T, C]⟩ : Shape).Reduces [1] ⟨1, ![T]⟩) (hφ : FKind.Formats .f32)
    (acc : BitVec 32) (hacc : acc = FKind.maximumf.neutral .f32 hφ)
    (h' : (⟨2, ![M, C]⟩ : Shape).ReducesTo [1] ⟨1, ![M]⟩) (hR : (⟨2, ![M, C]⟩ : Shape).Reduces [1] ⟨1, ![M]⟩)
    (init : (⟨0, ![]⟩ : Shape).Idx → EReal) (hinit : ∀ i, init i = Ideal.ofBits .f32 acc) (hu : 0 < (⟨0, ![]⟩ : Shape).numel) :
    IsSeg r0 hr (multiReduction (F := Ideal) (φ := .f32) .maximumf [1] ⟨1, ![T]⟩ v acc h hφ hacc)
      (Host.reduce (FloatOps.maximumf (F := Ideal) (φ := .f32)) V init h' hu) := by
  intro p
  rw [Ideal.multiReduction_maximumf_single, Host.reduce_eq_fold_single _ V init h' hR hu, hinit]
  have e : (v ∘ h.lift (ix1 p)) = (V ∘ hR.lift (ix1 ⟨r0 + p.val, by omega⟩)) := funext fun l =>
    (congrArg v (lift_row h p l)).trans ((hv p l).trans (congrArg V (lift_row hR ⟨r0 + p.val, by omega⟩ l)).symm)
  rw [e]
  rfl

/-- A two-operand operation applied entry by entry keeps segments. -/
theorem seg_map₂ {x y : (⟨1, ![T]⟩ : Shape).Idx → EReal} {X Y : (⟨1, ![M]⟩ : Shape).Idx → EReal} (f : EReal → EReal → EReal)
    (hx : IsSeg r0 hr x X) (hy : IsSeg r0 hr y Y) : IsSeg r0 hr (fun i => f (x i) (y i)) (fun i => f (X i) (Y i)) :=
  fun p => congrArg₂ f (hx p) (hy p)

/-- A splat of one value over a segment, against the same value broadcast over the whole vector. -/
theorem seg_splat (v : EReal) (s : (⟨0, ![]⟩ : Shape).Idx → EReal) (hs : s ix0 = v)
    (g : (⟨0, ![]⟩ : Shape).BroadcastsInDim ⟨1, ![M]⟩ ![]) :
    IsSeg r0 hr (broadcast ⟨1, ![T]⟩ v) (broadcastInDim ⟨1, ![M]⟩ ![] g s) := by
  intro p
  show v = _
  rw [broadcastInDim_scalar_apply, hs]

/-- A segment viewed as a T × 1 column is the tile of the whole vector viewed as an M × 1 column. -/
theorem toCol {x : (⟨1, ![T]⟩ : Shape).Idx → EReal} {X : (⟨1, ![M]⟩ : Shape).Idx → EReal} (hx : IsSeg r0 hr x X)
    (hsc : (⟨1, ![T]⟩ : Shape).ShapeCasts ⟨2, ![T, 1]⟩) (hb : (⟨1, ![M]⟩ : Shape).BroadcastsInDim ⟨2, ![M, 1]⟩ ![0]) :
    IsTile r0 hr (shapeCast ⟨2, ![T, 1]⟩ x hsc) (broadcastInDim ⟨2, ![M, 1]⟩ ![0] hb X) := by
  intro p l
  have hl := l.isLt
  have e1 : shapeCast ⟨2, ![T, 1]⟩ x hsc (ix2 p l) = x (ix1 p) := by
    refine shapeCast_apply x hsc (ix2 p l) (ix1 p) ?_
    rw [Shape.rowMajor_val_one, Shape.rowMajor_val_two]
    show p.val = p.val * 1 + l.val
    omega
  have e2 : broadcastInDim ⟨2, ![M, 1]⟩ ![0] hb X (ix2 ⟨r0 + p.val, by omega⟩ l) = X (ix1 ⟨r0 + p.val, by omega⟩) := by
    refine broadcastInDim_apply _ hb X _ (ix1 ⟨r0 + p.val, by omega⟩) fun a => ?_
    match a with
    | ⟨0, _⟩ =>
      show r0 + p.val = if M = 1 then 0 else r0 + p.val
      have := p.isLt
      split <;> omega
  exact e1.trans ((hx p).trans e2.symm)

/-- A T × 1 column repeated across C columns, against the M × 1 column repeated across C columns. -/
theorem colRep {C : Nat} {c : (⟨2, ![T, 1]⟩ : Shape).Idx → EReal} {Cc : (⟨2, ![M, 1]⟩ : Shape).Idx → EReal}
    (hc : IsTile r0 hr c Cc) (h2 : (⟨2, ![T, 1]⟩ : Shape).Broadcasts ⟨2, ![T, C]⟩)
    (g2 : (⟨2, ![M, 1]⟩ : Shape).BroadcastsInDim ⟨2, ![M, C]⟩ ![0, 1]) :
    IsTile r0 hr (broadcastTo ⟨2, ![T, C]⟩ c h2) (broadcastInDim ⟨2, ![M, C]⟩ ![0, 1] g2 Cc) := by
  intro p l
  have hp := p.isLt
  have eL : broadcastTo ⟨2, ![T, C]⟩ c h2 (ix2 p l) = c (ix2 p ⟨0, Nat.one_pos⟩) := by
    refine broadcastTo_apply c h2 (ix2 p l) (ix2 p ⟨0, Nat.one_pos⟩) fun a => ?_
    match a with
    | ⟨0, _⟩ =>
      show p.val = if T = 1 then 0 else p.val
      split <;> omega
    | ⟨1, _⟩ => rfl
  have eR : broadcastInDim ⟨2, ![M, C]⟩ ![0, 1] g2 Cc (ix2 ⟨r0 + p.val, by omega⟩ l) = Cc (ix2 ⟨r0 + p.val, by omega⟩ ⟨0, Nat.one_pos⟩) := by
    refine broadcastInDim_apply _ g2 Cc _ (ix2 ⟨r0 + p.val, by omega⟩ ⟨0, Nat.one_pos⟩) fun a => ?_
    match a with
    | ⟨0, _⟩ =>
      show r0 + p.val = if M = 1 then 0 else r0 + p.val
      split <;> omega
    | ⟨1, _⟩ => rfl
  exact eL.trans ((hc p _).trans eR.symm)

end Rows

/-! ## The four attended blocks side by side, read at an index -/

/-- Slab b of the 4 × 16384 × 512 array, cut out as a 1 × 16384 × 512 slice and viewed as 16384 × 512, read at (r, c):
    the array at (b, r, c). -/
theorem slabView_apply (ATT : FVec Ideal Cert.ReferenceIdeal.S4x16384x512 .f32) (b : Nat) (hb : b < 4)
    (hs : Cert.ReferenceIdeal.S4x16384x512.Slices ![b, 0, 0] Cert.ReferenceIdeal.S1x16384x512)
    (hc : Cert.ReferenceIdeal.S1x16384x512.ShapeCasts Cert.ReferenceIdeal.S16384x512) (r : Fin 16384) (c : Fin 512) :
    shapeCast Cert.ReferenceIdeal.S16384x512
        (extractStridedSlice Cert.ReferenceIdeal.S1x16384x512 ![b, 0, 0] ATT hs) hc (ix2 r c)
      = ATT (ix3 ⟨b, hb⟩ r c) := by
  refine (shapeCast_apply _ hc (ix2 r c) (ix3 ⟨0, Nat.one_pos⟩ r c) ?_).trans ?_
  · rw [Shape.rowMajor_val_three, Shape.rowMajor_val_two]
    show (0 * 16384 + r.val) * 512 + c.val = r.val * 512 + c.val
    omega
  · refine extractStridedSlice_apply _ ATT hs _ (ix3 ⟨b, hb⟩ r c) fun a => ?_
    match a with
    | ⟨0, _⟩ => show b = b + 0; omega
    | ⟨1, _⟩ => show r.val = 0 + r.val; omega
    | ⟨2, _⟩ => show c.val = 0 + c.val; omega

/-- Columns [0, 512) of the four blocks side by side are block 2. -/
theorem concat4_blk0 (ATT : FVec Ideal Cert.ReferenceIdeal.S4x16384x512 .f32) (r : Fin 16384) (c : Fin 512) :
    Cert.ReferenceIdeal.RefRun.concat4 (F := Ideal) ATT (ix2 r (⟨c.val, by omega⟩ : Fin 2048)) = ATT (ix3 (⟨2, by omega⟩ : Fin 4) r c) := by
  unfold Cert.ReferenceIdeal.RefRun.concat4
  refine Eq.trans (concatenate_apply_piece (1 : Fin 2) _ _ (ix2 r (⟨c.val, by omega⟩ : Fin 2048)) 0 ?_ Cert.ReferenceIdeal.S16384x512 _ rfl rfl
    0 rfl (ix2 r c) ?_ ?_) (slabView_apply ATT 2 (by omega) _ _ r c)
  · exact (by omega : (0 : Nat) < 4)
  · intro b hb
    match b with
    | ⟨0, _⟩ => rfl
    | ⟨1, _⟩ => exact absurd rfl hb
  · show 0 + c.val = c.val
    omega

/-- Columns [512, 1024) are block 3. -/
theorem concat4_blk1 (ATT : FVec Ideal Cert.ReferenceIdeal.S4x16384x512 .f32) (r : Fin 16384) (c : Fin 512) :
    Cert.ReferenceIdeal.RefRun.concat4 (F := Ideal) ATT (ix2 r (⟨512 + c.val, by omega⟩ : Fin 2048)) = ATT (ix3 (⟨3, by omega⟩ : Fin 4) r c) := by
  unfold Cert.ReferenceIdeal.RefRun.concat4
  refine Eq.trans (concatenate_apply_piece (1 : Fin 2) _ _ (ix2 r (⟨512 + c.val, by omega⟩ : Fin 2048)) 1 ?_ Cert.ReferenceIdeal.S16384x512 _ rfl rfl
    512 rfl (ix2 r c) ?_ ?_) (slabView_apply ATT 3 (by omega) _ _ r c)
  · exact (by omega : (1 : Nat) < 4)
  · intro b hb
    match b with
    | ⟨0, _⟩ => rfl
    | ⟨1, _⟩ => exact absurd rfl hb
  · rfl

/-- Columns [1024, 1536) are block 1. -/
theorem concat4_blk2 (ATT : FVec Ideal Cert.ReferenceIdeal.S4x16384x512 .f32) (r : Fin 16384) (c : Fin 512) :
    Cert.ReferenceIdeal.RefRun.concat4 (F := Ideal) ATT (ix2 r (⟨1024 + c.val, by omega⟩ : Fin 2048)) = ATT (ix3 (⟨1, by omega⟩ : Fin 4) r c) := by
  unfold Cert.ReferenceIdeal.RefRun.concat4
  refine Eq.trans (concatenate_apply_piece (1 : Fin 2) _ _ (ix2 r (⟨1024 + c.val, by omega⟩ : Fin 2048)) 2 ?_ Cert.ReferenceIdeal.S16384x512 _ rfl rfl
    1024 rfl (ix2 r c) ?_ ?_) (slabView_apply ATT 1 (by omega) _ _ r c)
  · exact (by omega : (2 : Nat) < 4)
  · intro b hb
    match b with
    | ⟨0, _⟩ => rfl
    | ⟨1, _⟩ => exact absurd rfl hb
  · rfl

/-- Columns [1536, 2048) are block 0. -/
theorem concat4_blk3 (ATT : FVec Ideal Cert.ReferenceIdeal.S4x16384x512 .f32) (r : Fin 16384) (c : Fin 512) :
    Cert.ReferenceIdeal.RefRun.concat4 (F := Ideal) ATT (ix2 r (⟨1536 + c.val, by omega⟩ : Fin 2048)) = ATT (ix3 (⟨0, by omega⟩ : Fin 4) r c) := by
  unfold Cert.ReferenceIdeal.RefRun.concat4
  refine Eq.trans (concatenate_apply_piece (1 : Fin 2) _ _ (ix2 r (⟨1536 + c.val, by omega⟩ : Fin 2048)) 3 ?_ Cert.ReferenceIdeal.S16384x512 _ rfl rfl
    1536 rfl (ix2 r c) ?_ ?_) (slabView_apply ATT 0 (by omega) _ _ r c)
  · exact (by omega : (3 : Nat) < 4)
  · intro b hb
    match b with
    | ⟨0, _⟩ => rfl
    | ⟨1, _⟩ => exact absurd rfl hb
  · rfl

/-! ## The mixing layer: four products added, against one product with the blocks side by side -/

/-- What the kernel computes for a mixing layer from its four tiles (a0 … a3 of blocks 0 … 3), the four row blocks of
    the weight matrix and the bias: tile 2 times block 0, plus tile 3 times block 1, plus tile 1 times block 2, plus
    tile 0 times block 3, plus the bias row. -/
def kmix (a0 a1 a2 a3 : FVec Ideal Cert.KernelIdeal.S256x512 .bf16) (w0 w1 w2 w3 : Vec Ideal Cert.KernelIdeal.S512x512 .bf16)
    (b : Vec Ideal Cert.KernelIdeal.S512 .f32) : FVec Ideal Cert.KernelIdeal.S256x512 .f32 :=
  addf (addf (addf (addf (matmul (F := Ideal) (φ₁ := .bf16) (φ₂ := .bf16) Cert.KernelIdeal.dot_S256x512_S512x512_S256x512_1_0_0_1_n_n none a2 (shapeCast (α := Ideal .bf16) Cert.KernelIdeal.S512x512 w0 Cert.KernelIdeal.Gen.shapeCasts_S512x512_S512x512) (constant Cert.KernelIdeal.S256x512 .f32 0x00000000#32))
    (matmul (F := Ideal) (φ₁ := .bf16) (φ₂ := .bf16) Cert.KernelIdeal.dot_S256x512_S512x512_S256x512_1_0_0_1_n_n none a3 (shapeCast (α := Ideal .bf16) Cert.KernelIdeal.S512x512 w1 Cert.KernelIdeal.Gen.shapeCasts_S512x512_S512x512) (constant Cert.KernelIdeal.S256x512 .f32 0x00000000#32)))
    (matmul (F := Ideal) (φ₁ := .bf16) (φ₂ := .bf16) Cert.KernelIdeal.dot_S256x512_S512x512_S256x512_1_0_0_1_n_n none a1 (shapeCast (α := Ideal .bf16) Cert.KernelIdeal.S512x512 w2 Cert.KernelIdeal.Gen.shapeCasts_S512x512_S512x512) (constant Cert.KernelIdeal.S256x512 .f32 0x00000000#32)))
    (matmul (F := Ideal) (φ₁ := .bf16) (φ₂ := .bf16) Cert.KernelIdeal.dot_S256x512_S512x512_S256x512_1_0_0_1_n_n none a0 (shapeCast (α := Ideal .bf16) Cert.KernelIdeal.S512x512 w3 Cert.KernelIdeal.Gen.shapeCasts_S512x512_S512x512) (constant Cert.KernelIdeal.S256x512 .f32 0x00000000#32)))
    (broadcastTo Cert.KernelIdeal.S256x512 (shapeCast (α := Ideal .f32) Cert.KernelIdeal.S1x512 b Cert.KernelIdeal.Gen.shapeCasts_S512_S1x512) Cert.KernelIdeal.Gen.broadcasts_S1x512_S256x512)

/-- The mixing layer on tiles is the tile of the mixing layer on the whole arrays: the reference lays the blocks side by
    side as [2 | 3 | 1 | 0] and multiplies by the whole 2048 × 512 matrix; its sum over 2048 columns is the kernel's four
    sums over 512. -/
theorem mix {r0 : Nat} (hr : r0 + 256 ≤ 16384) (ATT : FVec Ideal Cert.ReferenceIdeal.S4x16384x512 .f32)
    (a0 a1 a2 a3 : FVec Ideal Cert.KernelIdeal.S256x512 .bf16)
    (h0 : IsSlabTile (⟨0, by omega⟩ : Fin 4) r0 hr a0 ATT) (h1 : IsSlabTile (⟨1, by omega⟩ : Fin 4) r0 hr a1 ATT)
    (h2 : IsSlabTile (⟨2, by omega⟩ : Fin 4) r0 hr a2 ATT) (h3 : IsSlabTile (⟨3, by omega⟩ : Fin 4) r0 hr a3 ATT)
    (w0 w1 w2 w3 : Vec Ideal Cert.KernelIdeal.S512x512 .bf16) (W : FVec Ideal Cert.ReferenceIdeal.S2048x512 .f32)
    (hw0 : ∀ (k : Fin 512) (n : Fin 512), w0 (ix2 k n) = W (ix2 ⟨k.val, by omega⟩ n))
    (hw1 : ∀ (k : Fin 512) (n : Fin 512), w1 (ix2 k n) = W (ix2 ⟨512 + k.val, by omega⟩ n))
    (hw2 : ∀ (k : Fin 512) (n : Fin 512), w2 (ix2 k n) = W (ix2 ⟨1024 + k.val, by omega⟩ n))
    (hw3 : ∀ (k : Fin 512) (n : Fin 512), w3 (ix2 k n) = W (ix2 ⟨1536 + k.val, by omega⟩ n))
    (b : Vec Ideal Cert.KernelIdeal.S512 .f32) (B : FVec Ideal Cert.ReferenceIdeal.S512 .f32) (hb : b = B) :
    IsTile r0 hr (kmix a0 a1 a2 a3 w0 w1 w2 w3 b) (Cert.ReferenceIdeal.RefRun.mixLin (F := Ideal) (Cert.ReferenceIdeal.RefRun.concat4 ATT) W B) := by
  subst hb
  have e0 := shapeCast_self w0 Cert.KernelIdeal.Gen.shapeCasts_S512x512_S512x512
  have e1 := shapeCast_self w1 Cert.KernelIdeal.Gen.shapeCasts_S512x512_S512x512
  have e2 := shapeCast_self w2 Cert.KernelIdeal.Gen.shapeCasts_S512x512_S512x512
  have e3 := shapeCast_self w3 Cert.KernelIdeal.Gen.shapeCasts_S512x512_S512x512
  have h4 := matmul4 (T := 256) (M := 16384) (C := 512) (K := 2048) (N := 512) (r0 := r0) (hr := hr) rfl a2 a3 a1 a0
    (shapeCast Cert.KernelIdeal.S512x512 w0 Cert.KernelIdeal.Gen.shapeCasts_S512x512_S512x512) (shapeCast Cert.KernelIdeal.S512x512 w1 Cert.KernelIdeal.Gen.shapeCasts_S512x512_S512x512)
    (shapeCast Cert.KernelIdeal.S512x512 w2 Cert.KernelIdeal.Gen.shapeCasts_S512x512_S512x512) (shapeCast Cert.KernelIdeal.S512x512 w3 Cert.KernelIdeal.Gen.shapeCasts_S512x512_S512x512)
    (Cert.ReferenceIdeal.RefRun.concat4 (F := Ideal) ATT) W
    (fun p c => (h2 p c).trans (concat4_blk0 ATT _ c).symm) (fun p c => (h3 p c).trans (concat4_blk1 ATT _ c).symm)
    (fun p c => (h1 p c).trans (concat4_blk2 ATT _ c).symm) (fun p c => (h0 p c).trans (concat4_blk3 ATT _ c).symm)
    (fun c n => by rw [e0]; exact hw0 c n) (fun c n => by rw [e1]; exact hw1 c n)
    (fun c n => by rw [e2]; exact hw2 c n) (fun c n => by rw [e3]; exact hw3 c n)
  exact Tile.map₂ (· + ·) h4 (Tile.bias b _ _ _ _)

/-! ## The importance head -/

/-- The kernel's logits from a mixed tile: ReLU, narrowing (the identity), the product with the 512 × 4 matrix, the
    bias row. -/
def klog (m : FVec Ideal Cert.KernelIdeal.S256x512 .f32) (wi2 : Vec Ideal Cert.KernelIdeal.S512x4 .bf16) (bi2 : Vec Ideal Cert.KernelIdeal.S4 .f32) :
    FVec Ideal Cert.KernelIdeal.S256x4 .f32 :=
  addf (matmul (F := Ideal) (φ₁ := .bf16) (φ₂ := .bf16) Cert.KernelIdeal.dot_S256x512_S512x4_S256x4_1_0_0_1_n_n none
      (truncf .bf16 (maximumf m (broadcast Cert.KernelIdeal.S256x512 (Scalar.ofBits (F := Ideal) .f32 0x00000000#32))) Cert.KernelIdeal.Gen.bitsLt_bf16_f32)
      (shapeCast (α := Ideal .bf16) Cert.KernelIdeal.S512x4 wi2 Cert.KernelIdeal.Gen.shapeCasts_S512x4_S512x4) (constant Cert.KernelIdeal.S256x4 .f32 0x00000000#32))
    (broadcastTo Cert.KernelIdeal.S256x4 (shapeCast (α := Ideal .f32) Cert.KernelIdeal.S1x4 bi2 Cert.KernelIdeal.Gen.shapeCasts_S4_S1x4) Cert.KernelIdeal.Gen.broadcasts_S1x4_S256x4)

/-- The logits of a tile are the tile of the logits. -/
theorem klog_tile {r0 : Nat} (hr : r0 + 256 ≤ 16384) {m : FVec Ideal Cert.KernelIdeal.S256x512 .f32} {MX : FVec Ideal Cert.ReferenceIdeal.S16384x512 .f32}
    (hm : IsTile r0 hr m MX) (wi2 : Vec Ideal Cert.KernelIdeal.S512x4 .bf16) (Wi2 : FVec Ideal Cert.ReferenceIdeal.S512x4 .f32) (hwi2 : wi2 = Wi2)
    (bi2 : Vec Ideal Cert.KernelIdeal.S4 .f32) (Bi2 : FVec Ideal Cert.ReferenceIdeal.S4 .f32) (hbi2 : bi2 = Bi2) :
    IsTile r0 hr (klog m wi2 bi2) (Cert.ReferenceIdeal.RefRun.logits (F := Ideal) (Cert.ReferenceIdeal.RefRun.relu MX) Wi2 Bi2) := by
  subst hbi2
  have hrelu := maximumf_tile hm (Tile.splat (Scalar.ofBits (F := Ideal) .f32 0x00000000#32)
    (constant (F := Ideal) Cert.ReferenceIdeal.S_ .f32 0x00000000#32) rfl Cert.ReferenceIdeal.Gen.bcast_S_S16384x512)
  have hmm := matmul_tile (shapeCast (α := Ideal .bf16) Cert.KernelIdeal.S512x4 wi2 Cert.KernelIdeal.Gen.shapeCasts_S512x4_S512x4) Wi2
    ((shapeCast_self _ _).trans hwi2) (truncf_tile hrelu Cert.KernelIdeal.Gen.bitsLt_bf16_f32)
  exact addf_tile hmm (Tile.bias bi2 _ _ _ _)

/-- The kernel's shifted exponentials of a logits tile: each row less its maximum (taken from −∞, then once more
    against −∞), exponentiated. -/
def kexp (z : FVec Ideal Cert.KernelIdeal.S256x4 .f32) : FVec Ideal Cert.KernelIdeal.S256x4 .f32 :=
  exp (subf z (broadcastTo Cert.KernelIdeal.S256x4 (shapeCast Cert.KernelIdeal.S256x1
    (maximumf (broadcast Cert.KernelIdeal.S256 (Scalar.ofBits (F := Ideal) .f32 0xFF800000#32))
      (multiReduction .maximumf [1] Cert.KernelIdeal.S256 z 0xFF800000#32 Cert.KernelIdeal.Gen.reduces_S256x4_S256 (.inl rfl) rfl))
    Cert.KernelIdeal.Gen.shapeCasts_S256_S256x1) Cert.KernelIdeal.Gen.broadcasts_S256x1_S256x4))

/-- The kernel's row sums of a 256 × 4 tile as a column. -/
def ksumcol (e : FVec Ideal Cert.KernelIdeal.S256x4 .f32) : FVec Ideal Cert.KernelIdeal.S256x1 .f32 :=
  shapeCast Cert.KernelIdeal.S256x1 (multiReduction .add [1] Cert.KernelIdeal.S256 e 0x00000000#32 Cert.KernelIdeal.Gen.reduces_S256x4_S256 (.inl rfl) rfl)
    Cert.KernelIdeal.Gen.shapeCasts_S256_S256x1

/-- The shifted exponentials of a tile are the tile of the shifted exponentials: a row's maximum only reads that row. -/
theorem kexp_tile {r0 : Nat} (hr : r0 + 256 ≤ 16384) {z : FVec Ideal Cert.KernelIdeal.S256x4 .f32} {Z : FVec Ideal Cert.ReferenceIdeal.S16384x4 .f32}
    (hz : IsTile r0 hr z Z) : IsTile r0 hr (kexp z) (Cert.ReferenceIdeal.RefRun.expShift (F := Ideal) Z (Cert.ReferenceIdeal.RefRun.rowMax Z)) := by
  have hmx := rowMax_seg hz Cert.KernelIdeal.Gen.reduces_S256x4_S256 (.inl rfl) 0xFF800000#32 rfl Cert.ReferenceIdeal.Gen.reducesTo_S16384x4_S16384_d1 (by decide)
    (constant (F := Ideal) Cert.ReferenceIdeal.S_ .f32 0xFF800000#32) (fun _ => rfl) Cert.ReferenceIdeal.Gen.h_S_
  have hm2 := seg_map₂ max (seg_splat (Scalar.ofBits (F := Ideal) .f32 0xFF800000#32)
    (constant (F := Ideal) Cert.ReferenceIdeal.S_ .f32 0xFF800000#32) rfl Cert.ReferenceIdeal.Gen.bcast_S_S16384) hmx
  exact exp_tile (subf_tile hz (colRep (toCol hm2 Cert.KernelIdeal.Gen.shapeCasts_S256_S256x1 Cert.ReferenceIdeal.Gen.bcast_S16384_S16384x1_0)
    Cert.KernelIdeal.Gen.broadcasts_S256x1_S256x4 Cert.ReferenceIdeal.Gen.bcast_S16384x1_S16384x4_0_1))

/-- Normalising a tile of exponentials by its row sums is the tile of the normalised array: a row's sum only reads that
    row. -/
theorem softmax_tile {r0 : Nat} (hr : r0 + 256 ≤ 16384) {e : FVec Ideal Cert.KernelIdeal.S256x4 .f32} {E : FVec Ideal Cert.ReferenceIdeal.S16384x4 .f32}
    (he : IsTile r0 hr e E) : IsTile r0 hr (Cert.KernelIdeal.Gen.k0_pay37 (F := Ideal) e (ksumcol e)) (Cert.ReferenceIdeal.RefRun.softmaxOut (F := Ideal) E) := by
  have hs := rowSum_seg he Cert.KernelIdeal.Gen.reduces_S256x4_S256 (.inl rfl) rfl Cert.ReferenceIdeal.Gen.reducesTo_S16384x4_S16384_d1 (by decide)
    (constant (F := Ideal) Cert.ReferenceIdeal.S_ .f32 0x00000000#32) (fun _ => Ideal.ofBits_zero_f32) Cert.ReferenceIdeal.Gen.h_S_
  exact divf_tile he (colRep (toCol hs Cert.KernelIdeal.Gen.shapeCasts_S256_S256x1 Cert.ReferenceIdeal.Gen.bcast_S16384_S16384x1_0)
    Cert.KernelIdeal.Gen.broadcasts_S256x1_S256x4 Cert.ReferenceIdeal.Gen.bcast_S16384x1_S16384x4_0_1)

/-! ## The kernel's tiles of the attended blocks, narrowed -/

section Narrowed
variable {r0 : Nat} {hr : r0 + 256 ≤ 16384} {ATT : FVec Ideal Cert.ReferenceIdeal.S4x16384x512 .f32} {b : Fin 4}
  {v : FVec Ideal Cert.KernelIdeal.S256x512 .f32}

/-- The narrowed copy the kernel keeps of an attended tile is the same tile: narrowing is the identity. -/
theorem pay31_slab (h : IsSlabTile b r0 hr v ATT) : IsSlabTile b r0 hr (Cert.KernelIdeal.Gen.k0_pay31 (F := Ideal) v) ATT := fun p l => h p l
theorem pay32_slab (h : IsSlabTile b r0 hr v ATT) : IsSlabTile b r0 hr (Cert.KernelIdeal.Gen.k0_pay32 (F := Ideal) v) ATT := fun p l => h p l
theorem pay33_slab (h : IsSlabTile b r0 hr v ATT) : IsSlabTile b r0 hr (Cert.KernelIdeal.Gen.k0_pay33 (F := Ideal) v) ATT := fun p l => h p l
theorem pay34_slab (h : IsSlabTile b r0 hr v ATT) : IsSlabTile b r0 hr (Cert.KernelIdeal.Gen.k0_pay34 (F := Ideal) v) ATT := fun p l => h p l

end Narrowed

/-! ## The three results -/

/-- The importance output of a kernel instance is the tile of the reference's importance: the hidden mixing layer, ReLU,
    the logits, and the softmax over the four columns, each the tile of its stage. The kernel takes block 3's tile
    unnarrowed (a3f) and narrows it itself; blocks 0, 1, 2 it takes narrowed. -/
theorem importance_tile {r0 : Nat} (hr : r0 + 256 ≤ 16384) (ATT : FVec Ideal Cert.ReferenceIdeal.S4x16384x512 .f32)
    (a3f : FVec Ideal Cert.KernelIdeal.S256x512 .f32) (a0 a1 a2 : FVec Ideal Cert.KernelIdeal.S256x512 .bf16)
    (h0 : IsSlabTile (⟨0, by omega⟩ : Fin 4) r0 hr a0 ATT) (h1 : IsSlabTile (⟨1, by omega⟩ : Fin 4) r0 hr a1 ATT)
    (h2 : IsSlabTile (⟨2, by omega⟩ : Fin 4) r0 hr a2 ATT) (h3 : IsSlabTile (⟨3, by omega⟩ : Fin 4) r0 hr a3f ATT)
    (w0 w1 w2 w3 : Vec Ideal Cert.KernelIdeal.S512x512 .bf16) (Wi1 : FVec Ideal Cert.ReferenceIdeal.S2048x512 .f32)
    (hw0 : ∀ (k : Fin 512) (n : Fin 512), w0 (ix2 k n) = Wi1 (ix2 ⟨k.val, by omega⟩ n))
    (hw1 : ∀ (k : Fin 512) (n : Fin 512), w1 (ix2 k n) = Wi1 (ix2 ⟨512 + k.val, by omega⟩ n))
    (hw2 : ∀ (k : Fin 512) (n : Fin 512), w2 (ix2 k n) = Wi1 (ix2 ⟨1024 + k.val, by omega⟩ n))
    (hw3 : ∀ (k : Fin 512) (n : Fin 512), w3 (ix2 k n) = Wi1 (ix2 ⟨1536 + k.val, by omega⟩ n))
    (b : Vec Ideal Cert.KernelIdeal.S512 .f32) (Bi1 : FVec Ideal Cert.ReferenceIdeal.S512 .f32) (hb : b = Bi1)
    (wi2 : Vec Ideal Cert.KernelIdeal.S512x4 .bf16) (Wi2 : FVec Ideal Cert.ReferenceIdeal.S512x4 .f32) (hwi2 : wi2 = Wi2)
    (bi2 : Vec Ideal Cert.KernelIdeal.S4 .f32) (Bi2 : FVec Ideal Cert.ReferenceIdeal.S4 .f32) (hbi2 : bi2 = Bi2) :
    IsTile r0 hr
      (Cert.KernelIdeal.Gen.k0_pay37 (F := Ideal) (Cert.KernelIdeal.Gen.k0_pay35 a3f a0 a1 a2 w0 w1 w2 w3 b wi2 bi2)
        (Cert.KernelIdeal.Gen.k0_pay36 a3f a0 a1 a2 w0 w1 w2 w3 b wi2 bi2))
      (Cert.ReferenceIdeal.RefRun.softmaxOut (F := Ideal) (Cert.ReferenceIdeal.RefRun.expShift (Cert.ReferenceIdeal.RefRun.logits (Cert.ReferenceIdeal.RefRun.relu (Cert.ReferenceIdeal.RefRun.mixLin (Cert.ReferenceIdeal.RefRun.concat4 ATT) Wi1 Bi1)) Wi2 Bi2) (Cert.ReferenceIdeal.RefRun.rowMax (Cert.ReferenceIdeal.RefRun.logits (Cert.ReferenceIdeal.RefRun.relu (Cert.ReferenceIdeal.RefRun.mixLin (Cert.ReferenceIdeal.RefRun.concat4 ATT) Wi1 Bi1)) Wi2 Bi2)))) := by
  have hm := mix hr ATT a0 a1 a2 (Cert.KernelIdeal.Gen.k0_pay34 (F := Ideal) a3f) h0 h1 h2 (pay34_slab h3) w0 w1 w2 w3 Wi1 hw0 hw1 hw2 hw3 b Bi1 hb
  have hz := klog_tile hr hm wi2 Wi2 hwi2 bi2 Bi2 hbi2
  exact softmax_tile hr (kexp_tile hr hz)

/-- The output of a kernel instance is the tile of the reference's output: the gate (a mixing layer under the logistic
    function), the tanh branch (a mixing layer whose fourth product the kernel adds last), their product, the 512 × 512
    linear layer and the final LayerNorm (mean and variance of a row only read that row). -/
theorem out_tile {r0 : Nat} (hr : r0 + 256 ≤ 16384) (ATT : FVec Ideal Cert.ReferenceIdeal.S4x16384x512 .f32)
    (a0 a1 a2 a3 : FVec Ideal Cert.KernelIdeal.S256x512 .bf16)
    (h0 : IsSlabTile (⟨0, by omega⟩ : Fin 4) r0 hr a0 ATT) (h1 : IsSlabTile (⟨1, by omega⟩ : Fin 4) r0 hr a1 ATT)
    (h2 : IsSlabTile (⟨2, by omega⟩ : Fin 4) r0 hr a2 ATT) (h3 : IsSlabTile (⟨3, by omega⟩ : Fin 4) r0 hr a3 ATT)
    (wg0 wg1 wg2 wg3 : Vec Ideal Cert.KernelIdeal.S512x512 .bf16) (Wg : FVec Ideal Cert.ReferenceIdeal.S2048x512 .f32)
    (hwg0 : ∀ (k : Fin 512) (n : Fin 512), wg0 (ix2 k n) = Wg (ix2 ⟨k.val, by omega⟩ n))
    (hwg1 : ∀ (k : Fin 512) (n : Fin 512), wg1 (ix2 k n) = Wg (ix2 ⟨512 + k.val, by omega⟩ n))
    (hwg2 : ∀ (k : Fin 512) (n : Fin 512), wg2 (ix2 k n) = Wg (ix2 ⟨1024 + k.val, by omega⟩ n))
    (hwg3 : ∀ (k : Fin 512) (n : Fin 512), wg3 (ix2 k n) = Wg (ix2 ⟨1536 + k.val, by omega⟩ n))
    (bg : Vec Ideal Cert.KernelIdeal.S512 .f32) (Bg : FVec Ideal Cert.ReferenceIdeal.S512 .f32) (hbg : bg = Bg)
    (wc0 wc1 wc2 wc3 : Vec Ideal Cert.KernelIdeal.S512x512 .bf16) (Wc : FVec Ideal Cert.ReferenceIdeal.S2048x512 .f32)
    (hwc0 : ∀ (k : Fin 512) (n : Fin 512), wc0 (ix2 k n) = Wc (ix2 ⟨k.val, by omega⟩ n))
    (hwc1 : ∀ (k : Fin 512) (n : Fin 512), wc1 (ix2 k n) = Wc (ix2 ⟨512 + k.val, by omega⟩ n))
    (hwc2 : ∀ (k : Fin 512) (n : Fin 512), wc2 (ix2 k n) = Wc (ix2 ⟨1024 + k.val, by omega⟩ n))
    (hwc3 : ∀ (k : Fin 512) (n : Fin 512), wc3 (ix2 k n) = Wc (ix2 ⟨1536 + k.val, by omega⟩ n))
    (bc : Vec Ideal Cert.KernelIdeal.S512 .f32) (Bc : FVec Ideal Cert.ReferenceIdeal.S512 .f32) (hbc : bc = Bc)
    (wout : Vec Ideal Cert.KernelIdeal.S512x512 .bf16) (Wout : FVec Ideal Cert.ReferenceIdeal.S512x512 .f32) (hwout : wout = Wout)
    (bout : Vec Ideal Cert.KernelIdeal.S512 .f32) (Bout : FVec Ideal Cert.ReferenceIdeal.S512 .f32) (hbout : bout = Bout)
    (g : Vec Ideal Cert.KernelIdeal.S512 .f32) (G : FVec Ideal Cert.ReferenceIdeal.S512 .f32) (hg : g = G)
    (bt : Vec Ideal Cert.KernelIdeal.S512 .f32) (Bt : FVec Ideal Cert.ReferenceIdeal.S512 .f32) (hbt : bt = Bt) :
    IsTile r0 hr
      (Cert.KernelIdeal.Gen.k0_pay41 (F := Ideal) a0 (Cert.KernelIdeal.Gen.k0_pay38 a0 a1 a2 a3 wg0 wg1 wg2 wg3 bg) (Cert.KernelIdeal.Gen.k0_pay39 a1 a2 a3 wc0 wc1 wc2)
        (Cert.KernelIdeal.Gen.k0_pay40 wc3) (constant Cert.KernelIdeal.S256x512 .f32 0x00000000#32) bc wout bout g bt)
      (Cert.ReferenceIdeal.RefRun.normOut (F := Ideal) (Cert.ReferenceIdeal.RefRun.lin512 (Cert.ReferenceIdeal.RefRun.gated (Cert.ReferenceIdeal.RefRun.gate (Cert.ReferenceIdeal.RefRun.mixLin (Cert.ReferenceIdeal.RefRun.concat4 ATT) Wg Bg)) (Cert.ReferenceIdeal.RefRun.tanhOf (Cert.ReferenceIdeal.RefRun.mixLin (Cert.ReferenceIdeal.RefRun.concat4 ATT) Wc Bc))) Wout Bout) (Cert.ReferenceIdeal.RefRun.rowMean (Cert.ReferenceIdeal.RefRun.lin512 (Cert.ReferenceIdeal.RefRun.gated (Cert.ReferenceIdeal.RefRun.gate (Cert.ReferenceIdeal.RefRun.mixLin (Cert.ReferenceIdeal.RefRun.concat4 ATT) Wg Bg)) (Cert.ReferenceIdeal.RefRun.tanhOf (Cert.ReferenceIdeal.RefRun.mixLin (Cert.ReferenceIdeal.RefRun.concat4 ATT) Wc Bc))) Wout Bout)) G Bt) := by
  subst hbout hg hbt
  have hG := mix hr ATT a0 a1 a2 a3 h0 h1 h2 h3 wg0 wg1 wg2 wg3 Wg hwg0 hwg1 hwg2 hwg3 bg Bg hbg
  have hC := mix hr ATT a0 a1 a2 a3 h0 h1 h2 h3 wc0 wc1 wc2 wc3 Wc hwc0 hwc1 hwc2 hwc3 bc Bc hbc
  have hgate : IsTile r0 hr _ (Cert.ReferenceIdeal.RefRun.gate (F := Ideal) (Cert.ReferenceIdeal.RefRun.mixLin (Cert.ReferenceIdeal.RefRun.concat4 ATT) Wg Bg)) :=
    logistic_tile hG (constant (F := Ideal) Cert.ReferenceIdeal.S_ .f32 0x3F800000#32) Ideal.ofBits_one_f32 Cert.ReferenceIdeal.Gen.bcast_S_S16384x512
  have hgt : IsTile r0 hr _ (Cert.ReferenceIdeal.RefRun.gated (F := Ideal) (Cert.ReferenceIdeal.RefRun.gate (Cert.ReferenceIdeal.RefRun.mixLin (Cert.ReferenceIdeal.RefRun.concat4 ATT) Wg Bg))
      (Cert.ReferenceIdeal.RefRun.tanhOf (Cert.ReferenceIdeal.RefRun.mixLin (Cert.ReferenceIdeal.RefRun.concat4 ATT) Wc Bc))) := mulf_tile hgate (tanh_tile hC)
  have hy : IsTile r0 hr _ (Cert.ReferenceIdeal.RefRun.lin512 (Cert.ReferenceIdeal.RefRun.gated (Cert.ReferenceIdeal.RefRun.gate (Cert.ReferenceIdeal.RefRun.mixLin (Cert.ReferenceIdeal.RefRun.concat4 ATT) Wg Bg)) (Cert.ReferenceIdeal.RefRun.tanhOf (Cert.ReferenceIdeal.RefRun.mixLin (Cert.ReferenceIdeal.RefRun.concat4 ATT) Wc Bc))) Wout bout) :=
    addf_tile (matmul_tile (shapeCast (α := Ideal .bf16) Cert.KernelIdeal.S512x512 wout Cert.KernelIdeal.Gen.shapeCasts_S512x512_S512x512) Wout
      ((shapeCast_self _ _).trans hwout) (truncf_tile hgt Cert.KernelIdeal.Gen.bitsLt_bf16_f32)) (Tile.bias bout Cert.KernelIdeal.Gen.shapeCasts_S512_S1x512 Cert.KernelIdeal.Gen.broadcasts_S1x512_S256x512 _ _)
  have hmean : IsTile r0 hr _ (Cert.ReferenceIdeal.RefRun.rowMean (F := Ideal) (Cert.ReferenceIdeal.RefRun.lin512 (Cert.ReferenceIdeal.RefRun.gated (Cert.ReferenceIdeal.RefRun.gate (Cert.ReferenceIdeal.RefRun.mixLin (Cert.ReferenceIdeal.RefRun.concat4 ATT) Wg Bg)) (Cert.ReferenceIdeal.RefRun.tanhOf (Cert.ReferenceIdeal.RefRun.mixLin (Cert.ReferenceIdeal.RefRun.concat4 ATT) Wc Bc))) Wout bout)) :=
    divf_tile (toCol (rowSum_seg hy Cert.KernelIdeal.Gen.reduces_S256x512_S256 (.inl rfl) rfl Cert.ReferenceIdeal.Gen.reducesTo_S16384x512_S16384_d1 (by decide)
      (constant (F := Ideal) Cert.ReferenceIdeal.S_ .f32 0x00000000#32) (fun _ => Ideal.ofBits_zero_f32) Cert.ReferenceIdeal.Gen.h_S_)
      Cert.KernelIdeal.Gen.shapeCasts_S256_S256x1 Cert.ReferenceIdeal.Gen.bcast_S16384_S16384x1_0)
    (Tile.splat (Scalar.ofBits (F := Ideal) .f32 0x44000000#32) (constant (F := Ideal) Cert.ReferenceIdeal.S_ .f32 0x44000000#32) rfl Cert.ReferenceIdeal.Gen.bcast_S_S16384x1)
  have hd := subf_tile hy (colRep hmean Cert.KernelIdeal.Gen.broadcasts_S256x1_S256x512 Cert.ReferenceIdeal.Gen.bcast_S16384x1_S16384x512_0_1)
  have hvar := divf_tile (toCol (rowSum_seg (mulf_tile hd hd) Cert.KernelIdeal.Gen.reduces_S256x512_S256 (.inl rfl) rfl
      Cert.ReferenceIdeal.Gen.reducesTo_S16384x512_S16384_d1 (by decide)
      (constant (F := Ideal) Cert.ReferenceIdeal.S_ .f32 0x00000000#32) (fun _ => Ideal.ofBits_zero_f32) Cert.ReferenceIdeal.Gen.h_S_)
      Cert.KernelIdeal.Gen.shapeCasts_S256_S256x1 Cert.ReferenceIdeal.Gen.bcast_S16384_S16384x1_0)
    (Tile.splat (Scalar.ofBits (F := Ideal) .f32 0x44000000#32) (constant (F := Ideal) Cert.ReferenceIdeal.S_ .f32 0x44000000#32) rfl Cert.ReferenceIdeal.Gen.bcast_S_S16384x1)
  have hrs := rsqrt_tile (addf_tile hvar (Tile.splat (Scalar.ofBits (F := Ideal) .f32 0x3727C5AC#32)
    (constant (F := Ideal) Cert.ReferenceIdeal.S_ .f32 0x3727C5AC#32) rfl Cert.ReferenceIdeal.Gen.bcast_S_S16384x1))
  exact addf_tile (mulf_tile (mulf_tile hd (colRep hrs Cert.KernelIdeal.Gen.broadcasts_S256x1_S256x512 Cert.ReferenceIdeal.Gen.bcast_S16384x1_S16384x512_0_1))
    (Tile.bias g _ _ _ _)) (Tile.bias bt _ _ _ _)

end Cert.Fusion.Tail

end
-- ==== Proof.Compose.lean ====
/-
  From the blocks of one grid point to the network's results on its rows. With every load of the body reading the
  matching part of its argument (`Leaves`), the body's three stored values are the rows [r0, r0 + 256) of the
  network's three results: the four projections are tiles of the whole projections; each query modality's attended
  block is its projection plus its three pairs, which is member i of the reference's attended stack (the reference
  gathers the stack by the source table, applies the two stacked linear layers, and sums each group of three: the same
  four terms, re-associated); and the importance head and the fused output are functions of the four attended tiles
  alone.
-/
import proofs.«146539_j55808805044797_2_alg».proof.Proof.Leaves
import proofs.«146539_j55808805044797_2_alg».proof.Proof.Spec
import proofs.«146539_j55808805044797_2_alg».proof.Proof.Attn
import proofs.«146539_j55808805044797_2_alg».proof.Proof.AttnRef
import proofs.«146539_j55808805044797_2_alg».proof.Proof.TileProj
import proofs.«146539_j55808805044797_2_alg».proof.Proof.TileTail

noncomputable section

namespace Cert.Fusion.Compose

open Idealize.ShloMosaic Idealize.ShloMosaic.ValueIdx Idealize.ShloMosaic.StackMember
open Cert.Tile (IsTile IsSlabTile)
open Cert.KernelIdeal.Gen Cert.KernelIdeal.GenP
open Cert.ReferenceIdeal.RefRun

/-! ## The attended stack, member by member -/

section Whole
variable (P0 P1 P2 P3 : FVec Ideal Cert.ReferenceIdeal.S16384x512 .f32)
  (Wv Wo : FVec Ideal Cert.ReferenceIdeal.S12x512x512 .f32) (Bv Bo : FVec Ideal Cert.ReferenceIdeal.S12x512 .f32)

/-- Member p of the twelve pairs is the pair of the source modality's projection. -/
theorem pair_member (p : Fin 12) (s : Fin 4) (hs : AttnRef.src p = s) (Q : FVec Ideal Cert.ReferenceIdeal.S16384x512 .f32)
    (hQ : memberAt (d := ![16384, 512]) (stack4 (F := Ideal) P0 P1 P2 P3) s = Q) :
    memberAt (d := ![16384, 512]) (valueProj (F := Ideal) (valueProj (gathered (stack4 P0 P1 P2 P3)) Wv Bv) Wo Bo) p
      = Attn.pairOut Q Wv Bv Wo Bo p := by
  rw [Attn.memberAt_valueProj, Attn.memberAt_valueProj, AttnRef.memberAt_gathered, hs, hQ]
  rfl

/-- P + (0 + (a + b + c)) is ((P + a) + b) + c: the reference's grouping against the kernel's. -/
theorem regroup (P a b c : EReal) : P + (0 + (a + b + c)) = ((P + a) + b) + c := by
  rw [zero_add, ← add_assoc, ← add_assoc]

/-- Member 0 of the attended stack. -/
theorem att_member0 :
    memberAt (d := ![16384, 512]) (attended (F := Ideal) (stack4 P0 P1 P2 P3) (valueProj (valueProj (gathered (stack4 P0 P1 P2 P3)) Wv Bv) Wo Bo)) (0 : Fin 4)
      = Attn.attRow P0 P1 P2 P3 Wv Bv Wo Bo (0 : Fin 12) (1 : Fin 12) (2 : Fin 12) := by
  funext j
  rw [AttnRef.memberAt_attended]
  show memberAt (d := ![16384, 512]) (stack4 (F := Ideal) P0 P1 P2 P3) (0 : Fin 4) j
      + (0 + (memberAt (d := ![16384, 512]) (valueProj (F := Ideal) (valueProj (gathered (stack4 P0 P1 P2 P3)) Wv Bv) Wo Bo) (0 : Fin 12) j
        + memberAt (d := ![16384, 512]) (valueProj (F := Ideal) (valueProj (gathered (stack4 P0 P1 P2 P3)) Wv Bv) Wo Bo) (1 : Fin 12) j
        + memberAt (d := ![16384, 512]) (valueProj (F := Ideal) (valueProj (gathered (stack4 P0 P1 P2 P3)) Wv Bv) Wo Bo) (2 : Fin 12) j)) = _
  rw [AttnRef.memberAt_stack4_0,
    pair_member P0 P1 P2 P3 Wv Wo Bv Bo (0 : Fin 12) (1 : Fin 4) rfl P1 (AttnRef.memberAt_stack4_1 P0 P1 P2 P3),
    pair_member P0 P1 P2 P3 Wv Wo Bv Bo (1 : Fin 12) (2 : Fin 4) rfl P2 (AttnRef.memberAt_stack4_2 P0 P1 P2 P3),
    pair_member P0 P1 P2 P3 Wv Wo Bv Bo (2 : Fin 12) (3 : Fin 4) rfl P3 (AttnRef.memberAt_stack4_3 P0 P1 P2 P3)]
  exact regroup _ _ _ _

/-- Member 1 of the attended stack. -/
theorem att_member1 :
    memberAt (d := ![16384, 512]) (attended (F := Ideal) (stack4 P0 P1 P2 P3) (valueProj (valueProj (gathered (stack4 P0 P1 P2 P3)) Wv Bv) Wo Bo)) (1 : Fin 4)
      = Attn.attRow P1 P0 P2 P3 Wv Bv Wo Bo (3 : Fin 12) (4 : Fin 12) (5 : Fin 12) := by
  funext j
  rw [AttnRef.memberAt_attended]
  show memberAt (d := ![16384, 512]) (stack4 (F := Ideal) P0 P1 P2 P3) (1 : Fin 4) j
      + (0 + (memberAt (d := ![16384, 512]) (valueProj (F := Ideal) (valueProj (gathered (stack4 P0 P1 P2 P3)) Wv Bv) Wo Bo) (3 : Fin 12) j
        + memberAt (d := ![16384, 512]) (valueProj (F := Ideal) (valueProj (gathered (stack4 P0 P1 P2 P3)) Wv Bv) Wo Bo) (4 : Fin 12) j
        + memberAt (d := ![16384, 512]) (valueProj (F := Ideal) (valueProj (gathered (stack4 P0 P1 P2 P3)) Wv Bv) Wo Bo) (5 : Fin 12) j)) = _
  rw [AttnRef.memberAt_stack4_1,
    pair_member P0 P1 P2 P3 Wv Wo Bv Bo (3 : Fin 12) (0 : Fin 4) rfl P0 (AttnRef.memberAt_stack4_0 P0 P1 P2 P3),
    pair_member P0 P1 P2 P3 Wv Wo Bv Bo (4 : Fin 12) (2 : Fin 4) rfl P2 (AttnRef.memberAt_stack4_2 P0 P1 P2 P3),
    pair_member P0 P1 P2 P3 Wv Wo Bv Bo (5 : Fin 12) (3 : Fin 4) rfl P3 (AttnRef.memberAt_stack4_3 P0 P1 P2 P3)]
  exact regroup _ _ _ _

/-- Member 2 of the attended stack. -/
theorem att_member2 :
    memberAt (d := ![16384, 512]) (attended (F := Ideal) (stack4 P0 P1 P2 P3) (valueProj (valueProj (gathered (stack4 P0 P1 P2 P3)) Wv Bv) Wo Bo)) (2 : Fin 4)
      = Attn.attRow P2 P0 P1 P3 Wv Bv Wo Bo (6 : Fin 12) (7 : Fin 12) (8 : Fin 12) := by
  funext j
  rw [AttnRef.memberAt_attended]
  show memberAt (d := ![16384, 512]) (stack4 (F := Ideal) P0 P1 P2 P3) (2 : Fin 4) j
      + (0 + (memberAt (d := ![16384, 512]) (valueProj (F := Ideal) (valueProj (gathered (stack4 P0 P1 P2 P3)) Wv Bv) Wo Bo) (6 : Fin 12) j
        + memberAt (d := ![16384, 512]) (valueProj (F := Ideal) (valueProj (gathered (stack4 P0 P1 P2 P3)) Wv Bv) Wo Bo) (7 : Fin 12) j
        + memberAt (d := ![16384, 512]) (valueProj (F := Ideal) (valueProj (gathered (stack4 P0 P1 P2 P3)) Wv Bv) Wo Bo) (8 : Fin 12) j)) = _
  rw [AttnRef.memberAt_stack4_2,
    pair_member P0 P1 P2 P3 Wv Wo Bv Bo (6 : Fin 12) (0 : Fin 4) rfl P0 (AttnRef.memberAt_stack4_0 P0 P1 P2 P3),
    pair_member P0 P1 P2 P3 Wv Wo Bv Bo (7 : Fin 12) (1 : Fin 4) rfl P1 (AttnRef.memberAt_stack4_1 P0 P1 P2 P3),
    pair_member P0 P1 P2 P3 Wv Wo Bv Bo (8 : Fin 12) (3 : Fin 4) rfl P3 (AttnRef.memberAt_stack4_3 P0 P1 P2 P3)]
  exact regroup _ _ _ _

/-- Member 3 of the attended stack. -/
theorem att_member3 :
    memberAt (d := ![16384, 512]) (attended (F := Ideal) (stack4 P0 P1 P2 P3) (valueProj (valueProj (gathered (stack4 P0 P1 P2 P3)) Wv Bv) Wo Bo)) (3 : Fin 4)
      = Attn.attRow P3 P0 P1 P2 Wv Bv Wo Bo (9 : Fin 12) (10 : Fin 12) (11 : Fin 12) := by
  funext j
  rw [AttnRef.memberAt_attended]
  show memberAt (d := ![16384, 512]) (stack4 (F := Ideal) P0 P1 P2 P3) (3 : Fin 4) j
      + (0 + (memberAt (d := ![16384, 512]) (valueProj (F := Ideal) (valueProj (gathered (stack4 P0 P1 P2 P3)) Wv Bv) Wo Bo) (9 : Fin 12) j
        + memberAt (d := ![16384, 512]) (valueProj (F := Ideal) (valueProj (gathered (stack4 P0 P1 P2 P3)) Wv Bv) Wo Bo) (10 : Fin 12) j
        + memberAt (d := ![16384, 512]) (valueProj (F := Ideal) (valueProj (gathered (stack4 P0 P1 P2 P3)) Wv Bv) Wo Bo) (11 : Fin 12) j)) = _
  rw [AttnRef.memberAt_stack4_3,
    pair_member P0 P1 P2 P3 Wv Wo Bv Bo (9 : Fin 12) (0 : Fin 4) rfl P0 (AttnRef.memberAt_stack4_0 P0 P1 P2 P3),
    pair_member P0 P1 P2 P3 Wv Wo Bv Bo (10 : Fin 12) (1 : Fin 4) rfl P1 (AttnRef.memberAt_stack4_1 P0 P1 P2 P3),
    pair_member P0 P1 P2 P3 Wv Wo Bv Bo (11 : Fin 12) (2 : Fin 4) rfl P2 (AttnRef.memberAt_stack4_2 P0 P1 P2 P3)]
  exact regroup _ _ _ _

end Whole

/-! ## The body's subtrees, named -/

/-- The time-series projection of the point's rows. -/
abbrev kP0 (x0 : Vec Ideal Cert.KernelIdeal.S256x256 .f32) (x4 : Vec Ideal Cert.KernelIdeal.S256x512 .bf16) (x5 : Vec Ideal Cert.KernelIdeal.S512 .f32) (x6 : Vec Ideal Cert.KernelIdeal.S512 .f32) (x7 : Vec Ideal Cert.KernelIdeal.S512 .f32) : FVec Ideal Cert.KernelIdeal.S256x512 .f32 :=
  k0_pay1 (F := Ideal) (View.ld x0 r0_0) (View.ld x4 r0_1) (View.ld x5 r0_2) (View.ld x6 r0_2) (View.ld x7 r0_2)
/-- The text projection. -/
abbrev kP1 (x1 : Vec Ideal Cert.KernelIdeal.S256x768 .f32) (x8 : Vec Ideal Cert.KernelIdeal.S768x512 .bf16) (x9 : Vec Ideal Cert.KernelIdeal.S512 .f32) (x10 : Vec Ideal Cert.KernelIdeal.S512 .f32) (x11 : Vec Ideal Cert.KernelIdeal.S512 .f32) : FVec Ideal Cert.KernelIdeal.S256x512 .f32 :=
  k0_pay4 (F := Ideal) (k0_pay2 (View.ld x1 r0_3)) (k0_pay3 (View.ld x8 r0_4)) (View.ld x9 r0_2) (View.ld x10 r0_2) (View.ld x11 r0_2)
/-- The fundamentals projection. -/
abbrev kP2 (x2 : Vec Ideal Cert.KernelIdeal.S256x128 .f32) (x12 : Vec Ideal Cert.KernelIdeal.S128x512 .bf16) (x13 : Vec Ideal Cert.KernelIdeal.S512 .f32) (x14 : Vec Ideal Cert.KernelIdeal.S512 .f32) (x15 : Vec Ideal Cert.KernelIdeal.S512 .f32) : FVec Ideal Cert.KernelIdeal.S256x512 .f32 :=
  k0_pay6 (F := Ideal) (k0_pay5 (View.ld x2 r0_5) (View.ld x12 r0_6) (View.ld x13 r0_2)) (View.ld x14 r0_2) (View.ld x15 r0_2)
/-- The network projection. -/
abbrev kP3 (x3 : Vec Ideal Cert.KernelIdeal.S256x256 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) : FVec Ideal Cert.KernelIdeal.S256x512 .f32 :=
  k0_pay10 (F := Ideal) (k0_pay7 (View.ld x3 r0_0) (View.ld x16 r0_1) (View.ld x17 r0_2)) (View.ld x18 r0_2) (View.ld x19 r0_2) (k0_pay8 (View.ld x3 r0_0) (View.ld x16 r0_1) (View.ld x17 r0_2)) (k0_pay9 (View.ld x3 r0_0) (View.ld x16 r0_1) (View.ld x17 r0_2))
/-- … and its narrow copy. -/
abbrev kP3b (x3 : Vec Ideal Cert.KernelIdeal.S256x256 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) : FVec Ideal Cert.KernelIdeal.S256x512 .bf16 :=
  k0_pay14 (F := Ideal) (k0_pay7 (View.ld x3 r0_0) (View.ld x16 r0_1) (View.ld x17 r0_2)) (View.ld x18 r0_2) (View.ld x19 r0_2) (k0_pay8 (View.ld x3 r0_0) (View.ld x16 r0_1) (View.ld x17 r0_2)) (k0_pay9 (View.ld x3 r0_0) (View.ld x16 r0_1) (View.ld x17 r0_2))

/-- The first query modality's attended tile. -/
abbrev kA0 (x0 : Vec Ideal Cert.KernelIdeal.S256x256 .f32) (x1 : Vec Ideal Cert.KernelIdeal.S256x768 .f32) (x2 : Vec Ideal Cert.KernelIdeal.S256x128 .f32) (x3 : Vec Ideal Cert.KernelIdeal.S256x256 .f32) (x4 : Vec Ideal Cert.KernelIdeal.S256x512 .bf16) (x5 : Vec Ideal Cert.KernelIdeal.S512 .f32) (x6 : Vec Ideal Cert.KernelIdeal.S512 .f32) (x7 : Vec Ideal Cert.KernelIdeal.S512 .f32) (x8 : Vec Ideal Cert.KernelIdeal.S768x512 .bf16) (x9 : Vec Ideal Cert.KernelIdeal.S512 .f32) (x10 : Vec Ideal Cert.KernelIdeal.S512 .f32) (x11 : Vec Ideal Cert.KernelIdeal.S512 .f32) (x12 : Vec Ideal Cert.KernelIdeal.S128x512 .bf16) (x13 : Vec Ideal Cert.KernelIdeal.S512 .f32) (x14 : Vec Ideal Cert.KernelIdeal.S512 .f32) (x15 : Vec Ideal Cert.KernelIdeal.S512 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) (x20 : Vec Ideal Cert.KernelIdeal.S12x512x512 .bf16) (x21 : Vec Ideal Cert.KernelIdeal.S12x512 .f32) (x22 : Vec Ideal Cert.KernelIdeal.S12x512x512 .bf16) (x23 : Vec Ideal Cert.KernelIdeal.S12x512 .f32) : FVec Ideal Cert.KernelIdeal.S256x512 .f32 :=
  k0_pay16 (F := Ideal) (k0_pay13 (kP2 x2 x12 x13 x14 x15)) (kP3b x3 x16 x17 x18 x19) (k0_pay15 (kP0 x0 x4 x5 x6 x7) (kP1 x1 x8 x9 x10 x11) (View.ld x20 r0_7) (View.ld x21 r0_8) (View.ld x22 r0_7) (View.ld x23 r0_8)) (View.ld x20 r0_9) (View.ld x21 r0_10) (View.ld x22 r0_9) (View.ld x23 r0_10) (View.ld x20 r0_11) (View.ld x21 r0_12) (View.ld x22 r0_11) (View.ld x23 r0_12)
/-- The second. -/
abbrev kA1 (x0 : Vec Ideal Cert.KernelIdeal.S256x256 .f32) (x1 : Vec Ideal Cert.KernelIdeal.S256x768 .f32) (x2 : Vec Ideal Cert.KernelIdeal.S256x128 .f32) (x3 : Vec Ideal Cert.KernelIdeal.S256x256 .f32) (x4 : Vec Ideal Cert.KernelIdeal.S256x512 .bf16) (x5 : Vec Ideal Cert.KernelIdeal.S512 .f32) (x6 : Vec Ideal Cert.KernelIdeal.S512 .f32) (x7 : Vec Ideal Cert.KernelIdeal.S512 .f32) (x8 : Vec Ideal Cert.KernelIdeal.S768x512 .bf16) (x9 : Vec Ideal Cert.KernelIdeal.S512 .f32) (x10 : Vec Ideal Cert.KernelIdeal.S512 .f32) (x11 : Vec Ideal Cert.KernelIdeal.S512 .f32) (x12 : Vec Ideal Cert.KernelIdeal.S128x512 .bf16) (x13 : Vec Ideal Cert.KernelIdeal.S512 .f32) (x14 : Vec Ideal Cert.KernelIdeal.S512 .f32) (x15 : Vec Ideal Cert.KernelIdeal.S512 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) (x20 : Vec Ideal Cert.KernelIdeal.S12x512x512 .bf16) (x21 : Vec Ideal Cert.KernelIdeal.S12x512 .f32) (x22 : Vec Ideal Cert.KernelIdeal.S12x512x512 .bf16) (x23 : Vec Ideal Cert.KernelIdeal.S12x512 .f32) : FVec Ideal Cert.KernelIdeal.S256x512 .f32 :=
  k0_pay20 (F := Ideal) (kP3b x3 x16 x17 x18 x19) (k0_pay18 (kP1 x1 x8 x9 x10 x11) (k0_pay11 (kP0 x0 x4 x5 x6 x7)) (View.ld x20 r0_14) (View.ld x21 r0_15) (View.ld x22 r0_14) (View.ld x23 r0_15)) (k0_pay19 (k0_pay13 (kP2 x2 x12 x13 x14 x15)) (View.ld x20 r0_16) (View.ld x21 r0_17) (View.ld x22 r0_16)) (View.ld x23 r0_17) (View.ld x20 r0_18) (View.ld x21 r0_19) (View.ld x22 r0_18) (View.ld x23 r0_19)
/-- The third. -/
abbrev kA2 (x0 : Vec Ideal Cert.KernelIdeal.S256x256 .f32) (x1 : Vec Ideal Cert.KernelIdeal.S256x768 .f32) (x2 : Vec Ideal Cert.KernelIdeal.S256x128 .f32) (x3 : Vec Ideal Cert.KernelIdeal.S256x256 .f32) (x4 : Vec Ideal Cert.KernelIdeal.S256x512 .bf16) (x5 : Vec Ideal Cert.KernelIdeal.S512 .f32) (x6 : Vec Ideal Cert.KernelIdeal.S512 .f32) (x7 : Vec Ideal Cert.KernelIdeal.S512 .f32) (x8 : Vec Ideal Cert.KernelIdeal.S768x512 .bf16) (x9 : Vec Ideal Cert.KernelIdeal.S512 .f32) (x10 : Vec Ideal Cert.KernelIdeal.S512 .f32) (x11 : Vec Ideal Cert.KernelIdeal.S512 .f32) (x12 : Vec Ideal Cert.KernelIdeal.S128x512 .bf16) (x13 : Vec Ideal Cert.KernelIdeal.S512 .f32) (x14 : Vec Ideal Cert.KernelIdeal.S512 .f32) (x15 : Vec Ideal Cert.KernelIdeal.S512 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) (x20 : Vec Ideal Cert.KernelIdeal.S12x512x512 .bf16) (x21 : Vec Ideal Cert.KernelIdeal.S12x512 .f32) (x22 : Vec Ideal Cert.KernelIdeal.S12x512x512 .bf16) (x23 : Vec Ideal Cert.KernelIdeal.S12x512 .f32) : FVec Ideal Cert.KernelIdeal.S256x512 .f32 :=
  k0_pay25 (F := Ideal) (k0_pay23 (kP2 x2 x12 x13 x14 x15) (k0_pay12 (kP1 x1 x8 x9 x10 x11)) (k0_pay22 (k0_pay11 (kP0 x0 x4 x5 x6 x7)) (View.ld x20 r0_21) (View.ld x21 r0_22)) (View.ld x22 r0_21) (View.ld x23 r0_22) (View.ld x20 r0_23) (View.ld x21 r0_24) (View.ld x22 r0_23) (View.ld x23 r0_24)) (k0_pay24 (kP3b x3 x16 x17 x18 x19) (View.ld x20 r0_25) (View.ld x21 r0_26)) (View.ld x22 r0_25) (View.ld x23 r0_26)
/-- The fourth. -/
abbrev kA3 (x0 : Vec Ideal Cert.KernelIdeal.S256x256 .f32) (x1 : Vec Ideal Cert.KernelIdeal.S256x768 .f32) (x2 : Vec Ideal Cert.KernelIdeal.S256x128 .f32) (x3 : Vec Ideal Cert.KernelIdeal.S256x256 .f32) (x4 : Vec Ideal Cert.KernelIdeal.S256x512 .bf16) (x5 : Vec Ideal Cert.KernelIdeal.S512 .f32) (x6 : Vec Ideal Cert.KernelIdeal.S512 .f32) (x7 : Vec Ideal Cert.KernelIdeal.S512 .f32) (x8 : Vec Ideal Cert.KernelIdeal.S768x512 .bf16) (x9 : Vec Ideal Cert.KernelIdeal.S512 .f32) (x10 : Vec Ideal Cert.KernelIdeal.S512 .f32) (x11 : Vec Ideal Cert.KernelIdeal.S512 .f32) (x12 : Vec Ideal Cert.KernelIdeal.S128x512 .bf16) (x13 : Vec Ideal Cert.KernelIdeal.S512 .f32) (x14 : Vec Ideal Cert.KernelIdeal.S512 .f32) (x15 : Vec Ideal Cert.KernelIdeal.S512 .f32) (x16 : Vec Ideal Cert.KernelIdeal.S256x512 .bf16) (x17 : Vec Ideal Cert.KernelIdeal.S512 .f32) (x18 : Vec Ideal Cert.KernelIdeal.S512 .f32) (x19 : Vec Ideal Cert.KernelIdeal.S512 .f32) (x20 : Vec Ideal Cert.KernelIdeal.S12x512x512 .bf16) (x21 : Vec Ideal Cert.KernelIdeal.S12x512 .f32) (x22 : Vec Ideal Cert.KernelIdeal.S12x512x512 .bf16) (x23 : Vec Ideal Cert.KernelIdeal.S12x512 .f32) : FVec Ideal Cert.KernelIdeal.S256x512 .f32 :=
  k0_pay29 (F := Ideal) (k0_pay13 (kP2 x2 x12 x13 x14 x15)) (k0_pay27 (kP3 x3 x16 x17 x18 x19) (k0_pay11 (kP0 x0 x4 x5 x6 x7)) (View.ld x20 r0_28) (View.ld x21 r0_29) (View.ld x22 r0_28) (View.ld x23 r0_29)) (k0_pay28 (k0_pay12 (kP1 x1 x8 x9 x10 x11)) (View.ld x20 r0_30)) (View.ld x21 r0_31) (View.ld x22 r0_30) (View.ld x23 r0_31) (View.ld x20 r0_32) (View.ld x21 r0_33) (View.ld x22 r0_32) (View.ld x23 r0_33)

/-! ## The four attended tiles -/

section Core
variable {r0 : Nat} {hr : r0 + 256 ≤ 16384} {x0 : Vec Ideal Cert.KernelIdeal.S256x256 .f32} {x1 : Vec Ideal Cert.KernelIdeal.S256x768 .f32} {x2 : Vec Ideal Cert.KernelIdeal.S256x128 .f32} {x3 : Vec Ideal Cert.KernelIdeal.S256x256 .f32} {x4 : Vec Ideal Cert.KernelIdeal.S256x512 .bf16} {x5 : Vec Ideal Cert.KernelIdeal.S512 .f32} {x6 : Vec Ideal Cert.KernelIdeal.S512 .f32} {x7 : Vec Ideal Cert.KernelIdeal.S512 .f32} {x8 : Vec Ideal Cert.KernelIdeal.S768x512 .bf16} {x9 : Vec Ideal Cert.KernelIdeal.S512 .f32} {x10 : Vec Ideal Cert.KernelIdeal.S512 .f32} {x11 : Vec Ideal Cert.KernelIdeal.S512 .f32} {x12 : Vec Ideal Cert.KernelIdeal.S128x512 .bf16} {x13 : Vec Ideal Cert.KernelIdeal.S512 .f32} {x14 : Vec Ideal Cert.KernelIdeal.S512 .f32} {x15 : Vec Ideal Cert.KernelIdeal.S512 .f32} {x16 : Vec Ideal Cert.KernelIdeal.S256x512 .bf16} {x17 : Vec Ideal Cert.KernelIdeal.S512 .f32} {x18 : Vec Ideal Cert.KernelIdeal.S512 .f32} {x19 : Vec Ideal Cert.KernelIdeal.S512 .f32} {x20 : Vec Ideal Cert.KernelIdeal.S12x512x512 .bf16} {x21 : Vec Ideal Cert.KernelIdeal.S12x512 .f32} {x22 : Vec Ideal Cert.KernelIdeal.S12x512x512 .bf16} {x23 : Vec Ideal Cert.KernelIdeal.S12x512 .f32} {x24 : Vec Ideal Cert.KernelIdeal.S2048x512 .bf16} {x25 : Vec Ideal Cert.KernelIdeal.S512 .f32} {x26 : Vec Ideal Cert.KernelIdeal.S512x4 .bf16} {x27 : Vec Ideal Cert.KernelIdeal.S4 .f32} {x28 : Vec Ideal Cert.KernelIdeal.S2048x512 .bf16} {x29 : Vec Ideal Cert.KernelIdeal.S512 .f32} {x30 : Vec Ideal Cert.KernelIdeal.S2048x512 .bf16} {x31 : Vec Ideal Cert.KernelIdeal.S512 .f32} {x32 : Vec Ideal Cert.KernelIdeal.S512x512 .bf16} {x33 : Vec Ideal Cert.KernelIdeal.S512 .f32} {x34 : Vec Ideal Cert.KernelIdeal.S512 .f32} {x35 : Vec Ideal Cert.KernelIdeal.S512 .f32}
    {a0 : (⟨2, ![16384, 256]⟩ : Shape).Idx → EReal} {a1 : (⟨2, ![16384, 768]⟩ : Shape).Idx → EReal} {a2 : (⟨2, ![16384, 128]⟩ : Shape).Idx → EReal} {a3 : (⟨2, ![16384, 256]⟩ : Shape).Idx → EReal} {a4 : (⟨2, ![256, 512]⟩ : Shape).Idx → EReal} {a5 : (⟨1, ![512]⟩ : Shape).Idx → EReal} {a6 : (⟨1, ![512]⟩ : Shape).Idx → EReal} {a7 : (⟨1, ![512]⟩ : Shape).Idx → EReal} {a8 : (⟨2, ![768, 512]⟩ : Shape).Idx → EReal} {a9 : (⟨1, ![512]⟩ : Shape).Idx → EReal} {a10 : (⟨1, ![512]⟩ : Shape).Idx → EReal} {a11 : (⟨1, ![512]⟩ : Shape).Idx → EReal} {a12 : (⟨2, ![128, 512]⟩ : Shape).Idx → EReal} {a13 : (⟨1, ![512]⟩ : Shape).Idx → EReal} {a14 : (⟨1, ![512]⟩ : Shape).Idx → EReal} {a15 : (⟨1, ![512]⟩ : Shape).Idx → EReal} {a16 : (⟨2, ![256, 512]⟩ : Shape).Idx → EReal} {a17 : (⟨1, ![512]⟩ : Shape).Idx → EReal} {a18 : (⟨1, ![512]⟩ : Shape).Idx → EReal} {a19 : (⟨1, ![512]⟩ : Shape).Idx → EReal} {a20 : (⟨3, ![12, 512, 512]⟩ : Shape).Idx → EReal} {a21 : (⟨2, ![12, 512]⟩ : Shape).Idx → EReal} {a22 : (⟨3, ![12, 512, 512]⟩ : Shape).Idx → EReal} {a23 : (⟨2, ![12, 512]⟩ : Shape).Idx → EReal} {a24 : (⟨2, ![2048, 512]⟩ : Shape).Idx → EReal} {a25 : (⟨1, ![512]⟩ : Shape).Idx → EReal} {a26 : (⟨2, ![512, 4]⟩ : Shape).Idx → EReal} {a27 : (⟨1, ![4]⟩ : Shape).Idx → EReal} {a28 : (⟨2, ![2048, 512]⟩ : Shape).Idx → EReal} {a29 : (⟨1, ![512]⟩ : Shape).Idx → EReal} {a30 : (⟨2, ![2048, 512]⟩ : Shape).Idx → EReal} {a31 : (⟨1, ![512]⟩ : Shape).Idx → EReal} {a32 : (⟨2, ![512, 512]⟩ : Shape).Idx → EReal} {a33 : (⟨1, ![512]⟩ : Shape).Idx → EReal} {a34 : (⟨1, ![512]⟩ : Shape).Idx → EReal} {a35 : (⟨1, ![512]⟩ : Shape).Idx → EReal}

/-- The loaded blocks of pair 0 are slab 0 of the four stacked parameters. -/
theorem H0 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_7) (View.ld x21 r0_8) (View.ld x22 r0_7) (View.ld x23 r0_8) a20 a21 a22 a23 (0 : Fin 12) :=
  ⟨L.slab20_0, L.slab21_0, L.slab22_0, L.slab23_0⟩
/-- The loaded blocks of pair 1 are slab 1 of the four stacked parameters. -/
theorem H1 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_9) (View.ld x21 r0_10) (View.ld x22 r0_9) (View.ld x23 r0_10) a20 a21 a22 a23 (1 : Fin 12) :=
  ⟨L.slab20_1, L.slab21_1, L.slab22_1, L.slab23_1⟩
/-- The loaded blocks of pair 2 are slab 2 of the four stacked parameters. -/
theorem H2 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_11) (View.ld x21 r0_12) (View.ld x22 r0_11) (View.ld x23 r0_12) a20 a21 a22 a23 (2 : Fin 12) :=
  ⟨L.slab20_2, L.slab21_2, L.slab22_2, L.slab23_2⟩
/-- The loaded blocks of pair 3 are slab 3 of the four stacked parameters. -/
theorem H3 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_14) (View.ld x21 r0_15) (View.ld x22 r0_14) (View.ld x23 r0_15) a20 a21 a22 a23 (3 : Fin 12) :=
  ⟨L.slab20_3, L.slab21_3, L.slab22_3, L.slab23_3⟩
/-- The loaded blocks of pair 4 are slab 4 of the four stacked parameters. -/
theorem H4 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_16) (View.ld x21 r0_17) (View.ld x22 r0_16) (View.ld x23 r0_17) a20 a21 a22 a23 (4 : Fin 12) :=
  ⟨L.slab20_4, L.slab21_4, L.slab22_4, L.slab23_4⟩
/-- The loaded blocks of pair 5 are slab 5 of the four stacked parameters. -/
theorem H5 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_18) (View.ld x21 r0_19) (View.ld x22 r0_18) (View.ld x23 r0_19) a20 a21 a22 a23 (5 : Fin 12) :=
  ⟨L.slab20_5, L.slab21_5, L.slab22_5, L.slab23_5⟩
/-- The loaded blocks of pair 6 are slab 6 of the four stacked parameters. -/
theorem H6 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_21) (View.ld x21 r0_22) (View.ld x22 r0_21) (View.ld x23 r0_22) a20 a21 a22 a23 (6 : Fin 12) :=
  ⟨L.slab20_6, L.slab21_6, L.slab22_6, L.slab23_6⟩
/-- The loaded blocks of pair 7 are slab 7 of the four stacked parameters. -/
theorem H7 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_23) (View.ld x21 r0_24) (View.ld x22 r0_23) (View.ld x23 r0_24) a20 a21 a22 a23 (7 : Fin 12) :=
  ⟨L.slab20_7, L.slab21_7, L.slab22_7, L.slab23_7⟩
/-- The loaded blocks of pair 8 are slab 8 of the four stacked parameters. -/
theorem H8 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_25) (View.ld x21 r0_26) (View.ld x22 r0_25) (View.ld x23 r0_26) a20 a21 a22 a23 (8 : Fin 12) :=
  ⟨L.slab20_8, L.slab21_8, L.slab22_8, L.slab23_8⟩
/-- The loaded blocks of pair 9 are slab 9 of the four stacked parameters. -/
theorem H9 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_28) (View.ld x21 r0_29) (View.ld x22 r0_28) (View.ld x23 r0_29) a20 a21 a22 a23 (9 : Fin 12) :=
  ⟨L.slab20_9, L.slab21_9, L.slab22_9, L.slab23_9⟩
/-- The loaded blocks of pair 10 are slab 10 of the four stacked parameters. -/
theorem H10 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_30) (View.ld x21 r0_31) (View.ld x22 r0_30) (View.ld x23 r0_31) a20 a21 a22 a23 (10 : Fin 12) :=
  ⟨L.slab20_10, L.slab21_10, L.slab22_10, L.slab23_10⟩
/-- The loaded blocks of pair 11 are slab 11 of the four stacked parameters. -/
theorem H11 (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) : Attn.Slabs (View.ld x20 r0_32) (View.ld x21 r0_33) (View.ld x22 r0_32) (View.ld x23 r0_33) a20 a21 a22 a23 (11 : Fin 12) :=
  ⟨L.slab20_11, L.slab21_11, L.slab22_11, L.slab23_11⟩

/-- A tile of member i of a stack is a tile of slab i. -/
theorem slab_of_member {i : Fin 4} {x : FVec Ideal Cert.KernelIdeal.S256x512 .f32} {X : FVec Ideal Cert.ReferenceIdeal.S4x16384x512 .f32}
    (h : IsTile r0 hr x (memberAt (d := ![16384, 512]) X i)) : IsSlabTile i r0 hr x X := fun p l => by
  rw [h p l, memberAt_apply, cons_ix2]

/-- The four attended tiles are the rows [r0, r0 + 256) of the four members of the attended stack. -/
theorem core (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) :
    IsSlabTile (⟨0, by omega⟩ : Fin 4) r0 hr (kA0 x0 x1 x2 x3 x4 x5 x6 x7 x8 x9 x10 x11 x12 x13 x14 x15 x16 x17 x18 x19 x20 x21 x22 x23) (Spec.attRes (F := Ideal) a0 a1 a2 a3 a4 a5 a6 a7 a8 a9 a10 a11 a12 a13 a14 a15 a16 a17 a18 a19 a20 a21 a22 a23) ∧ IsSlabTile (⟨1, by omega⟩ : Fin 4) r0 hr (kA1 x0 x1 x2 x3 x4 x5 x6 x7 x8 x9 x10 x11 x12 x13 x14 x15 x16 x17 x18 x19 x20 x21 x22 x23) (Spec.attRes (F := Ideal) a0 a1 a2 a3 a4 a5 a6 a7 a8 a9 a10 a11 a12 a13 a14 a15 a16 a17 a18 a19 a20 a21 a22 a23)
      ∧ IsSlabTile (⟨2, by omega⟩ : Fin 4) r0 hr (kA2 x0 x1 x2 x3 x4 x5 x6 x7 x8 x9 x10 x11 x12 x13 x14 x15 x16 x17 x18 x19 x20 x21 x22 x23) (Spec.attRes (F := Ideal) a0 a1 a2 a3 a4 a5 a6 a7 a8 a9 a10 a11 a12 a13 a14 a15 a16 a17 a18 a19 a20 a21 a22 a23) ∧ IsSlabTile (⟨3, by omega⟩ : Fin 4) r0 hr (kA3 x0 x1 x2 x3 x4 x5 x6 x7 x8 x9 x10 x11 x12 x13 x14 x15 x16 x17 x18 x19 x20 x21 x22 x23) (Spec.attRes (F := Ideal) a0 a1 a2 a3 a4 a5 a6 a7 a8 a9 a10 a11 a12 a13 a14 a15 a16 a17 a18 a19 a20 a21 a22 a23) := by
  have e5 := L.all5; subst e5
  have e6 := L.all6; subst e6
  have e7 := L.all7; subst e7
  have e9 := L.all9; subst e9
  have e10 := L.all10; subst e10
  have e11 := L.all11; subst e11
  have e13 := L.all13; subst e13
  have e14 := L.all14; subst e14
  have e15 := L.all15; subst e15
  have e17 := L.all17; subst e17
  have e18 := L.all18; subst e18
  have e19 := L.all19; subst e19
  have h0f : IsTile r0 hr (kP0 x0 x4 x5 x6 x7) (Spec.proj0 (F := Ideal) a0 a4 (View.ld x5 r0_2) (View.ld x6 r0_2) (View.ld x7 r0_2)) :=
    Cert.Tile.Proj.proj_ts_f32 (View.ld x0 r0_0) a0 L.row0 (View.ld x4 r0_1) a4 (fun i => congrFun L.all4 i) _ _ _
  have h0b : IsTile r0 hr (k0_pay11 (F := Ideal) (kP0 x0 x4 x5 x6 x7)) (Spec.proj0 (F := Ideal) a0 a4 (View.ld x5 r0_2) (View.ld x6 r0_2) (View.ld x7 r0_2)) :=
    Cert.Tile.Proj.proj_ts_bf16 (View.ld x0 r0_0) a0 L.row0 (View.ld x4 r0_1) a4 (fun i => congrFun L.all4 i) _ _ _
  have h1f : IsTile r0 hr (kP1 x1 x8 x9 x10 x11) (Spec.proj1 (F := Ideal) a1 a8 (View.ld x9 r0_2) (View.ld x10 r0_2) (View.ld x11 r0_2)) :=
    Cert.Tile.Proj.proj_text_f32 (View.ld x1 r0_3) a1 L.row1 (View.ld x8 r0_4) a8 (fun i => congrFun L.all8 i) _ _ _
  have h1b : IsTile r0 hr (k0_pay12 (F := Ideal) (kP1 x1 x8 x9 x10 x11)) (Spec.proj1 (F := Ideal) a1 a8 (View.ld x9 r0_2) (View.ld x10 r0_2) (View.ld x11 r0_2)) :=
    Cert.Tile.Proj.proj_text_bf16 (View.ld x1 r0_3) a1 L.row1 (View.ld x8 r0_4) a8 (fun i => congrFun L.all8 i) _ _ _
  have h2f : IsTile r0 hr (kP2 x2 x12 x13 x14 x15) (Spec.proj2 (F := Ideal) a2 a12 (View.ld x13 r0_2) (View.ld x14 r0_2) (View.ld x15 r0_2)) :=
    Cert.Tile.Proj.proj_fund_f32 (View.ld x2 r0_5) a2 L.row2 (View.ld x12 r0_6) a12 (fun i => congrFun L.all12 i) _ _ _
  have h2b : IsTile r0 hr (k0_pay13 (F := Ideal) (kP2 x2 x12 x13 x14 x15)) (Spec.proj2 (F := Ideal) a2 a12 (View.ld x13 r0_2) (View.ld x14 r0_2) (View.ld x15 r0_2)) :=
    Cert.Tile.Proj.proj_fund_bf16 (View.ld x2 r0_5) a2 L.row2 (View.ld x12 r0_6) a12 (fun i => congrFun L.all12 i) _ _ _
  have h3f : IsTile r0 hr (kP3 x3 x16 x17 x18 x19) (Spec.proj3 (F := Ideal) a3 a16 (View.ld x17 r0_2) (View.ld x18 r0_2) (View.ld x19 r0_2)) :=
    Cert.Tile.Proj.proj_net_f32 (View.ld x3 r0_0) a3 L.row3 (View.ld x16 r0_1) a16 (fun i => congrFun L.all16 i) _ _ _
  have h3b : IsTile r0 hr (kP3b x3 x16 x17 x18 x19) (Spec.proj3 (F := Ideal) a3 a16 (View.ld x17 r0_2) (View.ld x18 r0_2) (View.ld x19 r0_2)) :=
    Cert.Tile.Proj.proj_net_bf16 (View.ld x3 r0_0) a3 L.row3 (View.ld x16 r0_1) a16 (fun i => congrFun L.all16 i) _ _ _
  have t0 : IsTile r0 hr (kA0 x0 x1 x2 x3 x4 x5 x6 x7 x8 x9 x10 x11 x12 x13 x14 x15 x16 x17 x18 x19 x20 x21 x22 x23) (Attn.attRow (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj2 (F := Ideal) a2 a12 (View.ld x13 r0_2) (View.ld x14 r0_2) (View.ld x15 r0_2)) (Spec.proj3 (F := Ideal) a3 a16 (View.ld x17 r0_2) (View.ld x18 r0_2) (View.ld x19 r0_2)) a20 a21 a22 a23 (0 : Fin 12) (1 : Fin 12) (2 : Fin 12)) :=
    Attn.pay16_tile _ _ _ h2b h3b (Attn.pay15_tile _ _ h0f h1f _ _ _ _ (H0 L)) _ _ _ _ _ _ _ _ (H1 L) (H2 L)
  have t1 : IsTile r0 hr (kA1 x0 x1 x2 x3 x4 x5 x6 x7 x8 x9 x10 x11 x12 x13 x14 x15 x16 x17 x18 x19 x20 x21 x22 x23) (Attn.attRow (Spec.proj1 (F := Ideal) a1 a8 (View.ld x9 r0_2) (View.ld x10 r0_2) (View.ld x11 r0_2)) (Spec.proj0 (F := Ideal) a0 a4 (View.ld x5 r0_2) (View.ld x6 r0_2) (View.ld x7 r0_2)) (Spec.proj2 (F := Ideal) a2 a12 (View.ld x13 r0_2) (View.ld x14 r0_2) (View.ld x15 r0_2)) (Spec.proj3 (F := Ideal) a3 a16 (View.ld x17 r0_2) (View.ld x18 r0_2) (View.ld x19 r0_2)) a20 a21 a22 a23 (3 : Fin 12) (4 : Fin 12) (5 : Fin 12)) :=
    Attn.pay20_tile _ _ _ _ h3b (Attn.pay18_tile _ _ h1f h0b _ _ _ _ (H3 L))
      (Attn.pay19_tile _ h2b _ _ _ L.slab20_4 L.slab21_4 L.slab22_4) L.slab23_4 _ _ _ _ (H5 L)
  have t2 : IsTile r0 hr (kA2 x0 x1 x2 x3 x4 x5 x6 x7 x8 x9 x10 x11 x12 x13 x14 x15 x16 x17 x18 x19 x20 x21 x22 x23) (Attn.attRow (Spec.proj2 (F := Ideal) a2 a12 (View.ld x13 r0_2) (View.ld x14 r0_2) (View.ld x15 r0_2)) (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj3 (F := Ideal) a3 a16 (View.ld x17 r0_2) (View.ld x18 r0_2) (View.ld x19 r0_2)) a20 a21 a22 a23 (6 : Fin 12) (7 : Fin 12) (8 : Fin 12)) :=
    Attn.pay25_tile _ _ (Attn.pay23_tile _ _ _ h2f h1b (Attn.pay22_tile _ h0b _ _ L.slab20_6 L.slab21_6) _ _ L.slab22_6 L.slab23_6 _ _ _ _ (H7 L))
      (Attn.pay24_tile _ h3b _ _ L.slab20_8 L.slab21_8) _ _ L.slab22_8 L.slab23_8
  have t3 : IsTile r0 hr (kA3 x0 x1 x2 x3 x4 x5 x6 x7 x8 x9 x10 x11 x12 x13 x14 x15 x16 x17 x18 x19 x20 x21 x22 x23) (Attn.attRow (Spec.proj3 (F := Ideal) a3 a16 (View.ld x17 r0_2) (View.ld x18 r0_2) (View.ld x19 r0_2)) (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj2 (F := Ideal) a2 a12 (View.ld x13 r0_2) (View.ld x14 r0_2) (View.ld x15 r0_2)) a20 a21 a22 a23 (9 : Fin 12) (10 : Fin 12) (11 : Fin 12)) :=
    Attn.pay29_tile _ _ _ h2b (Attn.pay27_tile _ _ h3f h0b _ _ _ _ (H9 L)) (Attn.pay28_tile _ h1b _ L.slab20_10)
      _ _ _ L.slab21_10 L.slab22_10 L.slab23_10 _ _ _ _ (H11 L)
  refine ⟨slab_of_member ?_, slab_of_member ?_, slab_of_member ?_, slab_of_member ?_⟩
  · exact (att_member0 (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj2 (F := Ideal) a2 a12 (View.ld x13 r0_2) (View.ld x14 r0_2) (View.ld x15 r0_2)) (Spec.proj3 (F := Ideal) a3 a16 (View.ld x17 r0_2) (View.ld x18 r0_2) (View.ld x19 r0_2)) a20 a22 a21 a23).symm ▸ t0
  · exact (att_member1 (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj2 (F := Ideal) a2 a12 (View.ld x13 r0_2) (View.ld x14 r0_2) (View.ld x15 r0_2)) (Spec.proj3 (F := Ideal) a3 a16 (View.ld x17 r0_2) (View.ld x18 r0_2) (View.ld x19 r0_2)) a20 a22 a21 a23).symm ▸ t1
  · exact (att_member2 (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj2 (F := Ideal) a2 a12 (View.ld x13 r0_2) (View.ld x14 r0_2) (View.ld x15 r0_2)) (Spec.proj3 (F := Ideal) a3 a16 (View.ld x17 r0_2) (View.ld x18 r0_2) (View.ld x19 r0_2)) a20 a22 a21 a23).symm ▸ t2
  · exact (att_member3 (Spec.proj0 (F := Ideal) a0 a4 (View.ld x5 r0_2) (View.ld x6 r0_2) (View.ld x7 r0_2)) (Spec.proj1 (F := Ideal) a1 a8 (View.ld x9 r0_2) (View.ld x10 r0_2) (View.ld x11 r0_2)) (Spec.proj2 (F := Ideal) a2 a12 (View.ld x13 r0_2) (View.ld x14 r0_2) (View.ld x15 r0_2)) (Spec.proj3 (F := Ideal) a3 a16 (View.ld x17 r0_2) (View.ld x18 r0_2) (View.ld x19 r0_2)) a20 a22 a21 a23).symm ▸ t3

/-! ## The three stored values -/

theorem hz2 : (![0, 0] : Fin 2 → Nat) = fun _ => 0 := funext fun a => by fin_cases a <;> rfl

/-- The stored output block is rows [r0, r0 + 256) of the fused output. -/
theorem out_at (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) (q : Fin 256) (l : Fin 512) :
    out0_36 (F := Ideal) x0 x1 x2 x3 x4 x5 x6 x7 x8 x9 x10 x11 x12 x13 x14 x15 x16 x17 x18 x19 x20 x21 x22 x23 x24 x25 x26 x27 x28 x29 x30 x31 x32 x33 x34 x35 (ix2 q l)
      = Spec.outRes (F := Ideal) a0 a1 a2 a3 a4 a5 a6 a7 a8 a9 a10 a11 a12 a13 a14 a15 a16 a17 a18 a19 a20 a21 a22 a23 a28 a29 a30 a31 a32 a33 a34 a35 (ix2 ⟨r0 + q.val, by omega⟩ l) := by
  obtain ⟨s0, s1, s2, s3⟩ := core L
  have h := Cert.Fusion.Tail.out_tile hr (Spec.attRes (F := Ideal) a0 a1 a2 a3 a4 a5 a6 a7 a8 a9 a10 a11 a12 a13 a14 a15 a16 a17 a18 a19 a20 a21 a22 a23) (k0_pay31 (F := Ideal) (kA0 x0 x1 x2 x3 x4 x5 x6 x7 x8 x9 x10 x11 x12 x13 x14 x15 x16 x17 x18 x19 x20 x21 x22 x23)) (k0_pay32 (F := Ideal) (kA1 x0 x1 x2 x3 x4 x5 x6 x7 x8 x9 x10 x11 x12 x13 x14 x15 x16 x17 x18 x19 x20 x21 x22 x23))
    (k0_pay33 (F := Ideal) (kA2 x0 x1 x2 x3 x4 x5 x6 x7 x8 x9 x10 x11 x12 x13 x14 x15 x16 x17 x18 x19 x20 x21 x22 x23)) (k0_pay34 (F := Ideal) (kA3 x0 x1 x2 x3 x4 x5 x6 x7 x8 x9 x10 x11 x12 x13 x14 x15 x16 x17 x18 x19 x20 x21 x22 x23))
    (Cert.Fusion.Tail.pay31_slab s0) (Cert.Fusion.Tail.pay32_slab s1) (Cert.Fusion.Tail.pay33_slab s2) (Cert.Fusion.Tail.pay34_slab s3)
    (View.ld x28 r0_35) (View.ld x28 r0_36) (View.ld x28 r0_37) (View.ld x28 r0_38) a28 L.blk28_0 L.blk28_1 L.blk28_2 L.blk28_3 (View.ld x29 r0_2) a29 L.all29
    (View.ld x30 r0_35) (View.ld x30 r0_36) (View.ld x30 r0_37) (View.ld x30 r0_38) a30 L.blk30_0 L.blk30_1 L.blk30_2 L.blk30_3 (View.ld x31 r0_2) a31 L.all31
    (View.ld x32 r0_41) a32 L.all32 (View.ld x33 r0_2) a33 L.all33 (View.ld x34 r0_2) a34 L.all34 (View.ld x35 r0_2) a35 L.all35
  unfold out0_36
  rw [View.canon_unit_zero hz2]
  exact h q l

/-- The stored importance block is rows [r0, r0 + 256) of the importance weights. -/
theorem imp_at (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) (q : Fin 256) (l : Fin 4) :
    out0_38 (F := Ideal) x0 x1 x2 x3 x4 x5 x6 x7 x8 x9 x10 x11 x12 x13 x14 x15 x16 x17 x18 x19 x20 x21 x22 x23 x24 x25 x26 x27 x28 x29 x30 x31 x32 x33 x34 x35 (ix2 q l)
      = Spec.impRes (F := Ideal) a0 a1 a2 a3 a4 a5 a6 a7 a8 a9 a10 a11 a12 a13 a14 a15 a16 a17 a18 a19 a20 a21 a22 a23 a24 a25 a26 a27 (ix2 ⟨r0 + q.val, by omega⟩ l) := by
  obtain ⟨s0, s1, s2, s3⟩ := core L
  have h := Cert.Fusion.Tail.importance_tile hr (Spec.attRes (F := Ideal) a0 a1 a2 a3 a4 a5 a6 a7 a8 a9 a10 a11 a12 a13 a14 a15 a16 a17 a18 a19 a20 a21 a22 a23) (kA3 x0 x1 x2 x3 x4 x5 x6 x7 x8 x9 x10 x11 x12 x13 x14 x15 x16 x17 x18 x19 x20 x21 x22 x23) (k0_pay31 (F := Ideal) (kA0 x0 x1 x2 x3 x4 x5 x6 x7 x8 x9 x10 x11 x12 x13 x14 x15 x16 x17 x18 x19 x20 x21 x22 x23)) (k0_pay32 (F := Ideal) (kA1 x0 x1 x2 x3 x4 x5 x6 x7 x8 x9 x10 x11 x12 x13 x14 x15 x16 x17 x18 x19 x20 x21 x22 x23))
    (k0_pay33 (F := Ideal) (kA2 x0 x1 x2 x3 x4 x5 x6 x7 x8 x9 x10 x11 x12 x13 x14 x15 x16 x17 x18 x19 x20 x21 x22 x23))
    (Cert.Fusion.Tail.pay31_slab s0) (Cert.Fusion.Tail.pay32_slab s1) (Cert.Fusion.Tail.pay33_slab s2) s3
    (View.ld x24 r0_35) (View.ld x24 r0_36) (View.ld x24 r0_37) (View.ld x24 r0_38) a24 L.blk24_0 L.blk24_1 L.blk24_2 L.blk24_3 (View.ld x25 r0_2) a25 L.all25 (View.ld x26 r0_39) a26 L.all26 (View.ld x27 r0_40) a27 L.all27
  unfold out0_38
  rw [View.canon_unit_zero hz2]
  exact h q l

/-- The stored attended block — four stores, one per query modality — is rows [r0, r0 + 256) of each member of the
    attended stack: every store's payload is the function (i, p, l) ↦ attended (i, r0 + p, l) on its rectangle. -/
theorem att_at (L : Leaves r0 hr x0 x1 x2 x3 x4 x5 x6 x7 x8 x9 x10 x11 x12 x13 x14 x15 x16 x17 x18 x19 x20 x21 x22 x23 x24 x25 x26 x27 x28 x29 x30 x31 x32 x33 x34 x35 a0 a1 a2 a3 a4 a5 a6 a7 a8 a9 a10 a11 a12 a13 a14 a15 a16 a17 a18 a19 a20 a21 a22 a23 a24 a25 a26 a27 a28 a29 a30 a31 a32 a33 a34 a35) (i : Fin 4) (q : Fin 256) (l : Fin 512) :
    out0_37 (F := Ideal) x0 x1 x2 x3 x4 x5 x6 x7 x8 x9 x10 x11 x12 x13 x14 x15 x16 x17 x18 x19 x20 x21 x22 x23 x24 x25 x26 x27 x28 x29 x30 x31 x32 x33 x34 x35 (ix3 i q l)
      = Spec.attRes (F := Ideal) a0 a1 a2 a3 a4 a5 a6 a7 a8 a9 a10 a11 a12 a13 a14 a15 a16 a17 a18 a19 a20 a21 a22 a23 (ix3 i ⟨r0 + q.val, by omega⟩ l) := by
  obtain ⟨s0, s1, s2, s3⟩ := core L
  unfold out0_37
  refine (View.canon_apply_of_pieces
    (fun y : Cert.KernelIdeal.S4x256x512.Idx => (Spec.attRes (F := Ideal) a0 a1 a2 a3 a4 a5 a6 a7 a8 a9 a10 a11 a12 a13 a14 a15 a16 a17 a18 a19 a20 a21 a22 a23) (ix3 (y 0) ⟨r0 + (y 1).val, by
      have h : (y 1).val < 256 := (y 1).isLt
      omega⟩ (y 2))) _ ?_ (ix3 i q l) (cover0_37 _ _ _ _ _)).trans rfl
  intro p hp x
  simp only [List.mem_cons, List.mem_nil_iff, or_false] at hp
  rcases hp with rfl | rfl | rfl | rfl
  · -- the store of slab 3: the attended tile viewed 1 × 256 × 512, at offset (3, 0, 0)
    obtain ⟨u, v, w, rfl⟩ : ∃ (u : Fin 1) (v : Fin 256) (w : Fin 512), x = ix3 u v w := ⟨x 0, x 1, x 2, eq_ix3 x⟩
    have hu : u.val = 0 := by omega
    refine (shapeCast_apply _ _ (ix3 u v w) (ix2 v w) ?_).trans ((s3 v w).trans (congrArg _ ?_))
    · rw [Shape.rowMajor_val_two, Shape.rowMajor_val_three]
      show v.val * 512 + w.val = (u.val * 256 + v.val) * 512 + w.val
      rw [hu]; omega
    · funext a; apply Fin.ext
      match a with
      | ⟨0, _⟩ => show 3 = 3 + 1 * u.val; omega
      | ⟨1, _⟩ => show r0 + v.val = r0 + (0 + 1 * v.val); omega
      | ⟨2, _⟩ => show w.val = 0 + 1 * w.val; omega
  · -- the store of slab 2: the attended tile viewed 1 × 256 × 512, at offset (2, 0, 0)
    obtain ⟨u, v, w, rfl⟩ : ∃ (u : Fin 1) (v : Fin 256) (w : Fin 512), x = ix3 u v w := ⟨x 0, x 1, x 2, eq_ix3 x⟩
    have hu : u.val = 0 := by omega
    refine (shapeCast_apply _ _ (ix3 u v w) (ix2 v w) ?_).trans ((s2 v w).trans (congrArg _ ?_))
    · rw [Shape.rowMajor_val_two, Shape.rowMajor_val_three]
      show v.val * 512 + w.val = (u.val * 256 + v.val) * 512 + w.val
      rw [hu]; omega
    · funext a; apply Fin.ext
      match a with
      | ⟨0, _⟩ => show 2 = 2 + 1 * u.val; omega
      | ⟨1, _⟩ => show r0 + v.val = r0 + (0 + 1 * v.val); omega
      | ⟨2, _⟩ => show w.val = 0 + 1 * w.val; omega
  · -- the store of slab 1: the attended tile viewed 1 × 256 × 512, at offset (1, 0, 0)
    obtain ⟨u, v, w, rfl⟩ : ∃ (u : Fin 1) (v : Fin 256) (w : Fin 512), x = ix3 u v w := ⟨x 0, x 1, x 2, eq_ix3 x⟩
    have hu : u.val = 0 := by omega
    refine (shapeCast_apply _ _ (ix3 u v w) (ix2 v w) ?_).trans ((s1 v w).trans (congrArg _ ?_))
    · rw [Shape.rowMajor_val_two, Shape.rowMajor_val_three]
      show v.val * 512 + w.val = (u.val * 256 + v.val) * 512 + w.val
      rw [hu]; omega
    · funext a; apply Fin.ext
      match a with
      | ⟨0, _⟩ => show 1 = 1 + 1 * u.val; omega
      | ⟨1, _⟩ => show r0 + v.val = r0 + (0 + 1 * v.val); omega
      | ⟨2, _⟩ => show w.val = 0 + 1 * w.val; omega
  · -- the store of slab 0: the attended tile viewed 1 × 256 × 512, at offset (0, 0, 0)
    obtain ⟨u, v, w, rfl⟩ : ∃ (u : Fin 1) (v : Fin 256) (w : Fin 512), x = ix3 u v w := ⟨x 0, x 1, x 2, eq_ix3 x⟩
    have hu : u.val = 0 := by omega
    refine (shapeCast_apply _ _ (ix3 u v w) (ix2 v w) ?_).trans ((s0 v w).trans (congrArg _ ?_))
    · rw [Shape.rowMajor_val_two, Shape.rowMajor_val_three]
      show v.val * 512 + w.val = (u.val * 256 + v.val) * 512 + w.val
      rw [hu]; omega
    · funext a; apply Fin.ext
      match a with
      | ⟨0, _⟩ => show 0 = 0 + 1 * u.val; omega
      | ⟨1, _⟩ => show r0 + v.val = r0 + (0 + 1 * v.val); omega
      | ⟨2, _⟩ => show w.val = 0 + 1 * w.val; omega

end Core

end Cert.Fusion.Compose

end
-- ==== Proof.KernelRun.lean ====
/-
  From blocks to arrays. Grid point t works on rows [256·t, 256·t + 256) and writes back, for each of the three results,
  the block of those rows; what it writes is that block of the network's result as a function of the 36 argument arrays.
  The 64 blocks of each result tile its array (row r lies in the block of point r / 256), so after the run each result
  array is the network's result, and the argument arrays are as they were.
-/
import Idealize.ShloMosaic.PureOps.Ideal
import Idealize.ShloMosaic.Lib.Pipeline.Value
import Idealize.ShloMosaic.Lib.ValueIdx
import proofs.«146539_j55808805044797_2_alg».proof.Proof.KernelIdealFrameP
import proofs.«146539_j55808805044797_2_alg».proof.Proof.Spec
import proofs.«146539_j55808805044797_2_alg».proof.Proof.LeavesAt
import proofs.«146539_j55808805044797_2_alg».proof.Proof.Compose

noncomputable section

namespace Cert.Fusion

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The block index of each result window, decided over the 64 grid points -/

/-- The output's block at point t is block (t, 0) of the 64 × 1 blocks of 256 × 512. -/
theorem idx36 : ∀ t : Fin cfg0.N, win0_36.index t (0 : Fin 2) = t.val ∧ win0_36.index t (1 : Fin 2) = 0 :=
  (by decide +kernel : ∀ t : Fin grid0.N, _)
/-- The attended stack's block at point t is block (0, t, 0) of the 1 × 64 × 1 blocks of 4 × 256 × 512. -/
theorem idx37 : ∀ t : Fin cfg0.N, win0_37.index t (0 : Fin 3) = 0 ∧ win0_37.index t (1 : Fin 3) = t.val ∧ win0_37.index t (2 : Fin 3) = 0 :=
  (by decide +kernel : ∀ t : Fin grid0.N, _)
/-- The importance's block at point t is block (t, 0) of the 64 × 1 blocks of 256 × 4. -/
theorem idx38 : ∀ t : Fin cfg0.N, win0_38.index t (0 : Fin 2) = t.val ∧ win0_38.index t (1 : Fin 2) = 0 :=
  (by decide +kernel : ∀ t : Fin grid0.N, _)

/-! ## A block that is rows [256·t, 256·t + 256) of an array, read through the window -/

/-- A 256 × 512 block whose entry (q, l) is the array's entry (256·t + q, l) is what the output window reads of the
    array at point t. -/
theorem blk36_read (t : Fin cfg0.N) (hr : 256 * t.val + 256 ≤ 16384) (f : S256x512.Idx → EReal)
    (G : (⟨2, ![16384, 512]⟩ : Shape).Idx → EReal)
    (h : ∀ (q : Fin 256) (l : Fin 512), f (ix2 q l) = G (ix2 ⟨256 * t.val + q.val, by omega⟩ l)) :
    (cfg0.win 36).cut (grid0.coords t) f = ((cfg0.win 36).blk t).view.read (Elt Ideal) G := by
  funext j
  show f j = G (((cfg0.win 36).blk t).view.emb j)
  obtain ⟨e0, e1⟩ := idx36 t
  refine ((congrArg f (eq_ix2 j)).trans (h (j 0) (j 1))).trans (congrArg G ?_)
  funext a
  apply Fin.ext
  match a with
  | ⟨0, _⟩ => show 256 * t.val + (j 0).val = win0_36.index t (0 : Fin 2) * 256 + 1 * (j 0).val; omega
  | ⟨1, _⟩ => show (j 1).val = win0_36.index t (1 : Fin 2) * 512 + 1 * (j 1).val; omega

/-- A 4 × 256 × 512 block whose entry (i, q, l) is the array's entry (i, 256·t + q, l) is what the attended stack's
    window reads of the array at point t. -/
theorem blk37_read (t : Fin cfg0.N) (hr : 256 * t.val + 256 ≤ 16384) (f : S4x256x512.Idx → EReal)
    (G : (⟨3, ![4, 16384, 512]⟩ : Shape).Idx → EReal)
    (h : ∀ (i : Fin 4) (q : Fin 256) (l : Fin 512), f (ix3 i q l) = G (ix3 i ⟨256 * t.val + q.val, by omega⟩ l)) :
    (cfg0.win 37).cut (grid0.coords t) f = ((cfg0.win 37).blk t).view.read (Elt Ideal) G := by
  funext j
  show f j = G (((cfg0.win 37).blk t).view.emb j)
  obtain ⟨e0, e1, e2⟩ := idx37 t
  refine ((congrArg f (eq_ix3 j)).trans (h (j 0) (j 1) (j 2))).trans (congrArg G ?_)
  funext a
  apply Fin.ext
  match a with
  | ⟨0, _⟩ => show (j 0).val = win0_37.index t (0 : Fin 3) * 4 + 1 * (j 0).val; omega
  | ⟨1, _⟩ => show 256 * t.val + (j 1).val = win0_37.index t (1 : Fin 3) * 256 + 1 * (j 1).val; omega
  | ⟨2, _⟩ => show (j 2).val = win0_37.index t (2 : Fin 3) * 512 + 1 * (j 2).val; omega

/-- A 256 × 4 block whose entry (q, l) is the array's entry (256·t + q, l) is what the importance window reads of the
    array at point t. -/
theorem blk38_read (t : Fin cfg0.N) (hr : 256 * t.val + 256 ≤ 16384) (f : S256x4.Idx → EReal)
    (G : (⟨2, ![16384, 4]⟩ : Shape).Idx → EReal)
    (h : ∀ (q : Fin 256) (l : Fin 4), f (ix2 q l) = G (ix2 ⟨256 * t.val + q.val, by omega⟩ l)) :
    (cfg0.win 38).cut (grid0.coords t) f = ((cfg0.win 38).blk t).view.read (Elt Ideal) G := by
  funext j
  show f j = G (((cfg0.win 38).blk t).view.emb j)
  obtain ⟨e0, e1⟩ := idx38 t
  refine ((congrArg f (eq_ix2 j)).trans (h (j 0) (j 1))).trans (congrArg G ?_)
  funext a
  apply Fin.ext
  match a with
  | ⟨0, _⟩ => show 256 * t.val + (j 0).val = win0_38.index t (0 : Fin 2) * 256 + 1 * (j 0).val; omega
  | ⟨1, _⟩ => show (j 1).val = win0_38.index t (1 : Fin 2) * 4 + 1 * (j 1).val; omega

/-! ## What a grid point writes back -/

/-- Point t writes back, to the output, rows [256·t, 256·t + 256) of the network's output. -/
theorem flushed36_eq (c : Dev nD) (t : Fin cfg0.N) :
    (dats m 0 c).flushed 36 t = ((cfg0.win 36).blk t).view.read (Elt Ideal) (Spec.outRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) := by
  have ht : t.val < 64 := t.isLt
  have hr : 256 * t.val + 256 ≤ 16384 := by omega
  show (cfg0.win 36).cut (grid0.coords t) ((dats m 0 c).after 36 t) = _
  rw [after0_36]
  exact blk36_read t hr _ _ (fun q l => Compose.out_at (leaves_iblk m c t hr) q l)

/-- Point t writes back, to the attended stack, rows [256·t, 256·t + 256) of each of its four blocks. -/
theorem flushed37_eq (c : Dev nD) (t : Fin cfg0.N) :
    (dats m 0 c).flushed 37 t = ((cfg0.win 37).blk t).view.read (Elt Ideal) (Spec.attRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  have ht : t.val < 64 := t.isLt
  have hr : 256 * t.val + 256 ≤ 16384 := by omega
  show (cfg0.win 37).cut (grid0.coords t) ((dats m 0 c).after 37 t) = _
  rw [after0_37]
  exact blk37_read t hr _ _ (fun i q l => Compose.att_at (leaves_iblk m c t hr) i q l)

/-- Point t writes back, to the importance weights, rows [256·t, 256·t + 256) of the network's importance weights. -/
theorem flushed38_eq (c : Dev nD) (t : Fin cfg0.N) :
    (dats m 0 c).flushed 38 t = ((cfg0.win 38).blk t).view.read (Elt Ideal) (Spec.impRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))) := by
  have ht : t.val < 64 := t.isLt
  have hr : 256 * t.val + 256 ≤ 16384 := by omega
  show (cfg0.win 38).cut (grid0.coords t) ((dats m 0 c).after 38 t) = _
  rw [after0_38]
  exact blk38_read t hr _ _ (fun q l => Compose.imp_at (leaves_iblk m c t hr) q l)

/-! ## The blocks tile each result array -/

/-- An index of the array is in point t's block iff each coordinate is in the block's range on its axis. -/
theorem mem_blk36 (t : Fin cfg0.N) (i : S16384x512.Idx) :
    i ∈ ((cfg0.win 36).blk t).view.set ↔ ∀ a : Fin 2, win0_36.index t a * S256x512.size a ≤ (i a).val ∧ (i a).val < win0_36.index t a * S256x512.size a + S256x512.size a := by
  show i ∈ ((View.whole main_v11_0).slice (win0_36.rect t)).set ↔ _
  rw [View.set_slice_whole, Rect.mem_set_unit]
  exact Iff.rfl

/-- Every index of the array lies in some point's block: row r is in the block of point r / 256. -/
theorem cover36 (i : S16384x512.Idx) :
    ∃ t : Fin cfg0.N, (cfg0.win 36).flush t = true ∧ i ∈ ((cfg0.win 36).blk t).view.set := by
  have hi0 : (i 0).val < 16384 := (i 0).isLt
  have hi1 : (i 1).val < 512 := (i 1).isLt
  have hN : (i 0).val / 256 < cfg0.N := by show _ < 64; omega
  obtain ⟨t, ht⟩ : ∃ t : Fin cfg0.N, t.val = (i 0).val / 256 := ⟨⟨_, hN⟩, rfl⟩
  obtain ⟨e0, e1⟩ := idx36 t
  refine ⟨t, flush0_36 t, ?_⟩
  rw [mem_blk36]
  intro a
  match a with
  | ⟨0, _⟩ => show win0_36.index t (0 : Fin 2) * 256 ≤ (i 0).val ∧ (i 0).val < win0_36.index t (0 : Fin 2) * 256 + 256; omega
  | ⟨1, _⟩ => show win0_36.index t (1 : Fin 2) * 512 ≤ (i 1).val ∧ (i 1).val < win0_36.index t (1 : Fin 2) * 512 + 512; omega

/-- An index of the array is in point t's block iff each coordinate is in the block's range on its axis. -/
theorem mem_blk37 (t : Fin cfg0.N) (i : S4x16384x512.Idx) :
    i ∈ ((cfg0.win 37).blk t).view.set ↔ ∀ a : Fin 3, win0_37.index t a * S4x256x512.size a ≤ (i a).val ∧ (i a).val < win0_37.index t a * S4x256x512.size a + S4x256x512.size a := by
  show i ∈ ((View.whole main_v11_1).slice (win0_37.rect t)).set ↔ _
  rw [View.set_slice_whole, Rect.mem_set_unit]
  exact Iff.rfl

/-- Every index of the array lies in some point's block: row r is in the block of point r / 256. -/
theorem cover37 (i : S4x16384x512.Idx) :
    ∃ t : Fin cfg0.N, (cfg0.win 37).flush t = true ∧ i ∈ ((cfg0.win 37).blk t).view.set := by
  have hi0 : (i 0).val < 4 := (i 0).isLt
  have hi1 : (i 1).val < 16384 := (i 1).isLt
  have hi2 : (i 2).val < 512 := (i 2).isLt
  have hN : (i 1).val / 256 < cfg0.N := by show _ < 64; omega
  obtain ⟨t, ht⟩ : ∃ t : Fin cfg0.N, t.val = (i 1).val / 256 := ⟨⟨_, hN⟩, rfl⟩
  obtain ⟨e0, e1, e2⟩ := idx37 t
  refine ⟨t, flush0_37 t, ?_⟩
  rw [mem_blk37]
  intro a
  match a with
  | ⟨0, _⟩ => show win0_37.index t (0 : Fin 3) * 4 ≤ (i 0).val ∧ (i 0).val < win0_37.index t (0 : Fin 3) * 4 + 4; omega
  | ⟨1, _⟩ => show win0_37.index t (1 : Fin 3) * 256 ≤ (i 1).val ∧ (i 1).val < win0_37.index t (1 : Fin 3) * 256 + 256; omega
  | ⟨2, _⟩ => show win0_37.index t (2 : Fin 3) * 512 ≤ (i 2).val ∧ (i 2).val < win0_37.index t (2 : Fin 3) * 512 + 512; omega

/-- An index of the array is in point t's block iff each coordinate is in the block's range on its axis. -/
theorem mem_blk38 (t : Fin cfg0.N) (i : S16384x4.Idx) :
    i ∈ ((cfg0.win 38).blk t).view.set ↔ ∀ a : Fin 2, win0_38.index t a * S256x4.size a ≤ (i a).val ∧ (i a).val < win0_38.index t a * S256x4.size a + S256x4.size a := by
  show i ∈ ((View.whole main_v11_2).slice (win0_38.rect t)).set ↔ _
  rw [View.set_slice_whole, Rect.mem_set_unit]
  exact Iff.rfl

/-- Every index of the array lies in some point's block: row r is in the block of point r / 256. -/
theorem cover38 (i : S16384x4.Idx) :
    ∃ t : Fin cfg0.N, (cfg0.win 38).flush t = true ∧ i ∈ ((cfg0.win 38).blk t).view.set := by
  have hi0 : (i 0).val < 16384 := (i 0).isLt
  have hi1 : (i 1).val < 4 := (i 1).isLt
  have hN : (i 0).val / 256 < cfg0.N := by show _ < 64; omega
  obtain ⟨t, ht⟩ : ∃ t : Fin cfg0.N, t.val = (i 0).val / 256 := ⟨⟨_, hN⟩, rfl⟩
  obtain ⟨e0, e1⟩ := idx38 t
  refine ⟨t, flush0_38 t, ?_⟩
  rw [mem_blk38]
  intro a
  match a with
  | ⟨0, _⟩ => show win0_38.index t (0 : Fin 2) * 256 ≤ (i 0).val ∧ (i 0).val < win0_38.index t (0 : Fin 2) * 256 + 256; omega
  | ⟨1, _⟩ => show win0_38.index t (1 : Fin 2) * 4 ≤ (i 1).val ∧ (i 1).val < win0_38.index t (1 : Fin 2) * 4 + 4; omega

/-! ## The result arrays after the run -/

/-- After the 64 points the output array is the network's output. -/
theorem final36 (c : Dev nD) : (dats m 0 c).arrAt 36 cfg0.N = (Spec.outRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) :=
  (dats m 0 c).arrAt_eq_of_cover 36 _ (fun t _ => flushed36_eq m c t) cover36

/-- After the 64 points the attended stack's array is the network's attended stack. -/
theorem final37 (c : Dev nD) : (dats m 0 c).arrAt 37 cfg0.N = (Spec.attRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :=
  (dats m 0 c).arrAt_eq_of_cover 37 _ (fun t _ => flushed37_eq m c t) cover37

/-- After the 64 points the importance array is the network's importance weights. -/
theorem final38 (c : Dev nD) : (dats m 0 c).arrAt 38 cfg0.N = (Spec.impRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))) :=
  (dats m 0 c).arrAt_eq_of_cover 38 _ (fun t _ => flushed38_eq m c t) cover38

/-! ## The run, read: the three results, and the arguments as launched -/

/-- After the run the output array is what the 64 points left in it. -/
theorem post36 (r : PUnit × MemSt nD τ sig (Elt Ideal)) (h : Pipeline.FramePost cfgs (dats m) 0 (V m) r) (c : Dev nD) :
    r.2.mem ((c : Thread nD τ).loc main_v11_0) = (dats m 0 c).arrAt 36 cfg0.N :=
  (h c).1 36
/-- After the run the attended stack's array is what the 64 points left in it. -/
theorem post37 (r : PUnit × MemSt nD τ sig (Elt Ideal)) (h : Pipeline.FramePost cfgs (dats m) 0 (V m) r) (c : Dev nD) :
    r.2.mem ((c : Thread nD τ).loc main_v11_1) = (dats m 0 c).arrAt 37 cfg0.N :=
  (h c).1 37
/-- After the run the importance array is what the 64 points left in it. -/
theorem post38 (r : PUnit × MemSt nD τ sig (Elt Ideal)) (h : Pipeline.FramePost cfgs (dats m) 0 (V m) r) (c : Dev nD) :
    r.2.mem ((c : Thread nD τ).loc main_v11_2) = (dats m 0 c).arrAt 38 cfg0.N :=
  (h c).1 38

/-- Argument 0 is as launched: its window stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- Argument 1 is as launched: its window stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
/-- Argument 2 is as launched: its window stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
/-- Argument 3 is as launched: its window stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
/-- Argument 4 is as launched: the region only reads a narrowed copy of it. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- Argument 5 is as launched: its window stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
/-- Argument 6 is as launched: its window stages it and never writes it back. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
/-- Argument 7 is as launched: its window stages it and never writes it back. -/
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
/-- Argument 8 is as launched: the region only reads a narrowed copy of it. -/
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- Argument 9 is as launched: its window stages it and never writes it back. -/
theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))
/-- Argument 10 is as launched: its window stages it and never writes it back. -/
theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
/-- Argument 11 is as launched: its window stages it and never writes it back. -/
theorem kept_main_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))
/-- Argument 12 is as launched: the region only reads a narrowed copy of it. -/
theorem kept_main_arg12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
/-- Argument 13 is as launched: its window stages it and never writes it back. -/
theorem kept_main_arg13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))
/-- Argument 14 is as launched: its window stages it and never writes it back. -/
theorem kept_main_arg14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))
/-- Argument 15 is as launched: its window stages it and never writes it back. -/
theorem kept_main_arg15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))
/-- Argument 16 is as launched: the region only reads a narrowed copy of it. -/
theorem kept_main_arg16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
/-- Argument 17 is as launched: its window stages it and never writes it back. -/
theorem kept_main_arg17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))
/-- Argument 18 is as launched: its window stages it and never writes it back. -/
theorem kept_main_arg18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))
/-- Argument 19 is as launched: its window stages it and never writes it back. -/
theorem kept_main_arg19 (r : PUnit × MemSt nD τ sig (Elt Ideal)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))
/-- Argument 20 is as launched: the region only reads a narrowed copy of it. -/
theorem kept_main_arg20 (r : PUnit × MemSt nD τ sig (Elt Ideal)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)
/-- Argument 21 is as launched: its window stages it and never writes it back. -/
theorem kept_main_arg21 (r : PUnit × MemSt nD τ sig (Elt Ideal)) (h : Pipeline.FramePost cfgs (dats m) 0 (V m) r) (c : Dev nD) :
    r.2.mem ((c : Thread nD τ).loc main_arg21) = m ((c : Thread nD τ).loc main_arg21) :=
  ((h c).1 21).trans (((dats m 0 c).arrAt_in 21 rfl _).trans ((A_eq m c 21).trans (V_main_arg21 m c)))
/-- Argument 22 is as launched: the region only reads a narrowed copy of it. -/
theorem kept_main_arg22 (r : PUnit × MemSt nD τ sig (Elt Ideal)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)
/-- Argument 23 is as launched: its window stages it and never writes it back. -/
theorem kept_main_arg23 (r : PUnit × MemSt nD τ sig (Elt Ideal)) (h : Pipeline.FramePost cfgs (dats m) 0 (V m) r) (c : Dev nD) :
    r.2.mem ((c : Thread nD τ).loc main_arg23) = m ((c : Thread nD τ).loc main_arg23) :=
  ((h c).1 23).trans (((dats m 0 c).arrAt_in 23 rfl _).trans ((A_eq m c 23).trans (V_main_arg23 m c)))
/-- Argument 24 is as launched: the region only reads a narrowed copy of it. -/
theorem kept_main_arg24 (r : PUnit × MemSt nD τ sig (Elt Ideal)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)
/-- Argument 25 is as launched: its window stages it and never writes it back. -/
theorem kept_main_arg25 (r : PUnit × MemSt nD τ sig (Elt Ideal)) (h : Pipeline.FramePost cfgs (dats m) 0 (V m) r) (c : Dev nD) :
    r.2.mem ((c : Thread nD τ).loc main_arg25) = m ((c : Thread nD τ).loc main_arg25) :=
  ((h c).1 25).trans (((dats m 0 c).arrAt_in 25 rfl _).trans ((A_eq m c 25).trans (V_main_arg25 m c)))
/-- Argument 26 is as launched: the region only reads a narrowed copy of it. -/
theorem kept_main_arg26 (r : PUnit × MemSt nD τ sig (Elt Ideal)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)
/-- Argument 27 is as launched: its window stages it and never writes it back. -/
theorem kept_main_arg27 (r : PUnit × MemSt nD τ sig (Elt Ideal)) (h : Pipeline.FramePost cfgs (dats m) 0 (V m) r) (c : Dev nD) :
    r.2.mem ((c : Thread nD τ).loc main_arg27) = m ((c : Thread nD τ).loc main_arg27) :=
  ((h c).1 27).trans (((dats m 0 c).arrAt_in 27 rfl _).trans ((A_eq m c 27).trans (V_main_arg27 m c)))
/-- Argument 28 is as launched: the region only reads a narrowed copy of it. -/
theorem kept_main_arg28 (r : PUnit × MemSt nD τ sig (Elt Ideal)) (h : Pipeline.FramePost cfgs (dats m) 0 (V m) r) (c : Dev nD) :
    r.2.mem ((c : Thread nD τ).loc main_arg28) = m ((c : Thread nD τ).loc main_arg28) :=
  ((h c).2 main_arg28 (Pipeline.mem_restRefs_of main_arg28 (by decide) (by decide))).trans (V_main_arg28 m c)
/-- Argument 29 is as launched: its window stages it and never writes it back. -/
theorem kept_main_arg29 (r : PUnit × MemSt nD τ sig (Elt Ideal)) (h : Pipeline.FramePost cfgs (dats m) 0 (V m) r) (c : Dev nD) :
    r.2.mem ((c : Thread nD τ).loc main_arg29) = m ((c : Thread nD τ).loc main_arg29) :=
  ((h c).1 29).trans (((dats m 0 c).arrAt_in 29 rfl _).trans ((A_eq m c 29).trans (V_main_arg29 m c)))
/-- Argument 30 is as launched: the region only reads a narrowed copy of it. -/
theorem kept_main_arg30 (r : PUnit × MemSt nD τ sig (Elt Ideal)) (h : Pipeline.FramePost cfgs (dats m) 0 (V m) r) (c : Dev nD) :
    r.2.mem ((c : Thread nD τ).loc main_arg30) = m ((c : Thread nD τ).loc main_arg30) :=
  ((h c).2 main_arg30 (Pipeline.mem_restRefs_of main_arg30 (by decide) (by decide))).trans (V_main_arg30 m c)
/-- Argument 31 is as launched: its window stages it and never writes it back. -/
theorem kept_main_arg31 (r : PUnit × MemSt nD τ sig (Elt Ideal)) (h : Pipeline.FramePost cfgs (dats m) 0 (V m) r) (c : Dev nD) :
    r.2.mem ((c : Thread nD τ).loc main_arg31) = m ((c : Thread nD τ).loc main_arg31) :=
  ((h c).1 31).trans (((dats m 0 c).arrAt_in 31 rfl _).trans ((A_eq m c 31).trans (V_main_arg31 m c)))
/-- Argument 32 is as launched: the region only reads a narrowed copy of it. -/
theorem kept_main_arg32 (r : PUnit × MemSt nD τ sig (Elt Ideal)) (h : Pipeline.FramePost cfgs (dats m) 0 (V m) r) (c : Dev nD) :
    r.2.mem ((c : Thread nD τ).loc main_arg32) = m ((c : Thread nD τ).loc main_arg32) :=
  ((h c).2 main_arg32 (Pipeline.mem_restRefs_of main_arg32 (by decide) (by decide))).trans (V_main_arg32 m c)
/-- Argument 33 is as launched: its window stages it and never writes it back. -/
theorem kept_main_arg33 (r : PUnit × MemSt nD τ sig (Elt Ideal)) (h : Pipeline.FramePost cfgs (dats m) 0 (V m) r) (c : Dev nD) :
    r.2.mem ((c : Thread nD τ).loc main_arg33) = m ((c : Thread nD τ).loc main_arg33) :=
  ((h c).1 33).trans (((dats m 0 c).arrAt_in 33 rfl _).trans ((A_eq m c 33).trans (V_main_arg33 m c)))
/-- Argument 34 is as launched: its window stages it and never writes it back. -/
theorem kept_main_arg34 (r : PUnit × MemSt nD τ sig (Elt Ideal)) (h : Pipeline.FramePost cfgs (dats m) 0 (V m) r) (c : Dev nD) :
    r.2.mem ((c : Thread nD τ).loc main_arg34) = m ((c : Thread nD τ).loc main_arg34) :=
  ((h c).1 34).trans (((dats m 0 c).arrAt_in 34 rfl _).trans ((A_eq m c 34).trans (V_main_arg34 m c)))
/-- Argument 35 is as launched: its window stages it and never writes it back. -/
theorem kept_main_arg35 (r : PUnit × MemSt nD τ sig (Elt Ideal)) (h : Pipeline.FramePost cfgs (dats m) 0 (V m) r) (c : Dev nD) :
    r.2.mem ((c : Thread nD τ).loc main_arg35) = m ((c : Thread nD τ).loc main_arg35) :=
  ((h c).1 35).trans (((dats m 0 c).arrAt_in 35 rfl _).trans ((A_eq m c 35).trans (V_main_arg35 m c)))

/-- Every weakly fair execution of the kernel's program ends with the three result arrays at the network's results as
    functions of the 36 argument arrays, and the arguments unchanged. -/
theorem kernel_run : θ_run defs (onTc (τ := τ) (main (F := Ideal))) ⟨m, fun _ => 0, ρ⟩ fun r => ∀ c : Dev nD,
      r.2.mem ((c : Thread nD τ).loc main_v11_0) = (Spec.outRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)))
      ∧ r.2.mem ((c : Thread nD τ).loc main_v11_1) = (Spec.attRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
      ∧ r.2.mem ((c : Thread nD τ).loc main_v11_2) = (Spec.impRes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35) :=
  (θ_run defs _ _).mono (fun r h c => ⟨(post36 m r h c).trans (final36 m c),
      (post37 m r h c).trans (final37 m c),
      (post38 m r h c).trans (final38 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c,
      kept_main_arg28 m r h c,
      kept_main_arg29 m r h c,
      kept_main_arg30 m r h c,
      kept_main_arg31 m r h c,
      kept_main_arg32 m r h c,
      kept_main_arg33 m r h c,
      kept_main_arg34 m r h c,
      kept_main_arg35 m r h c⟩)
    (run_main m ρ)

end Cert.Fusion

end
-- ==== Proof.lean ====
/-
  The certificate of a fused multimodal kernel against its plain reference.

  The network: four modalities (time series, text, fundamentals, network) are each projected to 512 features by a
  linear layer, LayerNorm and ReLU; every modality attends to the other three (with one key per query the attention
  weights are 1, so a pair is the value projection followed by the output projection), and its attended block is its
  projection plus its three pairs; the four attended blocks side by side feed a hidden layer and a softmax over four
  importance weights, and a sigmoid gate times a tanh branch, a linear layer and a final LayerNorm.

  The kernel computes this on 256 rows at a time with every weight resident, in a narrower float format between
  stages; the reference computes it on all 16384 rows with stacked (batched) products. On the extended reals a change
  of float format is the identity, and what is left to compare is grouping: a row of a product depends on that row
  only, so a 256-row tile of every stage is the stage of the tile; the reference's gather by the source table, batched
  products and sum over groups of three are, member by member, the kernel's twelve pairs added in another order; and
  its one product with the 2048 concatenated columns is the kernel's four products with 512 columns each. Only
  commutativity and associativity of the sum are used, so the inputs' finiteness is never needed.

  The three frames: the two kernels' from their frame certificates, the reference's from its run as a straight line of
  host operations. The idealization rewrote nothing, so it preserves the kernel trivially.
-/
import proofs.«146539_j55808805044797_2_alg».proof.Defs
import proofs.«146539_j55808805044797_2_alg».proof.Proof.Gen.Kernel
import proofs.«146539_j55808805044797_2_alg».proof.Proof.Gen.KernelIdeal
import proofs.«146539_j55808805044797_2_alg».proof.Proof.Gen.ReferenceIdeal
import proofs.«146539_j55808805044797_2_alg».proof.Proof.Gen.Pre_finite_inputs
import proofs.«146539_j55808805044797_2_alg».proof.Proof.KernelFrameP
import proofs.«146539_j55808805044797_2_alg».proof.Proof.KernelIdealFrameP
import proofs.«146539_j55808805044797_2_alg».proof.Proof.RefRead
import proofs.«146539_j55808805044797_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs as the straight line of its operations, none of which writes an argument. -/
theorem frame_referenceIdeal : Cert.frame_ReferenceIdeal := fun m ρ _ =>
  (θ_run Cert.ReferenceIdeal.defs _ _).mono (fun _ h c => (h c).2.2.2) (Cert.ReferenceIdeal.RefRun.run (F := Ideal) m ρ)

/-- The idealization rewrote no operation. -/
theorem preserves : Cert.preserves_Kernel_KernelIdeal := trivial

/-- Equal arguments give equal results. -/
theorem outRes_congr {a0 b0 : (⟨Cert.ReferenceIdeal.S16384x256, .f32⟩ : BufTy).Contents (Elt Ideal)} {a1 b1 : (⟨Cert.ReferenceIdeal.S16384x768, .f32⟩ : BufTy).Contents (Elt Ideal)} {a2 b2 : (⟨Cert.ReferenceIdeal.S16384x128, .f32⟩ : BufTy).Contents (Elt Ideal)} {a3 b3 : (⟨Cert.ReferenceIdeal.S16384x256, .f32⟩ : BufTy).Contents (Elt Ideal)} {a4 b4 : (⟨Cert.ReferenceIdeal.S256x512, .f32⟩ : BufTy).Contents (Elt Ideal)} {a5 b5 : (⟨Cert.ReferenceIdeal.S512, .f32⟩ : BufTy).Contents (Elt Ideal)} {a6 b6 : (⟨Cert.ReferenceIdeal.S512, .f32⟩ : BufTy).Contents (Elt Ideal)} {a7 b7 : (⟨Cert.ReferenceIdeal.S512, .f32⟩ : BufTy).Contents (Elt Ideal)} {a8 b8 : (⟨Cert.ReferenceIdeal.S768x512, .f32⟩ : BufTy).Contents (Elt Ideal)} {a9 b9 : (⟨Cert.ReferenceIdeal.S512, .f32⟩ : BufTy).Contents (Elt Ideal)} {a10 b10 : (⟨Cert.ReferenceIdeal.S512, .f32⟩ : BufTy).Contents (Elt Ideal)} {a11 b11 : (⟨Cert.ReferenceIdeal.S512, .f32⟩ : BufTy).Contents (Elt Ideal)} {a12 b12 : (⟨Cert.ReferenceIdeal.S128x512, .f32⟩ : BufTy).Contents (Elt Ideal)} {a13 b13 : (⟨Cert.ReferenceIdeal.S512, .f32⟩ : BufTy).Contents (Elt Ideal)} {a14 b14 : (⟨Cert.ReferenceIdeal.S512, .f32⟩ : BufTy).Contents (Elt Ideal)} {a15 b15 : (⟨Cert.ReferenceIdeal.S512, .f32⟩ : BufTy).Contents (Elt Ideal)} {a16 b16 : (⟨Cert.ReferenceIdeal.S256x512, .f32⟩ : BufTy).Contents (Elt Ideal)} {a17 b17 : (⟨Cert.ReferenceIdeal.S512, .f32⟩ : BufTy).Contents (Elt Ideal)} {a18 b18 : (⟨Cert.ReferenceIdeal.S512, .f32⟩ : BufTy).Contents (Elt Ideal)} {a19 b19 : (⟨Cert.ReferenceIdeal.S512, .f32⟩ : BufTy).Contents (Elt Ideal)} {a20 b20 : (⟨Cert.ReferenceIdeal.S12x512x512, .f32⟩ : BufTy).Contents (Elt Ideal)} {a21 b21 : (⟨Cert.ReferenceIdeal.S12x512, .f32⟩ : BufTy).Contents (Elt Ideal)} {a22 b22 : (⟨Cert.ReferenceIdeal.S12x512x512, .f32⟩ : BufTy).Contents (Elt Ideal)} {a23 b23 : (⟨Cert.ReferenceIdeal.S12x512, .f32⟩ : BufTy).Contents (Elt Ideal)} {a28 b28 : (⟨Cert.ReferenceIdeal.S2048x512, .f32⟩ : BufTy).Contents (Elt Ideal)} {a29 b29 : (⟨Cert.ReferenceIdeal.S512, .f32⟩ : BufTy).Contents (Elt Ideal)} {a30 b30 : (⟨Cert.ReferenceIdeal.S2048x512, .f32⟩ : BufTy).Contents (Elt Ideal)} {a31 b31 : (⟨Cert.ReferenceIdeal.S512, .f32⟩ : BufTy).Contents (Elt Ideal)} {a32 b32 : (⟨Cert.ReferenceIdeal.S512x512, .f32⟩ : BufTy).Contents (Elt Ideal)} {a33 b33 : (⟨Cert.ReferenceIdeal.S512, .f32⟩ : BufTy).Contents (Elt Ideal)} {a34 b34 : (⟨Cert.ReferenceIdeal.S512, .f32⟩ : BufTy).Contents (Elt Ideal)} {a35 b35 : (⟨Cert.ReferenceIdeal.S512, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h28 : a28 = b28) (h29 : a29 = b29) (h30 : a30 = b30) (h31 : a31 = b31) (h32 : a32 = b32) (h33 : a33 = b33) (h34 : a34 = b34) (h35 : a35 = b35) :
    Cert.Fusion.Spec.outRes (F := Ideal) a0 a1 a2 a3 a4 a5 a6 a7 a8 a9 a10 a11 a12 a13 a14 a15 a16 a17 a18 a19 a20 a21 a22 a23 a28 a29 a30 a31 a32 a33 a34 a35 = Cert.Fusion.Spec.outRes (F := Ideal) b0 b1 b2 b3 b4 b5 b6 b7 b8 b9 b10 b11 b12 b13 b14 b15 b16 b17 b18 b19 b20 b21 b22 b23 b28 b29 b30 b31 b32 b33 b34 b35 := by
  subst h0
  subst h1
  subst h2
  subst h3
  subst h4
  subst h5
  subst h6
  subst h7
  subst h8
  subst h9
  subst h10
  subst h11
  subst h12
  subst h13
  subst h14
  subst h15
  subst h16
  subst h17
  subst h18
  subst h19
  subst h20
  subst h21
  subst h22
  subst h23
  subst h28
  subst h29
  subst h30
  subst h31
  subst h32
  subst h33
  subst h34
  subst h35
  rfl

/-- Equal arguments give equal results. -/
theorem attRes_congr {a0 b0 : (⟨Cert.ReferenceIdeal.S16384x256, .f32⟩ : BufTy).Contents (Elt Ideal)} {a1 b1 : (⟨Cert.ReferenceIdeal.S16384x768, .f32⟩ : BufTy).Contents (Elt Ideal)} {a2 b2 : (⟨Cert.ReferenceIdeal.S16384x128, .f32⟩ : BufTy).Contents (Elt Ideal)} {a3 b3 : (⟨Cert.ReferenceIdeal.S16384x256, .f32⟩ : BufTy).Contents (Elt Ideal)} {a4 b4 : (⟨Cert.ReferenceIdeal.S256x512, .f32⟩ : BufTy).Contents (Elt Ideal)} {a5 b5 : (⟨Cert.ReferenceIdeal.S512, .f32⟩ : BufTy).Contents (Elt Ideal)} {a6 b6 : (⟨Cert.ReferenceIdeal.S512, .f32⟩ : BufTy).Contents (Elt Ideal)} {a7 b7 : (⟨Cert.ReferenceIdeal.S512, .f32⟩ : BufTy).Contents (Elt Ideal)} {a8 b8 : (⟨Cert.ReferenceIdeal.S768x512, .f32⟩ : BufTy).Contents (Elt Ideal)} {a9 b9 : (⟨Cert.ReferenceIdeal.S512, .f32⟩ : BufTy).Contents (Elt Ideal)} {a10 b10 : (⟨Cert.ReferenceIdeal.S512, .f32⟩ : BufTy).Contents (Elt Ideal)} {a11 b11 : (⟨Cert.ReferenceIdeal.S512, .f32⟩ : BufTy).Contents (Elt Ideal)} {a12 b12 : (⟨Cert.ReferenceIdeal.S128x512, .f32⟩ : BufTy).Contents (Elt Ideal)} {a13 b13 : (⟨Cert.ReferenceIdeal.S512, .f32⟩ : BufTy).Contents (Elt Ideal)} {a14 b14 : (⟨Cert.ReferenceIdeal.S512, .f32⟩ : BufTy).Contents (Elt Ideal)} {a15 b15 : (⟨Cert.ReferenceIdeal.S512, .f32⟩ : BufTy).Contents (Elt Ideal)} {a16 b16 : (⟨Cert.ReferenceIdeal.S256x512, .f32⟩ : BufTy).Contents (Elt Ideal)} {a17 b17 : (⟨Cert.ReferenceIdeal.S512, .f32⟩ : BufTy).Contents (Elt Ideal)} {a18 b18 : (⟨Cert.ReferenceIdeal.S512, .f32⟩ : BufTy).Contents (Elt Ideal)} {a19 b19 : (⟨Cert.ReferenceIdeal.S512, .f32⟩ : BufTy).Contents (Elt Ideal)} {a20 b20 : (⟨Cert.ReferenceIdeal.S12x512x512, .f32⟩ : BufTy).Contents (Elt Ideal)} {a21 b21 : (⟨Cert.ReferenceIdeal.S12x512, .f32⟩ : BufTy).Contents (Elt Ideal)} {a22 b22 : (⟨Cert.ReferenceIdeal.S12x512x512, .f32⟩ : BufTy).Contents (Elt Ideal)} {a23 b23 : (⟨Cert.ReferenceIdeal.S12x512, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) :
    Cert.Fusion.Spec.attRes (F := Ideal) a0 a1 a2 a3 a4 a5 a6 a7 a8 a9 a10 a11 a12 a13 a14 a15 a16 a17 a18 a19 a20 a21 a22 a23 = Cert.Fusion.Spec.attRes (F := Ideal) b0 b1 b2 b3 b4 b5 b6 b7 b8 b9 b10 b11 b12 b13 b14 b15 b16 b17 b18 b19 b20 b21 b22 b23 := by
  subst h0
  subst h1
  subst h2
  subst h3
  subst h4
  subst h5
  subst h6
  subst h7
  subst h8
  subst h9
  subst h10
  subst h11
  subst h12
  subst h13
  subst h14
  subst h15
  subst h16
  subst h17
  subst h18
  subst h19
  subst h20
  subst h21
  subst h22
  subst h23
  rfl

/-- Equal arguments give equal results. -/
theorem impRes_congr {a0 b0 : (⟨Cert.ReferenceIdeal.S16384x256, .f32⟩ : BufTy).Contents (Elt Ideal)} {a1 b1 : (⟨Cert.ReferenceIdeal.S16384x768, .f32⟩ : BufTy).Contents (Elt Ideal)} {a2 b2 : (⟨Cert.ReferenceIdeal.S16384x128, .f32⟩ : BufTy).Contents (Elt Ideal)} {a3 b3 : (⟨Cert.ReferenceIdeal.S16384x256, .f32⟩ : BufTy).Contents (Elt Ideal)} {a4 b4 : (⟨Cert.ReferenceIdeal.S256x512, .f32⟩ : BufTy).Contents (Elt Ideal)} {a5 b5 : (⟨Cert.ReferenceIdeal.S512, .f32⟩ : BufTy).Contents (Elt Ideal)} {a6 b6 : (⟨Cert.ReferenceIdeal.S512, .f32⟩ : BufTy).Contents (Elt Ideal)} {a7 b7 : (⟨Cert.ReferenceIdeal.S512, .f32⟩ : BufTy).Contents (Elt Ideal)} {a8 b8 : (⟨Cert.ReferenceIdeal.S768x512, .f32⟩ : BufTy).Contents (Elt Ideal)} {a9 b9 : (⟨Cert.ReferenceIdeal.S512, .f32⟩ : BufTy).Contents (Elt Ideal)} {a10 b10 : (⟨Cert.ReferenceIdeal.S512, .f32⟩ : BufTy).Contents (Elt Ideal)} {a11 b11 : (⟨Cert.ReferenceIdeal.S512, .f32⟩ : BufTy).Contents (Elt Ideal)} {a12 b12 : (⟨Cert.ReferenceIdeal.S128x512, .f32⟩ : BufTy).Contents (Elt Ideal)} {a13 b13 : (⟨Cert.ReferenceIdeal.S512, .f32⟩ : BufTy).Contents (Elt Ideal)} {a14 b14 : (⟨Cert.ReferenceIdeal.S512, .f32⟩ : BufTy).Contents (Elt Ideal)} {a15 b15 : (⟨Cert.ReferenceIdeal.S512, .f32⟩ : BufTy).Contents (Elt Ideal)} {a16 b16 : (⟨Cert.ReferenceIdeal.S256x512, .f32⟩ : BufTy).Contents (Elt Ideal)} {a17 b17 : (⟨Cert.ReferenceIdeal.S512, .f32⟩ : BufTy).Contents (Elt Ideal)} {a18 b18 : (⟨Cert.ReferenceIdeal.S512, .f32⟩ : BufTy).Contents (Elt Ideal)} {a19 b19 : (⟨Cert.ReferenceIdeal.S512, .f32⟩ : BufTy).Contents (Elt Ideal)} {a20 b20 : (⟨Cert.ReferenceIdeal.S12x512x512, .f32⟩ : BufTy).Contents (Elt Ideal)} {a21 b21 : (⟨Cert.ReferenceIdeal.S12x512, .f32⟩ : BufTy).Contents (Elt Ideal)} {a22 b22 : (⟨Cert.ReferenceIdeal.S12x512x512, .f32⟩ : BufTy).Contents (Elt Ideal)} {a23 b23 : (⟨Cert.ReferenceIdeal.S12x512, .f32⟩ : BufTy).Contents (Elt Ideal)} {a24 b24 : (⟨Cert.ReferenceIdeal.S2048x512, .f32⟩ : BufTy).Contents (Elt Ideal)} {a25 b25 : (⟨Cert.ReferenceIdeal.S512, .f32⟩ : BufTy).Contents (Elt Ideal)} {a26 b26 : (⟨Cert.ReferenceIdeal.S512x4, .f32⟩ : BufTy).Contents (Elt Ideal)} {a27 b27 : (⟨Cert.ReferenceIdeal.S4, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) (h27 : a27 = b27) :
    Cert.Fusion.Spec.impRes (F := Ideal) a0 a1 a2 a3 a4 a5 a6 a7 a8 a9 a10 a11 a12 a13 a14 a15 a16 a17 a18 a19 a20 a21 a22 a23 a24 a25 a26 a27 = Cert.Fusion.Spec.impRes (F := Ideal) b0 b1 b2 b3 b4 b5 b6 b7 b8 b9 b10 b11 b12 b13 b14 b15 b16 b17 b18 b19 b20 b21 b22 b23 b24 b25 b26 b27 := by
  subst h0
  subst h1
  subst h2
  subst h3
  subst h4
  subst h5
  subst h6
  subst h7
  subst h8
  subst h9
  subst h10
  subst h11
  subst h12
  subst h13
  subst h14
  subst h15
  subst h16
  subst h17
  subst h18
  subst h19
  subst h20
  subst h21
  subst h22
  subst h23
  subst h24
  subst h25
  subst h26
  subst h27
  rfl

set_option maxHeartbeats 4000000 in
/-- From memories that agree on the arguments both programs end with the network's three results of those arguments. -/
theorem algebraic : Cert.algebraic_KernelIdeal_ReferenceIdeal := by
  intro m ρ m' ρ' _ hagree
  refine ⟨fun c => Cert.Fusion.Spec.outRes (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)),
    fun c => Cert.Fusion.Spec.attRes (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    fun c => Cert.Fusion.Spec.impRes (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)),
    Cert.Fusion.kernel_run m ρ, ?_⟩
  refine (θ_run Cert.ReferenceIdeal.defs _ _).mono (fun _ h c => ?_) (Cert.ReferenceIdeal.RefRun.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35⟩ := hagree c
  obtain ⟨q0, q1, q2, rest⟩ := h c
  exact ⟨q0.trans (outRes_congr e0 e1 e2 e3 e4 e5 e6 e7 e8 e9 e10 e11 e12 e13 e14 e15 e16 e17 e18 e19 e20 e21 e22 e23 e28 e29 e30 e31 e32 e33 e34 e35),
    q1.trans (attRes_congr e0 e1 e2 e3 e4 e5 e6 e7 e8 e9 e10 e11 e12 e13 e14 e15 e16 e17 e18 e19 e20 e21 e22 e23),
    q2.trans (impRes_congr e0 e1 e2 e3 e4 e5 e6 e7 e8 e9 e10 e11 e12 e13 e14 e15 e16 e17 e18 e19 e20 e21 e22 e23 e24 e25 e26 e27), rest⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
